-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1024x100000 : Shape := ⟨2, ![1024, 100000]⟩
abbrev S1024 : Shape := ⟨1, ![1024]⟩
abbrev S_ : Shape := ⟨0, ![]⟩

class Facts : Prop where
  bcast_S_S1024x100000 : S_.BroadcastsInDim S1024x100000 (![] : Fin 0 → Fin S1024x100000.rank)
  reducesTo_S1024x100000_S_d0_1 : S1024x100000.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S1024x100000 .f32) (main_arg1 : IVec S1024 32) : IVec S_ 1 :=
  let main_v0 : FVec F S1024x100000 .f32 := Host.absf main_arg0
  let main_cst : FVec F S_ .f32 := constant S_ .f32 0x7F800000#32
  let main_v1 : FVec F S1024x100000 .f32 := broadcastInDim S1024x100000 ![] bcast_S_S1024x100000 main_cst
  let main_v2 : IVec S1024x100000 1 := cmpf .olt main_v0 main_v1
  let main_c : IVec S_ 1 := constantI S_ 1 1#1
  let main_v3 : IVec S_ 1 := (fun x v => Host.reduce IntOp.andi x v reducesTo_S1024x100000_S_d0_1 h_S_) main_v2 main_c
  let main_c_0 : IVec S_ 32 := constantI S_ 32 0#32
  let main_v4 : IVec S1024 32 := broadcastInDim S1024 ![] bcast_S_S1024 main_c_0
  let main_v5 : IVec S1024 1 := cmpi .sge main_arg1 main_v4
  let main_c_1 : IVec S_ 32 := constantI S_ 32 99999#32
  let main_v6 : IVec S1024 32 := broadcastInDim S1024 ![] bcast_S_S1024 main_c_1
  let main_v7 : IVec S1024 1 := cmpi .sle main_arg1 main_v6
  let main_v8 : IVec S1024 1 := andi main_v5 main_v7
  let main_c_2 : IVec S_ 1 := constantI S_ 1 1#1
  let main_v9 : IVec S_ 1 := (fun x v => Host.reduce IntOp.andi x v reducesTo_S1024_S_d0 h_S_) main_v8 main_c_2
  let main_v10 : IVec S_ 1 := andi main_v3 main_v9
  main_v10
-- ==== Kernel.lean ====
abbrev S1024x100000 : Shape := ⟨2, ![1024, 100000]⟩
abbrev S1024 : Shape := ⟨1, ![1024]⟩
abbrev S100000x1024 : Shape := ⟨2, ![100000, 1024]⟩
abbrev S1x1024 : Shape := ⟨2, ![1, 1024]⟩
abbrev S2x1024 : Shape := ⟨2, ![2, 1024]⟩
abbrev S2000x1024 : Shape := ⟨2, ![2000, 1024]⟩
abbrev S4x1024 : Shape := ⟨2, ![4, 1024]⟩
abbrev S128 : Shape := ⟨1, ![128]⟩
abbrev S4x200x128 : Shape := ⟨3, ![4, 200, 128]⟩
abbrev S256 : Shape := ⟨1, ![256]⟩
abbrev S5 : Shape := ⟨1, ![5]⟩
abbrev S1 : Shape := ⟨1, ![1]⟩
abbrev S_ : Shape := ⟨0, ![]⟩
abbrev S16 : Shape := ⟨1, ![16]⟩
abbrev S1x200x128 : Shape := ⟨3, ![1, 200, 128]⟩
abbrev S200x128 : Shape := ⟨2, ![200, 128]⟩
abbrev S1x16 : Shape := ⟨2, ![1, 16]⟩
abbrev S1x128 : Shape := ⟨2, ![1, 128]⟩

abbrev nBuf : Table → Nat
  | .hbm => 18
  | .local .tc .vmem => 6
  | .local .scVector .vmem => 3
  | _ => 0

abbrev bufTy : (tb : Table) → Fin (nBuf tb) → BufTy
  | .hbm, ⟨0, _⟩ => ⟨S1024x100000, .f32⟩
  | .hbm, ⟨1, _⟩ => ⟨S1024, .i32⟩
  | .hbm, ⟨2, _⟩ => ⟨S100000x1024, .f32⟩
  | .hbm, ⟨3, _⟩ => ⟨S1x1024, .i32⟩
  | .hbm, ⟨4, _⟩ => ⟨S2x1024, .f32⟩
  | .hbm, ⟨5, _⟩ => ⟨S4x1024, .f32⟩
  | .hbm, ⟨6, _⟩ => ⟨S4x1024, .f32⟩
  | .hbm, ⟨7, _⟩ => ⟨S1x1024, .f32⟩
  | .hbm, ⟨8, _⟩ => ⟨S1024, .f32⟩
  | .hbm, ⟨9, _⟩ => ⟨S_, .f32⟩
  | .hbm, ⟨10, _⟩ => ⟨S1024, .f32⟩
  | .hbm, ⟨11, _⟩ => ⟨S1024, .f32⟩
  | .hbm, ⟨12, _⟩ => ⟨S1x1024, .f32⟩
  | .hbm, ⟨13, _⟩ => ⟨S1024, .f32⟩
  | .hbm, ⟨14, _⟩ => ⟨S_, .f32⟩
  | .hbm, ⟨15, _⟩ => ⟨S1024, .f32⟩
  | .hbm, ⟨16, _⟩ => ⟨S1024, .f32⟩
  | .hbm, ⟨17, _⟩ => ⟨S1024, .f32⟩
  | .local .tc .vmem, ⟨0, _⟩ => ⟨S1x1024, .i32⟩
  | .local .tc .vmem, ⟨1, _⟩ => ⟨S2000x1024, .f32⟩
  | .local .tc .vmem, ⟨2, _⟩ => ⟨S2000x1024, .f32⟩
  | .local .tc .vmem, ⟨3, _⟩ => ⟨S2x1024, .f32⟩
  | .local .tc .vmem, ⟨4, _⟩ => ⟨S1x1024, .f32⟩
  | .local .tc .vmem, ⟨5, _⟩ => ⟨S1x1024, .f32⟩
  | .local .scVector .vmem, ⟨0, _⟩ => ⟨S128, .i32⟩
  | .local .scVector .vmem, ⟨1, _⟩ => ⟨S4x200x128, .f32⟩
  | .local .scVector .vmem, ⟨2, _⟩ => ⟨S256, .f32⟩
  | _, _ => ⟨S1024x100000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v0_scv : Ref sig .scVector := ⟨.hbm, 2, rfl⟩
abbrev main_arg1_scv : Ref sig .scVector := ⟨.hbm, 1, rfl⟩
abbrev main_v3_0_scv : Ref sig .scVector := ⟨.hbm, 5, rfl⟩
abbrev main_v3_1_scv : Ref sig .scVector := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem1_0 : DmaSem sig := 1
abbrev cc0_sem1_1 : DmaSem sig := 2
abbrev cc0_sem2_0 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![40], ![false]⟩

def k0_cond2 (i : grid0.Coords) : BitVec 1 :=
  let arg0 : BitVec 32 := BitVec.ofNat 32 (i 0).val
  let c39_i32 : BitVec 32 := 39#32
  let v31 : BitVec 1 := Scalar.cmpi .eq arg0 c39_i32
  let v32 : BitVec 32 := Scalar.extui v31
  let c0_i32_15 : BitVec 32 := 0#32
  let v33 : BitVec 1 := Scalar.cmpi .ne v32 c0_i32_15
  v33

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1024 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2000x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c128_i32 : BitVec 32 := 128#32
  let v20 : BitVec 32 := Scalar.muli v18 c128_i32
  ![v20.toNat]
def k1_off2 (i : grid1.Coords) (c0_i32_7 : BitVec 32) : Fin 2 → Nat :=
  let c80000_i32 : BitVec 32 := 80000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c5000_i32 : BitVec 32 := 5000#32
  let v21 : BitVec 32 := Scalar.muli v19 c5000_i32
  let v22 : BitVec 32 := Scalar.addi c80000_i32 v21
  let v40 : BitVec 32 := Scalar.addi v22 c0_i32_7
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c128_i32 : BitVec 32 := 128#32
  let v20 : BitVec 32 := Scalar.muli v18 c128_i32
  ![v40.toNat, v20.toNat]
def k1_off2_at (r : Fin 4) : BitVec 32 :=
  if r.val < 2 then
    if r.val < 1 then
      0#32
    else
      200#32
  else
    if r.val < 3 then
      400#32
    else
      4800#32
@[reducible] def k1_t1_loop : Scf.Loop 32 :=
  let c0_i32_26 : BitVec 32 := 0#32
  let c6_i32 : BitVec 32 := 6#32
  let v67 : BitVec 32 := Scalar.addi c0_i32_26 c6_i32
  let c1_i32_27 : BitVec 32 := 1#32
  ⟨c0_i32_26, v67, c1_i32_27⟩
def k1_off3 (i : grid1.Coords) (k1_t1 : Fin k1_t1_loop.trips) (c0_i32_61 : BitVec 32) : Fin 2 → Nat :=
  let c80000_i32 : BitVec 32 := 80000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c5000_i32 : BitVec 32 := 5000#32
  let v21 : BitVec 32 := Scalar.muli v19 c5000_i32
  let v22 : BitVec 32 := Scalar.addi c80000_i32 v21
  let c0_i32_26 : BitVec 32 := 0#32
  let c1_i32_27 : BitVec 32 := 1#32
  let arg10 : BitVec 32 := Scf.iv c0_i32_26 c1_i32_27 k1_t1
  let c4_i32_60 : BitVec 32 := 4#32
  let v128 : BitVec 32 := Scalar.muli arg10 c4_i32_60
  let v129 : BitVec 32 := Scalar.addi v128 c0_i32_61
  let c200_i32_62 : BitVec 32 := 200#32
  let v130 : BitVec 32 := Scalar.muli v129 c200_i32_62
  let v131 : BitVec 32 := Scalar.addi v22 v130
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c128_i32 : BitVec 32 := 128#32
  let v20 : BitVec 32 := Scalar.muli v18 c128_i32
  ![v131.toNat, v20.toNat]
def k1_cond1 (k1_t1 : Fin k1_t1_loop.trips) : BitVec 1 :=
  let c0_i32_26 : BitVec 32 := 0#32
  let c1_i32_27 : BitVec 32 := 1#32
  let arg10 : BitVec 32 := Scf.iv c0_i32_26 c1_i32_27 k1_t1
  let c4_i32_60 : BitVec 32 := 4#32
  let v128 : BitVec 32 := Scalar.muli arg10 c4_i32_60
  let c0_i32_61 : BitVec 32 := 0#32
  let v129 : BitVec 32 := Scalar.addi v128 c0_i32_61
  let c4_i32_69 : BitVec 32 := 4#32
  let v140 : BitVec 32 := Scalar.addi v129 c4_i32_69
  let c1_i32_70 : BitVec 32 := 1#32
  let v141 : BitVec 32 := Scalar.subi v140 c1_i32_70
  let c25_i32 : BitVec 32 := 25#32
  let v142 : BitVec 1 := Scalar.cmpi .slt v141 c25_i32
  let v143 : BitVec 32 := Scalar.extui v142
  let c0_i32_71 : BitVec 32 := 0#32
  let v144 : BitVec 1 := Scalar.cmpi .ne v143 c0_i32_71
  v144

def k1_off4 (i : grid1.Coords) (k1_t1 : Fin k1_t1_loop.trips) : Fin 2 → Nat :=
  let c80000_i32 : BitVec 32 := 80000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c5000_i32 : BitVec 32 := 5000#32
  let v21 : BitVec 32 := Scalar.muli v19 c5000_i32
  let v22 : BitVec 32 := Scalar.addi c80000_i32 v21
  let c0_i32_26 : BitVec 32 := 0#32
  let c1_i32_27 : BitVec 32 := 1#32
  let arg10 : BitVec 32 := Scf.iv c0_i32_26 c1_i32_27 k1_t1
  let c4_i32_60 : BitVec 32 := 4#32
  let v128 : BitVec 32 := Scalar.muli arg10 c4_i32_60
  let c0_i32_61 : BitVec 32 := 0#32
  let v129 : BitVec 32 := Scalar.addi v128 c0_i32_61
  let c4_i32_69 : BitVec 32 := 4#32
  let v140 : BitVec 32 := Scalar.addi v129 c4_i32_69
  let c1_i32_70 : BitVec 32 := 1#32
  let v141 : BitVec 32 := Scalar.subi v140 c1_i32_70
  let c200_i32_130 : BitVec 32 := 200#32
  let v204 : BitVec 32 := Scalar.muli v141 c200_i32_130
  let v205 : BitVec 32 := Scalar.addi v22 v204
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c128_i32 : BitVec 32 := 128#32
  let v20 : BitVec 32 := Scalar.muli v18 c128_i32
  ![v205.toNat, v20.toNat]
@[reducible] def k1_t2_loop : Scf.Loop 32 :=
  let c0_i32_73 : BitVec 32 := 0#32
  let c200_i32_74 : BitVec 32 := 200#32
  let v145 : BitVec 32 := Scalar.addi c0_i32_73 c200_i32_74
  let c1_i32_75 : BitVec 32 := 1#32
  ⟨c0_i32_73, v145, c1_i32_75⟩
def k1_off5 (k1_t2 : Fin k1_t2_loop.trips) : Fin 2 → Nat :=
  let c0_i32_73 : BitVec 32 := 0#32
  let c1_i32_75 : BitVec 32 := 1#32
  let arg27 : BitVec 32 := Scf.iv c0_i32_73 c1_i32_75 k1_t2
  let v210 : Index := Scalar.indexCast arg27
  let c0_133 : Index := 0#32
  ![v210.toNat, 0]
def k1_off6 (k1_t2 : Fin k1_t2_loop.trips) : Fin 2 → Nat :=
  let c0_i32_73 : BitVec 32 := 0#32
  let c1_i32_75 : BitVec 32 := 1#32
  let arg27 : BitVec 32 := Scf.iv c0_i32_73 c1_i32_75 k1_t2
  let v218 : Index := Scalar.indexCast arg27
  let c16_136 : Index := 16#32
  ![v218.toNat, 16]
def k1_off7 (k1_t2 : Fin k1_t2_loop.trips) : Fin 2 → Nat :=
  let c0_i32_73 : BitVec 32 := 0#32
  let c1_i32_75 : BitVec 32 := 1#32
  let arg27 : BitVec 32 := Scf.iv c0_i32_73 c1_i32_75 k1_t2
  let v226 : Index := Scalar.indexCast arg27
  let c32_139 : Index := 32#32
  ![v226.toNat, 32]
def k1_off8 (k1_t2 : Fin k1_t2_loop.trips) : Fin 2 → Nat :=
  let c0_i32_73 : BitVec 32 := 0#32
  let c1_i32_75 : BitVec 32 := 1#32
  let arg27 : BitVec 32 := Scf.iv c0_i32_73 c1_i32_75 k1_t2
  let v234 : Index := Scalar.indexCast arg27
  let c48_142 : Index := 48#32
  ![v234.toNat, 48]
def k1_off9 (k1_t2 : Fin k1_t2_loop.trips) : Fin 2 → Nat :=
  let c0_i32_73 : BitVec 32 := 0#32
  let c1_i32_75 : BitVec 32 := 1#32
  let arg27 : BitVec 32 := Scf.iv c0_i32_73 c1_i32_75 k1_t2
  let v242 : Index := Scalar.indexCast arg27
  let c64_145 : Index := 64#32
  ![v242.toNat, 64]
def k1_off10 (k1_t2 : Fin k1_t2_loop.trips) : Fin 2 → Nat :=
  let c0_i32_73 : BitVec 32 := 0#32
  let c1_i32_75 : BitVec 32 := 1#32
  let arg27 : BitVec 32 := Scf.iv c0_i32_73 c1_i32_75 k1_t2
  let v250 : Index := Scalar.indexCast arg27
  let c80_148 : Index := 80#32
  ![v250.toNat, 80]
def k1_off11 (k1_t2 : Fin k1_t2_loop.trips) : Fin 2 → Nat :=
  let c0_i32_73 : BitVec 32 := 0#32
  let c1_i32_75 : BitVec 32 := 1#32
  let arg27 : BitVec 32 := Scf.iv c0_i32_73 c1_i32_75 k1_t2
  let v258 : Index := Scalar.indexCast arg27
  let c96_151 : Index := 96#32
  ![v258.toNat, 96]
def k1_off12 (k1_t2 : Fin k1_t2_loop.trips) : Fin 2 → Nat :=
  let c0_i32_73 : BitVec 32 := 0#32
  let c1_i32_75 : BitVec 32 := 1#32
  let arg27 : BitVec 32 := Scf.iv c0_i32_73 c1_i32_75 k1_t2
  let v266 : Index := Scalar.indexCast arg27
  let c112_154 : Index := 112#32
  ![v266.toNat, 112]
def k1_cond2 (k1_t1 : Fin k1_t1_loop.trips) : BitVec 1 :=
  let c0_i32_26 : BitVec 32 := 0#32
  let c1_i32_27 : BitVec 32 := 1#32
  let arg10 : BitVec 32 := Scf.iv c0_i32_26 c1_i32_27 k1_t1
  let c4_i32_77 : BitVec 32 := 4#32
  let v147 : BitVec 32 := Scalar.muli arg10 c4_i32_77
  let c1_i32_78 : BitVec 32 := 1#32
  let v148 : BitVec 32 := Scalar.addi v147 c1_i32_78
  let c4_i32_86 : BitVec 32 := 4#32
  let v159 : BitVec 32 := Scalar.addi v148 c4_i32_86
  let c1_i32_87 : BitVec 32 := 1#32
  let v160 : BitVec 32 := Scalar.subi v159 c1_i32_87
  let c25_i32_88 : BitVec 32 := 25#32
  let v161 : BitVec 1 := Scalar.cmpi .slt v160 c25_i32_88
  let v162 : BitVec 32 := Scalar.extui v161
  let c0_i32_89 : BitVec 32 := 0#32
  let v163 : BitVec 1 := Scalar.cmpi .ne v162 c0_i32_89
  v163

def k1_off13 (i : grid1.Coords) (k1_t1 : Fin k1_t1_loop.trips) : Fin 2 → Nat :=
  let c80000_i32 : BitVec 32 := 80000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c5000_i32 : BitVec 32 := 5000#32
  let v21 : BitVec 32 := Scalar.muli v19 c5000_i32
  let v22 : BitVec 32 := Scalar.addi c80000_i32 v21
  let c0_i32_26 : BitVec 32 := 0#32
  let c1_i32_27 : BitVec 32 := 1#32
  let arg10 : BitVec 32 := Scf.iv c0_i32_26 c1_i32_27 k1_t1
  let c4_i32_77 : BitVec 32 := 4#32
  let v147 : BitVec 32 := Scalar.muli arg10 c4_i32_77
  let c1_i32_78 : BitVec 32 := 1#32
  let v148 : BitVec 32 := Scalar.addi v147 c1_i32_78
  let c4_i32_86 : BitVec 32 := 4#32
  let v159 : BitVec 32 := Scalar.addi v148 c4_i32_86
  let c1_i32_87 : BitVec 32 := 1#32
  let v160 : BitVec 32 := Scalar.subi v159 c1_i32_87
  let c200_i32_130 : BitVec 32 := 200#32
  let v204 : BitVec 32 := Scalar.muli v160 c200_i32_130
  let v205 : BitVec 32 := Scalar.addi v22 v204
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c128_i32 : BitVec 32 := 128#32
  let v20 : BitVec 32 := Scalar.muli v18 c128_i32
  ![v205.toNat, v20.toNat]
@[reducible] def k1_t3_loop : Scf.Loop 32 :=
  let c0_i32_91 : BitVec 32 := 0#32
  let c200_i32_92 : BitVec 32 := 200#32
  let v164 : BitVec 32 := Scalar.addi c0_i32_91 c200_i32_92
  let c1_i32_93 : BitVec 32 := 1#32
  ⟨c0_i32_91, v164, c1_i32_93⟩
def k1_off14 (k1_t3 : Fin k1_t3_loop.trips) : Fin 2 → Nat :=
  let c0_i32_91 : BitVec 32 := 0#32
  let c1_i32_93 : BitVec 32 := 1#32
  let arg27 : BitVec 32 := Scf.iv c0_i32_91 c1_i32_93 k1_t3
  let v210 : Index := Scalar.indexCast arg27
  let c0_133 : Index := 0#32
  ![v210.toNat, 0]
def k1_off15 (k1_t3 : Fin k1_t3_loop.trips) : Fin 2 → Nat :=
  let c0_i32_91 : BitVec 32 := 0#32
  let c1_i32_93 : BitVec 32 := 1#32
  let arg27 : BitVec 32 := Scf.iv c0_i32_91 c1_i32_93 k1_t3
  let v218 : Index := Scalar.indexCast arg27
  let c16_136 : Index := 16#32
  ![v218.toNat, 16]
def k1_off16 (k1_t3 : Fin k1_t3_loop.trips) : Fin 2 → Nat :=
  let c0_i32_91 : BitVec 32 := 0#32
  let c1_i32_93 : BitVec 32 := 1#32
  let arg27 : BitVec 32 := Scf.iv c0_i32_91 c1_i32_93 k1_t3
  let v226 : Index := Scalar.indexCast arg27
  let c32_139 : Index := 32#32
  ![v226.toNat, 32]
def k1_off17 (k1_t3 : Fin k1_t3_loop.trips) : Fin 2 → Nat :=
  let c0_i32_91 : BitVec 32 := 0#32
  let c1_i32_93 : BitVec 32 := 1#32
  let arg27 : BitVec 32 := Scf.iv c0_i32_91 c1_i32_93 k1_t3
  let v234 : Index := Scalar.indexCast arg27
  let c48_142 : Index := 48#32
  ![v234.toNat, 48]
def k1_off18 (k1_t3 : Fin k1_t3_loop.trips) : Fin 2 → Nat :=
  let c0_i32_91 : BitVec 32 := 0#32
  let c1_i32_93 : BitVec 32 := 1#32
  let arg27 : BitVec 32 := Scf.iv c0_i32_91 c1_i32_93 k1_t3
  let v242 : Index := Scalar.indexCast arg27
  let c64_145 : Index := 64#32
  ![v242.toNat, 64]
def k1_off19 (k1_t3 : Fin k1_t3_loop.trips) : Fin 2 → Nat :=
  let c0_i32_91 : BitVec 32 := 0#32
  let c1_i32_93 : BitVec 32 := 1#32
  let arg27 : BitVec 32 := Scf.iv c0_i32_91 c1_i32_93 k1_t3
  let v250 : Index := Scalar.indexCast arg27
  let c80_148 : Index := 80#32
  ![v250.toNat, 80]
def k1_off20 (k1_t3 : Fin k1_t3_loop.trips) : Fin 2 → Nat :=
  let c0_i32_91 : BitVec 32 := 0#32
  let c1_i32_93 : BitVec 32 := 1#32
  let arg27 : BitVec 32 := Scf.iv c0_i32_91 c1_i32_93 k1_t3
  let v258 : Index := Scalar.indexCast arg27
  let c96_151 : Index := 96#32
  ![v258.toNat, 96]
def k1_off21 (k1_t3 : Fin k1_t3_loop.trips) : Fin 2 → Nat :=
  let c0_i32_91 : BitVec 32 := 0#32
  let c1_i32_93 : BitVec 32 := 1#32
  let arg27 : BitVec 32 := Scf.iv c0_i32_91 c1_i32_93 k1_t3
  let v266 : Index := Scalar.indexCast arg27
  let c112_154 : Index := 112#32
  ![v266.toNat, 112]
def k1_cond3 (k1_t1 : Fin k1_t1_loop.trips) : BitVec 1 :=
  let c0_i32_26 : BitVec 32 := 0#32
  let c1_i32_27 : BitVec 32 := 1#32
  let arg10 : BitVec 32 := Scf.iv c0_i32_26 c1_i32_27 k1_t1
  let c4_i32_95 : BitVec 32 := 4#32
  let v166 : BitVec 32 := Scalar.muli arg10 c4_i32_95
  let c2_i32_96 : BitVec 32 := 2#32
  let v167 : BitVec 32 := Scalar.addi v166 c2_i32_96
  let c4_i32_104 : BitVec 32 := 4#32
  let v178 : BitVec 32 := Scalar.addi v167 c4_i32_104
  let c1_i32_105 : BitVec 32 := 1#32
  let v179 : BitVec 32 := Scalar.subi v178 c1_i32_105
  let c25_i32_106 : BitVec 32 := 25#32
  let v180 : BitVec 1 := Scalar.cmpi .slt v179 c25_i32_106
  let v181 : BitVec 32 := Scalar.extui v180
  let c0_i32_107 : BitVec 32 := 0#32
  let v182 : BitVec 1 := Scalar.cmpi .ne v181 c0_i32_107
  v182

def k1_off22 (i : grid1.Coords) (k1_t1 : Fin k1_t1_loop.trips) : Fin 2 → Nat :=
  let c80000_i32 : BitVec 32 := 80000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c5000_i32 : BitVec 32 := 5000#32
  let v21 : BitVec 32 := Scalar.muli v19 c5000_i32
  let v22 : BitVec 32 := Scalar.addi c80000_i32 v21
  let c0_i32_26 : BitVec 32 := 0#32
  let c1_i32_27 : BitVec 32 := 1#32
  let arg10 : BitVec 32 := Scf.iv c0_i32_26 c1_i32_27 k1_t1
  let c4_i32_95 : BitVec 32 := 4#32
  let v166 : BitVec 32 := Scalar.muli arg10 c4_i32_95
  let c2_i32_96 : BitVec 32 := 2#32
  let v167 : BitVec 32 := Scalar.addi v166 c2_i32_96
  let c4_i32_104 : BitVec 32 := 4#32
  let v178 : BitVec 32 := Scalar.addi v167 c4_i32_104
  let c1_i32_105 : BitVec 32 := 1#32
  let v179 : BitVec 32 := Scalar.subi v178 c1_i32_105
  let c200_i32_130 : BitVec 32 := 200#32
  let v204 : BitVec 32 := Scalar.muli v179 c200_i32_130
  let v205 : BitVec 32 := Scalar.addi v22 v204
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c128_i32 : BitVec 32 := 128#32
  let v20 : BitVec 32 := Scalar.muli v18 c128_i32
  ![v205.toNat, v20.toNat]
@[reducible] def k1_t4_loop : Scf.Loop 32 :=
  let c0_i32_109 : BitVec 32 := 0#32
  let c200_i32_110 : BitVec 32 := 200#32
  let v183 : BitVec 32 := Scalar.addi c0_i32_109 c200_i32_110
  let c1_i32_111 : BitVec 32 := 1#32
  ⟨c0_i32_109, v183, c1_i32_111⟩
def k1_off23 (k1_t4 : Fin k1_t4_loop.trips) : Fin 2 → Nat :=
  let c0_i32_109 : BitVec 32 := 0#32
  let c1_i32_111 : BitVec 32 := 1#32
  let arg27 : BitVec 32 := Scf.iv c0_i32_109 c1_i32_111 k1_t4
  let v210 : Index := Scalar.indexCast arg27
  let c0_133 : Index := 0#32
  ![v210.toNat, 0]
def k1_off24 (k1_t4 : Fin k1_t4_loop.trips) : Fin 2 → Nat :=
  let c0_i32_109 : BitVec 32 := 0#32
  let c1_i32_111 : BitVec 32 := 1#32
  let arg27 : BitVec 32 := Scf.iv c0_i32_109 c1_i32_111 k1_t4
  let v218 : Index := Scalar.indexCast arg27
  let c16_136 : Index := 16#32
  ![v218.toNat, 16]
def k1_off25 (k1_t4 : Fin k1_t4_loop.trips) : Fin 2 → Nat :=
  let c0_i32_109 : BitVec 32 := 0#32
  let c1_i32_111 : BitVec 32 := 1#32
  let arg27 : BitVec 32 := Scf.iv c0_i32_109 c1_i32_111 k1_t4
  let v226 : Index := Scalar.indexCast arg27
  let c32_139 : Index := 32#32
  ![v226.toNat, 32]
def k1_off26 (k1_t4 : Fin k1_t4_loop.trips) : Fin 2 → Nat :=
  let c0_i32_109 : BitVec 32 := 0#32
  let c1_i32_111 : BitVec 32 := 1#32
  let arg27 : BitVec 32 := Scf.iv c0_i32_109 c1_i32_111 k1_t4
  let v234 : Index := Scalar.indexCast arg27
  let c48_142 : Index := 48#32
  ![v234.toNat, 48]
def k1_off27 (k1_t4 : Fin k1_t4_loop.trips) : Fin 2 → Nat :=
  let c0_i32_109 : BitVec 32 := 0#32
  let c1_i32_111 : BitVec 32 := 1#32
  let arg27 : BitVec 32 := Scf.iv c0_i32_109 c1_i32_111 k1_t4
  let v242 : Index := Scalar.indexCast arg27
  let c64_145 : Index := 64#32
  ![v242.toNat, 64]
def k1_off28 (k1_t4 : Fin k1_t4_loop.trips) : Fin 2 → Nat :=
  let c0_i32_109 : BitVec 32 := 0#32
  let c1_i32_111 : BitVec 32 := 1#32
  let arg27 : BitVec 32 := Scf.iv c0_i32_109 c1_i32_111 k1_t4
  let v250 : Index := Scalar.indexCast arg27
  let c80_148 : Index := 80#32
  ![v250.toNat, 80]
def k1_off29 (k1_t4 : Fin k1_t4_loop.trips) : Fin 2 → Nat :=
  let c0_i32_109 : BitVec 32 := 0#32
  let c1_i32_111 : BitVec 32 := 1#32
  let arg27 : BitVec 32 := Scf.iv c0_i32_109 c1_i32_111 k1_t4
  let v258 : Index := Scalar.indexCast arg27
  let c96_151 : Index := 96#32
  ![v258.toNat, 96]
def k1_off30 (k1_t4 : Fin k1_t4_loop.trips) : Fin 2 → Nat :=
  let c0_i32_109 : BitVec 32 := 0#32
  let c1_i32_111 : BitVec 32 := 1#32
  let arg27 : BitVec 32 := Scf.iv c0_i32_109 c1_i32_111 k1_t4
  let v266 : Index := Scalar.indexCast arg27
  let c112_154 : Index := 112#32
  ![v266.toNat, 112]
def k1_cond4 (k1_t1 : Fin k1_t1_loop.trips) : BitVec 1 :=
  let c0_i32_26 : BitVec 32 := 0#32
  let c1_i32_27 : BitVec 32 := 1#32
  let arg10 : BitVec 32 := Scf.iv c0_i32_26 c1_i32_27 k1_t1
  let c4_i32_113 : BitVec 32 := 4#32
  let v185 : BitVec 32 := Scalar.muli arg10 c4_i32_113
  let c3_i32 : BitVec 32 := 3#32
  let v186 : BitVec 32 := Scalar.addi v185 c3_i32
  let c4_i32_121 : BitVec 32 := 4#32
  let v197 : BitVec 32 := Scalar.addi v186 c4_i32_121
  let c1_i32_122 : BitVec 32 := 1#32
  let v198 : BitVec 32 := Scalar.subi v197 c1_i32_122
  let c25_i32_123 : BitVec 32 := 25#32
  let v199 : BitVec 1 := Scalar.cmpi .slt v198 c25_i32_123
  let v200 : BitVec 32 := Scalar.extui v199
  let c0_i32_124 : BitVec 32 := 0#32
  let v201 : BitVec 1 := Scalar.cmpi .ne v200 c0_i32_124
  v201

def k1_off31 (i : grid1.Coords) (k1_t1 : Fin k1_t1_loop.trips) : Fin 2 → Nat :=
  let c80000_i32 : BitVec 32 := 80000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c5000_i32 : BitVec 32 := 5000#32
  let v21 : BitVec 32 := Scalar.muli v19 c5000_i32
  let v22 : BitVec 32 := Scalar.addi c80000_i32 v21
  let c0_i32_26 : BitVec 32 := 0#32
  let c1_i32_27 : BitVec 32 := 1#32
  let arg10 : BitVec 32 := Scf.iv c0_i32_26 c1_i32_27 k1_t1
  let c4_i32_113 : BitVec 32 := 4#32
  let v185 : BitVec 32 := Scalar.muli arg10 c4_i32_113
  let c3_i32 : BitVec 32 := 3#32
  let v186 : BitVec 32 := Scalar.addi v185 c3_i32
  let c4_i32_121 : BitVec 32 := 4#32
  let v197 : BitVec 32 := Scalar.addi v186 c4_i32_121
  let c1_i32_122 : BitVec 32 := 1#32
  let v198 : BitVec 32 := Scalar.subi v197 c1_i32_122
  let c200_i32_130 : BitVec 32 := 200#32
  let v204 : BitVec 32 := Scalar.muli v198 c200_i32_130
  let v205 : BitVec 32 := Scalar.addi v22 v204
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c128_i32 : BitVec 32 := 128#32
  let v20 : BitVec 32 := Scalar.muli v18 c128_i32
  ![v205.toNat, v20.toNat]
@[reducible] def k1_t5_loop : Scf.Loop 32 :=
  let c0_i32_126 : BitVec 32 := 0#32
  let c200_i32_127 : BitVec 32 := 200#32
  let v202 : BitVec 32 := Scalar.addi c0_i32_126 c200_i32_127
  let c1_i32_128 : BitVec 32 := 1#32
  ⟨c0_i32_126, v202, c1_i32_128⟩
def k1_off32 (k1_t5 : Fin k1_t5_loop.trips) : Fin 2 → Nat :=
  let c0_i32_126 : BitVec 32 := 0#32
  let c1_i32_128 : BitVec 32 := 1#32
  let arg27 : BitVec 32 := Scf.iv c0_i32_126 c1_i32_128 k1_t5
  let v210 : Index := Scalar.indexCast arg27
  let c0_133 : Index := 0#32
  ![v210.toNat, 0]
def k1_off33 (k1_t5 : Fin k1_t5_loop.trips) : Fin 2 → Nat :=
  let c0_i32_126 : BitVec 32 := 0#32
  let c1_i32_128 : BitVec 32 := 1#32
  let arg27 : BitVec 32 := Scf.iv c0_i32_126 c1_i32_128 k1_t5
  let v218 : Index := Scalar.indexCast arg27
  let c16_136 : Index := 16#32
  ![v218.toNat, 16]
def k1_off34 (k1_t5 : Fin k1_t5_loop.trips) : Fin 2 → Nat :=
  let c0_i32_126 : BitVec 32 := 0#32
  let c1_i32_128 : BitVec 32 := 1#32
  let arg27 : BitVec 32 := Scf.iv c0_i32_126 c1_i32_128 k1_t5
  let v226 : Index := Scalar.indexCast arg27
  let c32_139 : Index := 32#32
  ![v226.toNat, 32]
def k1_off35 (k1_t5 : Fin k1_t5_loop.trips) : Fin 2 → Nat :=
  let c0_i32_126 : BitVec 32 := 0#32
  let c1_i32_128 : BitVec 32 := 1#32
  let arg27 : BitVec 32 := Scf.iv c0_i32_126 c1_i32_128 k1_t5
  let v234 : Index := Scalar.indexCast arg27
  let c48_142 : Index := 48#32
  ![v234.toNat, 48]
def k1_off36 (k1_t5 : Fin k1_t5_loop.trips) : Fin 2 → Nat :=
  let c0_i32_126 : BitVec 32 := 0#32
  let c1_i32_128 : BitVec 32 := 1#32
  let arg27 : BitVec 32 := Scf.iv c0_i32_126 c1_i32_128 k1_t5
  let v242 : Index := Scalar.indexCast arg27
  let c64_145 : Index := 64#32
  ![v242.toNat, 64]
def k1_off37 (k1_t5 : Fin k1_t5_loop.trips) : Fin 2 → Nat :=
  let c0_i32_126 : BitVec 32 := 0#32
  let c1_i32_128 : BitVec 32 := 1#32
  let arg27 : BitVec 32 := Scf.iv c0_i32_126 c1_i32_128 k1_t5
  let v250 : Index := Scalar.indexCast arg27
  let c80_148 : Index := 80#32
  ![v250.toNat, 80]
def k1_off38 (k1_t5 : Fin k1_t5_loop.trips) : Fin 2 → Nat :=
  let c0_i32_126 : BitVec 32 := 0#32
  let c1_i32_128 : BitVec 32 := 1#32
  let arg27 : BitVec 32 := Scf.iv c0_i32_126 c1_i32_128 k1_t5
  let v258 : Index := Scalar.indexCast arg27
  let c96_151 : Index := 96#32
  ![v258.toNat, 96]
def k1_off39 (k1_t5 : Fin k1_t5_loop.trips) : Fin 2 → Nat :=
  let c0_i32_126 : BitVec 32 := 0#32
  let c1_i32_128 : BitVec 32 := 1#32
  let arg27 : BitVec 32 := Scf.iv c0_i32_126 c1_i32_128 k1_t5
  let v266 : Index := Scalar.indexCast arg27
  let c112_154 : Index := 112#32
  ![v266.toNat, 112]
@[reducible] def k1_t6_loop : Scf.Loop 32 :=
  let c0_i32_36 : BitVec 32 := 0#32
  let c200_i32_37 : BitVec 32 := 200#32
  let v78 : BitVec 32 := Scalar.addi c0_i32_36 c200_i32_37
  let c1_i32_38 : BitVec 32 := 1#32
  ⟨c0_i32_36, v78, c1_i32_38⟩
def k1_off40 (k1_t6 : Fin k1_t6_loop.trips) : Fin 2 → Nat :=
  let c0_i32_36 : BitVec 32 := 0#32
  let c1_i32_38 : BitVec 32 := 1#32
  let arg10 : BitVec 32 := Scf.iv c0_i32_36 c1_i32_38 k1_t6
  let v133 : Index := Scalar.indexCast arg10
  let c0_63 : Index := 0#32
  ![v133.toNat, 0]
def k1_off41 (k1_t6 : Fin k1_t6_loop.trips) : Fin 2 → Nat :=
  let c0_i32_36 : BitVec 32 := 0#32
  let c1_i32_38 : BitVec 32 := 1#32
  let arg10 : BitVec 32 := Scf.iv c0_i32_36 c1_i32_38 k1_t6
  let v141 : Index := Scalar.indexCast arg10
  let c16_66 : Index := 16#32
  ![v141.toNat, 16]
def k1_off42 (k1_t6 : Fin k1_t6_loop.trips) : Fin 2 → Nat :=
  let c0_i32_36 : BitVec 32 := 0#32
  let c1_i32_38 : BitVec 32 := 1#32
  let arg10 : BitVec 32 := Scf.iv c0_i32_36 c1_i32_38 k1_t6
  let v149 : Index := Scalar.indexCast arg10
  let c32_69 : Index := 32#32
  ![v149.toNat, 32]
def k1_off43 (k1_t6 : Fin k1_t6_loop.trips) : Fin 2 → Nat :=
  let c0_i32_36 : BitVec 32 := 0#32
  let c1_i32_38 : BitVec 32 := 1#32
  let arg10 : BitVec 32 := Scf.iv c0_i32_36 c1_i32_38 k1_t6
  let v157 : Index := Scalar.indexCast arg10
  let c48_72 : Index := 48#32
  ![v157.toNat, 48]
def k1_off44 (k1_t6 : Fin k1_t6_loop.trips) : Fin 2 → Nat :=
  let c0_i32_36 : BitVec 32 := 0#32
  let c1_i32_38 : BitVec 32 := 1#32
  let arg10 : BitVec 32 := Scf.iv c0_i32_36 c1_i32_38 k1_t6
  let v165 : Index := Scalar.indexCast arg10
  let c64_75 : Index := 64#32
  ![v165.toNat, 64]
def k1_off45 (k1_t6 : Fin k1_t6_loop.trips) : Fin 2 → Nat :=
  let c0_i32_36 : BitVec 32 := 0#32
  let c1_i32_38 : BitVec 32 := 1#32
  let arg10 : BitVec 32 := Scf.iv c0_i32_36 c1_i32_38 k1_t6
  let v173 : Index := Scalar.indexCast arg10
  let c80_78 : Index := 80#32
  ![v173.toNat, 80]
def k1_off46 (k1_t6 : Fin k1_t6_loop.trips) : Fin 2 → Nat :=
  let c0_i32_36 : BitVec 32 := 0#32
  let c1_i32_38 : BitVec 32 := 1#32
  let arg10 : BitVec 32 := Scf.iv c0_i32_36 c1_i32_38 k1_t6
  let v181 : Index := Scalar.indexCast arg10
  let c96_81 : Index := 96#32
  ![v181.toNat, 96]
def k1_off47 (k1_t6 : Fin k1_t6_loop.trips) : Fin 2 → Nat :=
  let c0_i32_36 : BitVec 32 := 0#32
  let c1_i32_38 : BitVec 32 := 1#32
  let arg10 : BitVec 32 := Scf.iv c0_i32_36 c1_i32_38 k1_t6
  let v189 : Index := Scalar.indexCast arg10
  let c112_84 : Index := 112#32
  ![v189.toNat, 112]
def k1_off48 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c128_i32 : BitVec 32 := 128#32
  let v20 : BitVec 32 := Scalar.muli v18 c128_i32
  ![v19.toNat, v20.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S1024x100000_S100000x1024_1_0 : S1024x100000.Transposes [1, 0] S100000x1024
  shapeCasts_S1024_S1x1024 : S1024.ShapeCasts S1x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S2000x1024_S2000x1024_0_0 : ∀ a, (![0, 0] : Fin 2 → Nat) a + S2000x1024.size a ≤ S2000x1024.size a
  h_S2000x1024 : 0 < S2000x1024.numel
  shapeCasts_S2000x1024_S2000x1024 : S2000x1024.ShapeCasts S2000x1024
  iota_S2000x1024_d0_w32 : S2000x1024.Iotas .tc 32 [0]
  broadcasts_S1x1024_S2000x1024 : S1x1024.Broadcasts S2000x1024
  reduces_S2000x1024_S1024 : S2000x1024.Reduces [0] S1024
  inb_S2x1024_S1x1024_0_0 : ∀ a, (![0, 0] : Fin 2 → Nat) a + S1x1024.size a ≤ S2x1024.size a
  inb_S2x1024_S1x1024_1_0 : ∀ a, (![1, 0] : Fin 2 → Nat) a + S1x1024.size a ≤ S2x1024.size a
  inb_S5_S1_4 : ∀ a, (![4] : Fin 1 → Nat) a + S1.size a ≤ S5.size a
  squeezes_S1_S_ : S1.Squeezes S_
  inb_S128_S16_0 : ∀ a, (![0] : Fin 1 → Nat) a + S16.size a ≤ S128.size a
  h_S16 : 0 < S16.numel
  inb_S128_S16_16 : ∀ a, (![16] : Fin 1 → Nat) a + S16.size a ≤ S128.size a
  inb_S128_S16_32 : ∀ a, (![32] : Fin 1 → Nat) a + S16.size a ≤ S128.size a
  inb_S128_S16_48 : ∀ a, (![48] : Fin 1 → Nat) a + S16.size a ≤ S128.size a
  inb_S128_S16_64 : ∀ a, (![64] : Fin 1 → Nat) a + S16.size a ≤ S128.size a
  inb_S128_S16_80 : ∀ a, (![80] : Fin 1 → Nat) a + S16.size a ≤ S128.size a
  inb_S128_S16_96 : ∀ a, (![96] : Fin 1 → Nat) a + S16.size a ≤ S128.size a
  inb_S128_S16_112 : ∀ a, (![112] : Fin 1 → Nat) a + S16.size a ≤ S128.size a
  inb_S4x200x128_S1x200x128_0_0_0 : ∀ a, (![0, 0, 0] : Fin 3 → Nat) a + S1x200x128.size a ≤ S4x200x128.size a
  squeezes_S1x200x128_S200x128 : S1x200x128.Squeezes S200x128
  inb_S5_S1_0 : ∀ a, (![0] : Fin 1 → Nat) a + S1.size a ≤ S5.size a
  inb_S4x200x128_S1x200x128_1_0_0 : ∀ a, (![1, 0, 0] : Fin 3 → Nat) a + S1x200x128.size a ≤ S4x200x128.size a
  inb_S5_S1_1 : ∀ a, (![1] : Fin 1 → Nat) a + S1.size a ≤ S5.size a
  inb_S4x200x128_S1x200x128_2_0_0 : ∀ a, (![2, 0, 0] : Fin 3 → Nat) a + S1x200x128.size a ≤ S4x200x128.size a
  inb_S5_S1_2 : ∀ a, (![2] : Fin 1 → Nat) a + S1.size a ≤ S5.size a
  inb_S4x200x128_S1x200x128_3_0_0 : ∀ a, (![3, 0, 0] : Fin 3 → Nat) a + S1x200x128.size a ≤ S4x200x128.size a
  inb_S5_S1_3 : ∀ a, (![3] : Fin 1 → Nat) a + S1.size a ≤ S5.size a
  h_S1x16 : 0 < S1x16.numel
  shapeCasts_S1x16_S16 : S1x16.ShapeCasts S16
  inb_S256_S16_0 : ∀ a, (![0] : Fin 1 → Nat) a + S16.size a ≤ S256.size a
  inb_S256_S16_128 : ∀ a, (![128] : Fin 1 → Nat) a + S16.size a ≤ S256.size a
  inb_S256_S16_16 : ∀ a, (![16] : Fin 1 → Nat) a + S16.size a ≤ S256.size a
  inb_S256_S16_144 : ∀ a, (![144] : Fin 1 → Nat) a + S16.size a ≤ S256.size a
  inb_S256_S16_32 : ∀ a, (![32] : Fin 1 → Nat) a + S16.size a ≤ S256.size a
  inb_S256_S16_160 : ∀ a, (![160] : Fin 1 → Nat) a + S16.size a ≤ S256.size a
  inb_S256_S16_48 : ∀ a, (![48] : Fin 1 → Nat) a + S16.size a ≤ S256.size a
  inb_S256_S16_176 : ∀ a, (![176] : Fin 1 → Nat) a + S16.size a ≤ S256.size a
  inb_S256_S16_64 : ∀ a, (![64] : Fin 1 → Nat) a + S16.size a ≤ S256.size a
  inb_S256_S16_192 : ∀ a, (![192] : Fin 1 → Nat) a + S16.size a ≤ S256.size a
  inb_S256_S16_80 : ∀ a, (![80] : Fin 1 → Nat) a + S16.size a ≤ S256.size a
  inb_S256_S16_208 : ∀ a, (![208] : Fin 1 → Nat) a + S16.size a ≤ S256.size a
  inb_S256_S16_96 : ∀ a, (![96] : Fin 1 → Nat) a + S16.size a ≤ S256.size a
  inb_S256_S16_224 : ∀ a, (![224] : Fin 1 → Nat) a + S16.size a ≤ S256.size a
  inb_S256_S16_112 : ∀ a, (![112] : Fin 1 → Nat) a + S16.size a ≤ S256.size a
  inb_S256_S16_240 : ∀ a, (![240] : Fin 1 → Nat) a + S16.size a ≤ S256.size a
  inb_S256_S128_0 : ∀ a, (![0] : Fin 1 → Nat) a + S128.size a ≤ S256.size a
  squeezes_S1x128_S128 : S1x128.Squeezes S128
  inb_S256_S128_128 : ∀ a, (![128] : Fin 1 → Nat) a + S128.size a ≤ S256.size a
  slices_S2x1024_S1x1024_0_0 : S2x1024.Slices ![0, 0] S1x1024
  shapeCasts_S1x1024_S1024 : S1x1024.ShapeCasts S1024
  reducesTo_S4x1024_S1024_d0 : S4x1024.ReducesTo [0] S1024
  h_S_ : 0 < S_.numel
  slices_S2x1024_S1x1024_1_0 : S2x1024.Slices ![1, 0] S1x1024
  hcc1_scratch3 : 4 + S5.numel ≤ 9
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x1024.size a
  hwx0_0 : ∀ i : grid0.Coords, EltTy.bits .i32 = 32 ∨ (Rect.block (s := S1x1024) S1x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1024.size a ≤ S100000x1024.size a
  hwx0_1 : ∀ i : grid0.Coords, EltTy.bits .f32 = 32 ∨ (Rect.block (s := S100000x1024) S2000x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x1024.size a ≤ S2x1024.size a
  hwx0_2 : ∀ i : grid0.Coords, EltTy.bits .f32 = 32 ∨ (Rect.block (s := S2x1024) S2x1024.size (cc0_transform_2 i) (hinb0_2 i)).WholeWords (EltTy.packing .f32)
  hcore1 : grid1.bound 0 ≤ τ.nSC
  hsub1 : grid1.bound 1 ≤ τ.nSub
  k1_off1_inb : ∀ i : grid1.Coords, ∀ a, (k1_off1 i) a + S128.size a ≤ S1024.size a
  k1_off2_inb : ∀ i : grid1.Coords, ∀ (r : Fin 4), ∀ a, (k1_off2 i (k1_off2_at r)) a + S200x128.size a ≤ S100000x1024.size a
  k1_t1_ok : k1_t1_loop.OK
  k1_off3_inb : ∀ (i : grid1.Coords) (k1_t1 : Fin k1_t1_loop.trips), ∀ (r : Fin 4), ∀ a, (k1_off3 i k1_t1 (BitVec.ofNat 32 r.val)) a + S200x128.size a ≤ S100000x1024.size a
  k1_off4_inb : ∀ (i : grid1.Coords) (k1_t1 : Fin k1_t1_loop.trips), ∀ (k1_h1 : k1_cond1 k1_t1 = 1#1), ∀ a, (k1_off4 i k1_t1) a + S200x128.size a ≤ S100000x1024.size a
  k1_t2_ok : k1_t2_loop.OK
  k1_off5_inb : ∀ k1_t2 : Fin k1_t2_loop.trips, ∀ a, (k1_off5 k1_t2) a + S1x16.size a ≤ S200x128.size a
  k1_off6_inb : ∀ k1_t2 : Fin k1_t2_loop.trips, ∀ a, (k1_off6 k1_t2) a + S1x16.size a ≤ S200x128.size a
  k1_off7_inb : ∀ k1_t2 : Fin k1_t2_loop.trips, ∀ a, (k1_off7 k1_t2) a + S1x16.size a ≤ S200x128.size a
  k1_off8_inb : ∀ k1_t2 : Fin k1_t2_loop.trips, ∀ a, (k1_off8 k1_t2) a + S1x16.size a ≤ S200x128.size a
  k1_off9_inb : ∀ k1_t2 : Fin k1_t2_loop.trips, ∀ a, (k1_off9 k1_t2) a + S1x16.size a ≤ S200x128.size a
  k1_off10_inb : ∀ k1_t2 : Fin k1_t2_loop.trips, ∀ a, (k1_off10 k1_t2) a + S1x16.size a ≤ S200x128.size a
  k1_off11_inb : ∀ k1_t2 : Fin k1_t2_loop.trips, ∀ a, (k1_off11 k1_t2) a + S1x16.size a ≤ S200x128.size a
  k1_off12_inb : ∀ k1_t2 : Fin k1_t2_loop.trips, ∀ a, (k1_off12 k1_t2) a + S1x16.size a ≤ S200x128.size a
  k1_off13_inb : ∀ (i : grid1.Coords) (k1_t1 : Fin k1_t1_loop.trips), ∀ (k1_h2 : k1_cond2 k1_t1 = 1#1), ∀ a, (k1_off13 i k1_t1) a + S200x128.size a ≤ S100000x1024.size a
  k1_t3_ok : k1_t3_loop.OK
  k1_off14_inb : ∀ k1_t3 : Fin k1_t3_loop.trips, ∀ a, (k1_off14 k1_t3) a + S1x16.size a ≤ S200x128.size a
  k1_off15_inb : ∀ k1_t3 : Fin k1_t3_loop.trips, ∀ a, (k1_off15 k1_t3) a + S1x16.size a ≤ S200x128.size a
  k1_off16_inb : ∀ k1_t3 : Fin k1_t3_loop.trips, ∀ a, (k1_off16 k1_t3) a + S1x16.size a ≤ S200x128.size a
  k1_off17_inb : ∀ k1_t3 : Fin k1_t3_loop.trips, ∀ a, (k1_off17 k1_t3) a + S1x16.size a ≤ S200x128.size a
  k1_off18_inb : ∀ k1_t3 : Fin k1_t3_loop.trips, ∀ a, (k1_off18 k1_t3) a + S1x16.size a ≤ S200x128.size a
  k1_off19_inb : ∀ k1_t3 : Fin k1_t3_loop.trips, ∀ a, (k1_off19 k1_t3) a + S1x16.size a ≤ S200x128.size a
  k1_off20_inb : ∀ k1_t3 : Fin k1_t3_loop.trips, ∀ a, (k1_off20 k1_t3) a + S1x16.size a ≤ S200x128.size a
  k1_off21_inb : ∀ k1_t3 : Fin k1_t3_loop.trips, ∀ a, (k1_off21 k1_t3) a + S1x16.size a ≤ S200x128.size a
  k1_off22_inb : ∀ (i : grid1.Coords) (k1_t1 : Fin k1_t1_loop.trips), ∀ (k1_h3 : k1_cond3 k1_t1 = 1#1), ∀ a, (k1_off22 i k1_t1) a + S200x128.size a ≤ S100000x1024.size a
  k1_t4_ok : k1_t4_loop.OK
  k1_off23_inb : ∀ k1_t4 : Fin k1_t4_loop.trips, ∀ a, (k1_off23 k1_t4) a + S1x16.size a ≤ S200x128.size a
  k1_off24_inb : ∀ k1_t4 : Fin k1_t4_loop.trips, ∀ a, (k1_off24 k1_t4) a + S1x16.size a ≤ S200x128.size a
  k1_off25_inb : ∀ k1_t4 : Fin k1_t4_loop.trips, ∀ a, (k1_off25 k1_t4) a + S1x16.size a ≤ S200x128.size a
  k1_off26_inb : ∀ k1_t4 : Fin k1_t4_loop.trips, ∀ a, (k1_off26 k1_t4) a + S1x16.size a ≤ S200x128.size a
  k1_off27_inb : ∀ k1_t4 : Fin k1_t4_loop.trips, ∀ a, (k1_off27 k1_t4) a + S1x16.size a ≤ S200x128.size a
  k1_off28_inb : ∀ k1_t4 : Fin k1_t4_loop.trips, ∀ a, (k1_off28 k1_t4) a + S1x16.size a ≤ S200x128.size a
  k1_off29_inb : ∀ k1_t4 : Fin k1_t4_loop.trips, ∀ a, (k1_off29 k1_t4) a + S1x16.size a ≤ S200x128.size a
  k1_off30_inb : ∀ k1_t4 : Fin k1_t4_loop.trips, ∀ a, (k1_off30 k1_t4) a + S1x16.size a ≤ S200x128.size a
  k1_off31_inb : ∀ (i : grid1.Coords) (k1_t1 : Fin k1_t1_loop.trips), ∀ (k1_h4 : k1_cond4 k1_t1 = 1#1), ∀ a, (k1_off31 i k1_t1) a + S200x128.size a ≤ S100000x1024.size a
  k1_t5_ok : k1_t5_loop.OK
  k1_off32_inb : ∀ k1_t5 : Fin k1_t5_loop.trips, ∀ a, (k1_off32 k1_t5) a + S1x16.size a ≤ S200x128.size a
  k1_off33_inb : ∀ k1_t5 : Fin k1_t5_loop.trips, ∀ a, (k1_off33 k1_t5) a + S1x16.size a ≤ S200x128.size a
  k1_off34_inb : ∀ k1_t5 : Fin k1_t5_loop.trips, ∀ a, (k1_off34 k1_t5) a + S1x16.size a ≤ S200x128.size a
  k1_off35_inb : ∀ k1_t5 : Fin k1_t5_loop.trips, ∀ a, (k1_off35 k1_t5) a + S1x16.size a ≤ S200x128.size a
  k1_off36_inb : ∀ k1_t5 : Fin k1_t5_loop.trips, ∀ a, (k1_off36 k1_t5) a + S1x16.size a ≤ S200x128.size a
  k1_off37_inb : ∀ k1_t5 : Fin k1_t5_loop.trips, ∀ a, (k1_off37 k1_t5) a + S1x16.size a ≤ S200x128.size a
  k1_off38_inb : ∀ k1_t5 : Fin k1_t5_loop.trips, ∀ a, (k1_off38 k1_t5) a + S1x16.size a ≤ S200x128.size a
  k1_off39_inb : ∀ k1_t5 : Fin k1_t5_loop.trips, ∀ a, (k1_off39 k1_t5) a + S1x16.size a ≤ S200x128.size a
  k1_t6_ok : k1_t6_loop.OK
  k1_off40_inb : ∀ k1_t6 : Fin k1_t6_loop.trips, ∀ a, (k1_off40 k1_t6) a + S1x16.size a ≤ S200x128.size a
  k1_off41_inb : ∀ k1_t6 : Fin k1_t6_loop.trips, ∀ a, (k1_off41 k1_t6) a + S1x16.size a ≤ S200x128.size a
  k1_off42_inb : ∀ k1_t6 : Fin k1_t6_loop.trips, ∀ a, (k1_off42 k1_t6) a + S1x16.size a ≤ S200x128.size a
  k1_off43_inb : ∀ k1_t6 : Fin k1_t6_loop.trips, ∀ a, (k1_off43 k1_t6) a + S1x16.size a ≤ S200x128.size a
  k1_off44_inb : ∀ k1_t6 : Fin k1_t6_loop.trips, ∀ a, (k1_off44 k1_t6) a + S1x16.size a ≤ S200x128.size a
  k1_off45_inb : ∀ k1_t6 : Fin k1_t6_loop.trips, ∀ a, (k1_off45 k1_t6) a + S1x16.size a ≤ S200x128.size a
  k1_off46_inb : ∀ k1_t6 : Fin k1_t6_loop.trips, ∀ a, (k1_off46 k1_t6) a + S1x16.size a ≤ S200x128.size a
  k1_off47_inb : ∀ k1_t6 : Fin k1_t6_loop.trips, ∀ a, (k1_off47 k1_t6) a + S1x16.size a ≤ S200x128.size a
  k1_off48_inb : ∀ i : grid1.Coords, ∀ a, (k1_off48 i) a + S1x128.size a ≤ S4x1024.size a

variable [Facts₀]

abbrev cc1_scratch3 : DmaSems sig S5 := SemArray.consecutive 4 S5 hcc1_scratch3

abbrev win0_0 : Pipeline.Window sig grid0 :=
  Pipeline.Window.ofSpec (Memref.whole main_v1) S1x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2000x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2x1024.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S1024x100000 : Shape := ⟨2, ![1024, 100000]⟩
abbrev S1024 : Shape := ⟨1, ![1024]⟩
abbrev S_ : Shape := ⟨0, ![]⟩
abbrev S1024x1 : Shape := ⟨2, ![1024, 1]⟩
abbrev S1024x2 : Shape := ⟨2, ![1024, 2]⟩

abbrev nBuf : Space → Nat
  | .hbm => 45
  | .vmem => 0
  | .smem => 0
  | _ => 0

abbrev bufTy : (tb : Table) → Fin (tcTables nBuf tb) → BufTy
  | .hbm, ⟨0, _⟩ => ⟨S1024x100000, .f32⟩
  | .hbm, ⟨1, _⟩ => ⟨S1024, .i32⟩
  | .hbm, ⟨2, _⟩ => ⟨S1024, .i32⟩
  | .hbm, ⟨3, _⟩ => ⟨S_, .i32⟩
  | .hbm, ⟨4, _⟩ => ⟨S1024, .i32⟩
  | .hbm, ⟨5, _⟩ => ⟨S1024, .i1⟩
  | .hbm, ⟨6, _⟩ => ⟨S_, .i32⟩
  | .hbm, ⟨7, _⟩ => ⟨S1024, .i32⟩
  | .hbm, ⟨8, _⟩ => ⟨S1024, .i32⟩
  | .hbm, ⟨9, _⟩ => ⟨S1024, .i32⟩
  | .hbm, ⟨10, _⟩ => ⟨S_, .i32⟩
  | .hbm, ⟨11, _⟩ => ⟨S1024, .i32⟩
  | .hbm, ⟨12, _⟩ => ⟨S1024, .i1⟩
  | .hbm, ⟨13, _⟩ => ⟨S_, .i32⟩
  | .hbm, ⟨14, _⟩ => ⟨S1024, .i32⟩
  | .hbm, ⟨15, _⟩ => ⟨S1024, .i32⟩
  | .hbm, ⟨16, _⟩ => ⟨S1024, .i32⟩
  | .hbm, ⟨17, _⟩ => ⟨S1024x1, .i32⟩
  | .hbm, ⟨18, _⟩ => ⟨S1024x1, .i32⟩
  | .hbm, ⟨19, _⟩ => ⟨S1024x2, .i32⟩
  | .hbm, ⟨20, _⟩ => ⟨S1024, .f32⟩
  | .hbm, ⟨21, _⟩ => ⟨S_, .i32⟩
  | .hbm, ⟨22, _⟩ => ⟨S1024, .i32⟩
  | .hbm, ⟨23, _⟩ => ⟨S1024, .i1⟩
  | .hbm, ⟨24, _⟩ => ⟨S_, .i32⟩
  | .hbm, ⟨25, _⟩ => ⟨S1024, .i32⟩
  | .hbm, ⟨26, _⟩ => ⟨S1024, .i32⟩
  | .hbm, ⟨27, _⟩ => ⟨S1024, .i32⟩
  | .hbm, ⟨28, _⟩ => ⟨S_, .i32⟩
  | .hbm, ⟨29, _⟩ => ⟨S1024, .i32⟩
  | .hbm, ⟨30, _⟩ => ⟨S1024, .i1⟩
  | .hbm, ⟨31, _⟩ => ⟨S_, .i32⟩
  | .hbm, ⟨32, _⟩ => ⟨S1024, .i32⟩
  | .hbm, ⟨33, _⟩ => ⟨S1024, .i32⟩
  | .hbm, ⟨34, _⟩ => ⟨S1024, .i32⟩
  | .hbm, ⟨35, _⟩ => ⟨S1024x1, .i32⟩
  | .hbm, ⟨36, _⟩ => ⟨S1024x1, .i32⟩
  | .hbm, ⟨37, _⟩ => ⟨S1024x2, .i32⟩
  | .hbm, ⟨38, _⟩ => ⟨S_, .f32⟩
  | .hbm, ⟨39, _⟩ => ⟨S1024, .f32⟩
  | .hbm, ⟨40, _⟩ => ⟨S1024x100000, .f32⟩
  | .hbm, ⟨41, _⟩ => ⟨S_, .f32⟩
  | .hbm, ⟨42, _⟩ => ⟨S1024, .f32⟩
  | .hbm, ⟨43, _⟩ => ⟨S1024, .f32⟩
  | .hbm, ⟨44, _⟩ => ⟨S1024, .f32⟩
  | _, _ => ⟨S1024x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_1 : Ref sig .tc := ⟨.hbm, 10, rfl⟩
abbrev main_v6 : Ref sig .tc := ⟨.hbm, 11, rfl⟩
abbrev main_v7 : Ref sig .tc := ⟨.hbm, 12, rfl⟩
abbrev main_c_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_3 : Ref sig .tc := ⟨.hbm, 21, rfl⟩
abbrev main_v15 : Ref sig .tc := ⟨.hbm, 22, rfl⟩
abbrev main_v16 : Ref sig .tc := ⟨.hbm, 23, rfl⟩
abbrev main_c_4 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_5 : Ref sig .tc := ⟨.hbm, 28, rfl⟩
abbrev main_v20 : Ref sig .tc := ⟨.hbm, 29, rfl⟩
abbrev main_v21 : Ref sig .tc := ⟨.hbm, 30, rfl⟩
abbrev main_c_6 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  concatenates_S1024x1_S1024x1_S1024x2_d1 : Shape.Concatenates [S1024x1, S1024x1] S1024x2 1
  reducesTo_S1024x100000_S1024_d1 : S1024x100000.ReducesTo [1] S1024
  h_S_ : 0 < S_.numel
  gather_S1024x100000_S1024x2_S1024_n_01_n_n_01_1_11_wf : GatherDims.WF S1024x100000 S1024x2 S1024 [] [0, 1] [] [0, 1] [] 1 ![1, 1]
  scatter_S1024x100000_S1024x2_S1024_n_01_01_1_wf : ScatterDims.WF S1024x100000 S1024x2 S1024 [] [0, 1] [0, 1] 1

variable [Facts₀]

def gather_S1024x100000_S1024x2_S1024_n_01_n_n_01_1_11 : GatherDims S1024x100000 S1024x2 S1024 where
  offsetDims := []
  collapsedSliceDims := [0, 1]
  operandBatchingDims := []
  startIndicesBatchingDims := []
  startIndexMap := [0, 1]
  indexVectorDim := 1
  sliceSizes := ![1, 1]
  wf := gather_S1024x100000_S1024x2_S1024_n_01_n_n_01_1_11_wf
def scatter_S1024x100000_S1024x2_S1024_n_01_01_1 : ScatterDims S1024x100000 S1024x2 S1024 where
  updateWindowDims := []
  insertedWindowDims := [0, 1]
  scatterDimsToOperandDims := [0, 1]
  indexVectorDim := 1
  wf := scatter_S1024x100000_S1024x2_S1024_n_01_01_1_wf

class Facts : Prop extends Facts₀ where

variable [Facts]
-- ==== Proof.CommonI.lean ====
/-
  The program as the SparseCore launch theorem reads it, and the resource algebra of the proof: the handshake
  rounds between the TensorCore, the two sequencers and their tiles; the rounds of the TensorCore pipeline's staging
  cells; and the exclusive counters of the local copies a tile issues and waits for itself.
-/
import proofs.«203171_g79482664779815_cont_9to1_m_1298_18_alg».proof.Defs
import proofs.«203171_g79482664779815_cont_9to1_m_1298_18_alg».proof.Proof.Gen.KernelIdeal
import proofs.«203171_g79482664779815_cont_9to1_m_1298_18_alg».proof.Proof.Gen.KernelIdeal.Skeleton
import proofs.«203171_g79482664779815_cont_9to1_m_1298_18_alg».proof.Proof.Gen.KernelIdeal.Launch
import proofs.«203171_g79482664779815_cont_9to1_m_1298_18_alg».proof.Proof.Gen.KernelIdeal.Points
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic

noncomputable section

namespace Cert.Proof.KernelIdealP

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem nCore_zero : (K (F := F)).nCore 0 = 2 := rfl
theorem nSub_zero : (K (F := F)).nSub 0 = 16 := rfl

/-! ## The resource algebra -/

abbrev UH : Type := URounds (GSem nD τ sig) ℕ
abbrev UP : Type := UR sig nD τ
abbrev UU : Type := UH × (UP × Counters)

/-- The handshakes' rounds: the left factor. -/
abbrev EH : Emb UH (MT nD τ sig (HIx 1) (Elt F) ℕ UU ℕ) := embL
/-- The pipeline's staging cells' rounds: the left factor of the right factor. -/
abbrev EP : Emb UP (MT nD τ sig (HIx 1) (Elt F) ℕ UU ℕ) := (Emb.inl : Emb UP (UP × Counters)).trans embR

end Cert.Proof.KernelIdealP

end
-- ==== Proof.PayI.lean ====
/-
  What the SparseCore call's handshakes carry.

  The call reads two arrays — the transposed score table (100000 rows of 1024 columns) and the 1024 target words — and
  writes two [4, 1024] result arrays. Tile `(c, s)` (SparseCore `c` of 2, vector subcore `s` of 16) works on one
  quarter `vq` of the last 20000 table rows and one block `bt` of 128 columns, and writes the one [1, 128] piece
  `(vq, 128·bt ..)` of each result array. So each tile is handed a READ SHARE of the two input arrays whole (several
  tiles read the same target block, and a tile's own copies read the table several at a time) and its own piece of
  each result array outright; it hands back the same with its two pieces holding results of which a stated property holds (`GM`, `GV`: a
  property of an array's contents that reads only the tile's own piece, so that it survives the pieces being joined).
  The record is generic in the table's contents at the call (`X`) and in the two properties: with the trivial
  property it says only that the call returns, with "every lane holds the maximum over the tile's rows" it carries
  the values.
-/
import proofs.«203171_g79482664779815_cont_9to1_m_1298_18_alg».proof.Proof.CommonI
import Idealize.ShloMosaic.Lib.Transfers

noncomputable section

namespace Cert.Proof.KernelIdealP

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The four arrays of the call, as the TensorCore names them -/

/-- The transposed table. -/
abbrev xLoc (d : Dev nD) : Loc nD τ sig := (SparseCore.T d).loc main_v0
/-- The target words. -/
abbrev tLoc (d : Dev nD) : Loc nD τ sig := (SparseCore.T d).loc main_arg1
/-- The tiles' running maxima that leave the target out, one row per quarter. -/
abbrev mLoc (d : Dev nD) : Loc nD τ sig := (SparseCore.T d).loc main_v3_0
/-- The tiles' entries at the target, one row per quarter. -/
abbrev vLoc (d : Dev nD) : Loc nD τ sig := (SparseCore.T d).loc main_v3_1

/-! ## Tiles and their pieces -/

/-- The grid coordinates of tile `(c, s)`. -/
def coordsV (c : Fin (grid1.bound 0)) (s : Fin (grid1.bound 1)) : grid1.Coords :=
  fun | 0 => c | 1 => s | ⟨_ + 2, h⟩ => absurd h (Nat.not_lt.2 (Nat.le_add_left _ _))

theorem bound_zero : grid1.bound 0 = 2 := rfl
theorem bound_one : grid1.bound 1 = 16 := rfl

/-- The [1, 128] rectangle of a [4, 1024] result array that the tile at `L` writes: row `vq`, columns from `128·bt`. -/
abbrev pieceRect (L : grid1.Coords) : Rect S4x1024 := Rect.unit (s := S4x1024) (k1_off48 L) S1x128.size (k1_off48_inb L)

/-- That piece of the first result array, as the tile's copy addresses it; -/
abbrev mPiece (L : grid1.Coords) : Memref sig .scVector .hbm S128 .f32 :=
  ((Memref.whole main_v3_0_scv : Memref sig .scVector .hbm S4x1024 .f32).slice (pieceRect L) (fun _ => rfl)).squeeze S128 squeezes_S1x128_S128
/-- and of the second. -/
abbrev vPiece (L : grid1.Coords) : Memref sig .scVector .hbm S128 .f32 :=
  ((Memref.whole main_v3_1_scv : Memref sig .scVector .hbm S4x1024 .f32).slice (pieceRect L) (fun _ => rfl)).squeeze S128 squeezes_S1x128_S128

/-- The piece's elements, as a set of indices of the [4, 1024] array. -/
abbrev mSet (L : grid1.Coords) : Finset S4x1024.Idx := (mPiece L).view.set
abbrev vSet (L : grid1.Coords) : Finset S4x1024.Idx := (vPiece L).view.set

/-- The read share of SparseCore `c`, and of its tile `s`. -/
abbrev coreQ (c : Fin 2) : PosShare TreeShare := Transfers.shareTok fullShare 2 c
abbrev tileQ (c : Fin 2) (s : Fin 16) : PosShare TreeShare := Transfers.shareTok (coreQ c) 16 s

/-! ## The payloads -/

variable (m : (ℓ : Loc nD τ sig) → Buf (Elt F) ℓ)
variable (X : (d : Dev nD) → Buf (Elt F) (xLoc d))
variable (GM : (d : Dev nD) → grid1.Coords → Buf (Elt F) (mLoc d) → Prop) (GV : (d : Dev nD) → grid1.Coords → Buf (Elt F) (vLoc d) → Prop)

/-- What tile `(c, s)` is handed: its read shares of the two inputs, its two pieces at anything. -/
def tileGo (d : Dev nD) (c : Fin 2) (s : Fin 16) : sProp 𝕄 :=
  iprop((xLoc d ↦{tileQ c s} X d) ∗ (tLoc d ↦{tileQ c s} m (tLoc d))
    ∗ (∃ f, mLoc d ↦[mSet (coordsV c s)]{fullShare} f) ∗ (∃ f, vLoc d ↦[vSet (coordsV c s)]{fullShare} f))

/-- What it hands back: the same, its two pieces at contents of which the tile's property holds. -/
def tileTd (d : Dev nD) (c : Fin 2) (s : Fin 16) : sProp 𝕄 :=
  iprop((xLoc d ↦{tileQ c s} X d) ∗ (tLoc d ↦{tileQ c s} m (tLoc d))
    ∗ (∃ f, (mLoc d ↦[mSet (coordsV c s)]{fullShare} f) ∗ ⌜GM d (coordsV c s) f⌝)
    ∗ (∃ f, (vLoc d ↦[vSet (coordsV c s)]{fullShare} f) ∗ ⌜GV d (coordsV c s) f⌝))

/-- The pieces of SparseCore `c`'s sixteen tiles together. -/
abbrev coreMSet (c : Fin 2) : Finset S4x1024.Idx := Finset.univ.biUnion fun s : Fin 16 => mSet (coordsV c s)
abbrev coreVSet (c : Fin 2) : Finset S4x1024.Idx := Finset.univ.biUnion fun s : Fin 16 => vSet (coordsV c s)

/-- What SparseCore `c`'s sequencer is handed for its tiles, -/
def coreSt (d : Dev nD) (c : Fin 2) : sProp 𝕄 :=
  iprop((xLoc d ↦{coreQ c} X d) ∗ (tLoc d ↦{coreQ c} m (tLoc d))
    ∗ (∃ f, mLoc d ↦[coreMSet c]{fullShare} f) ∗ (∃ f, vLoc d ↦[coreVSet c]{fullShare} f))

/-- and hands back: the sixteen pieces joined, every tile's property holding of the joined contents. -/
def coreDn (d : Dev nD) (c : Fin 2) : sProp 𝕄 :=
  iprop((xLoc d ↦{coreQ c} X d) ∗ (tLoc d ↦{coreQ c} m (tLoc d))
    ∗ (∃ f, (mLoc d ↦[coreMSet c]{fullShare} f) ∗ ⌜∀ s : Fin 16, GM d (coordsV c s) f⌝)
    ∗ (∃ f, (vLoc d ↦[coreVSet c]{fullShare} f) ∗ ⌜∀ s : Fin 16, GV d (coordsV c s) f⌝))

/-- The one call's payloads; no kernel consumes anything of the launch's own. -/
def P : (K (F := F)).Pay (nD := nD) (Val := Elt F) (Name := ℕ) (U := UU) where
  st := fun q d c => match q with | 0 => coreSt m X d (Fin.cast nCore_zero c)
  dn := fun q d c => match q with | 0 => coreDn m X GM GV d (Fin.cast nCore_zero c)
  go := fun q d c i => match q with | 0 => tileGo m X d (Fin.cast nCore_zero c) (Fin.cast nSub_zero i)
  td := fun q d c i => match q with | 0 => tileTd m X GM GV d (Fin.cast nCore_zero c) (Fin.cast nSub_zero i)
  x := fun _ _ => iprop(emp)

instance coreSt_storable (d : Dev nD) (c : Fin 2) : BI.Storable (upEmb : UEmb _ 𝕄) (coreSt m X d c) := by unfold coreSt; infer_instance
instance coreDn_storable (d : Dev nD) (c : Fin 2) : BI.Storable (upEmb : UEmb _ 𝕄) (coreDn m X GM GV d c) := by unfold coreDn; infer_instance
instance tileGo_storable (d : Dev nD) (c : Fin 2) (s : Fin 16) : BI.Storable (upEmb : UEmb _ 𝕄) (tileGo m X d c s) := by unfold tileGo; infer_instance
instance tileTd_storable (d : Dev nD) (c : Fin 2) (s : Fin 16) : BI.Storable (upEmb : UEmb _ 𝕄) (tileTd m X GM GV d c s) := by unfold tileTd; infer_instance

instance P_storable : (P (F := F) m X GM GV).IsStorable where
  st q d c := match q with | 0 => (inferInstance : BI.Storable (upEmb : UEmb _ 𝕄) (coreSt m X d (Fin.cast nCore_zero c)))
  dn q d c := match q with | 0 => (inferInstance : BI.Storable (upEmb : UEmb _ 𝕄) (coreDn m X GM GV d (Fin.cast nCore_zero c)))
  go q d c i := match q with | 0 => (inferInstance : BI.Storable (upEmb : UEmb _ 𝕄) (tileGo m X d (Fin.cast nCore_zero c) (Fin.cast nSub_zero i)))
  td q d c i := match q with | 0 => (inferInstance : BI.Storable (upEmb : UEmb _ 𝕄) (tileTd m X GM GV d (Fin.cast nCore_zero c) (Fin.cast nSub_zero i)))

end Cert.Proof.KernelIdealP

end
-- ==== Proof.RegionDataI.lean ====
/-
  The TensorCore region's data. The region runs over 40 points; at point `t` it reads the one row of target words and
  the 2000 table rows of block `t`, and keeps two running rows in scratch memory: the maximum over the rows seen so
  far of the entries off the target, and of the entries at the target. Both start at minus infinity at point 0 and are
  stored into the two-row result block at point 39. This module names the two staged arrays as the host operations
  before the region leave them, the blocks the body reads, the two running rows by recursion on the point over the
  body's own arithmetic, and the pipeline's proof data over them.
-/
import proofs.«203171_g79482664779815_cont_9to1_m_1298_18_alg».proof.Proof.CommonI
import proofs.«203171_g79482664779815_cont_9to1_m_1298_18_alg».proof.Proof.PayI
import Idealize.ShloMosaic.Lib.Pipeline.FrameBody
import Idealize.ShloMosaic.Lib.Pipeline.Frame
import Idealize.ShloMosaic.Lib.Pipeline.Value
import Idealize.ShloMosaic.Lib.WholeRead
import Idealize.ShloMosaic.Lib.ValueIdx

noncomputable section

namespace Cert.Proof.KernelIdealP

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- Two rows as one [2, 1024] block. -/
def rows2 (a b : Vec F S1x1024 .f32) : Vec F S2x1024 .f32 := fun y => if (y 0).val = 0 then a (ValueIdx.ix2 (0 : Fin 1) (y 1)) else b (ValueIdx.ix2 (0 : Fin 1) (y 1))

/-! ## What the region and the call find in the two staged arrays -/

variable (m : (ℓ : Loc nD τ sig) → Buf (Elt F) ℓ)

/-- The launch contents of device `d`'s buffers, as a valuation. -/
abbrev V0 (d : Dev nD) : Valuation τ sig (Elt F) := fun b => m (d, b)

/-- The two host operations before the region: the transpose of the table and the reshape of the target words. -/
abbrev opT : HloOp τ sig (Elt F) :=
  StableHlo.unary main_arg0 main_v0 ((transpose S100000x1024 [1, 0] · transposes_S1024x100000_S100000x1024_1_0) : (⟨S1024x100000, .f32⟩ : BufTy).Contents (Elt F) → (⟨S100000x1024, .f32⟩ : BufTy).Contents (Elt F))
abbrev opR : HloOp τ sig (Elt F) := StableHlo.reshape main_arg1 main_v1 rfl shapeCasts_S1024_S1x1024

/-- The buffers after the two. -/
def V2 (d : Dev nD) : Valuation τ sig (Elt F) := (opR (F := F)).result ((opT (F := F)).result (V0 m d))

/-- The same, read at the TensorCore's references. -/
abbrev Vr (d : Dev nD) : (b : Ref sig .tc) → Buf (Elt F) ((d : Thread nD τ).loc b) := fun b => V2 m d (Proc.devRef .tc b)

/-- The transposed table, as the first host operation writes it. -/
def X (d : Dev nD) : Buf (Elt F) (xLoc d) := Vr m d main_v0
/-- The target words as one row, as the second writes them. -/
def T2 (d : Dev nD) : Buf (Elt F) ((SparseCore.T d : Thread nD τ).loc main_v1) := Vr m d main_v1

theorem X_eq (d : Dev nD) : X m d = (transpose S100000x1024 [1, 0] (m ((SparseCore.T d : Thread nD τ).loc main_arg0)) transposes_S1024x100000_S100000x1024_1_0 : (⟨S100000x1024, .f32⟩ : BufTy).Contents (Elt F)) := by
  unfold X; show V2 m d (Proc.devRef .tc main_v0) = _; unfold V2
  exact (StableHlo.reshape_result_ne' (τ := τ) (x := main_arg1) (y := main_v1) rfl shapeCasts_S1024_S1x1024 _ _ _ (r := main_v0) (by decide)).trans
    (StableHlo.unary_result' (τ := τ) (x := main_arg0) (y := main_v0) _ _ _ _)

/-! ## The blocks the body finds, and the two running maxima -/

/-- The target row as the body's load of window 0 reads it, -/
def blk0 (d : Dev nD) (t : Fin cfg0.N) : ((cfg0.win 0).xblock (cfg0.grid.coords t)).Idx → Elt F (cfg0.win 0).elt :=
  ((cfg0.win 0).blk t).view.read (Elt F) (T2 m d)
/-- and the 2000 table rows of point `t`, window 1's block there. -/
def blk1 (d : Dev nD) (t : Fin cfg0.N) : ((cfg0.win 1).xblock (cfg0.grid.coords t)).Idx → Elt F (cfg0.win 1).elt :=
  ((cfg0.win 1).blk t).view.read (Elt F) (X m d)

/-- The first scratch row after `n` points: minus infinity, then the body's own accumulation step at each point. -/
def accM (d : Dev nD) : ℕ → Vec F S1x1024 .f32
  | 0 => k0_pay1
  | n + 1 => if h : n < cfg0.N then k0_pay5 (grid0.coords ⟨n, h⟩) (blk1 m d ⟨n, h⟩) (blk0 m d ⟨n, h⟩) (accM d n) else accM d n
/-- The second. -/
def accV (d : Dev nD) : ℕ → Vec F S1x1024 .f32
  | 0 => k0_pay2
  | n + 1 => if h : n < cfg0.N then k0_pay6 (grid0.coords ⟨n, h⟩) (blk1 m d ⟨n, h⟩) (blk0 m d ⟨n, h⟩) (accV d n) else accV d n

theorem accM_succ (d : Dev nD) (t : Fin cfg0.N) : accM m d (t.val + 1) = k0_pay5 (grid0.coords t) (blk1 m d t) (blk0 m d t) (accM m d t.val) := by
  rw [accM, dif_pos t.isLt]
theorem accV_succ (d : Dev nD) (t : Fin cfg0.N) : accV m d (t.val + 1) = k0_pay6 (grid0.coords t) (blk1 m d t) (blk0 m d t) (accV m d t.val) := by
  rw [accV, dif_pos t.isLt]

/-! ## The region's proof data -/

abbrev adm : (p : Fin 1) → (pcfgs (F := F) p).Adm := fun p => (cfgs p).toPCfg_adm

/-- The scratch rows between points: anything before the first, the running maxima after. -/
def ΦR (d : Dev nD) (t : Fin (cfg0.N + 1)) : sProp 𝕄 :=
  iprop(∃ (f : Buf (Elt F) ((d : Thread nD τ).loc cc0_scratch0)) (g : Buf (Elt F) ((d : Thread nD τ).loc cc0_scratch1)),
    ⌜t.val ≠ 0 → f = accM m d t.val ∧ g = accV m d t.val⌝ ∗ (((d : Thread nD τ).loc cc0_scratch0) ↦{fullShare} f) ∗ (((d : Thread nD τ).loc cc0_scratch1) ↦{fullShare} g))

/-- The recorded pairs the TensorCore may have: any at the index of no call. -/
def recNone : Set (SemLoc sig × HIx 1) := {p | p.2 = none}

def dat0 (d : Dev nD) : Pipeline.Dat τ (Elt F) (HIx 1) ℕ UU ℕ cfg0 d where
  A w := Vr m d (Pipeline.arrRef spec0 w)
  after w t := match w with
    | ⟨0, _⟩ => blk0 m d t
    | ⟨1, _⟩ => blk1 m d t
    | ⟨2, _⟩ => rows2 (accM m d (t.val + 1)) (accV m d (t.val + 1))
  Φ t := ΦR m d t
  q _ := fullShare
  owed _ := (K (F := F)).Otc d 0
  recorded _ := recNone

def pdats : (p : Fin 1) → (c : Dev nD) → Pipeline.Dat τ (Elt F) (HIx 1) ℕ UU ℕ (Pipeline.pin (pcfgs (F := F)) adm p) c
  | 0 => dat0 m

end Cert.Proof.KernelIdealP
end
-- ==== Proof.RegionBodyI.lean ====
/-
  The TensorCore region's body obligation. At every point the body reads the target row and the point's 2000 table
  rows, replaces each scratch row by its maximum with the block's masked column maxima, and leaves every staging buffer
  as it found it; at point 0 it first sets both scratch rows to minus infinity, and at point 39 it stores the two
  scratch rows as rows 0 and 1 of the result block. The three control cases are decided by the point alone; in each the
  scratch rows go from the running rows after `t` points to those after `t + 1`, by one unfolding of their recursion.
-/
import proofs.«203171_g79482664779815_cont_9to1_m_1298_18_alg».proof.Proof.CommonI
import proofs.«203171_g79482664779815_cont_9to1_m_1298_18_alg».proof.Proof.PayI
import proofs.«203171_g79482664779815_cont_9to1_m_1298_18_alg».proof.Proof.RegionDataI
import Idealize.ShloMosaic.Lib.Pipeline.FrameBody
import Idealize.ShloMosaic.Lib.Pipeline.Frame
import Idealize.ShloMosaic.Lib.Pipeline.Value
import Idealize.ShloMosaic.Lib.WholeRead
import Idealize.ShloMosaic.Lib.ValueIdx

noncomputable section

namespace Cert.Proof.KernelIdealP

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The body's first test: is this the first point? -/
abbrev cond1 (i : grid0.Coords) : BitVec 1 := Scalar.cmpi .ne (Scalar.extui (Scalar.cmpi .eq (BitVec.ofNat 32 (i 0).val) 0#32)) 0#32

theorem hz2 : (![0, 0] : Fin 2 → Nat) = fun _ => 0 := funext fun a => by fin_cases a <;> rfl

section Whole
variable {Val : EltTy → Type} {sig' : RefSig} {κ : Kind} {sp : Space} {S : Shape} {e : EltTy}

/-- A store of the whole shape, last, leaves its payload. -/
theorem read_writes_whole (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f (⟨Rect.unit off S.size inb, w⟩ :: L)) = w := by
  subst h; funext y
  have e := View.read_writes_cons_emb v f (Rect.whole S) w L y
  rw [Rect.emb_whole_apply] at e
  exact e

/-- A load of the whole shape from a whole memref reads its contents. -/
theorem readAt_whole_unread {m : Memref sig' κ sp S e} (h : m.IsWhole) (X : S.Idx → Val e) {off : Fin S.rank → Nat} (hz : off = fun _ => 0)
    (inb : ∀ a, off a + S.size a ≤ S.size a) :
    View.readAt Val m.view (Rect.unit off S.size inb).toLoadRect (h.unread X) = X := by
  rw [View.readAt_eq_ld, h.read_unread, View.ld_unit_zero hz]
end Whole
theorem rows2_piece0 (A B : Vec F S1x1024 .f32) (inb) (x : (Rect.unit (s := S2x1024) ![0, 0] S1x1024.size inb).shape.Idx) :
    rows2 A B ((Rect.unit (s := S2x1024) ![0, 0] S1x1024.size inb).emb x) = A x := by
  have e0 : ((Rect.unit (s := S2x1024) ![0, 0] S1x1024.size inb).emb x 0 : ℕ) = 0 + 1 * (x 0 : ℕ) := Rect.emb_apply _ x 0
  have e1 : ((Rect.unit (s := S2x1024) ![0, 0] S1x1024.size inb).emb x 1 : ℕ) = 0 + 1 * (x 1 : ℕ) := Rect.emb_apply _ x 1
  have hx0 : (x 0 : ℕ) < 1 := (x 0).isLt
  unfold rows2
  rw [if_pos (by omega)]
  congr 1
  funext a
  match a with
  | ⟨0, _⟩ => exact Fin.ext (by show (0 : ℕ) = (x 0 : ℕ); omega)
  | ⟨1, _⟩ => exact Fin.ext (by show ((Rect.unit (s := S2x1024) ![0, 0] S1x1024.size inb).emb x 1 : ℕ) = (x 1 : ℕ); omega)

theorem rows2_piece1 (A B : Vec F S1x1024 .f32) (inb) (x : (Rect.unit (s := S2x1024) ![1, 0] S1x1024.size inb).shape.Idx) :
    rows2 A B ((Rect.unit (s := S2x1024) ![1, 0] S1x1024.size inb).emb x) = B x := by
  have e0 : ((Rect.unit (s := S2x1024) ![1, 0] S1x1024.size inb).emb x 0 : ℕ) = 1 + 1 * (x 0 : ℕ) := Rect.emb_apply _ x 0
  have e1 : ((Rect.unit (s := S2x1024) ![1, 0] S1x1024.size inb).emb x 1 : ℕ) = 0 + 1 * (x 1 : ℕ) := Rect.emb_apply _ x 1
  have hx0 : (x 0 : ℕ) < 1 := (x 0).isLt
  unfold rows2
  rw [if_neg (by omega)]
  congr 1
  funext a
  match a with
  | ⟨0, _⟩ => exact Fin.ext (by show (0 : ℕ) = (x 0 : ℕ); omega)
  | ⟨1, _⟩ => exact Fin.ext (by show ((Rect.unit (s := S2x1024) ![1, 0] S1x1024.size inb).emb x 1 : ℕ) = (x 1 : ℕ); omega)

theorem rows2_cover (inb0 inb1) (y : S2x1024.Idx) :
    y ∈ (Rect.unit (s := S2x1024) ![1, 0] S1x1024.size inb1).set ∨ y ∈ (Rect.unit (s := S2x1024) ![0, 0] S1x1024.size inb0).set := by
  have h0 : (y 0 : ℕ) < 2 := (y 0).isLt
  have h1 : (y 1 : ℕ) < 1024 := (y 1).isLt
  by_cases h : (y 0 : ℕ) = 0
  · right; rw [Rect.mem_set_unit]; intro a
    match a with
    | ⟨0, _⟩ => show (0 : ℕ) ≤ (y 0 : ℕ) ∧ (y 0 : ℕ) < 0 + 1; omega
    | ⟨1, _⟩ => show (0 : ℕ) ≤ (y 1 : ℕ) ∧ (y 1 : ℕ) < 0 + 1024; omega
  · left; rw [Rect.mem_set_unit]; intro a
    match a with
    | ⟨0, _⟩ => show (1 : ℕ) ≤ (y 0 : ℕ) ∧ (y 0 : ℕ) < 1 + 1; omega
    | ⟨1, _⟩ => show (0 : ℕ) ≤ (y 1 : ℕ) ∧ (y 1 : ℕ) < 0 + 1024; omega

variable (m : (ℓ : Loc nD τ sig) → Buf (Elt F) ℓ)

theorem run_B (c : Dev nD) (i : grid0.Coords) (hc1 : ¬ cond1 i = 1#1) (hc2 : ¬ k0_cond2 i = 1#1)
    (a1 : Memref sig .tc .vmem S1x1024 .i32) (h1 : a1.IsWhole) (a2 : Memref sig .tc .vmem S2000x1024 .f32) (h2 : a2.IsWhole)
    (a3 : Memref sig .tc .vmem S2x1024 .f32) (h3 : a3.IsWhole) (a4 : Memref sig .tc .vmem S1x1024 .f32) (h4 : a4.IsWhole)
    (a5 : Memref sig .tc .vmem S1x1024 .f32) (h5 : a5.IsWhole)
    (t2 : Vec F S1x1024 .i32) (x : Vec F S2000x1024 .f32) (o : Vec F S2x1024 .f32) (am av : Vec F S1x1024 .f32)
    (E : Set ℕ) (Q : PUnit → sProp 𝕄) :
    iprop(owns (c : Thread nD τ) a1 fullShare t2 ∗ owns (c : Thread nD τ) a2 fullShare x ∗ owns (c : Thread nD τ) a3 fullShare o
        ∗ owns (c : Thread nD τ) a4 fullShare am ∗ owns (c : Thread nD τ) a5 fullShare av
        ∗ (iprop(owns (c : Thread nD τ) a1 fullShare t2 ∗ owns (c : Thread nD τ) a2 fullShare x ∗ owns (c : Thread nD τ) a3 fullShare (o)
            ∗ owns (c : Thread nD τ) a4 fullShare (k0_pay5 i x t2 am) ∗ owns (c : Thread nD τ) a5 fullShare (k0_pay6 i x t2 av)) -∗ Q ⟨⟩))
      ⊢ wp frame (wpE (defs₀ (F := F)) 𝒱₀ c none) E (cc0__tc_body i a1 h1 a2 h2 a3 h3 a4 h4 a5 h5) Q := by
  simp only [cc0__tc_body_eq_skeleton]; unfold cc0__tc_body_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := h1.eq_unread hf1; obtain rfl := h2.eq_unread hf2; obtain rfl := h3.eq_unread hf3
  obtain rfl := h4.eq_unread hf4; obtain rfl := h5.eq_unread hf5
  sl_exec (disch := first | exact hc1 | exact hc2)
  sl_step
  iapply Hk
  isplitl [H1]
  · iexists _; isplitr; · ipureintro; exact hf1
    iexact H1
  isplitl [H2]
  · iexists _; isplitr; · ipureintro; exact hf2
    iexact H2

  isplitl [H3]
  · iexists _; isplitr; · ipureintro; exact hf3
    iexact H3
  isplitl [H4]
  · iexists _; isplitr; swap; · iexact H4
    ipureintro
    sl_unfold_run_names
    rw [read_writes_whole _ _ hz2, readAt_whole_unread h2 x hz2, readAt_whole_unread h1 t2 hz2, readAt_whole_unread h4 am hz2]
  iexists _; isplitr; swap; · iexact H5
  ipureintro
  sl_unfold_run_names
  rw [read_writes_whole _ _ hz2, readAt_whole_unread h2 x hz2, readAt_whole_unread h1 t2 hz2, readAt_whole_unread h5 av hz2]

theorem run_A (c : Dev nD) (i : grid0.Coords) (hc1 : cond1 i = 1#1) (hc2 : ¬ k0_cond2 i = 1#1)
    (a1 : Memref sig .tc .vmem S1x1024 .i32) (h1 : a1.IsWhole) (a2 : Memref sig .tc .vmem S2000x1024 .f32) (h2 : a2.IsWhole)
    (a3 : Memref sig .tc .vmem S2x1024 .f32) (h3 : a3.IsWhole) (a4 : Memref sig .tc .vmem S1x1024 .f32) (h4 : a4.IsWhole)
    (a5 : Memref sig .tc .vmem S1x1024 .f32) (h5 : a5.IsWhole)
    (t2 : Vec F S1x1024 .i32) (x : Vec F S2000x1024 .f32) (o : Vec F S2x1024 .f32) (am av : Vec F S1x1024 .f32)
    (E : Set ℕ) (Q : PUnit → sProp 𝕄) :
    iprop(owns (c : Thread nD τ) a1 fullShare t2 ∗ owns (c : Thread nD τ) a2 fullShare x ∗ owns (c : Thread nD τ) a3 fullShare o
        ∗ owns (c : Thread nD τ) a4 fullShare am ∗ owns (c : Thread nD τ) a5 fullShare av
        ∗ (iprop(owns (c : Thread nD τ) a1 fullShare t2 ∗ owns (c : Thread nD τ) a2 fullShare x ∗ owns (c : Thread nD τ) a3 fullShare (o)
            ∗ owns (c : Thread nD τ) a4 fullShare (k0_pay5 i x t2 k0_pay1) ∗ owns (c : Thread nD τ) a5 fullShare (k0_pay6 i x t2 k0_pay2)) -∗ Q ⟨⟩))
      ⊢ wp frame (wpE (defs₀ (F := F)) 𝒱₀ c none) E (cc0__tc_body i a1 h1 a2 h2 a3 h3 a4 h4 a5 h5) Q := by
  simp only [cc0__tc_body_eq_skeleton]; unfold cc0__tc_body_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := h1.eq_unread hf1; obtain rfl := h2.eq_unread hf2; obtain rfl := h3.eq_unread hf3
  obtain rfl := h4.eq_unread hf4; obtain rfl := h5.eq_unread hf5
  sl_exec (disch := first | exact hc1 | exact hc2)
  sl_step
  iapply Hk
  isplitl [H1]
  · iexists _; isplitr; · ipureintro; exact hf1
    iexact H1
  isplitl [H2]
  · iexists _; isplitr; · ipureintro; exact hf2
    iexact H2

  isplitl [H3]
  · iexists _; isplitr; · ipureintro; exact hf3
    iexact H3
  isplitl [H4]
  · iexists _; isplitr; swap; · iexact H4
    ipureintro
    sl_unfold_run_names
    rw [read_writes_whole _ _ hz2, readAt_whole_unread h2 x hz2, readAt_whole_unread h1 t2 hz2, View.readCov_unit_zero _ hz2]
  iexists _; isplitr; swap; · iexact H5
  ipureintro
  sl_unfold_run_names
  rw [read_writes_whole _ _ hz2, readAt_whole_unread h2 x hz2, readAt_whole_unread h1 t2 hz2, View.readCov_unit_zero _ hz2]

theorem run_C (c : Dev nD) (i : grid0.Coords) (hc1 : ¬ cond1 i = 1#1) (hc2 : k0_cond2 i = 1#1)
    (a1 : Memref sig .tc .vmem S1x1024 .i32) (h1 : a1.IsWhole) (a2 : Memref sig .tc .vmem S2000x1024 .f32) (h2 : a2.IsWhole)
    (a3 : Memref sig .tc .vmem S2x1024 .f32) (h3 : a3.IsWhole) (a4 : Memref sig .tc .vmem S1x1024 .f32) (h4 : a4.IsWhole)
    (a5 : Memref sig .tc .vmem S1x1024 .f32) (h5 : a5.IsWhole)
    (t2 : Vec F S1x1024 .i32) (x : Vec F S2000x1024 .f32) (o : Vec F S2x1024 .f32) (am av : Vec F S1x1024 .f32)
    (E : Set ℕ) (Q : PUnit → sProp 𝕄) :
    iprop(owns (c : Thread nD τ) a1 fullShare t2 ∗ owns (c : Thread nD τ) a2 fullShare x ∗ owns (c : Thread nD τ) a3 fullShare o
        ∗ owns (c : Thread nD τ) a4 fullShare am ∗ owns (c : Thread nD τ) a5 fullShare av
        ∗ (iprop(owns (c : Thread nD τ) a1 fullShare t2 ∗ owns (c : Thread nD τ) a2 fullShare x ∗ owns (c : Thread nD τ) a3 fullShare (rows2 (k0_pay5 i x t2 am) (k0_pay6 i x t2 av))
            ∗ owns (c : Thread nD τ) a4 fullShare (k0_pay5 i x t2 am) ∗ owns (c : Thread nD τ) a5 fullShare (k0_pay6 i x t2 av)) -∗ Q ⟨⟩))
      ⊢ wp frame (wpE (defs₀ (F := F)) 𝒱₀ c none) E (cc0__tc_body i a1 h1 a2 h2 a3 h3 a4 h4 a5 h5) Q := by
  simp only [cc0__tc_body_eq_skeleton]; unfold cc0__tc_body_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := h1.eq_unread hf1; obtain rfl := h2.eq_unread hf2; obtain rfl := h3.eq_unread hf3
  obtain rfl := h4.eq_unread hf4; obtain rfl := h5.eq_unread hf5
  sl_exec (disch := first | exact hc1 | exact hc2)
  sl_step
  iapply Hk
  isplitl [H1]
  · iexists _; isplitr; · ipureintro; exact hf1
    iexact H1
  isplitl [H2]
  · iexists _; isplitr; · ipureintro; exact hf2
    iexact H2

  isplitl [H3]
  · iexists _; isplitr; swap; · iexact H3
    ipureintro
    sl_unfold_run_names
    rw [View.readCov_unit_zero _ hz2, View.readCov_unit_zero _ hz2, readAt_whole_unread h2 x hz2, readAt_whole_unread h1 t2 hz2,
      readAt_whole_unread h4 am hz2, readAt_whole_unread h5 av hz2]
    funext y
    refine View.read_writes_apply_of_pieces _ _ (rows2 (k0_pay5 i x t2 am) (k0_pay6 i x t2 av)) _ ?_ y ?_
    · intro p hp x'
      rcases List.mem_cons.mp hp with rfl | hp
      · exact (rows2_piece1 (k0_pay5 i x t2 am) (k0_pay6 i x t2 av) inb_S2x1024_S1x1024_1_0 x').symm
      · obtain rfl := List.mem_singleton.mp hp
        exact (rows2_piece0 (k0_pay5 i x t2 am) (k0_pay6 i x t2 av) inb_S2x1024_S1x1024_0_0 x').symm
    · rcases rows2_cover inb_S2x1024_S1x1024_0_0 inb_S2x1024_S1x1024_1_0 y with h | h
      · exact ⟨_, List.mem_cons_self, h⟩
      · exact ⟨_, List.mem_cons_of_mem _ List.mem_cons_self, h⟩
  isplitl [H4]
  · iexists _; isplitr; swap; · iexact H4
    ipureintro
    sl_unfold_run_names
    rw [read_writes_whole _ _ hz2, readAt_whole_unread h2 x hz2, readAt_whole_unread h1 t2 hz2, readAt_whole_unread h4 am hz2]
  iexists _; isplitr; swap; · iexact H5
  ipureintro
  sl_unfold_run_names
  rw [read_writes_whole _ _ hz2, readAt_whole_unread h2 x hz2, readAt_whole_unread h1 t2 hz2, readAt_whole_unread h5 av hz2]

/-! ## The body obligation -/

theorem cond1_iff : ∀ t : Fin grid0.N, cond1 (grid0.coords t) = 1#1 ↔ t.val = 0 := by decide +kernel
theorem cond2_iff : ∀ t : Fin grid0.N, k0_cond2 (grid0.coords t) = 1#1 ↔ t.val = 39 := by decide +kernel

theorem A0 (d : Dev nD) : (dat0 m d).A 0 = T2 m d := rfl
theorem A1 (d : Dev nD) : (dat0 m d).A 1 = X m d := rfl
theorem after0 (d : Dev nD) (t : Fin cfg0.N) : (dat0 m d).after 0 t = blk0 m d t := by dsimp only [dat0]
theorem after1 (d : Dev nD) (t : Fin cfg0.N) : (dat0 m d).after 1 t = blk1 m d t := by dsimp only [dat0]
theorem after2 (d : Dev nD) (t : Fin cfg0.N) : (dat0 m d).after 2 t = rows2 (accM m d (t.val + 1)) (accV m d (t.val + 1)) := by dsimp only [dat0]

/-- Each input's current staging buffer holds its block at every point, fetched there or not. -/
theorem before0 (d : Dev nD) (t : Fin cfg0.N) (dd) : (dat0 m d).before 0 t dd = blk0 m d t :=
  ((dat0 m d).before_in_eq_fetched 0 rfl (fun _ => rfl) (fun _ _ _ => rfl) (fun t => by rw [after0]; unfold Dat.blockOf blk0; rw [A0]; try rfl) t dd).trans
    (by unfold Dat.fetched Dat.blockOf blk0; rw [A0]; try rfl)
theorem before1 (d : Dev nD) (t : Fin cfg0.N) (dd) : (dat0 m d).before 1 t dd = blk1 m d t :=
  ((dat0 m d).before_in_eq_fetched 1 rfl (fun _ => rfl) (fun _ _ _ => rfl) (fun t => by rw [after1]; unfold Dat.blockOf blk1; rw [A1]; try rfl) t dd).trans
    (by unfold Dat.fetched Dat.blockOf blk1; rw [A1]; try rfl)

omit [FloatOps F] in
/-- A whole buffer held through its memref. -/
theorem owns_whole_eq (c : Dev nD) (b : Ref sig .tc) (Xc : b.ty.Contents (Elt F)) :
    (owns (Ix := HIx 1) (Name := ℕ) (U := UU) (Lvl := ℕ) (c : Thread nD τ) (Memref.whole b) fullShare Xc : sProp 𝕄)
      = iprop(∃ f : Buf (Elt F) ((c : Thread nD τ).loc b), ⌜f = Xc⌝ ∗ (((c : Thread nD τ).loc b) ↦{fullShare} f)) := by
  unfold owns; simp only [Memref.view_whole, View.read_whole, View.set_whole]

/-- What the body is called with at point `t`, the windows one by one, -/
def bodyPre (d : Dev nD) (t : Fin cfg0.N) : sProp 𝕄 :=
  iprop((dat0 m d).Φ t.castSucc ∗ (dat0 m d).owesAt (none : HIx 1) t.castSucc
    ∗ (∃ dd, owns (d : Thread nD τ) (st0_0 t) fullShare ((dat0 m d).before 0 t dd))
    ∗ (∃ dd, owns (d : Thread nD τ) (st0_1 t) fullShare ((dat0 m d).before 1 t dd))
    ∗ (∃ dd, owns (d : Thread nD τ) (st0_2 t) fullShare ((dat0 m d).before 2 t dd)))

/-- and what it returns: the output's buffer as found, but at the last point, where it holds the two rows. -/
def bodyPost (d : Dev nD) (t : Fin cfg0.N) : sProp 𝕄 :=
  iprop((dat0 m d).Φ t.succ ∗ (dat0 m d).owesAt (none : HIx 1) t.succ
    ∗ owns (d : Thread nD τ) (st0_0 t) fullShare ((dat0 m d).after 0 t)
    ∗ owns (d : Thread nD τ) (st0_1 t) fullShare ((dat0 m d).after 1 t)
    ∗ (match cfg0.idle 2 (cfg0.grid.coords t) with
        | true => (match (cfg0.win 2).flush t with
            | false => iprop(∃ dd, owns (d : Thread nD τ) (st0_2 t) fullShare ((dat0 m d).before 2 t dd))
            | true => owns (d : Thread nD τ) (st0_2 t) fullShare ((dat0 m d).after 2 t))
        | false => owns (d : Thread nD τ) (st0_2 t) fullShare ((dat0 m d).after 2 t)))

theorem sound_body (d : Dev nD) (t : Fin cfg0.N) :
    bodyPre m d t ⊢ wp frame (wpE (defs₀ (F := F)) 𝒱₀ d none) Set.univ (bodyAt0 t) (fun _ => bodyPost m d t) := by
  unfold bodyPre bodyPost bodyAt0
  simp only [before0, before1]
  rw [after0, after1, after2, show (dat0 m d).owesAt (none : HIx 1) t.succ = (dat0 m d).owesAt none t.castSucc from rfl,
    show (dat0 m d).Φ t.castSucc = ΦR m d t.castSucc from rfl, show (dat0 m d).Φ t.succ = ΦR m d t.succ from rfl]
  unfold ΦR
  have hN : t.val < 40 := lt_of_lt_of_eq t.isLt (show cfg0.N = 40 from N_0)
  iintro ⟨⟨%f, %g, %hfg, Hs0, Hs1⟩, HO, ⟨%d0, H0⟩, ⟨%d1, H1⟩, ⟨%d2, H2⟩⟩
  by_cases h0 : t.val = 0
  ·
    have hc1 : cond1 (grid0.coords t) = 1#1 := (cond1_iff t).mpr h0
    have hc2 : ¬ k0_cond2 (grid0.coords t) = 1#1 := fun h => by have := (cond2_iff t).mp h; omega
    have hi : idle0 2 (grid0.coords t) = true := by show (!(k0_cond2 (grid0.coords t) == 1#1)) = true; simp [hc2]
    have hfl : (win0 2).flush t = false := Bool.eq_false_iff.mpr fun h => by have := (flush0_2 t).mp h; omega
    generalize hidle : idle0 2 (grid0.coords t) = bi
    obtain rfl : bi = true := hidle.symm.trans hi
    generalize hflush : (win0 2).flush t = bf
    obtain rfl : bf = false := hflush.symm.trans hfl
    dsimp only
    iapply (run_A d (grid0.coords t) hc1 hc2 _ _ _ _ _ _ _ _ _ _ (blk0 m d t) (blk1 m d t) _ f g Set.univ _)
    isplitl [H0]; · iexact H0
    isplitl [H1]; · iexact H1
    isplitl [H2]; · iexact H2
    isplitl [Hs0]
    · iapply (Entails.of_eq (owns_whole_eq d cc0_scratch0 _).symm); iexists _; isplitr; · ipureintro; rfl
      iexact Hs0
    isplitl [Hs1]
    · iapply (Entails.of_eq (owns_whole_eq d cc0_scratch1 _).symm); iexists _; isplitr; · ipureintro; rfl
      iexact Hs1
    iintro ⟨H0, H1, H2, Hs0, Hs1⟩
    ihave Hs0' := (Entails.of_eq (owns_whole_eq d cc0_scratch0 _)) $$ Hs0
    ihave Hs1' := (Entails.of_eq (owns_whole_eq d cc0_scratch1 _)) $$ Hs1
    icases Hs0' with ⟨%f', %hf', Hs0⟩
    icases Hs1' with ⟨%g', %hg', Hs1⟩
    isplitl [Hs0 Hs1]
    · iexists f'; iexists g'; isplitr
      · ipureintro; intro _
        have e1 : accM m d t.val = k0_pay1 := by rw [h0]; rfl
        have e2 : accV m d t.val = k0_pay2 := by rw [h0]; rfl
        rw [Fin.val_succ, accM_succ, accV_succ, e1, e2]; exact ⟨hf', hg'⟩
      isplitl [Hs0]; · iexact Hs0
      iexact Hs1
    isplitl [HO]; · iexact HO
    isplitl [H0]; · iexact H0
    isplitl [H1]; · iexact H1
    iexists d2; iexact H2
  by_cases h39 : t.val = 39
  ·
    have hc1 : ¬ cond1 (grid0.coords t) = 1#1 := fun h => h0 ((cond1_iff t).mp h)
    have hc2 : k0_cond2 (grid0.coords t) = 1#1 := (cond2_iff t).mpr h39
    have hi : idle0 2 (grid0.coords t) = false := by show (!(k0_cond2 (grid0.coords t) == 1#1)) = false; rw [hc2]; rfl
    generalize hidle : idle0 2 (grid0.coords t) = bi
    obtain rfl : bi = false := hidle.symm.trans hi
    dsimp only
    obtain ⟨hf, hg⟩ := hfg (by rw [Fin.coe_castSucc]; exact h0)
    rw [Fin.coe_castSucc] at hf hg
    subst hf hg
    iapply (run_C d (grid0.coords t) hc1 hc2 _ _ _ _ _ _ _ _ _ _ (blk0 m d t) (blk1 m d t) _ (accM m d t.val) (accV m d t.val) Set.univ _)
    isplitl [H0]; · iexact H0
    isplitl [H1]; · iexact H1
    isplitl [H2]; · iexact H2
    isplitl [Hs0]
    · iapply (Entails.of_eq (owns_whole_eq d cc0_scratch0 _).symm); iexists _; isplitr; · ipureintro; rfl
      iexact Hs0
    isplitl [Hs1]
    · iapply (Entails.of_eq (owns_whole_eq d cc0_scratch1 _).symm); iexists _; isplitr; · ipureintro; rfl
      iexact Hs1
    iintro ⟨H0, H1, H2, Hs0, Hs1⟩
    ihave Hs0' := (Entails.of_eq (owns_whole_eq d cc0_scratch0 _)) $$ Hs0
    ihave Hs1' := (Entails.of_eq (owns_whole_eq d cc0_scratch1 _)) $$ Hs1
    icases Hs0' with ⟨%f', %hf', Hs0⟩
    icases Hs1' with ⟨%g', %hg', Hs1⟩
    isplitl [Hs0 Hs1]
    · iexists f'; iexists g'; isplitr
      · ipureintro; intro _
        rw [Fin.val_succ, accM_succ, accV_succ]; exact ⟨hf', hg'⟩
      isplitl [Hs0]; · iexact Hs0
      iexact Hs1
    isplitl [HO]; · iexact HO
    isplitl [H0]; · iexact H0
    isplitl [H1]; · iexact H1
    rw [accM_succ, accV_succ]; iexact H2
  ·
    have hc1 : ¬ cond1 (grid0.coords t) = 1#1 := fun h => h0 ((cond1_iff t).mp h)
    have hc2 : ¬ k0_cond2 (grid0.coords t) = 1#1 := fun h => h39 ((cond2_iff t).mp h)
    have hi : idle0 2 (grid0.coords t) = true := by show (!(k0_cond2 (grid0.coords t) == 1#1)) = true; simp [hc2]
    have hfl : (win0 2).flush t = false := Bool.eq_false_iff.mpr fun h => by have := (flush0_2 t).mp h; omega
    generalize hidle : idle0 2 (grid0.coords t) = bi
    obtain rfl : bi = true := hidle.symm.trans hi
    generalize hflush : (win0 2).flush t = bf
    obtain rfl : bf = false := hflush.symm.trans hfl
    dsimp only
    obtain ⟨hf, hg⟩ := hfg (by rw [Fin.coe_castSucc]; exact h0)
    rw [Fin.coe_castSucc] at hf hg
    subst hf hg
    iapply (run_B d (grid0.coords t) hc1 hc2 _ _ _ _ _ _ _ _ _ _ (blk0 m d t) (blk1 m d t) _ (accM m d t.val) (accV m d t.val) Set.univ _)
    isplitl [H0]; · iexact H0
    isplitl [H1]; · iexact H1
    isplitl [H2]; · iexact H2
    isplitl [Hs0]
    · iapply (Entails.of_eq (owns_whole_eq d cc0_scratch0 _).symm); iexists _; isplitr; · ipureintro; rfl
      iexact Hs0
    isplitl [Hs1]
    · iapply (Entails.of_eq (owns_whole_eq d cc0_scratch1 _).symm); iexists _; isplitr; · ipureintro; rfl
      iexact Hs1
    iintro ⟨H0, H1, H2, Hs0, Hs1⟩
    ihave Hs0' := (Entails.of_eq (owns_whole_eq d cc0_scratch0 _)) $$ Hs0
    ihave Hs1' := (Entails.of_eq (owns_whole_eq d cc0_scratch1 _)) $$ Hs1
    icases Hs0' with ⟨%f', %hf', Hs0⟩
    icases Hs1' with ⟨%g', %hg', Hs1⟩
    isplitl [Hs0 Hs1]
    · iexists f'; iexists g'; isplitr
      · ipureintro; intro _
        rw [Fin.val_succ, accM_succ, accV_succ]; exact ⟨hf', hg'⟩
      isplitl [Hs0]; · iexact Hs0
      iexact Hs1
    isplitl [HO]; · iexact HO
    isplitl [H0]; · iexact H0
    isplitl [H1]; · iexact H1
    iexists d2; iexact H2

/-- The library's body obligation, at every point. -/
theorem body_obligation (d : Dev nD) : BodyObligation (dat0 (F := F) m d) (defs₀ (F := F)) 𝒱₀ (none : HIx 1) Set.univ := fun t => by
  rw [bigSep_W0, bigSep_W0]
  exact sound_body m d t

end Cert.Proof.KernelIdealP
end
-- ==== Proof.RegionI.lean ====
/-
  The TensorCore region as one step of the TensorCore's program: entered holding every unscoped array of the device
  and what the TensorCore owes the SparseCore call that follows, it hands the three windowed arrays to the pipeline,
  keeps the rest aside, and leaves with the two inputs unchanged and the result array at the pipeline's final contents.
  What the TensorCore owes is untouched throughout: the pipeline's own waits sit at the index of no call, below every
  start signal still owed.
-/
import proofs.«203171_g79482664779815_cont_9to1_m_1298_18_alg».proof.Proof.CommonI
import proofs.«203171_g79482664779815_cont_9to1_m_1298_18_alg».proof.Proof.PayI
import proofs.«203171_g79482664779815_cont_9to1_m_1298_18_alg».proof.Proof.RegionDataI
import proofs.«203171_g79482664779815_cont_9to1_m_1298_18_alg».proof.Proof.RegionBodyI
import Idealize.ShloMosaic.Lib.Pipeline.Regions
import Idealize.ShloMosaic.Lib.Pipeline.FrameBody
import Idealize.ShloMosaic.Lib.Pipeline.Frame
import Idealize.ShloMosaic.Lib.Pipeline.Value
import Idealize.ShloMosaic.Lib.WholeRead
import Idealize.ShloMosaic.Lib.ValueIdx

noncomputable section

namespace Cert.Proof.KernelIdealP

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ)

/-- The region's result array: what the pipeline's write-backs leave in it. -/
def RT (d : Dev nD) : Buf (Elt F) ((SparseCore.T d : Thread nD τ).loc main_v2) := (dat0 m d).arrAt 2 cfg0.N

/-- The device's buffers after the region: the result array at `RT`, every other as the region found it. -/
def V3 (d : Dev nD) : Valuation τ sig (Elt F) := Function.update (V2 m d) (Proc.devRef .tc main_v2) (RT m d)
/-- The same, read at the TensorCore's references. -/
abbrev Vr3 (d : Dev nD) : (b : Ref sig .tc) → Buf (Elt F) ((d : Thread nD τ).loc b) := fun b => V3 m d (Proc.devRef .tc b)

theorem Vr3_v2 (d : Dev nD) : Vr3 m d main_v2 = RT m d := Function.update_self ..
theorem Vr3_of_ne (d : Dev nD) (b : Ref sig .tc) (h : b ≠ main_v2) : Vr3 m d b = Vr m d b :=
  Function.update_of_ne (StableHlo.devRef_ne_of_ne h) ..

/-- What the TensorCore owes before the one SparseCore call, its recorded pairs all at the index of no call. -/
def tcOwes (d : Dev nD) : sProp 𝕄 :=
  iprop(∃ W, ⌜(K (F := F)).WBelow (SparseCore.T d) W (8 * 0)⌝ ∗ owes (SparseCore.T d) ((K (F := F)).Otc d 0) W)

omit [FloatOps F] in
theorem recNone_of_WBelow {d : Dev nD} {W : Waits sig (HIx 1)} (h : (K (F := F)).WBelow (SparseCore.T d) W (8 * 0)) :
    (↑W : Set (SemLoc sig × HIx 1)) ⊆ recNone := fun p hp => by
  have hle := h p hp
  show p.2 = none
  match hp2 : p.2 with
  | none => rfl
  | some q =>
    rw [hp2] at hle
    have := (K (F := F)).lev_some_pos (nD := nD) (SparseCore.T d, p.1) q
    omega

theorem WBelow_of_bound {d : Dev nD} {W : Waits sig (HIx 1)} (t : Fin (cfg0.N + 1))
    (h : (↑W : Set (SemLoc sig × HIx 1)) ⊆ (dat0 m d).bound (none : HIx 1) t) : (K (F := F)).WBelow (SparseCore.T d) W (8 * 0) := fun p hp => by
  have hp2 : p.2 = none := by
    rcases h hp with h1 | ⟨w, s, rfl⟩
    · exact h1
    · rfl
  rw [hp2]; exact Nat.zero_le _

theorem unscopedRest_Vr3 (c : Dev nD) :
    (Pipeline.unscopedRest (Ix := HIx 1) (Name := ℕ) (U := UU) (Lvl := ℕ) spec0 c (Vr3 m c) : sProp 𝕄) = Pipeline.unscopedRest spec0 c (Vr m c) := by
  unfold Pipeline.unscopedRest
  exact bigSep_congr fun b hb => by
    rw [Vr3_of_ne m c b (fun h => (Finset.mem_sdiff.mp hb).2 (Finset.mem_image.mpr ⟨2, Finset.mem_univ _, h ▸ rfl⟩))]

theorem arrAt0 (c : Dev nD) : (dat0 m c).arrAt 0 cfg0.N = Vr3 m c main_v1 :=
  ((dat0 m c).arrAt_in 0 rfl _).trans (Vr3_of_ne m c main_v1 (by decide)).symm
theorem arrAt1 (c : Dev nD) : (dat0 m c).arrAt 1 cfg0.N = Vr3 m c main_v0 :=
  ((dat0 m c).arrAt_in 1 rfl _).trans (Vr3_of_ne m c main_v0 (by decide)).symm
theorem arrAt2 (c : Dev nD) : (dat0 m c).arrAt 2 cfg0.N = Vr3 m c main_v2 := (Vr3_v2 m c).symm

set_option backward.isDefEq.respectTransparency.types false in
/-- The region. -/
def reg0 : Pipeline.RegionSeg (pcfgs (F := F)) adm (pdats m) (none : HIx 1) defs₀ 𝒱₀ (K (F := F)).L (K (F := F)).lev (0 : Fin 1) where
  win := launch0.win.to₀
  block_pos := launch0.block_pos
  stage_whole := launch0.stage_whole
  K := PEmpty
  osem k := k.elim
  ho := Pipeline.OwnSemFacts.none _
  hbody c := (body_obligation m c).loose
  hwaits c := Pipeline.cellsWaits_of_cut _ (pdats m) (none : HIx 1) 0 c (lev := (K (F := F)).lev) 0 ((K (F := F)).Otc c 0) (fun _ => rfl)
    (fun _ _ => Finset.mem_univ _) (fun _ _ => le_refl _) fun g i hg => ⟨Finset.mem_univ _, by have := SparseCore.Cfg.lev_of_Otc_pos hg; omega⟩
  pre c := iprop(unscopedBufs c (Vr m c) ∗ tcOwes c)
  post c := iprop(unscopedBufs c (Vr3 m c) ∗ tcOwes c)
  X _ := iprop(emp)
  Y _ := iprop(emp)
  Z c := Pipeline.unscopedRest (Ix := HIx 1) (Name := ℕ) (U := UU) (Lvl := ℕ) spec0 c (Vr m c)
  hentry c := by
    rw [Pipeline.ownSems0_none]
    have hsplit := Pipeline.arrays_of_unscopedBufs (pcfgs (F := F)) adm (pdats m) launch0.win launch0.arr_whole c
      ((pdats m 0 c).share_full fun _ => rfl) (Vr m c) fun _ => rfl
    unfold tcOwes
    iintro ⟨⟨Hub, %W, %hW, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (recNone_of_WBelow hW hp)
      iexact HO
    isplitr; · iempintro
    iexact Hr
  hin c := by
    rw [scopedRest0_eq]
    show _ ⊢ ΦR m c 0
    unfold ΦR
    iintro ⟨-, -, ⟨%f, Hf⟩, ⟨%g, Hg⟩⟩
    iexists f; iexists g; isplitr; · ipureintro; exact fun h => absurd rfl h
    isplitl [Hf]; · iexact Hf
    iexact Hg
  hout c := by
    rw [Pipeline.ownSems0_none, scopedRest0_eq]
    show ΦR m c _ ⊢ _
    unfold ΦR
    iintro ⟨%f, %g, -, Hf, Hg⟩
    isplitr; · iempintro
    isplitr; · iempintro
    isplitl [Hf]; · iexists f; iexact Hf
    iexists g; iexact Hg
  hexit c := by
    have hs := Pipeline.unscopedBufs_split (Ix := HIx 1) (Name := ℕ) (U := UU) (Lvl := ℕ) (Val := Elt F) (Pipeline.pin (pcfgs (F := F)) adm) (0 : Fin 1) launch0.win.arr_unscoped launch0.win.arr_inj c (Vr3 m c)
    rw [Pipeline.arrays_eq (Pipeline.pin (pcfgs (F := F)) adm) (pdats m) 0 c launch0.arr_whole ((pdats m 0 c).share_full fun _ => rfl), bigSep_W0]
    rw [hs, bigSep_W0, unscopedRest_Vr3]
    rw [show (pdats m 0 c).arrAt 0 (Pipeline.pin (pcfgs (F := F)) adm 0).N = Vr3 m c (Pipeline.arrRef (Pipeline.pin (pcfgs (F := F)) adm 0).spec 0) from arrAt0 m c,
      show (pdats m 0 c).arrAt 1 (Pipeline.pin (pcfgs (F := F)) adm 0).N = Vr3 m c (Pipeline.arrRef (Pipeline.pin (pcfgs (F := F)) adm 0).spec 1) from arrAt1 m c,
      show (pdats m 0 c).arrAt 2 (Pipeline.pin (pcfgs (F := F)) adm 0).N = Vr3 m c (Pipeline.arrRef (Pipeline.pin (pcfgs (F := F)) adm 0).spec 2) from arrAt2 m c]
    unfold tcOwes Pipeline.Dat.owesAt Pipeline.owesWithin
    iintro ⟨⟨H0, H1, H2⟩, ⟨%W, %hW, HO⟩, -, Hr⟩
    imodintro
    isplitr [HO]
    · isplitr [Hr]
      · isplitl [H0]; · iexact H0
        isplitl [H1]; · iexact H1
        iexact H2
      · iexact Hr
    iexists W; isplitr; · ipureintro; exact WBelow_of_bound m _ hW
    iexact HO

end Cert.Proof.KernelIdealP
end
-- ==== Proof.TailI.lean ====
/-
  The program's last twelve host operations as one function of the two calls' results.

  After the two calls the program holds the TensorCore call's result `o` (two rows of 1024: the running maximum that
  leaves the target out, and the entry at the target, over the table rows that call walks) and the SparseCore call's two
  results `rm`, `rv` (four rows of 1024 each: the same two quantities over each quarter of the remaining table rows). The
  host then takes row 0 of `o` as a vector, the maximum of `rm` over its four rows starting from −∞, and the maximum of
  the two; likewise row 1 of `o` and `rv`; and subtracts the second maximum from the first. `tailOf o rm rv` is that
  value, written as the composition of the twelve operations' own functions, in program order, one `let` per operation,
  nothing simplified (a reshape's function is the row-major reading `shapeCast` of its operand at the result's shape).
-/
import proofs.«203171_g79482664779815_cont_9to1_m_1298_18_alg».proof.KernelIdeal

noncomputable section

namespace Cert.Proof.KernelIdealP

open Cert.KernelIdeal
open Idealize.ShloMosaic
open Cert.KernelIdeal.Facts₀ Cert.KernelIdeal.Facts

variable {F : FTy → Type} [FloatOps F] [Cert.KernelIdeal.Facts]

/-- The value the program's result buffer holds after its last twelve host operations, as a function of the contents
    of the TensorCore call's result (`o`) and of the SparseCore call's two results (`rm`, `rv`). -/
def tailOf (o : (⟨S2x1024, .f32⟩ : BufTy).Contents (Elt F)) (rm rv : (⟨S4x1024, .f32⟩ : BufTy).Contents (Elt F)) :
    (⟨S1024, .f32⟩ : BufTy).Contents (Elt F) :=
  -- %4 = stablehlo.slice %2 [0:1, 0:1024]
  let v4 : (⟨S1x1024, .f32⟩ : BufTy).Contents (Elt F) :=
    ((extractStridedSlice S1x1024 ![0, 0] · slices_S2x1024_S1x1024_0_0) : (⟨S2x1024, .f32⟩ : BufTy).Contents (Elt F) → (⟨S1x1024, .f32⟩ : BufTy).Contents (Elt F)) o
  -- %5 = stablehlo.reshape %4
  let v5 : (⟨S1024, .f32⟩ : BufTy).Contents (Elt F) := fun i => shapeCast S1024 v4 shapeCasts_S1x1024_S1024 i
  -- %cst = stablehlo.constant dense<0xFF800000>
  let cst : (⟨S_, .f32⟩ : BufTy).Contents (Elt F) := constant S_ .f32 0xFF800000#32
  -- %6 = stablehlo.reduce(%3#0 init: %cst) applies stablehlo.maximum across dimensions = [0]
  let v6 : (⟨S1024, .f32⟩ : BufTy).Contents (Elt F) :=
    ((fun x v => Host.reduce FloatOps.maximumf x v reducesTo_S4x1024_S1024_d0 h_S_) : (⟨S4x1024, .f32⟩ : BufTy).Contents (Elt F) → (⟨S_, .f32⟩ : BufTy).Contents (Elt F) → (⟨S1024, .f32⟩ : BufTy).Contents (Elt F)) rm cst
  -- %7 = stablehlo.maximum %5, %6
  let v7 : (⟨S1024, .f32⟩ : BufTy).Contents (Elt F) :=
    (maximumf : (⟨S1024, .f32⟩ : BufTy).Contents (Elt F) → (⟨S1024, .f32⟩ : BufTy).Contents (Elt F) → (⟨S1024, .f32⟩ : BufTy).Contents (Elt F)) v5 v6
  -- %8 = stablehlo.slice %2 [1:2, 0:1024]
  let v8 : (⟨S1x1024, .f32⟩ : BufTy).Contents (Elt F) :=
    ((extractStridedSlice S1x1024 ![1, 0] · slices_S2x1024_S1x1024_1_0) : (⟨S2x1024, .f32⟩ : BufTy).Contents (Elt F) → (⟨S1x1024, .f32⟩ : BufTy).Contents (Elt F)) o
  -- %9 = stablehlo.reshape %8
  let v9 : (⟨S1024, .f32⟩ : BufTy).Contents (Elt F) := fun i => shapeCast S1024 v8 shapeCasts_S1x1024_S1024 i
  -- %cst_0 = stablehlo.constant dense<0xFF800000>
  let cst_0 : (⟨S_, .f32⟩ : BufTy).Contents (Elt F) := constant S_ .f32 0xFF800000#32
  -- %10 = stablehlo.reduce(%3#1 init: %cst_0) applies stablehlo.maximum across dimensions = [0]
  let v10 : (⟨S1024, .f32⟩ : BufTy).Contents (Elt F) :=
    ((fun x v => Host.reduce FloatOps.maximumf x v reducesTo_S4x1024_S1024_d0 h_S_) : (⟨S4x1024, .f32⟩ : BufTy).Contents (Elt F) → (⟨S_, .f32⟩ : BufTy).Contents (Elt F) → (⟨S1024, .f32⟩ : BufTy).Contents (Elt F)) rv cst_0
  -- %11 = stablehlo.maximum %9, %10
  let v11 : (⟨S1024, .f32⟩ : BufTy).Contents (Elt F) :=
    (maximumf : (⟨S1024, .f32⟩ : BufTy).Contents (Elt F) → (⟨S1024, .f32⟩ : BufTy).Contents (Elt F) → (⟨S1024, .f32⟩ : BufTy).Contents (Elt F)) v9 v10
  -- %12 = stablehlo.subtract %7, %11
  (subf : (⟨S1024, .f32⟩ : BufTy).Contents (Elt F) → (⟨S1024, .f32⟩ : BufTy).Contents (Elt F) → (⟨S1024, .f32⟩ : BufTy).Contents (Elt F)) v7 v11

/-- The same value with the `let`s substituted: the nested composition of the operations' functions. -/
theorem tailOf_eq (o : (⟨S2x1024, .f32⟩ : BufTy).Contents (Elt F)) (rm rv : (⟨S4x1024, .f32⟩ : BufTy).Contents (Elt F)) :
    tailOf o rm rv =
      subf
        (maximumf (fun i => shapeCast S1024 (extractStridedSlice S1x1024 ![0, 0] o slices_S2x1024_S1x1024_0_0) shapeCasts_S1x1024_S1024 i)
          (Host.reduce FloatOps.maximumf rm (constant S_ .f32 0xFF800000#32) reducesTo_S4x1024_S1024_d0 h_S_))
        (maximumf (fun i => shapeCast S1024 (extractStridedSlice S1x1024 ![1, 0] o slices_S2x1024_S1x1024_1_0) shapeCasts_S1x1024_S1024 i)
          (Host.reduce FloatOps.maximumf rv (constant S_ .f32 0xFF800000#32) reducesTo_S4x1024_S1024_d0 h_S_)) := rfl

end Cert.Proof.KernelIdealP

end
-- ==== Proof.VecSplitI.lean ====
/-
  One SparseCore's share of the call, dealt to its sixteen tiles and gathered back.

  A SparseCore's sequencer holds a read share of the two input arrays and, outright, the union of its sixteen tiles'
  pieces of each result array. Dealing: the read share splits into a remainder and sixteen tokens, one per tile (the
  remainder is kept until the tiles return); the union of the pieces splits into the pieces, because two different
  tiles' [1, 128] rectangles of the [4, 1024] array start at least one row or at least 128 columns apart and so have no
  element in common. Gathering: the sixteen tokens and the remainder compose to the read share again; the sixteen
  pieces, each held at its own contents of which the tile's property holds, join into the union held at ONE array's
  contents that agrees with each tile's on its piece — and a property that reads only its own piece therefore holds of
  the joined contents for every tile. Nothing is allocated: the update is the trivial one.
-/
import proofs.«203171_g79482664779815_cont_9to1_m_1298_18_alg».proof.Proof.PayI

noncomputable section

namespace Cert.Proof.KernelIdealP

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The pieces' geometry -/

/-- A tile's piece of the first result array is its rectangle's elements. -/
theorem mSet_eq (L : grid1.Coords) : mSet L = (pieceRect L).set := by
  show (mPiece L).view.set = _
  rw [Memref.set_view_squeeze]
  exact View.set_slice_whole _ _

/-- A tile's piece of the second result array is its rectangle's elements. -/
theorem vSet_eq (L : grid1.Coords) : vSet L = (pieceRect L).set := by
  show (vPiece L).view.set = _
  rw [Memref.set_view_squeeze]
  exact View.set_slice_whole _ _

/-- Two different tiles' pieces start at least one row apart or at least 128 columns apart. -/
theorem piece_sep : ∀ L L' : grid1.Coords, L ≠ L' → ∃ a : Fin S4x1024.rank,
    k1_off48 L a + S1x128.size a ≤ k1_off48 L' a ∨ k1_off48 L' a + S1x128.size a ≤ k1_off48 L a := by
  decide +kernel

/-- So their rectangles have no element in common. -/
theorem pieces_disjoint {L L' : grid1.Coords} (h : L ≠ L') : Disjoint (pieceRect L).set (pieceRect L').set := by
  obtain ⟨a, ha⟩ := piece_sep L L' h
  exact Rect.unit_disjoint a ha

/-- Different subcores of one SparseCore are different tiles. -/
theorem coordsV_ne (c : Fin 2) {s s' : Fin 16} (h : s ≠ s') : coordsV c s ≠ coordsV c s' :=
  fun e => h (congrFun e 1)

/-- The pieces of one SparseCore's tiles in the first result array are pairwise disjoint; -/
theorem mSets_disjoint (c : Fin 2) : ∀ s ∈ (Finset.univ : Finset (Fin 16)), ∀ s' ∈ (Finset.univ : Finset (Fin 16)),
    s ≠ s' → Disjoint (mSet (coordsV c s)) (mSet (coordsV c s')) :=
  fun s _ s' _ h => by rw [mSet_eq, mSet_eq]; exact pieces_disjoint (coordsV_ne c h)

/-- and in the second. -/
theorem vSets_disjoint (c : Fin 2) : ∀ s ∈ (Finset.univ : Finset (Fin 16)), ∀ s' ∈ (Finset.univ : Finset (Fin 16)),
    s ≠ s' → Disjoint (vSet (coordsV c s)) (vSet (coordsV c s')) :=
  fun s _ s' _ h => by rw [vSet_eq, vSet_eq]; exact pieces_disjoint (coordsV_ne c h)

/-! ## Dealing and gathering the pieces of one result array

Stated for any location, any family of sixteen pairwise disjoint element sets and any property per set that reads
only the set's elements; used for the two result arrays. -/

section Pieces
variable {ℓ : Loc nD τ sig} (Ks : Fin 16 → Finset (Idx ℓ))

/-- The union held at anything is every piece held at anything. -/
theorem pieces_split
    (hK : ∀ s ∈ (Finset.univ : Finset (Fin 16)), ∀ s' ∈ (Finset.univ : Finset (Fin 16)), s ≠ s' → Disjoint (Ks s) (Ks s')) :
    (iprop(∃ f, ℓ ↦[Finset.univ.biUnion Ks]{fullShare} f) : sProp 𝕄)
      ⊢ bigSep Finset.univ fun s : Fin 16 => iprop(∃ f, ℓ ↦[Ks s]{fullShare} f) := by
  refine exists_elim fun f => ?_
  rw [pointsTo_biUnion Finset.univ Ks hK]
  refine bigSep_mono fun s _ => ?_
  show (ℓ ↦[Ks s]{fullShare} f : sProp 𝕄) ⊢ iprop(∃ f, ℓ ↦[Ks s]{fullShare} f)
  iintro H; iexists f; iexact H

/-- Every piece held at contents of which its property holds is the union held at ONE array's contents of which
    every property holds: the joined array agrees with each piece's on the piece. -/
theorem pieces_join
    (hK : ∀ s ∈ (Finset.univ : Finset (Fin 16)), ∀ s' ∈ (Finset.univ : Finset (Fin 16)), s ≠ s' → Disjoint (Ks s) (Ks s'))
    (f₀ : Buf (Elt F) ℓ) (G : Fin 16 → Buf (Elt F) ℓ → Prop)
    (hG : ∀ s (f f' : Buf (Elt F) ℓ), (∀ i ∈ Ks s, f i = f' i) → G s f → G s f') :
    (bigSep Finset.univ fun s : Fin 16 => iprop(∃ f, (ℓ ↦[Ks s]{fullShare} f) ∗ ⌜G s f⌝) : sProp 𝕄)
      ⊢ iprop(∃ f, (ℓ ↦[Finset.univ.biUnion Ks]{fullShare} f) ∗ ⌜∀ s : Fin 16, G s f⌝) := by
  haveI : Nonempty (Buf (Elt F) ℓ) := ⟨f₀⟩
  refine (bigSep_exists_pi (Y := fun _ : Fin 16 => Buf (Elt F) ℓ) Finset.univ (fun s (f : Buf (Elt F) ℓ) => iprop((ℓ ↦[Ks s]{fullShare} f) ∗ ⌜G s f⌝))).trans ?_
  iintro ⟨%fs, H⟩
  have hswap : (bigSep Finset.univ fun s : Fin 16 => iprop((ℓ ↦[Ks s]{fullShare} fs s) ∗ ⌜G s (fs s)⌝) : sProp 𝕄)
      ⊢ bigSep Finset.univ fun s : Fin 16 => iprop(⌜G s (fs s)⌝ ∗ (ℓ ↦[Ks s]{fullShare} fs s)) := by
    refine bigSep_mono fun s _ => ?_
    show (iprop((ℓ ↦[Ks s]{fullShare} fs s) ∗ ⌜G s (fs s)⌝) : sProp 𝕄) ⊢ iprop(⌜G s (fs s)⌝ ∗ (ℓ ↦[Ks s]{fullShare} fs s))
    iintro ⟨Hp, %hg⟩
    isplitr
    · ipureintro; exact hg
    · iexact Hp
  ihave H1 := hswap $$ H
  ihave H2 := (bigSep_pure_sep Finset.univ (fun s => G s (fs s)) (fun s => ℓ ↦[Ks s]{fullShare} fs s)) $$ H1
  icases H2 with ⟨%hfs, H3⟩
  ihave H4 := (pointsTo_biUnion_join Finset.univ Ks fs f₀ hK) $$ H3
  icases H4 with ⟨%g, %hg, Hg⟩
  iexists g
  isplitl [Hg]; · iexact Hg
  ipureintro
  exact fun s => hG s (fs s) g (fun i hi => (hg s (Finset.mem_univ s) i hi).symm) (hfs s (Finset.mem_univ s))

end Pieces

/-! ## One SparseCore's share, dealt and gathered -/

variable (m : (ℓ : Loc nD τ sig) → Buf (Elt F) ℓ)
variable (X : (d : Dev nD) → Buf (Elt F) (xLoc d))
variable (GM : (d : Dev nD) → grid1.Coords → Buf (Elt F) (mLoc d) → Prop) (GV : (d : Dev nD) → grid1.Coords → Buf (Elt F) (vLoc d) → Prop)

/-- A family over the call's subcores is the family over sixteen. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- SparseCore `c`'s share becomes its sixteen tiles' shares, and the tiles' returns become the SparseCore's. -/
theorem core_split
    (hGM : ∀ d L (f f' : Buf (Elt F) (mLoc d)), (∀ i ∈ mSet L, f i = f' i) → GM d L f → GM d L f')
    (hGV : ∀ d L (f f' : Buf (Elt F) (vLoc d)), (∀ i ∈ vSet L, f i = f' i) → GV d L f → GV d L f')
    (d : Dev nD) (c : Fin 2) :
    coreSt m X d c ⊢ |={Set.univ}=> iprop((bigSep Finset.univ fun s : Fin 16 => tileGo m X d c s)
      ∗ ((bigSep Finset.univ fun s : Fin 16 => tileTd m X GM GV d c s) -∗ coreDn m X GM GV d c)) := by
  unfold coreSt tileGo tileTd coreDn
  rw [bigSep_sep', bigSep_sep', bigSep_sep', bigSep_sep', bigSep_sep', bigSep_sep']
  iintro ⟨Hx, Ht, Hm, Hv⟩
  ihave Hx' := (Transfers.pointsTo_toks_split (coreQ c) 16) $$ Hx
  icases Hx' with ⟨Hxr, Hxs⟩
  ihave Ht' := (Transfers.pointsTo_toks_split (coreQ c) 16) $$ Ht
  icases Ht' with ⟨Htr, Hts⟩
  ihave Hm' := (pieces_split (F := F) (ℓ := mLoc d) (fun s : Fin 16 => mSet (coordsV c s)) (mSets_disjoint c)) $$ Hm
  ihave Hv' := (pieces_split (F := F) (ℓ := vLoc d) (fun s : Fin 16 => vSet (coordsV c s)) (vSets_disjoint c)) $$ Hv
  imodintro
  isplitl [Hxs Hts Hm' Hv']
  · isplitl [Hxs]; · iexact Hxs
    isplitl [Hts]; · iexact Hts
    isplitl [Hm']; · iexact Hm'
    iexact Hv'
  iintro ⟨Hxs, Hts, Hms, Hvs⟩
  isplitl [Hxr Hxs]
  · iapply (Transfers.pointsTo_toks_join (coreQ c) 16)
    isplitl [Hxr]; · iexact Hxr
    iexact Hxs
  isplitl [Htr Hts]
  · iapply (Transfers.pointsTo_toks_join (coreQ c) 16)
    isplitl [Htr]; · iexact Htr
    iexact Hts
  isplitl [Hms]
  · iapply (pieces_join (F := F) (ℓ := mLoc d) (fun s : Fin 16 => mSet (coordsV c s)) (mSets_disjoint c)
      (m (mLoc d)) (fun s => GM d (coordsV c s)) (fun s => hGM d (coordsV c s)))
    iexact Hms
  · iapply (pieces_join (F := F) (ℓ := vLoc d) (fun s : Fin 16 => vSet (coordsV c s)) (vSets_disjoint c)
      (m (vLoc d)) (fun s => GV d (coordsV c s)) (fun s => hGV d (coordsV c s)))
    iexact Hvs

/-- THE CALL'S DEAL: each SparseCore's share yields its tiles' shares, and a way back from the tiles' returns to the
    SparseCore's return. -/
theorem vecSplit (m : (ℓ : Loc nD τ sig) → Buf (Elt F) ℓ) (X : (d : Dev nD) → Buf (Elt F) (xLoc d))
    (GM : (d : Dev nD) → grid1.Coords → Buf (Elt F) (mLoc d) → Prop) (GV : (d : Dev nD) → grid1.Coords → Buf (Elt F) (vLoc d) → Prop)
    (hGM : ∀ d L (f f' : Buf (Elt F) (mLoc d)), (∀ i ∈ mSet L, f i = f' i) → GM d L f → GM d L f')
    (hGV : ∀ d L (f f' : Buf (Elt F) (vLoc d)), (∀ i ∈ vSet L, f i = f' i) → GV d L f → GV d L f') :
    (K (F := F)).VecSplit' (P m X GM GV) 0 := by
  intro d c
  show coreSt m X d (Fin.cast nCore_zero c) ⊢ |={Set.univ}=> iprop(
      (bigSep Finset.univ fun i : Fin ((K (F := F)).nSub 0) => tileGo m X d (Fin.cast nCore_zero c) (Fin.cast nSub_zero i))
      ∗ ((bigSep Finset.univ fun i : Fin ((K (F := F)).nSub 0) =>
          tileTd m X GM GV d (Fin.cast nCore_zero c) (Fin.cast nSub_zero i)) -∗ coreDn m X GM GV d (Fin.cast nCore_zero c)))
  rw [bigSep_tasks (F := F) (fun s => tileGo m X d (Fin.cast nCore_zero c) s),
    bigSep_tasks (F := F) (fun s => tileTd m X GM GV d (Fin.cast nCore_zero c) s)]
  exact core_split m X GM GV hGM hGV d (Fin.cast nCore_zero c)

end Cert.Proof.KernelIdealP

end
-- ==== Proof.MainI.lean ====
/-
  @main on the TensorCore, and the launch element. @main transposes the table and reshapes the target words (two host
  operations), runs the TensorCore region, starts the SparseCore call and waits for it, and finishes with the host
  operations that combine the two calls' results. Its proof holds every unscoped array of the device as ONE set at a
  valuation that each step rewrites: the host operations at their results; the region at its result array; the
  SparseCore call, which is lent a read token of the two inputs per SparseCore and each SparseCore's sixteen pieces
  of the two result arrays (the two halves are disjoint and cover the array), at whatever contents come back, of which
  every tile's property holds. The launch element is the handshakes' rounds beside the pipeline's staging cells'.
-/
import proofs.«203171_g79482664779815_cont_9to1_m_1298_18_alg».proof.Proof.CommonI
import proofs.«203171_g79482664779815_cont_9to1_m_1298_18_alg».proof.Proof.PayI
import proofs.«203171_g79482664779815_cont_9to1_m_1298_18_alg».proof.Proof.RegionDataI
import proofs.«203171_g79482664779815_cont_9to1_m_1298_18_alg».proof.Proof.RegionBodyI
import Idealize.ShloMosaic.Lib.Pipeline.Regions
import proofs.«203171_g79482664779815_cont_9to1_m_1298_18_alg».proof.Proof.RegionI
import proofs.«203171_g79482664779815_cont_9to1_m_1298_18_alg».proof.Proof.TailI
import proofs.«203171_g79482664779815_cont_9to1_m_1298_18_alg».proof.Proof.VecSplitI
import Idealize.ShloMosaic.Lib.StableHlo.Run
import Idealize.ShloMosaic.Lib.Transfers
import Idealize.ShloMosaic.Lib.Pipeline.FrameBody
import Idealize.ShloMosaic.Lib.Pipeline.Frame
import Idealize.ShloMosaic.Lib.Pipeline.Value
import Idealize.ShloMosaic.Lib.WholeRead
import Idealize.ShloMosaic.Lib.ValueIdx

noncomputable section

namespace Cert.Proof.KernelIdealP

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo (held held_split held_sdiff_result wp_hlo_within)

variable {F : FTy → Type} [FloatOps F]

local notation "𝕄" => MT nD τ sig (HIx 1) (Elt F) ℕ UU ℕ
variable (m : (ℓ : Loc nD τ sig) → Buf (Elt F) ℓ) (ρ : Dev nD → PrngReg)

/-! ## The two SparseCores' halves of a result array -/

/-- Every [1, 128] rectangle of the [4, 1024] array at a row and a multiple of 128 columns is some tile's piece. -/
theorem piece_at : ∀ (r : Fin 4) (b : Fin 8), ∃ c : Fin 2, ∃ s : Fin 16,
    k1_off48 (coordsV c s) 0 = r.val ∧ k1_off48 (coordsV c s) 1 = 128 * b.val := by decide +kernel

theorem pieces_cover (i : S4x1024.Idx) : ∃ c : Fin 2, ∃ s : Fin 16, i ∈ (pieceRect (coordsV c s)).set := by
  have h0 : (i 0 : ℕ) < 4 := (i 0).isLt
  have h1 : (i 1 : ℕ) < 1024 := (i 1).isLt
  obtain ⟨c, s, e0, e1⟩ := piece_at ⟨(i 0 : ℕ), h0⟩ ⟨(i 1 : ℕ) / 128, by omega⟩
  refine ⟨c, s, Rect.mem_set_unit.mpr fun a => ?_⟩
  match a with
  | ⟨0, _⟩ =>
    show k1_off48 (coordsV c s) 0 ≤ (i 0 : ℕ) ∧ (i 0 : ℕ) < k1_off48 (coordsV c s) 0 + 1
    rw [e0]; dsimp only; omega
  | ⟨1, _⟩ =>
    show k1_off48 (coordsV c s) 1 ≤ (i 1 : ℕ) ∧ (i 1 : ℕ) < k1_off48 (coordsV c s) 1 + 128
    rw [e1]; dsimp only; omega

theorem coreMSet_cover : (Finset.univ : Finset (Fin 2)).biUnion coreMSet = Finset.univ := by
  ext i
  simp only [Finset.mem_biUnion, Finset.mem_univ, true_and, iff_true]
  obtain ⟨c, s, h⟩ := pieces_cover i
  exact ⟨c, s, by rw [mSet_eq]; exact h⟩
theorem coreVSet_cover : (Finset.univ : Finset (Fin 2)).biUnion coreVSet = Finset.univ := by
  ext i
  simp only [Finset.mem_biUnion, Finset.mem_univ, true_and, iff_true]
  obtain ⟨c, s, h⟩ := pieces_cover i
  exact ⟨c, s, by rw [vSet_eq]; exact h⟩

theorem coreMSets_disjoint : ∀ c ∈ (Finset.univ : Finset (Fin 2)), ∀ c' ∈ (Finset.univ : Finset (Fin 2)), c ≠ c' → Disjoint (coreMSet c) (coreMSet c') :=
  fun c _ c' _ h => by
    rw [Finset.disjoint_biUnion_left]; intro s _
    rw [Finset.disjoint_biUnion_right]; intro s' _
    rw [mSet_eq, mSet_eq]; exact pieces_disjoint fun e => h (congrFun e 0)
theorem coreVSets_disjoint : ∀ c ∈ (Finset.univ : Finset (Fin 2)), ∀ c' ∈ (Finset.univ : Finset (Fin 2)), c ≠ c' → Disjoint (coreVSet c) (coreVSet c') :=
  fun c _ c' _ h => by
    rw [Finset.disjoint_biUnion_left]; intro s _
    rw [Finset.disjoint_biUnion_right]; intro s' _
    rw [vSet_eq, vSet_eq]; exact pieces_disjoint fun e => h (congrFun e 0)

/-! ## The TensorCore's unscoped buffers as one held set -/

/-- Every unscoped buffer of the TensorCore. -/
def Sall : Finset (DevRef τ sig) :=
  (Finset.univ.filter fun b : Ref sig .tc => ¬ b.isScoped).map ⟨Proc.devRef (sig := sig) (.tc : Proc τ), Proc.devRef_injective _⟩

omit [FloatOps F] in
theorem unscoped_held (d : Dev nD) (V : Valuation τ sig (Elt F)) :
    (unscopedBufs d (fun b => V (Proc.devRef .tc b)) : sProp 𝕄) = held (SparseCore.T d) Sall V := by
  unfold unscopedBufs held Sall
  rw [BI.bigSep_map]; rfl

/-- The host operations after the calls. -/
def tailOps : List (HloOp τ sig (Elt F)) :=
  [StableHlo.unary main_v2 main_v4 ((extractStridedSlice S1x1024 ![0, 0] · slices_S2x1024_S1x1024_0_0) : (⟨S2x1024, .f32⟩ : BufTy).Contents (Elt F) → (⟨S1x1024, .f32⟩ : BufTy).Contents (Elt F)),
   StableHlo.reshape main_v4 main_v5 rfl shapeCasts_S1x1024_S1024,
   StableHlo.nullary main_cst (constant S_ .f32 0xFF800000#32),
   StableHlo.binary main_v3_0 main_cst main_v6 ((fun x v => Host.reduce FloatOps.maximumf x v reducesTo_S4x1024_S1024_d0 h_S_) : (⟨S4x1024, .f32⟩ : BufTy).Contents (Elt F) → (⟨S_, .f32⟩ : BufTy).Contents (Elt F) → (⟨S1024, .f32⟩ : BufTy).Contents (Elt F)),
   StableHlo.binary main_v5 main_v6 main_v7 (maximumf : (⟨S1024, .f32⟩ : BufTy).Contents (Elt F) → (⟨S1024, .f32⟩ : BufTy).Contents (Elt F) → (⟨S1024, .f32⟩ : BufTy).Contents (Elt F)),
   StableHlo.unary main_v2 main_v8 ((extractStridedSlice S1x1024 ![1, 0] · slices_S2x1024_S1x1024_1_0) : (⟨S2x1024, .f32⟩ : BufTy).Contents (Elt F) → (⟨S1x1024, .f32⟩ : BufTy).Contents (Elt F)),
   StableHlo.reshape main_v8 main_v9 rfl shapeCasts_S1x1024_S1024,
   StableHlo.nullary main_cst_0 (constant S_ .f32 0xFF800000#32),
   StableHlo.binary main_v3_1 main_cst_0 main_v10 ((fun x v => Host.reduce FloatOps.maximumf x v reducesTo_S4x1024_S1024_d0 h_S_) : (⟨S4x1024, .f32⟩ : BufTy).Contents (Elt F) → (⟨S_, .f32⟩ : BufTy).Contents (Elt F) → (⟨S1024, .f32⟩ : BufTy).Contents (Elt F)),
   StableHlo.binary main_v9 main_v10 main_v11 (maximumf : (⟨S1024, .f32⟩ : BufTy).Contents (Elt F) → (⟨S1024, .f32⟩ : BufTy).Contents (Elt F) → (⟨S1024, .f32⟩ : BufTy).Contents (Elt F)),
   StableHlo.binary main_v7 main_v11 main_v12 (subf : (⟨S1024, .f32⟩ : BufTy).Contents (Elt F) → (⟨S1024, .f32⟩ : BufTy).Contents (Elt F) → (⟨S1024, .f32⟩ : BufTy).Contents (Elt F))]

/-- @main: the two host operations, the TensorCore call, the SparseCore call, the host operations after them. -/
theorem main_eq (d : Dev nD) : main (F := F) d =
    (StableHlo.seq [opT (F := F), opR (F := F)] >>= fun _ =>
      (Prog.lift (.customCall (SparseCore.inner (Pipeline.entry 0)) ()) >>= fun _ =>
        ((K (F := F)).run d 0 >>= fun _ => StableHlo.seq (tailOps (F := F))))) := rfl

/-! ## Every host operation touches unscoped buffers of the TensorCore only -/

omit [FloatOps F] in
theorem mem_Sall_of {b : DevRef τ sig} (h1 : b ∈ StableHlo.tcRefs τ sig) (h2 : b.isScoped = false) : b ∈ Sall := by
  obtain ⟨x, -, rfl⟩ := Finset.mem_map.mp h1
  exact Finset.mem_map.mpr ⟨x, Finset.mem_filter.mpr ⟨Finset.mem_univ _, by simpa using h2⟩, rfl⟩

theorem pre_sub : ∀ op ∈ [opT (F := F), opR (F := F)], op.bufs ⊆ Sall := fun op hop b hb =>
  mem_Sall_of ((show ∀ op ∈ [opT (F := F), opR (F := F)], op.bufs ⊆ StableHlo.tcRefs τ sig from by simp) op hop hb) (op.no_scoped b hb)
theorem pre_fresh : ∀ op ∈ [opT (F := F), opR (F := F)], op.fresh = ∅ := by simp [opT, opR]; constructor <;> rfl
theorem tail_sub : ∀ op ∈ tailOps (F := F), op.bufs ⊆ Sall := fun op hop b hb =>
  mem_Sall_of ((show ∀ op ∈ tailOps (F := F), op.bufs ⊆ StableHlo.tcRefs τ sig from by simp [tailOps]) op hop hb) (op.no_scoped b hb)
theorem tail_fresh : ∀ op ∈ tailOps (F := F), op.fresh = ∅ := by
  intro op hop
  simp only [tailOps, List.mem_cons, List.mem_nil_iff, or_false] at hop
  rcases hop with rfl | rfl | rfl | rfl | rfl | rfl | rfl | rfl | rfl | rfl | rfl <;> rfl

/-! ## The SparseCore call's operands, dealt to the two SparseCores and gathered back -/

theorem core_union_m : coreMSet 0 ∪ coreMSet 1 = Finset.univ := by
  rw [← coreMSet_cover, show (Finset.univ : Finset (Fin 2)) = {0, 1} by decide, Finset.biUnion_insert, Finset.singleton_biUnion]
theorem core_union_v : coreVSet 0 ∪ coreVSet 1 = Finset.univ := by
  rw [← coreVSet_cover, show (Finset.univ : Finset (Fin 2)) = {0, 1} by decide, Finset.biUnion_insert, Finset.singleton_biUnion]
theorem core_disj_m : Disjoint (coreMSet 0) (coreMSet 1) := coreMSets_disjoint 0 (Finset.mem_univ _) 1 (Finset.mem_univ _) (by decide)
theorem core_disj_v : Disjoint (coreVSet 0) (coreVSet 1) := coreVSets_disjoint 0 (Finset.mem_univ _) 1 (Finset.mem_univ _) (by decide)

theorem coords_eq (L : grid1.Coords) : L = coordsV (L 0) (L 1) := by
  funext a; match a with | ⟨0, _⟩ => rfl | ⟨1, _⟩ => rfl

section Call
variable (GM : (d : Dev nD) → grid1.Coords → Buf (Elt F) (mLoc d) → Prop) (GV : (d : Dev nD) → grid1.Coords → Buf (Elt F) (vLoc d) → Prop)

omit [FloatOps F] in
theorem st0_eq (X' : (d : Dev nD) → Buf (Elt F) (xLoc d)) (d : Dev nD) :
    (bigSep Finset.univ fun c : Fin ((K (F := F)).nCore 0) => (P m X' GM GV).st 0 d c : sProp 𝕄) = iprop(coreSt m X' d 0 ∗ coreSt m X' d 1) := by
  show (bigSep (Finset.univ : Finset (Fin 2)) fun c => coreSt m X' d c) = _
  rw [show (Finset.univ : Finset (Fin 2)) = {0, 1} by decide, SparseCore.bigSep_insert' (by decide), bigSep_singleton]
omit [FloatOps F] in
theorem dn0_eq (X' : (d : Dev nD) → Buf (Elt F) (xLoc d)) (d : Dev nD) :
    (bigSep Finset.univ fun c : Fin ((K (F := F)).nCore 0) => (P m X' GM GV).dn 0 d c : sProp 𝕄) = iprop(coreDn m X' GM GV d 0 ∗ coreDn m X' GM GV d 1) := by
  show (bigSep (Finset.univ : Finset (Fin 2)) fun c => coreDn m X' GM GV d c) = _
  rw [show (Finset.univ : Finset (Fin 2)) = {0, 1} by decide, SparseCore.bigSep_insert' (by decide), bigSep_singleton]

omit [FloatOps F] in
/-- A whole array's full share is a remainder and one read token per SparseCore. -/
theorem toks2 {ℓ : Loc nD τ sig} (f : Buf (Elt F) ℓ) :
    (ℓ ↦{fullShare} f : sProp 𝕄) ⊣⊢ iprop((ℓ ↦{Transfers.shareDrop fullShare 2} f) ∗ (ℓ ↦{coreQ 0} f) ∗ (ℓ ↦{coreQ 1} f)) := by
  have h := Transfers.pointsTo_toks (Ix := HIx 1) (Name := ℕ) (U := UU) (Lvl := ℕ) (ℓ := ℓ) (S := Finset.univ) (f := f) fullShare 2
  rw [show (Finset.univ : Finset (Fin 2)) = {0, 1} by decide, SparseCore.bigSep_insert' (by decide), bigSep_singleton] at h
  exact h

omit [FloatOps F] in
/-- The operands dealt: each SparseCore its read tokens and its half of each result array. -/
theorem call_in (X' : (d : Dev nD) → Buf (Elt F) (xLoc d)) (d : Dev nD) (fm : Buf (Elt F) (mLoc d)) (fv : Buf (Elt F) (vLoc d)) :
    iprop((xLoc d ↦{fullShare} X' d) ∗ (tLoc d ↦{fullShare} m (tLoc d)) ∗ (mLoc d ↦{fullShare} fm) ∗ (vLoc d ↦{fullShare} fv))
      ⊢ (iprop((coreSt m X' d 0 ∗ coreSt m X' d 1)
          ∗ (xLoc d ↦{Transfers.shareDrop fullShare 2} X' d) ∗ (tLoc d ↦{Transfers.shareDrop fullShare 2} m (tLoc d))) : sProp 𝕄) := by
  have hm : (mLoc d ↦{fullShare} fm : sProp 𝕄) ⊢ iprop((mLoc d ↦[coreMSet 0]{fullShare} fm) ∗ (mLoc d ↦[coreMSet 1]{fullShare} fm)) := by
    rw [show (Finset.univ : Finset (Idx (mLoc d))) = coreMSet 0 ∪ coreMSet 1 from core_union_m.symm]; exact (pointsTo_union core_disj_m).1
  have hv : (vLoc d ↦{fullShare} fv : sProp 𝕄) ⊢ iprop((vLoc d ↦[coreVSet 0]{fullShare} fv) ∗ (vLoc d ↦[coreVSet 1]{fullShare} fv)) := by
    rw [show (Finset.univ : Finset (Idx (vLoc d))) = coreVSet 0 ∪ coreVSet 1 from core_union_v.symm]; exact (pointsTo_union core_disj_v).1
  unfold coreSt
  iintro ⟨Hx, Ht, Hm, Hv⟩
  ihave Hx' := (toks2 (X' d)).1 $$ Hx
  icases Hx' with ⟨Hxd, Hx0, Hx1⟩
  ihave Ht' := (toks2 (m (tLoc d))).1 $$ Ht
  icases Ht' with ⟨Htd, Ht0, Ht1⟩
  ihave Hm' := hm $$ Hm
  icases Hm' with ⟨Hm0, Hm1⟩
  ihave Hv' := hv $$ Hv
  icases Hv' with ⟨Hv0, Hv1⟩
  isplitr [Hxd Htd]
  · isplitl [Hx0 Ht0 Hm0 Hv0]
    · isplitl [Hx0]; · iexact Hx0
      isplitl [Ht0]; · iexact Ht0
      isplitl [Hm0]; · iexists fm; iexact Hm0
      iexists fv; iexact Hv0
    · isplitl [Hx1]; · iexact Hx1
      isplitl [Ht1]; · iexact Ht1
      isplitl [Hm1]; · iexists fm; iexact Hm1
      iexists fv; iexact Hv1
  isplitl [Hxd]; · iexact Hxd
  iexact Htd

end Call

section CallOut
variable (GM : (d : Dev nD) → grid1.Coords → Buf (Elt F) (mLoc d) → Prop) (GV : (d : Dev nD) → grid1.Coords → Buf (Elt F) (vLoc d) → Prop)

omit [FloatOps F] in
theorem fin2_cases (c : Fin 2) : c = 0 ∨ c = 1 := by
  rcases c with ⟨n, hn⟩
  rcases n with _ | _ | n
  · exact .inl rfl
  · exact .inr rfl
  · omega

omit [FloatOps F] in
/-- The two halves joined: every tile's property of the first result array holds of the joined contents. -/
theorem GM_join (hGM : ∀ d L (f f' : Buf (Elt F) (mLoc d)), (∀ i ∈ mSet L, f i = f' i) → GM d L f → GM d L f')
    (d : Dev nD) (f0 f1 : Buf (Elt F) (mLoc d)) (h0 : ∀ s : Fin 16, GM d (coordsV (0 : Fin 2) s) f0) (h1 : ∀ s : Fin 16, GM d (coordsV (1 : Fin 2) s) f1)
    (L : grid1.Coords) : GM d L ((coreMSet 1).piecewise f1 f0) := by
  rw [coords_eq L]
  generalize L 1 = s
  rcases fin2_cases (L 0) with hc | hc <;> rw [hc]
  · exact hGM d _ f0 _ (fun i hi => by
      have hn : i ∉ coreMSet 1 := fun h1' => (Finset.disjoint_left.mp core_disj_m) (Finset.mem_biUnion.mpr ⟨s, Finset.mem_univ _, hi⟩) h1'
      exact (Finset.piecewise_eq_of_notMem _ _ _ hn).symm) (h0 s)
  · exact hGM d _ f1 _ (fun i hi => (Finset.piecewise_eq_of_mem _ _ _ (Finset.mem_biUnion.mpr ⟨s, Finset.mem_univ _, hi⟩)).symm) (h1 s)

omit [FloatOps F] in
theorem GV_join (hGV : ∀ d L (f f' : Buf (Elt F) (vLoc d)), (∀ i ∈ vSet L, f i = f' i) → GV d L f → GV d L f')
    (d : Dev nD) (f0 f1 : Buf (Elt F) (vLoc d)) (h0 : ∀ s : Fin 16, GV d (coordsV (0 : Fin 2) s) f0) (h1 : ∀ s : Fin 16, GV d (coordsV (1 : Fin 2) s) f1)
    (L : grid1.Coords) : GV d L ((coreVSet 1).piecewise f1 f0) := by
  rw [coords_eq L]
  generalize L 1 = s
  rcases fin2_cases (L 0) with hc | hc <;> rw [hc]
  · exact hGV d _ f0 _ (fun i hi => by
      have hn : i ∉ coreVSet 1 := fun h1' => (Finset.disjoint_left.mp core_disj_v) (Finset.mem_biUnion.mpr ⟨s, Finset.mem_univ _, hi⟩) h1'
      exact (Finset.piecewise_eq_of_notMem _ _ _ hn).symm) (h0 s)
  · exact hGV d _ f1 _ (fun i hi => (Finset.piecewise_eq_of_mem _ _ _ (Finset.mem_biUnion.mpr ⟨s, Finset.mem_univ _, hi⟩)).symm) (h1 s)

omit [FloatOps F] in
/-- The operands gathered: the read tokens rejoin, the two halves of each result array join at ONE contents of which
    every tile's property holds. -/
theorem call_out (hGM : ∀ d L (f f' : Buf (Elt F) (mLoc d)), (∀ i ∈ mSet L, f i = f' i) → GM d L f → GM d L f')
    (hGV : ∀ d L (f f' : Buf (Elt F) (vLoc d)), (∀ i ∈ vSet L, f i = f' i) → GV d L f → GV d L f')
    (X' : (d : Dev nD) → Buf (Elt F) (xLoc d)) (d : Dev nD) :
    iprop((coreDn m X' GM GV d 0 ∗ coreDn m X' GM GV d 1)
        ∗ (xLoc d ↦{Transfers.shareDrop fullShare 2} X' d) ∗ (tLoc d ↦{Transfers.shareDrop fullShare 2} m (tLoc d)))
      ⊢ (iprop((xLoc d ↦{fullShare} X' d) ∗ (tLoc d ↦{fullShare} m (tLoc d))
          ∗ ∃ (rm : Buf (Elt F) (mLoc d)) (rv : Buf (Elt F) (vLoc d)), ⌜(∀ L, GM d L rm) ∧ (∀ L, GV d L rv)⌝
              ∗ (mLoc d ↦{fullShare} rm) ∗ (vLoc d ↦{fullShare} rv)) : sProp 𝕄) := by
  have hm (f : Buf (Elt F) (mLoc d)) : (mLoc d ↦[coreMSet 0 ∪ coreMSet 1]{fullShare} f : sProp 𝕄) ⊢ (mLoc d ↦{fullShare} f) := by
    rw [show (Finset.univ : Finset (Idx (mLoc d))) = coreMSet 0 ∪ coreMSet 1 from core_union_m.symm]
  have hv (f : Buf (Elt F) (vLoc d)) : (vLoc d ↦[coreVSet 0 ∪ coreVSet 1]{fullShare} f : sProp 𝕄) ⊢ (vLoc d ↦{fullShare} f) := by
    rw [show (Finset.univ : Finset (Idx (vLoc d))) = coreVSet 0 ∪ coreVSet 1 from core_union_v.symm]
  unfold coreDn
  iintro ⟨⟨⟨Hx0, Ht0, ⟨%fm0, Hm0, %hm0⟩, ⟨%fv0, Hv0, %hv0⟩⟩, ⟨Hx1, Ht1, ⟨%fm1, Hm1, %hm1⟩, ⟨%fv1, Hv1, %hv1⟩⟩⟩, Hxd, Htd⟩
  isplitl [Hxd Hx0 Hx1]
  · iapply (toks2 (X' d)).2
    isplitl [Hxd]; · iexact Hxd
    isplitl [Hx0]; · iexact Hx0
    iexact Hx1
  isplitl [Htd Ht0 Ht1]
  · iapply (toks2 (m (tLoc d))).2
    isplitl [Htd]; · iexact Htd
    isplitl [Ht0]; · iexact Ht0
    iexact Ht1
  iexists ((coreMSet 1).piecewise fm1 fm0); iexists ((coreVSet 1).piecewise fv1 fv0)
  isplitr
  · ipureintro; exact ⟨GM_join GM hGM d fm0 fm1 hm0 hm1, GV_join GV hGV d fv0 fv1 hv0 hv1⟩
  isplitl [Hm0 Hm1]
  · iapply (hm _)
    iapply (pointsTo_join core_disj_m)
    isplitl [Hm0]; · iexact Hm0
    iexact Hm1
  iapply (hv _)
  iapply (pointsTo_join core_disj_v)
  isplitl [Hv0]; · iexact Hv0
  iexact Hv1

end CallOut

/-! ## The buffers' contents along @main -/

abbrev x' : DevRef τ sig := Proc.devRef .tc (main_v0 : Ref sig .tc)
abbrev t' : DevRef τ sig := Proc.devRef .tc (main_arg1 : Ref sig .tc)
abbrev m' : DevRef τ sig := Proc.devRef .tc (main_v3_0 : Ref sig .tc)
abbrev v' : DevRef τ sig := Proc.devRef .tc (main_v3_1 : Ref sig .tc)
abbrev a0' : DevRef τ sig := Proc.devRef .tc (main_arg0 : Ref sig .tc)
abbrev o' : DevRef τ sig := Proc.devRef .tc (main_v2 : Ref sig .tc)
abbrev r12' : DevRef τ sig := Proc.devRef .tc (main_v12 : Ref sig .tc)

/-- The SparseCore call's four arrays, -/
def S4 : Finset (DevRef τ sig) := {x', t', m', v'}
/-- and the three the claim reads. -/
def S3 : Finset (DevRef τ sig) := {a0', t', r12'}

theorem S4_sub : S4 ⊆ Sall := by
  intro b hb
  simp only [S4, Finset.mem_insert, Finset.mem_singleton] at hb
  rcases hb with rfl | rfl | rfl | rfl <;> exact mem_Sall_of (StableHlo.devRef_mem_tcRefs _) rfl
theorem S3_sub : S3 ⊆ Sall := by
  intro b hb
  simp only [S3, Finset.mem_insert, Finset.mem_singleton] at hb
  rcases hb with rfl | rfl | rfl <;> exact mem_Sall_of (StableHlo.devRef_mem_tcRefs _) rfl

omit [FloatOps F] in
theorem held_S4 (d : Dev nD) (W : Valuation τ sig (Elt F)) :
    (held (SparseCore.T d) S4 W : sProp 𝕄) = iprop((xLoc d ↦{fullShare} W x') ∗ (tLoc d ↦{fullShare} W t') ∗ (mLoc d ↦{fullShare} W m') ∗ (vLoc d ↦{fullShare} W v')) := by
  unfold held S4
  rw [SparseCore.bigSep_insert' (by decide), SparseCore.bigSep_insert' (by decide), SparseCore.bigSep_insert' (by decide), bigSep_singleton]
omit [FloatOps F] in
theorem held_S3 (d : Dev nD) (W : Valuation τ sig (Elt F)) :
    (held (SparseCore.T d) S3 W : sProp 𝕄) = iprop((((SparseCore.T d : Thread nD τ).loc main_arg0) ↦{fullShare} W a0') ∗ (tLoc d ↦{fullShare} W t')
      ∗ (((SparseCore.T d : Thread nD τ).loc main_v12) ↦{fullShare} W r12')) := by
  unfold held S3
  rw [SparseCore.bigSep_insert' (by decide), SparseCore.bigSep_insert' (by decide), bigSep_singleton]

theorem V2_t (d : Dev nD) : V2 m d t' = m (tLoc d) := by
  unfold V2
  exact (StableHlo.reshape_result_ne' (τ := τ) (x := main_arg1) (y := main_v1) rfl shapeCasts_S1024_S1x1024 _ _ _ (r := main_arg1) (by decide)).trans
    (StableHlo.unary_result_ne' (τ := τ) (x := main_arg0) (y := main_v0) _ _ _ _ (r := main_arg1) (by decide))
theorem V2_a0 (d : Dev nD) : V2 m d a0' = m ((SparseCore.T d : Thread nD τ).loc main_arg0) := by
  unfold V2
  exact (StableHlo.reshape_result_ne' (τ := τ) (x := main_arg1) (y := main_v1) rfl shapeCasts_S1024_S1x1024 _ _ _ (r := main_arg0) (by decide)).trans
    (StableHlo.unary_result_ne' (τ := τ) (x := main_arg0) (y := main_v0) _ _ _ _ (r := main_arg0) (by decide))

theorem V3_x (d : Dev nD) : V3 m d x' = X m d := Function.update_of_ne (by decide) _ _
theorem V3_t (d : Dev nD) : V3 m d t' = m (tLoc d) := (Function.update_of_ne (by decide) _ _).trans (V2_t m d)
theorem V3_a0 (d : Dev nD) : V3 m d a0' = m ((SparseCore.T d : Thread nD τ).loc main_arg0) := (Function.update_of_ne (by decide) _ _).trans (V2_a0 m d)
theorem V3_o (d : Dev nD) : V3 m d o' = RT m d := Function.update_self ..

/-- The buffers after the SparseCore call: its two results at `gm`, `gv`. -/
def V4 (d : Dev nD) (gm : Buf (Elt F) (mLoc d)) (gv : Buf (Elt F) (vLoc d)) : Valuation τ sig (Elt F) :=
  Function.update (Function.update (V3 m d) m' gm) v' gv

theorem V4_of_not_mem (d : Dev nD) (gm : Buf (Elt F) (mLoc d)) (gv : Buf (Elt F) (vLoc d)) {b : DevRef τ sig} (hm : b ≠ m') (hv : b ≠ v') :
    V4 m d gm gv b = V3 m d b := (Function.update_of_ne hv _ _).trans (Function.update_of_ne hm _ _)
theorem V4_x (d : Dev nD) (gm gv) : V4 m d gm gv x' = X m d := (V4_of_not_mem m d gm gv (by decide) (by decide)).trans (V3_x m d)
theorem V4_t (d : Dev nD) (gm gv) : V4 m d gm gv t' = m (tLoc d) := (V4_of_not_mem m d gm gv (by decide) (by decide)).trans (V3_t m d)
theorem V4_a0 (d : Dev nD) (gm gv) : V4 m d gm gv a0' = m ((SparseCore.T d : Thread nD τ).loc main_arg0) :=
  (V4_of_not_mem m d gm gv (by decide) (by decide)).trans (V3_a0 m d)
theorem V4_o (d : Dev nD) (gm gv) : V4 m d gm gv o' = RT m d := (V4_of_not_mem m d gm gv (by decide) (by decide)).trans (V3_o m d)
theorem V4_m (d : Dev nD) (gm gv) : V4 m d gm gv m' = gm := (Function.update_of_ne (by decide) _ _).trans (Function.update_self ..)
theorem V4_v (d : Dev nD) (gm gv) : V4 m d gm gv v' = gv := Function.update_self ..

theorem held_rest_V4 (d : Dev nD) (gm : Buf (Elt F) (mLoc d)) (gv : Buf (Elt F) (vLoc d)) :
    (held (SparseCore.T d) (Sall \ S4) (V4 m d gm gv) : sProp 𝕄) = held (SparseCore.T d) (Sall \ S4) (V3 m d) :=
  StableHlo.held_congr _ fun b hb => by
    have hn : b ∉ S4 := (Finset.mem_sdiff.mp hb).2
    exact V4_of_not_mem m d gm gv (fun h => hn (by rw [h]; simp [S4])) (fun h => hn (by rw [h]; simp [S4]))

/-- What the result buffer holds after the host tail: the tail's function of the region's result and the call's two. -/
theorem tail_v12 (d : Dev nD) (gm : Buf (Elt F) (mLoc d)) (gv : Buf (Elt F) (vLoc d)) :
    StableHlo.after (tailOps (F := F)) (V4 m d gm gv) r12' = tailOf (RT m d) gm gv := by
  unfold tailOps
  after_results
  rw [V4_o, V4_m, V4_v]
  rfl
theorem tail_a0 (d : Dev nD) (gm : Buf (Elt F) (mLoc d)) (gv : Buf (Elt F) (vLoc d)) :
    StableHlo.after (tailOps (F := F)) (V4 m d gm gv) a0' = m ((SparseCore.T d : Thread nD τ).loc main_arg0) := by
  unfold tailOps
  after_results
  exact V4_a0 m d gm gv
theorem tail_t (d : Dev nD) (gm : Buf (Elt F) (mLoc d)) (gv : Buf (Elt F) (vLoc d)) :
    StableHlo.after (tailOps (F := F)) (V4 m d gm gv) t' = m (tLoc d) := by
  unfold tailOps
  after_results
  exact V4_t m d gm gv

theorem held_S4_V3 (d : Dev nD) :
    (held (SparseCore.T d) S4 (V3 m d) : sProp 𝕄) = iprop((xLoc d ↦{fullShare} X m d) ∗ (tLoc d ↦{fullShare} m (tLoc d)) ∗ (mLoc d ↦{fullShare} V3 m d m') ∗ (vLoc d ↦{fullShare} V3 m d v')) := by
  rw [held_S4, V3_x, V3_t]
theorem held_S4_V4 (d : Dev nD) (gm : Buf (Elt F) (mLoc d)) (gv : Buf (Elt F) (vLoc d)) :
    (held (SparseCore.T d) S4 (V4 m d gm gv) : sProp 𝕄) = iprop((xLoc d ↦{fullShare} X m d) ∗ (tLoc d ↦{fullShare} m (tLoc d)) ∗ (mLoc d ↦{fullShare} gm) ∗ (vLoc d ↦{fullShare} gv)) := by
  rw [held_S4, V4_x, V4_t, V4_m, V4_v]
theorem held_S3_tail (d : Dev nD) (gm : Buf (Elt F) (mLoc d)) (gv : Buf (Elt F) (vLoc d)) :
    (held (SparseCore.T d) S3 (StableHlo.after (tailOps (F := F)) (V4 m d gm gv)) : sProp 𝕄)
      = iprop((((SparseCore.T d : Thread nD τ).loc main_arg0) ↦{fullShare} m ((SparseCore.T d : Thread nD τ).loc main_arg0)) ∗ (tLoc d ↦{fullShare} m (tLoc d))
        ∗ (((SparseCore.T d : Thread nD τ).loc main_v12) ↦{fullShare} tailOf (RT m d) gm gv)) := by
  rw [held_S3, tail_a0, tail_t, tail_v12]

variable (GM : (d : Dev nD) → grid1.Coords → Buf (Elt F) (mLoc d) → Prop) (GV : (d : Dev nD) → grid1.Coords → Buf (Elt F) (vLoc d) → Prop)

/-- The pipeline's staging cells' ghost state on device `d`, dealt at the launch. -/
abbrev G (d : Dev nD) : sProp 𝕄 :=
  iprop(Pipeline.cellsGhost (Pipeline.pin (pcfgs (F := F)) adm) EP 0 d ∗ Pipeline.toksInit (Pipeline.pin (pcfgs (F := F)) adm) EP 0 d)

/-- What @main leaves: the two arguments as launched, and the result at the host tail of the region's result and of
    SOME contents of the SparseCore call's two results of which every tile's property holds. -/
def FIN (d : Dev nD) : sProp 𝕄 :=
  iprop(∃ (rm : Buf (Elt F) (mLoc d)) (rv : Buf (Elt F) (vLoc d)), ⌜(∀ L, GM d L rm) ∧ (∀ L, GV d L rv)⌝
    ∗ (((SparseCore.T d : Thread nD τ).loc main_arg0) ↦{fullShare} m ((SparseCore.T d : Thread nD τ).loc main_arg0))
    ∗ (tLoc d ↦{fullShare} m (tLoc d))
    ∗ (((SparseCore.T d : Thread nD τ).loc main_v12) ↦{fullShare} tailOf (RT m d) rm rv))

theorem reg0_pre (d : Dev nD) : (reg0 m).pre d = iprop(unscopedBufs d (Vr m d) ∗ tcOwes d) := rfl
theorem reg0_post (d : Dev nD) : (reg0 m).post d = iprop(unscopedBufs d (Vr3 m d) ∗ tcOwes d) := rfl

omit [FloatOps F] in
theorem tcSt_split (d : Dev nD) : ∃ R : sProp 𝕄, ((K (F := F)).tcSt EH d 0 : sProp 𝕄) = iprop(tcOwes d ∗ R) := by
  unfold SparseCore.Cfg.tcSt tcOwes; exact ⟨_, rfl⟩

set_option backward.isDefEq.respectTransparency.types false in
theorem hmain (hGM : ∀ d L (f f' : Buf (Elt F) (mLoc d)), (∀ i ∈ mSet L, f i = f' i) → GM d L f → GM d L f')
    (hGV : ∀ d L (f f' : Buf (Elt F) (vLoc d)), (∀ i ∈ vSet L, f i = f' i) → GV d L f → GV d L f')
    (κ : GSem nD τ sig → ℕ) (d : Dev nD) :
    iprop((K (F := F)).ctx EH (P m (X m) GM GV) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m GM GV d) := by
  have hseq : (StableHlo.seq (tailOps (F := F)) : Prog (TpuEff nD τ sig (Elt F) (SparseCore.Sig (ΛP (F := F)) 1) .tc) PUnit) = (StableHlo.seq (tailOps (F := F)) >>= fun u => pure u) := (bind_pure _).symm
  rw [main_eq]
  obtain ⟨R, hR⟩ := tcSt_split (F := F) d
  rw [hR]
  unfold SparseCore.Cfg.tcRes
  rw [show (unscopedBufs d (fun b => m ((SparseCore.T d : Thread nD τ).loc b)) : sProp 𝕄) = held (SparseCore.T d) Sall (V0 m d) from unscoped_held d (V0 m d)]
  iintro ⟨#Hctx, ⟨Howes, HR⟩, ⟨Hb, Hheld, -, -⟩, ⟨Hcg, Htk⟩⟩
  ihave Hlev := (SparseCore.Cfg.ctx_levAts κ) $$ Hctx
  -- the two host operations
  iapply (StableHlo.wp_seq (𝒱 := 𝒱) (bd := none) (E := Set.univ) d Sall _ [opT (F := F), opR (F := F)] pre_sub pre_fresh (V0 m d)) $$ [Hb Hheld]
  · isplitl [Hb] <;> iassumption
  iintro ⟨Hb, Hheld⟩
  -- the TensorCore call: the region
  rw [wp_bind]
  iapply ((K (F := F)).wp_liftProg (D (F := F)) 𝒱 (SparseCore.T d) Set.univ none (Prog.lift (.customCall (Pipeline.entry 0) ())) _)
  iapply (Pipeline.RegionSeg.wp (pcfgs (F := F)) adm (pdats m) (none : HIx 1) cellOf_inj EP defs₀ 𝒱₀ (K (F := F)).L (K (F := F)).lev (reg0 m) d none (fun u hu => nomatch hu) (fun u => .ret u) _)
  isplitr [Hb Hheld Howes Hcg Htk]
  swap
  · isplitl [Hb]; · iexact Hb
    isplitl [Hheld Howes]
    · iapply (Entails.of_eq (reg0_pre m d).symm)
      isplitl [Hheld]
      · iapply (Entails.of_eq (unscoped_held d (V2 m d)).symm)
        iexact Hheld
      iexact Howes
    isplitr; · iexact Hlev
    isplitl [Hcg]; · iexact Hcg
    iexact Htk
  iintro ⟨Hb, Hpost⟩
  ihave Hp := (Entails.of_eq (reg0_post m d)) $$ Hpost
  icases Hp with ⟨Hub, Howes⟩
  ihave Hheld := (Entails.of_eq (unscoped_held d (V3 m d))) $$ Hub
  rw [wp_ret]; imodintro
  -- the SparseCore call
  rw [wp_bind]
  ihave Hs := (Entails.of_eq (StableHlo.held_sub_split (SparseCore.T d) S4_sub (V3 m d))) $$ Hheld
  icases Hs with ⟨H4, Hrest⟩
  ihave H4' := (Entails.of_eq (held_S4_V3 m d)) $$ H4
  ihave Hin := (call_in m (X m) d _ _) $$ H4'
  icases Hin with ⟨⟨Hst0, Hst1⟩, Hxd, Htd⟩
  iapply ((K (F := F)).wp_run (D (F := F)) 𝒱 (EH := EH) (P := P m (X m) GM GV) κ d 0) $$ [Howes HR Hst0 Hst1 Hb Hrest Hxd Htd]
  isplitr; · iexact Hctx
  isplitl [Howes HR]
  · iapply (Entails.of_eq hR.symm)
    isplitl [Howes]; · iexact Howes
    iexact HR
  isplitl [Hst0 Hst1]
  · iapply (Entails.of_eq (st0_eq m GM GV (X m) d).symm)
    isplitl [Hst0]; · iexact Hst0
    iexact Hst1
  iintro ⟨Hst, Hdn⟩
  ihave Hdn' := (Entails.of_eq (dn0_eq m GM GV (X m) d)) $$ Hdn
  ihave Hout := (call_out m GM GV hGM hGV (X m) d) $$ [Hdn' Hxd Htd]
  · isplitl [Hdn']; · iexact Hdn'
    isplitl [Hxd]; · iexact Hxd
    iexact Htd
  icases Hout with ⟨Hx, Ht, %rm, %rv, %hrmv, Hm, Hv⟩
  -- the held set again, the call's two results at what came back
  ihave Hrest' := (Entails.of_eq (held_rest_V4 m d rm rv).symm) $$ Hrest
  ihave Hheld := (Entails.of_eq (StableHlo.held_sub_split (SparseCore.T d) S4_sub (V4 m d rm rv)).symm) $$ [Hx Ht Hm Hv Hrest']
  · isplitr [Hrest']; swap; · iexact Hrest'
    iapply (Entails.of_eq (held_S4_V4 m d rm rv).symm)
    isplitl [Hx]; · iexact Hx
    isplitl [Ht]; · iexact Ht
    isplitl [Hm]; · iexact Hm
    iexact Hv
  -- the host tail
  rw [hseq]
  iapply (StableHlo.wp_seq (𝒱 := 𝒱) (bd := none) (E := Set.univ) d Sall _ (tailOps (F := F)) tail_sub tail_fresh (V4 m d rm rv)) $$ [Hb Hheld]
  · isplitl [Hb] <;> iassumption
  iintro ⟨Hb, Hheld⟩
  ihave Hs := (Entails.of_eq (StableHlo.held_sub_split (SparseCore.T d) S3_sub (StableHlo.after (tailOps (F := F)) (V4 m d rm rv)))) $$ Hheld
  icases Hs with ⟨H3, -⟩
  ihave H3' := (Entails.of_eq (held_S3_tail m d rm rv)) $$ H3
  icases H3' with ⟨Ha0, Ht, Hr⟩
  first | rw [wp_pure] | rw [wp_ret]
  imodintro
  try imodintro
  isplitl [Hst]; · iexact Hst
  unfold FIN
  iexists rm; iexists rv
  isplitr; · ipureintro; exact hrmv
  isplitl [Ha0]; · iexact Ha0
  isplitl [Ht]; · iexact Ht
  iexact Hr

/-! ## The launch element -/

omit [FloatOps F] in
theorem bigSep_emp' {I : Type} (s : Finset I) : (bigSep s fun _ => iprop(emp)) = (iprop(emp) : sProp 𝕄) := bigSep_emp_const s

/-- The launch element: the handshakes' rounds; the pipeline's staging cells' rounds; no counter. -/
def u₀ : UU := (initOf (K (F := F)).hsCells (K (F := F)).hsToks,
  (initOf (Pipeline.cells (nD := nD) (Pipeline.pin (pcfgs (F := F)) adm) cellOf_inj) (Pipeline.launchToks (nD := nD) (Pipeline.pin (pcfgs (F := F)) adm) cellOf_inj), 1))

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m (X m) GM GV).x q thr) := by
  have hG : iprop((bigSep Finset.univ fun c : Dev nD => bigSep Finset.univ fun p : Fin 1 => Pipeline.cellsGhost (Pipeline.pin (pcfgs (F := F)) adm) EP p c)
        ∗ (bigSep Finset.univ fun c : Dev nD => bigSep Finset.univ fun p : Fin 1 => (Pipeline.toksInit (Pipeline.pin (pcfgs (F := F)) adm) EP p c : sProp 𝕄)))
      ⊢ bigSep Finset.univ fun d : Dev nD => G (F := F) d := by
    rw [← bigSep_sep']
    refine bigSep_mono fun c _ => ?_
    rw [show (Finset.univ : Finset (Fin 1)) = {0} by decide, bigSep_singleton, bigSep_singleton]
    exact BI.Entails.refl _
  unfold u₀
  iintro Hu
  ihave H := (ownU_pair _ _) $$ Hu
  icases H with ⟨HH, HR⟩
  ihave H2 := (own_pair_emb embR _ _) $$ HR
  icases H2 with ⟨HP, -⟩
  imod (Pipeline.fund_ghost (Pipeline.pin (pcfgs (F := F)) adm) EP cellOf_inj) $$ HP with ⟨Hg, Ht⟩
  imodintro
  isplitl [HH]; · iexact HH
  isplitl [Hg Ht]
  · iapply hG
    isplitl [Hg]; · iexact Hg
    iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## What the final memory holds -/

def fq (d : Dev nD) (s' : Phys nD τ sig (Elt F)) : Prop :=
  (∃ (rm : Buf (Elt F) (mLoc d)) (rv : Buf (Elt F) (vLoc d)), (∀ L, GM d L rm) ∧ (∀ L, GV d L rv)
      ∧ s'.mem.mem ((SparseCore.T d : Thread nD τ).loc main_v12) = tailOf (RT m d) rm rv)
    ∧ s'.mem.mem ((SparseCore.T d : Thread nD τ).loc main_arg0) = m ((SparseCore.T d : Thread nD τ).loc main_arg0)
    ∧ s'.mem.mem (tLoc d) = m (tLoc d)

theorem hfin (d : Dev nD) (s' : Phys nD τ sig (Elt F)) : iprop(FIN m GM GV d ∗ SI s') ⊢ (⌜fq m GM GV d s'⌝ : sProp 𝕄) := by
  unfold FIN
  iintro ⟨⟨%rm, %rv, %h, Ha0, Ht, Hr⟩, HSI⟩
  icombine HSI Ha0 gives %h0
  icombine HSI Ht gives %h1
  icombine HSI Hr gives %h2
  ipureintro
  exact ⟨⟨rm, rv, h.1, h.2, funext fun i => h2 i (Finset.mem_univ i)⟩, funext fun i => h0 i (Finset.mem_univ i), funext fun i => h1 i (Finset.mem_univ i)⟩

end Cert.Proof.KernelIdealP
end
-- ==== Proof.LaunchI.lean ====
/-
  The program's run: every weakly fair execution of the device's threads terminates, and in every final memory the two
  arguments are as launched and the result is the host tail of the TensorCore region's result and of some contents of
  the SparseCore call's two results of which every tile's property holds. By the SparseCore launch theorem at the one
  vector-subcore call, from the tile's obligation and the split of a SparseCore's operands among its tiles.
-/
import proofs.«203171_g79482664779815_cont_9to1_m_1298_18_alg».proof.Proof.CommonI
import proofs.«203171_g79482664779815_cont_9to1_m_1298_18_alg».proof.Proof.PayI
import proofs.«203171_g79482664779815_cont_9to1_m_1298_18_alg».proof.Proof.RegionDataI
import proofs.«203171_g79482664779815_cont_9to1_m_1298_18_alg».proof.Proof.RegionBodyI
import Idealize.ShloMosaic.Lib.Pipeline.Regions
import proofs.«203171_g79482664779815_cont_9to1_m_1298_18_alg».proof.Proof.RegionI
import proofs.«203171_g79482664779815_cont_9to1_m_1298_18_alg».proof.Proof.TailI
import proofs.«203171_g79482664779815_cont_9to1_m_1298_18_alg».proof.Proof.VecSplitI
import Idealize.ShloMosaic.Lib.StableHlo.Run
import proofs.«203171_g79482664779815_cont_9to1_m_1298_18_alg».proof.Proof.MainI
import Idealize.ShloMosaic.Lib.Transfers
import Idealize.ShloMosaic.Lib.Pipeline.FrameBody
import Idealize.ShloMosaic.Lib.Pipeline.Frame
import Idealize.ShloMosaic.Lib.Pipeline.Value
import Idealize.ShloMosaic.Lib.WholeRead
import Idealize.ShloMosaic.Lib.ValueIdx

noncomputable section

namespace Cert.Proof.KernelIdealP

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo (held held_split held_sdiff_result wp_hlo_within)

variable {F : FTy → Type} [FloatOps F]

local notation "𝕄" => MT nD τ sig (HIx 1) (Elt F) ℕ UU ℕ

set_option backward.isDefEq.respectTransparency.types false in
theorem run_main [∀ e, Nonempty (Elt F e)] (m : (ℓ : Loc nD τ sig) → Buf (Elt F) ℓ) (ρ : Dev nD → PrngReg)
    (GM : (d : Dev nD) → grid1.Coords → Buf (Elt F) (mLoc d) → Prop) (GV : (d : Dev nD) → grid1.Coords → Buf (Elt F) (vLoc d) → Prop)
    (hGM : ∀ d L (f f' : Buf (Elt F) (mLoc d)), (∀ i ∈ mSet L, f i = f' i) → GM d L f → GM d L f')
    (hGV : ∀ d L (f f' : Buf (Elt F) (vLoc d)), (∀ i ∈ vSet L, f i = f' i) → GV d L f → GV d L f')
    (htile : (K (F := F)).TileObl (D (F := F)) 𝒱 (P m (X m) GM GV) v₀ 0)
    (hvec : (K (F := F)).VecSplit' (P m (X m) GM GV) 0) :
    θ_run (Cert.KernelIdeal.defs (F := F)) (Cert.KernelIdeal.threads (F := F)) ⟨m, fun _ => 0, ρ⟩ (fun r => ∀ c : Dev nD,
      (∃ (rm : Buf (Elt F) (mLoc c)) (rv : Buf (Elt F) (vLoc c)), (∀ L, GM c L rm) ∧ (∀ L, GV c L rv)
          ∧ r.2.mem ((c.tc : Thread nD τ).loc main_v12) = tailOf (RT m c) rm rv)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  SparseCore.Cfg.θ_run_sc (K := K (F := F)) (D := D (F := F)) (𝒱 := 𝒱) (EH := EH) (P := P m (X m) GM GV) facts v₀
    (fun q hq => match q with | 0 => nomatch hq)
    (fun q _ => match q with | 0 => htile)
    (fun q _ => match q with | 0 => SparseCore.Cfg.VecSplit.of_plain hvec)
    m ρ main (fun d => G (F := F) d) (FIN m GM GV) (u₀ (F := F)) (sep_elim_left.trans (hu₀ m GM GV)) (hmain m ρ GM GV hGM hGV) (fq m GM GV) (hfin m GM GV) _ (fun _ h => h)

end Cert.Proof.KernelIdealP
end
-- ==== Proof.CommonB.lean ====
/-
  The program as the SparseCore launch theorem reads it, and the resource algebra of the proof: the handshake
  rounds between the TensorCore, the two sequencers and their tiles; the rounds of the TensorCore pipeline's staging
  cells; and the exclusive counters of the local copies a tile issues and waits for itself.
-/
import proofs.«203171_g79482664779815_cont_9to1_m_1298_18_alg».proof.Defs
import proofs.«203171_g79482664779815_cont_9to1_m_1298_18_alg».proof.Proof.Gen.Kernel
import proofs.«203171_g79482664779815_cont_9to1_m_1298_18_alg».proof.Proof.Gen.Kernel.Skeleton
import proofs.«203171_g79482664779815_cont_9to1_m_1298_18_alg».proof.Proof.Gen.Kernel.Launch
import proofs.«203171_g79482664779815_cont_9to1_m_1298_18_alg».proof.Proof.Gen.Kernel.Points
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic

noncomputable section

namespace Cert.Proof.KernelP

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem nCore_zero : (K (F := F)).nCore 0 = 2 := rfl
theorem nSub_zero : (K (F := F)).nSub 0 = 16 := rfl

/-! ## The resource algebra -/

abbrev UH : Type := URounds (GSem nD τ sig) ℕ
abbrev UP : Type := UR sig nD τ
abbrev UU : Type := UH × (UP × Counters)

/-- The handshakes' rounds: the left factor. -/
abbrev EH : Emb UH (MT nD τ sig (HIx 1) (Elt F) ℕ UU ℕ) := embL
/-- The pipeline's staging cells' rounds: the left factor of the right factor. -/
abbrev EP : Emb UP (MT nD τ sig (HIx 1) (Elt F) ℕ UU ℕ) := (Emb.inl : Emb UP (UP × Counters)).trans embR

end Cert.Proof.KernelP

end
-- ==== Proof.PayB.lean ====
/-
  What the SparseCore call's handshakes carry.

  The call reads two arrays — the transposed score table (100000 rows of 1024 columns) and the 1024 target words — and
  writes two [4, 1024] result arrays. Tile `(c, s)` (SparseCore `c` of 2, vector subcore `s` of 16) works on one
  quarter `vq` of the last 20000 table rows and one block `bt` of 128 columns, and writes the one [1, 128] piece
  `(vq, 128·bt ..)` of each result array. So each tile is handed a READ SHARE of the two input arrays whole (several
  tiles read the same target block, and a tile's own copies read the table several at a time) and its own piece of
  each result array outright; it hands back the same with its two pieces holding results of which a stated property holds (`GM`, `GV`: a
  property of an array's contents that reads only the tile's own piece, so that it survives the pieces being joined).
  The record is generic in the table's contents at the call (`X`) and in the two properties: with the trivial
  property it says only that the call returns, with "every lane holds the maximum over the tile's rows" it carries
  the values.
-/
import proofs.«203171_g79482664779815_cont_9to1_m_1298_18_alg».proof.Proof.CommonB
import Idealize.ShloMosaic.Lib.Transfers

noncomputable section

namespace Cert.Proof.KernelP

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The four arrays of the call, as the TensorCore names them -/

/-- The transposed table. -/
abbrev xLoc (d : Dev nD) : Loc nD τ sig := (SparseCore.T d).loc main_v0
/-- The target words. -/
abbrev tLoc (d : Dev nD) : Loc nD τ sig := (SparseCore.T d).loc main_arg1
/-- The tiles' running maxima that leave the target out, one row per quarter. -/
abbrev mLoc (d : Dev nD) : Loc nD τ sig := (SparseCore.T d).loc main_v3_0
/-- The tiles' entries at the target, one row per quarter. -/
abbrev vLoc (d : Dev nD) : Loc nD τ sig := (SparseCore.T d).loc main_v3_1

/-! ## Tiles and their pieces -/

/-- The grid coordinates of tile `(c, s)`. -/
def coordsV (c : Fin (grid1.bound 0)) (s : Fin (grid1.bound 1)) : grid1.Coords :=
  fun | 0 => c | 1 => s | ⟨_ + 2, h⟩ => absurd h (Nat.not_lt.2 (Nat.le_add_left _ _))

theorem bound_zero : grid1.bound 0 = 2 := rfl
theorem bound_one : grid1.bound 1 = 16 := rfl

/-- The [1, 128] rectangle of a [4, 1024] result array that the tile at `L` writes: row `vq`, columns from `128·bt`. -/
abbrev pieceRect (L : grid1.Coords) : Rect S4x1024 := Rect.unit (s := S4x1024) (k1_off48 L) S1x128.size (k1_off48_inb L)

/-- That piece of the first result array, as the tile's copy addresses it; -/
abbrev mPiece (L : grid1.Coords) : Memref sig .scVector .hbm S128 .f32 :=
  ((Memref.whole main_v3_0_scv : Memref sig .scVector .hbm S4x1024 .f32).slice (pieceRect L) (fun _ => rfl)).squeeze S128 squeezes_S1x128_S128
/-- and of the second. -/
abbrev vPiece (L : grid1.Coords) : Memref sig .scVector .hbm S128 .f32 :=
  ((Memref.whole main_v3_1_scv : Memref sig .scVector .hbm S4x1024 .f32).slice (pieceRect L) (fun _ => rfl)).squeeze S128 squeezes_S1x128_S128

/-- The piece's elements, as a set of indices of the [4, 1024] array. -/
abbrev mSet (L : grid1.Coords) : Finset S4x1024.Idx := (mPiece L).view.set
abbrev vSet (L : grid1.Coords) : Finset S4x1024.Idx := (vPiece L).view.set

/-- The read share of SparseCore `c`, and of its tile `s`. -/
abbrev coreQ (c : Fin 2) : PosShare TreeShare := Transfers.shareTok fullShare 2 c
abbrev tileQ (c : Fin 2) (s : Fin 16) : PosShare TreeShare := Transfers.shareTok (coreQ c) 16 s

/-! ## The payloads -/

variable (m : (ℓ : Loc nD τ sig) → Buf (Elt F) ℓ)
variable (X : (d : Dev nD) → Buf (Elt F) (xLoc d))
variable (GM : (d : Dev nD) → grid1.Coords → Buf (Elt F) (mLoc d) → Prop) (GV : (d : Dev nD) → grid1.Coords → Buf (Elt F) (vLoc d) → Prop)

/-- What tile `(c, s)` is handed: its read shares of the two inputs, its two pieces at anything. -/
def tileGo (d : Dev nD) (c : Fin 2) (s : Fin 16) : sProp 𝕄 :=
  iprop((xLoc d ↦{tileQ c s} X d) ∗ (tLoc d ↦{tileQ c s} m (tLoc d))
    ∗ (∃ f, mLoc d ↦[mSet (coordsV c s)]{fullShare} f) ∗ (∃ f, vLoc d ↦[vSet (coordsV c s)]{fullShare} f))

/-- What it hands back: the same, its two pieces at contents of which the tile's property holds. -/
def tileTd (d : Dev nD) (c : Fin 2) (s : Fin 16) : sProp 𝕄 :=
  iprop((xLoc d ↦{tileQ c s} X d) ∗ (tLoc d ↦{tileQ c s} m (tLoc d))
    ∗ (∃ f, (mLoc d ↦[mSet (coordsV c s)]{fullShare} f) ∗ ⌜GM d (coordsV c s) f⌝)
    ∗ (∃ f, (vLoc d ↦[vSet (coordsV c s)]{fullShare} f) ∗ ⌜GV d (coordsV c s) f⌝))

/-- The pieces of SparseCore `c`'s sixteen tiles together. -/
abbrev coreMSet (c : Fin 2) : Finset S4x1024.Idx := Finset.univ.biUnion fun s : Fin 16 => mSet (coordsV c s)
abbrev coreVSet (c : Fin 2) : Finset S4x1024.Idx := Finset.univ.biUnion fun s : Fin 16 => vSet (coordsV c s)

/-- What SparseCore `c`'s sequencer is handed for its tiles, -/
def coreSt (d : Dev nD) (c : Fin 2) : sProp 𝕄 :=
  iprop((xLoc d ↦{coreQ c} X d) ∗ (tLoc d ↦{coreQ c} m (tLoc d))
    ∗ (∃ f, mLoc d ↦[coreMSet c]{fullShare} f) ∗ (∃ f, vLoc d ↦[coreVSet c]{fullShare} f))

/-- and hands back: the sixteen pieces joined, every tile's property holding of the joined contents. -/
def coreDn (d : Dev nD) (c : Fin 2) : sProp 𝕄 :=
  iprop((xLoc d ↦{coreQ c} X d) ∗ (tLoc d ↦{coreQ c} m (tLoc d))
    ∗ (∃ f, (mLoc d ↦[coreMSet c]{fullShare} f) ∗ ⌜∀ s : Fin 16, GM d (coordsV c s) f⌝)
    ∗ (∃ f, (vLoc d ↦[coreVSet c]{fullShare} f) ∗ ⌜∀ s : Fin 16, GV d (coordsV c s) f⌝))

/-- The one call's payloads; no kernel consumes anything of the launch's own. -/
def P : (K (F := F)).Pay (nD := nD) (Val := Elt F) (Name := ℕ) (U := UU) where
  st := fun q d c => match q with | 0 => coreSt m X d (Fin.cast nCore_zero c)
  dn := fun q d c => match q with | 0 => coreDn m X GM GV d (Fin.cast nCore_zero c)
  go := fun q d c i => match q with | 0 => tileGo m X d (Fin.cast nCore_zero c) (Fin.cast nSub_zero i)
  td := fun q d c i => match q with | 0 => tileTd m X GM GV d (Fin.cast nCore_zero c) (Fin.cast nSub_zero i)
  x := fun _ _ => iprop(emp)

instance coreSt_storable (d : Dev nD) (c : Fin 2) : BI.Storable (upEmb : UEmb _ 𝕄) (coreSt m X d c) := by unfold coreSt; infer_instance
instance coreDn_storable (d : Dev nD) (c : Fin 2) : BI.Storable (upEmb : UEmb _ 𝕄) (coreDn m X GM GV d c) := by unfold coreDn; infer_instance
instance tileGo_storable (d : Dev nD) (c : Fin 2) (s : Fin 16) : BI.Storable (upEmb : UEmb _ 𝕄) (tileGo m X d c s) := by unfold tileGo; infer_instance
instance tileTd_storable (d : Dev nD) (c : Fin 2) (s : Fin 16) : BI.Storable (upEmb : UEmb _ 𝕄) (tileTd m X GM GV d c s) := by unfold tileTd; infer_instance

instance P_storable : (P (F := F) m X GM GV).IsStorable where
  st q d c := match q with | 0 => (inferInstance : BI.Storable (upEmb : UEmb _ 𝕄) (coreSt m X d (Fin.cast nCore_zero c)))
  dn q d c := match q with | 0 => (inferInstance : BI.Storable (upEmb : UEmb _ 𝕄) (coreDn m X GM GV d (Fin.cast nCore_zero c)))
  go q d c i := match q with | 0 => (inferInstance : BI.Storable (upEmb : UEmb _ 𝕄) (tileGo m X d (Fin.cast nCore_zero c) (Fin.cast nSub_zero i)))
  td q d c i := match q with | 0 => (inferInstance : BI.Storable (upEmb : UEmb _ 𝕄) (tileTd m X GM GV d (Fin.cast nCore_zero c) (Fin.cast nSub_zero i)))

end Cert.Proof.KernelP

end
-- ==== Proof.RegionDataB.lean ====
/-
  The TensorCore region's data. The region runs over 40 points; at point `t` it reads the one row of target words and
  the 2000 table rows of block `t`, and keeps two running rows in scratch memory: the maximum over the rows seen so
  far of the entries off the target, and of the entries at the target. Both start at minus infinity at point 0 and are
  stored into the two-row result block at point 39. This module names the two staged arrays as the host operations
  before the region leave them, the blocks the body reads, the two running rows by recursion on the point over the
  body's own arithmetic, and the pipeline's proof data over them.
-/
import proofs.«203171_g79482664779815_cont_9to1_m_1298_18_alg».proof.Proof.CommonB
import proofs.«203171_g79482664779815_cont_9to1_m_1298_18_alg».proof.Proof.PayB
import Idealize.ShloMosaic.Lib.Pipeline.FrameBody
import Idealize.ShloMosaic.Lib.Pipeline.Frame
import Idealize.ShloMosaic.Lib.Pipeline.Value
import Idealize.ShloMosaic.Lib.WholeRead
import Idealize.ShloMosaic.Lib.ValueIdx

noncomputable section

namespace Cert.Proof.KernelP

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- Two rows as one [2, 1024] block. -/
def rows2 (a b : Vec F S1x1024 .f32) : Vec F S2x1024 .f32 := fun y => if (y 0).val = 0 then a (ValueIdx.ix2 (0 : Fin 1) (y 1)) else b (ValueIdx.ix2 (0 : Fin 1) (y 1))

/-! ## What the region and the call find in the two staged arrays -/

variable (m : (ℓ : Loc nD τ sig) → Buf (Elt F) ℓ)

/-- The launch contents of device `d`'s buffers, as a valuation. -/
abbrev V0 (d : Dev nD) : Valuation τ sig (Elt F) := fun b => m (d, b)

/-- The two host operations before the region: the transpose of the table and the reshape of the target words. -/
abbrev opT : HloOp τ sig (Elt F) :=
  StableHlo.unary main_arg0 main_v0 ((transpose S100000x1024 [1, 0] · transposes_S1024x100000_S100000x1024_1_0) : (⟨S1024x100000, .f32⟩ : BufTy).Contents (Elt F) → (⟨S100000x1024, .f32⟩ : BufTy).Contents (Elt F))
abbrev opR : HloOp τ sig (Elt F) := StableHlo.reshape main_arg1 main_v1 rfl shapeCasts_S1024_S1x1024

/-- The buffers after the two. -/
def V2 (d : Dev nD) : Valuation τ sig (Elt F) := (opR (F := F)).result ((opT (F := F)).result (V0 m d))

/-- The same, read at the TensorCore's references. -/
abbrev Vr (d : Dev nD) : (b : Ref sig .tc) → Buf (Elt F) ((d : Thread nD τ).loc b) := fun b => V2 m d (Proc.devRef .tc b)

/-- The transposed table, as the first host operation writes it. -/
def X (d : Dev nD) : Buf (Elt F) (xLoc d) := Vr m d main_v0
/-- The target words as one row, as the second writes them. -/
def T2 (d : Dev nD) : Buf (Elt F) ((SparseCore.T d : Thread nD τ).loc main_v1) := Vr m d main_v1

theorem X_eq (d : Dev nD) : X m d = (transpose S100000x1024 [1, 0] (m ((SparseCore.T d : Thread nD τ).loc main_arg0)) transposes_S1024x100000_S100000x1024_1_0 : (⟨S100000x1024, .f32⟩ : BufTy).Contents (Elt F)) := by
  unfold X; show V2 m d (Proc.devRef .tc main_v0) = _; unfold V2
  exact (StableHlo.reshape_result_ne' (τ := τ) (x := main_arg1) (y := main_v1) rfl shapeCasts_S1024_S1x1024 _ _ _ (r := main_v0) (by decide)).trans
    (StableHlo.unary_result' (τ := τ) (x := main_arg0) (y := main_v0) _ _ _ _)

/-! ## The blocks the body finds, and the two running maxima -/

/-- The target row as the body's load of window 0 reads it, -/
def blk0 (d : Dev nD) (t : Fin cfg0.N) : ((cfg0.win 0).xblock (cfg0.grid.coords t)).Idx → Elt F (cfg0.win 0).elt :=
  ((cfg0.win 0).blk t).view.read (Elt F) (T2 m d)
/-- and the 2000 table rows of point `t`, window 1's block there. -/
def blk1 (d : Dev nD) (t : Fin cfg0.N) : ((cfg0.win 1).xblock (cfg0.grid.coords t)).Idx → Elt F (cfg0.win 1).elt :=
  ((cfg0.win 1).blk t).view.read (Elt F) (X m d)

/-- The first scratch row after `n` points: minus infinity, then the body's own accumulation step at each point. -/
def accM (d : Dev nD) : ℕ → Vec F S1x1024 .f32
  | 0 => k0_pay1
  | n + 1 => if h : n < cfg0.N then k0_pay5 (grid0.coords ⟨n, h⟩) (blk1 m d ⟨n, h⟩) (blk0 m d ⟨n, h⟩) (accM d n) else accM d n
/-- The second. -/
def accV (d : Dev nD) : ℕ → Vec F S1x1024 .f32
  | 0 => k0_pay2
  | n + 1 => if h : n < cfg0.N then k0_pay6 (grid0.coords ⟨n, h⟩) (blk1 m d ⟨n, h⟩) (blk0 m d ⟨n, h⟩) (accV d n) else accV d n

theorem accM_succ (d : Dev nD) (t : Fin cfg0.N) : accM m d (t.val + 1) = k0_pay5 (grid0.coords t) (blk1 m d t) (blk0 m d t) (accM m d t.val) := by
  rw [accM, dif_pos t.isLt]
theorem accV_succ (d : Dev nD) (t : Fin cfg0.N) : accV m d (t.val + 1) = k0_pay6 (grid0.coords t) (blk1 m d t) (blk0 m d t) (accV m d t.val) := by
  rw [accV, dif_pos t.isLt]

/-! ## The region's proof data -/

abbrev adm : (p : Fin 1) → (pcfgs (F := F) p).Adm := fun p => (cfgs p).toPCfg_adm

/-- The scratch rows between points: anything before the first, the running maxima after. -/
def ΦR (d : Dev nD) (t : Fin (cfg0.N + 1)) : sProp 𝕄 :=
  iprop(∃ (f : Buf (Elt F) ((d : Thread nD τ).loc cc0_scratch0)) (g : Buf (Elt F) ((d : Thread nD τ).loc cc0_scratch1)),
    ⌜t.val ≠ 0 → f = accM m d t.val ∧ g = accV m d t.val⌝ ∗ (((d : Thread nD τ).loc cc0_scratch0) ↦{fullShare} f) ∗ (((d : Thread nD τ).loc cc0_scratch1) ↦{fullShare} g))

/-- The recorded pairs the TensorCore may have: any at the index of no call. -/
def recNone : Set (SemLoc sig × HIx 1) := {p | p.2 = none}

def dat0 (d : Dev nD) : Pipeline.Dat τ (Elt F) (HIx 1) ℕ UU ℕ cfg0 d where
  A w := Vr m d (Pipeline.arrRef spec0 w)
  after w t := match w with
    | ⟨0, _⟩ => blk0 m d t
    | ⟨1, _⟩ => blk1 m d t
    | ⟨2, _⟩ => rows2 (accM m d (t.val + 1)) (accV m d (t.val + 1))
  Φ t := ΦR m d t
  q _ := fullShare
  owed _ := (K (F := F)).Otc d 0
  recorded _ := recNone

def pdats : (p : Fin 1) → (c : Dev nD) → Pipeline.Dat τ (Elt F) (HIx 1) ℕ UU ℕ (Pipeline.pin (pcfgs (F := F)) adm p) c
  | 0 => dat0 m

end Cert.Proof.KernelP
end
-- ==== Proof.RegionBodyB.lean ====
/-
  The TensorCore region's body obligation. At every point the body reads the target row and the point's 2000 table
  rows, replaces each scratch row by its maximum with the block's masked column maxima, and leaves every staging buffer
  as it found it; at point 0 it first sets both scratch rows to minus infinity, and at point 39 it stores the two
  scratch rows as rows 0 and 1 of the result block. The three control cases are decided by the point alone; in each the
  scratch rows go from the running rows after `t` points to those after `t + 1`, by one unfolding of their recursion.
-/
import proofs.«203171_g79482664779815_cont_9to1_m_1298_18_alg».proof.Proof.CommonB
import proofs.«203171_g79482664779815_cont_9to1_m_1298_18_alg».proof.Proof.PayB
import proofs.«203171_g79482664779815_cont_9to1_m_1298_18_alg».proof.Proof.RegionDataB
import Idealize.ShloMosaic.Lib.Pipeline.FrameBody
import Idealize.ShloMosaic.Lib.Pipeline.Frame
import Idealize.ShloMosaic.Lib.Pipeline.Value
import Idealize.ShloMosaic.Lib.WholeRead
import Idealize.ShloMosaic.Lib.ValueIdx

noncomputable section

namespace Cert.Proof.KernelP

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The body's first test: is this the first point? -/
abbrev cond1 (i : grid0.Coords) : BitVec 1 := Scalar.cmpi .ne (Scalar.extui (Scalar.cmpi .eq (BitVec.ofNat 32 (i 0).val) 0#32)) 0#32

theorem hz2 : (![0, 0] : Fin 2 → Nat) = fun _ => 0 := funext fun a => by fin_cases a <;> rfl

section Whole
variable {Val : EltTy → Type} {sig' : RefSig} {κ : Kind} {sp : Space} {S : Shape} {e : EltTy}

/-- A store of the whole shape, last, leaves its payload. -/
theorem read_writes_whole (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f (⟨Rect.unit off S.size inb, w⟩ :: L)) = w := by
  subst h; funext y
  have e := View.read_writes_cons_emb v f (Rect.whole S) w L y
  rw [Rect.emb_whole_apply] at e
  exact e

/-- A load of the whole shape from a whole memref reads its contents. -/
theorem readAt_whole_unread {m : Memref sig' κ sp S e} (h : m.IsWhole) (X : S.Idx → Val e) {off : Fin S.rank → Nat} (hz : off = fun _ => 0)
    (inb : ∀ a, off a + S.size a ≤ S.size a) :
    View.readAt Val m.view (Rect.unit off S.size inb).toLoadRect (h.unread X) = X := by
  rw [View.readAt_eq_ld, h.read_unread, View.ld_unit_zero hz]
end Whole
theorem rows2_piece0 (A B : Vec F S1x1024 .f32) (inb) (x : (Rect.unit (s := S2x1024) ![0, 0] S1x1024.size inb).shape.Idx) :
    rows2 A B ((Rect.unit (s := S2x1024) ![0, 0] S1x1024.size inb).emb x) = A x := by
  have e0 : ((Rect.unit (s := S2x1024) ![0, 0] S1x1024.size inb).emb x 0 : ℕ) = 0 + 1 * (x 0 : ℕ) := Rect.emb_apply _ x 0
  have e1 : ((Rect.unit (s := S2x1024) ![0, 0] S1x1024.size inb).emb x 1 : ℕ) = 0 + 1 * (x 1 : ℕ) := Rect.emb_apply _ x 1
  have hx0 : (x 0 : ℕ) < 1 := (x 0).isLt
  unfold rows2
  rw [if_pos (by omega)]
  congr 1
  funext a
  match a with
  | ⟨0, _⟩ => exact Fin.ext (by show (0 : ℕ) = (x 0 : ℕ); omega)
  | ⟨1, _⟩ => exact Fin.ext (by show ((Rect.unit (s := S2x1024) ![0, 0] S1x1024.size inb).emb x 1 : ℕ) = (x 1 : ℕ); omega)

theorem rows2_piece1 (A B : Vec F S1x1024 .f32) (inb) (x : (Rect.unit (s := S2x1024) ![1, 0] S1x1024.size inb).shape.Idx) :
    rows2 A B ((Rect.unit (s := S2x1024) ![1, 0] S1x1024.size inb).emb x) = B x := by
  have e0 : ((Rect.unit (s := S2x1024) ![1, 0] S1x1024.size inb).emb x 0 : ℕ) = 1 + 1 * (x 0 : ℕ) := Rect.emb_apply _ x 0
  have e1 : ((Rect.unit (s := S2x1024) ![1, 0] S1x1024.size inb).emb x 1 : ℕ) = 0 + 1 * (x 1 : ℕ) := Rect.emb_apply _ x 1
  have hx0 : (x 0 : ℕ) < 1 := (x 0).isLt
  unfold rows2
  rw [if_neg (by omega)]
  congr 1
  funext a
  match a with
  | ⟨0, _⟩ => exact Fin.ext (by show (0 : ℕ) = (x 0 : ℕ); omega)
  | ⟨1, _⟩ => exact Fin.ext (by show ((Rect.unit (s := S2x1024) ![1, 0] S1x1024.size inb).emb x 1 : ℕ) = (x 1 : ℕ); omega)

theorem rows2_cover (inb0 inb1) (y : S2x1024.Idx) :
    y ∈ (Rect.unit (s := S2x1024) ![1, 0] S1x1024.size inb1).set ∨ y ∈ (Rect.unit (s := S2x1024) ![0, 0] S1x1024.size inb0).set := by
  have h0 : (y 0 : ℕ) < 2 := (y 0).isLt
  have h1 : (y 1 : ℕ) < 1024 := (y 1).isLt
  by_cases h : (y 0 : ℕ) = 0
  · right; rw [Rect.mem_set_unit]; intro a
    match a with
    | ⟨0, _⟩ => show (0 : ℕ) ≤ (y 0 : ℕ) ∧ (y 0 : ℕ) < 0 + 1; omega
    | ⟨1, _⟩ => show (0 : ℕ) ≤ (y 1 : ℕ) ∧ (y 1 : ℕ) < 0 + 1024; omega
  · left; rw [Rect.mem_set_unit]; intro a
    match a with
    | ⟨0, _⟩ => show (1 : ℕ) ≤ (y 0 : ℕ) ∧ (y 0 : ℕ) < 1 + 1; omega
    | ⟨1, _⟩ => show (0 : ℕ) ≤ (y 1 : ℕ) ∧ (y 1 : ℕ) < 0 + 1024; omega

variable (m : (ℓ : Loc nD τ sig) → Buf (Elt F) ℓ)

theorem run_B (c : Dev nD) (i : grid0.Coords) (hc1 : ¬ cond1 i = 1#1) (hc2 : ¬ k0_cond2 i = 1#1)
    (a1 : Memref sig .tc .vmem S1x1024 .i32) (h1 : a1.IsWhole) (a2 : Memref sig .tc .vmem S2000x1024 .f32) (h2 : a2.IsWhole)
    (a3 : Memref sig .tc .vmem S2x1024 .f32) (h3 : a3.IsWhole) (a4 : Memref sig .tc .vmem S1x1024 .f32) (h4 : a4.IsWhole)
    (a5 : Memref sig .tc .vmem S1x1024 .f32) (h5 : a5.IsWhole)
    (t2 : Vec F S1x1024 .i32) (x : Vec F S2000x1024 .f32) (o : Vec F S2x1024 .f32) (am av : Vec F S1x1024 .f32)
    (E : Set ℕ) (Q : PUnit → sProp 𝕄) :
    iprop(owns (c : Thread nD τ) a1 fullShare t2 ∗ owns (c : Thread nD τ) a2 fullShare x ∗ owns (c : Thread nD τ) a3 fullShare o
        ∗ owns (c : Thread nD τ) a4 fullShare am ∗ owns (c : Thread nD τ) a5 fullShare av
        ∗ (iprop(owns (c : Thread nD τ) a1 fullShare t2 ∗ owns (c : Thread nD τ) a2 fullShare x ∗ owns (c : Thread nD τ) a3 fullShare (o)
            ∗ owns (c : Thread nD τ) a4 fullShare (k0_pay5 i x t2 am) ∗ owns (c : Thread nD τ) a5 fullShare (k0_pay6 i x t2 av)) -∗ Q ⟨⟩))
      ⊢ wp frame (wpE (defs₀ (F := F)) 𝒱₀ c none) E (cc0__tc_body i a1 h1 a2 h2 a3 h3 a4 h4 a5 h5) Q := by
  simp only [cc0__tc_body_eq_skeleton]; unfold cc0__tc_body_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := h1.eq_unread hf1; obtain rfl := h2.eq_unread hf2; obtain rfl := h3.eq_unread hf3
  obtain rfl := h4.eq_unread hf4; obtain rfl := h5.eq_unread hf5
  sl_exec (disch := first | exact hc1 | exact hc2)
  sl_step
  iapply Hk
  isplitl [H1]
  · iexists _; isplitr; · ipureintro; exact hf1
    iexact H1
  isplitl [H2]
  · iexists _; isplitr; · ipureintro; exact hf2
    iexact H2

  isplitl [H3]
  · iexists _; isplitr; · ipureintro; exact hf3
    iexact H3
  isplitl [H4]
  · iexists _; isplitr; swap; · iexact H4
    ipureintro
    sl_unfold_run_names
    rw [read_writes_whole _ _ hz2, readAt_whole_unread h2 x hz2, readAt_whole_unread h1 t2 hz2, readAt_whole_unread h4 am hz2]
  iexists _; isplitr; swap; · iexact H5
  ipureintro
  sl_unfold_run_names
  rw [read_writes_whole _ _ hz2, readAt_whole_unread h2 x hz2, readAt_whole_unread h1 t2 hz2, readAt_whole_unread h5 av hz2]

theorem run_A (c : Dev nD) (i : grid0.Coords) (hc1 : cond1 i = 1#1) (hc2 : ¬ k0_cond2 i = 1#1)
    (a1 : Memref sig .tc .vmem S1x1024 .i32) (h1 : a1.IsWhole) (a2 : Memref sig .tc .vmem S2000x1024 .f32) (h2 : a2.IsWhole)
    (a3 : Memref sig .tc .vmem S2x1024 .f32) (h3 : a3.IsWhole) (a4 : Memref sig .tc .vmem S1x1024 .f32) (h4 : a4.IsWhole)
    (a5 : Memref sig .tc .vmem S1x1024 .f32) (h5 : a5.IsWhole)
    (t2 : Vec F S1x1024 .i32) (x : Vec F S2000x1024 .f32) (o : Vec F S2x1024 .f32) (am av : Vec F S1x1024 .f32)
    (E : Set ℕ) (Q : PUnit → sProp 𝕄) :
    iprop(owns (c : Thread nD τ) a1 fullShare t2 ∗ owns (c : Thread nD τ) a2 fullShare x ∗ owns (c : Thread nD τ) a3 fullShare o
        ∗ owns (c : Thread nD τ) a4 fullShare am ∗ owns (c : Thread nD τ) a5 fullShare av
        ∗ (iprop(owns (c : Thread nD τ) a1 fullShare t2 ∗ owns (c : Thread nD τ) a2 fullShare x ∗ owns (c : Thread nD τ) a3 fullShare (o)
            ∗ owns (c : Thread nD τ) a4 fullShare (k0_pay5 i x t2 k0_pay1) ∗ owns (c : Thread nD τ) a5 fullShare (k0_pay6 i x t2 k0_pay2)) -∗ Q ⟨⟩))
      ⊢ wp frame (wpE (defs₀ (F := F)) 𝒱₀ c none) E (cc0__tc_body i a1 h1 a2 h2 a3 h3 a4 h4 a5 h5) Q := by
  simp only [cc0__tc_body_eq_skeleton]; unfold cc0__tc_body_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := h1.eq_unread hf1; obtain rfl := h2.eq_unread hf2; obtain rfl := h3.eq_unread hf3
  obtain rfl := h4.eq_unread hf4; obtain rfl := h5.eq_unread hf5
  sl_exec (disch := first | exact hc1 | exact hc2)
  sl_step
  iapply Hk
  isplitl [H1]
  · iexists _; isplitr; · ipureintro; exact hf1
    iexact H1
  isplitl [H2]
  · iexists _; isplitr; · ipureintro; exact hf2
    iexact H2

  isplitl [H3]
  · iexists _; isplitr; · ipureintro; exact hf3
    iexact H3
  isplitl [H4]
  · iexists _; isplitr; swap; · iexact H4
    ipureintro
    sl_unfold_run_names
    rw [read_writes_whole _ _ hz2, readAt_whole_unread h2 x hz2, readAt_whole_unread h1 t2 hz2, View.readCov_unit_zero _ hz2]
  iexists _; isplitr; swap; · iexact H5
  ipureintro
  sl_unfold_run_names
  rw [read_writes_whole _ _ hz2, readAt_whole_unread h2 x hz2, readAt_whole_unread h1 t2 hz2, View.readCov_unit_zero _ hz2]

theorem run_C (c : Dev nD) (i : grid0.Coords) (hc1 : ¬ cond1 i = 1#1) (hc2 : k0_cond2 i = 1#1)
    (a1 : Memref sig .tc .vmem S1x1024 .i32) (h1 : a1.IsWhole) (a2 : Memref sig .tc .vmem S2000x1024 .f32) (h2 : a2.IsWhole)
    (a3 : Memref sig .tc .vmem S2x1024 .f32) (h3 : a3.IsWhole) (a4 : Memref sig .tc .vmem S1x1024 .f32) (h4 : a4.IsWhole)
    (a5 : Memref sig .tc .vmem S1x1024 .f32) (h5 : a5.IsWhole)
    (t2 : Vec F S1x1024 .i32) (x : Vec F S2000x1024 .f32) (o : Vec F S2x1024 .f32) (am av : Vec F S1x1024 .f32)
    (E : Set ℕ) (Q : PUnit → sProp 𝕄) :
    iprop(owns (c : Thread nD τ) a1 fullShare t2 ∗ owns (c : Thread nD τ) a2 fullShare x ∗ owns (c : Thread nD τ) a3 fullShare o
        ∗ owns (c : Thread nD τ) a4 fullShare am ∗ owns (c : Thread nD τ) a5 fullShare av
        ∗ (iprop(owns (c : Thread nD τ) a1 fullShare t2 ∗ owns (c : Thread nD τ) a2 fullShare x ∗ owns (c : Thread nD τ) a3 fullShare (rows2 (k0_pay5 i x t2 am) (k0_pay6 i x t2 av))
            ∗ owns (c : Thread nD τ) a4 fullShare (k0_pay5 i x t2 am) ∗ owns (c : Thread nD τ) a5 fullShare (k0_pay6 i x t2 av)) -∗ Q ⟨⟩))
      ⊢ wp frame (wpE (defs₀ (F := F)) 𝒱₀ c none) E (cc0__tc_body i a1 h1 a2 h2 a3 h3 a4 h4 a5 h5) Q := by
  simp only [cc0__tc_body_eq_skeleton]; unfold cc0__tc_body_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := h1.eq_unread hf1; obtain rfl := h2.eq_unread hf2; obtain rfl := h3.eq_unread hf3
  obtain rfl := h4.eq_unread hf4; obtain rfl := h5.eq_unread hf5
  sl_exec (disch := first | exact hc1 | exact hc2)
  sl_step
  iapply Hk
  isplitl [H1]
  · iexists _; isplitr; · ipureintro; exact hf1
    iexact H1
  isplitl [H2]
  · iexists _; isplitr; · ipureintro; exact hf2
    iexact H2

  isplitl [H3]
  · iexists _; isplitr; swap; · iexact H3
    ipureintro
    sl_unfold_run_names
    rw [View.readCov_unit_zero _ hz2, View.readCov_unit_zero _ hz2, readAt_whole_unread h2 x hz2, readAt_whole_unread h1 t2 hz2,
      readAt_whole_unread h4 am hz2, readAt_whole_unread h5 av hz2]
    funext y
    refine View.read_writes_apply_of_pieces _ _ (rows2 (k0_pay5 i x t2 am) (k0_pay6 i x t2 av)) _ ?_ y ?_
    · intro p hp x'
      rcases List.mem_cons.mp hp with rfl | hp
      · exact (rows2_piece1 (k0_pay5 i x t2 am) (k0_pay6 i x t2 av) inb_S2x1024_S1x1024_1_0 x').symm
      · obtain rfl := List.mem_singleton.mp hp
        exact (rows2_piece0 (k0_pay5 i x t2 am) (k0_pay6 i x t2 av) inb_S2x1024_S1x1024_0_0 x').symm
    · rcases rows2_cover inb_S2x1024_S1x1024_0_0 inb_S2x1024_S1x1024_1_0 y with h | h
      · exact ⟨_, List.mem_cons_self, h⟩
      · exact ⟨_, List.mem_cons_of_mem _ List.mem_cons_self, h⟩
  isplitl [H4]
  · iexists _; isplitr; swap; · iexact H4
    ipureintro
    sl_unfold_run_names
    rw [read_writes_whole _ _ hz2, readAt_whole_unread h2 x hz2, readAt_whole_unread h1 t2 hz2, readAt_whole_unread h4 am hz2]
  iexists _; isplitr; swap; · iexact H5
  ipureintro
  sl_unfold_run_names
  rw [read_writes_whole _ _ hz2, readAt_whole_unread h2 x hz2, readAt_whole_unread h1 t2 hz2, readAt_whole_unread h5 av hz2]

/-! ## The body obligation -/

theorem cond1_iff : ∀ t : Fin grid0.N, cond1 (grid0.coords t) = 1#1 ↔ t.val = 0 := by decide +kernel
theorem cond2_iff : ∀ t : Fin grid0.N, k0_cond2 (grid0.coords t) = 1#1 ↔ t.val = 39 := by decide +kernel

theorem A0 (d : Dev nD) : (dat0 m d).A 0 = T2 m d := rfl
theorem A1 (d : Dev nD) : (dat0 m d).A 1 = X m d := rfl
theorem after0 (d : Dev nD) (t : Fin cfg0.N) : (dat0 m d).after 0 t = blk0 m d t := by dsimp only [dat0]
theorem after1 (d : Dev nD) (t : Fin cfg0.N) : (dat0 m d).after 1 t = blk1 m d t := by dsimp only [dat0]
theorem after2 (d : Dev nD) (t : Fin cfg0.N) : (dat0 m d).after 2 t = rows2 (accM m d (t.val + 1)) (accV m d (t.val + 1)) := by dsimp only [dat0]

/-- Each input's current staging buffer holds its block at every point, fetched there or not. -/
theorem before0 (d : Dev nD) (t : Fin cfg0.N) (dd) : (dat0 m d).before 0 t dd = blk0 m d t :=
  ((dat0 m d).before_in_eq_fetched 0 rfl (fun _ => rfl) (fun _ _ _ => rfl) (fun t => by rw [after0]; unfold Dat.blockOf blk0; rw [A0]; try rfl) t dd).trans
    (by unfold Dat.fetched Dat.blockOf blk0; rw [A0]; try rfl)
theorem before1 (d : Dev nD) (t : Fin cfg0.N) (dd) : (dat0 m d).before 1 t dd = blk1 m d t :=
  ((dat0 m d).before_in_eq_fetched 1 rfl (fun _ => rfl) (fun _ _ _ => rfl) (fun t => by rw [after1]; unfold Dat.blockOf blk1; rw [A1]; try rfl) t dd).trans
    (by unfold Dat.fetched Dat.blockOf blk1; rw [A1]; try rfl)

omit [FloatOps F] in
/-- A whole buffer held through its memref. -/
theorem owns_whole_eq (c : Dev nD) (b : Ref sig .tc) (Xc : b.ty.Contents (Elt F)) :
    (owns (Ix := HIx 1) (Name := ℕ) (U := UU) (Lvl := ℕ) (c : Thread nD τ) (Memref.whole b) fullShare Xc : sProp 𝕄)
      = iprop(∃ f : Buf (Elt F) ((c : Thread nD τ).loc b), ⌜f = Xc⌝ ∗ (((c : Thread nD τ).loc b) ↦{fullShare} f)) := by
  unfold owns; simp only [Memref.view_whole, View.read_whole, View.set_whole]

/-- What the body is called with at point `t`, the windows one by one, -/
def bodyPre (d : Dev nD) (t : Fin cfg0.N) : sProp 𝕄 :=
  iprop((dat0 m d).Φ t.castSucc ∗ (dat0 m d).owesAt (none : HIx 1) t.castSucc
    ∗ (∃ dd, owns (d : Thread nD τ) (st0_0 t) fullShare ((dat0 m d).before 0 t dd))
    ∗ (∃ dd, owns (d : Thread nD τ) (st0_1 t) fullShare ((dat0 m d).before 1 t dd))
    ∗ (∃ dd, owns (d : Thread nD τ) (st0_2 t) fullShare ((dat0 m d).before 2 t dd)))

/-- and what it returns: the output's buffer as found, but at the last point, where it holds the two rows. -/
def bodyPost (d : Dev nD) (t : Fin cfg0.N) : sProp 𝕄 :=
  iprop((dat0 m d).Φ t.succ ∗ (dat0 m d).owesAt (none : HIx 1) t.succ
    ∗ owns (d : Thread nD τ) (st0_0 t) fullShare ((dat0 m d).after 0 t)
    ∗ owns (d : Thread nD τ) (st0_1 t) fullShare ((dat0 m d).after 1 t)
    ∗ (match cfg0.idle 2 (cfg0.grid.coords t) with
        | true => (match (cfg0.win 2).flush t with
            | false => iprop(∃ dd, owns (d : Thread nD τ) (st0_2 t) fullShare ((dat0 m d).before 2 t dd))
            | true => owns (d : Thread nD τ) (st0_2 t) fullShare ((dat0 m d).after 2 t))
        | false => owns (d : Thread nD τ) (st0_2 t) fullShare ((dat0 m d).after 2 t)))

theorem sound_body (d : Dev nD) (t : Fin cfg0.N) :
    bodyPre m d t ⊢ wp frame (wpE (defs₀ (F := F)) 𝒱₀ d none) Set.univ (bodyAt0 t) (fun _ => bodyPost m d t) := by
  unfold bodyPre bodyPost bodyAt0
  simp only [before0, before1]
  rw [after0, after1, after2, show (dat0 m d).owesAt (none : HIx 1) t.succ = (dat0 m d).owesAt none t.castSucc from rfl,
    show (dat0 m d).Φ t.castSucc = ΦR m d t.castSucc from rfl, show (dat0 m d).Φ t.succ = ΦR m d t.succ from rfl]
  unfold ΦR
  have hN : t.val < 40 := lt_of_lt_of_eq t.isLt (show cfg0.N = 40 from N_0)
  iintro ⟨⟨%f, %g, %hfg, Hs0, Hs1⟩, HO, ⟨%d0, H0⟩, ⟨%d1, H1⟩, ⟨%d2, H2⟩⟩
  by_cases h0 : t.val = 0
  ·
    have hc1 : cond1 (grid0.coords t) = 1#1 := (cond1_iff t).mpr h0
    have hc2 : ¬ k0_cond2 (grid0.coords t) = 1#1 := fun h => by have := (cond2_iff t).mp h; omega
    have hi : idle0 2 (grid0.coords t) = true := by show (!(k0_cond2 (grid0.coords t) == 1#1)) = true; simp [hc2]
    have hfl : (win0 2).flush t = false := Bool.eq_false_iff.mpr fun h => by have := (flush0_2 t).mp h; omega
    generalize hidle : idle0 2 (grid0.coords t) = bi
    obtain rfl : bi = true := hidle.symm.trans hi
    generalize hflush : (win0 2).flush t = bf
    obtain rfl : bf = false := hflush.symm.trans hfl
    dsimp only
    iapply (run_A d (grid0.coords t) hc1 hc2 _ _ _ _ _ _ _ _ _ _ (blk0 m d t) (blk1 m d t) _ f g Set.univ _)
    isplitl [H0]; · iexact H0
    isplitl [H1]; · iexact H1
    isplitl [H2]; · iexact H2
    isplitl [Hs0]
    · iapply (Entails.of_eq (owns_whole_eq d cc0_scratch0 _).symm); iexists _; isplitr; · ipureintro; rfl
      iexact Hs0
    isplitl [Hs1]
    · iapply (Entails.of_eq (owns_whole_eq d cc0_scratch1 _).symm); iexists _; isplitr; · ipureintro; rfl
      iexact Hs1
    iintro ⟨H0, H1, H2, Hs0, Hs1⟩
    ihave Hs0' := (Entails.of_eq (owns_whole_eq d cc0_scratch0 _)) $$ Hs0
    ihave Hs1' := (Entails.of_eq (owns_whole_eq d cc0_scratch1 _)) $$ Hs1
    icases Hs0' with ⟨%f', %hf', Hs0⟩
    icases Hs1' with ⟨%g', %hg', Hs1⟩
    isplitl [Hs0 Hs1]
    · iexists f'; iexists g'; isplitr
      · ipureintro; intro _
        have e1 : accM m d t.val = k0_pay1 := by rw [h0]; rfl
        have e2 : accV m d t.val = k0_pay2 := by rw [h0]; rfl
        rw [Fin.val_succ, accM_succ, accV_succ, e1, e2]; exact ⟨hf', hg'⟩
      isplitl [Hs0]; · iexact Hs0
      iexact Hs1
    isplitl [HO]; · iexact HO
    isplitl [H0]; · iexact H0
    isplitl [H1]; · iexact H1
    iexists d2; iexact H2
  by_cases h39 : t.val = 39
  ·
    have hc1 : ¬ cond1 (grid0.coords t) = 1#1 := fun h => h0 ((cond1_iff t).mp h)
    have hc2 : k0_cond2 (grid0.coords t) = 1#1 := (cond2_iff t).mpr h39
    have hi : idle0 2 (grid0.coords t) = false := by show (!(k0_cond2 (grid0.coords t) == 1#1)) = false; rw [hc2]; rfl
    generalize hidle : idle0 2 (grid0.coords t) = bi
    obtain rfl : bi = false := hidle.symm.trans hi
    dsimp only
    obtain ⟨hf, hg⟩ := hfg (by rw [Fin.coe_castSucc]; exact h0)
    rw [Fin.coe_castSucc] at hf hg
    subst hf hg
    iapply (run_C d (grid0.coords t) hc1 hc2 _ _ _ _ _ _ _ _ _ _ (blk0 m d t) (blk1 m d t) _ (accM m d t.val) (accV m d t.val) Set.univ _)
    isplitl [H0]; · iexact H0
    isplitl [H1]; · iexact H1
    isplitl [H2]; · iexact H2
    isplitl [Hs0]
    · iapply (Entails.of_eq (owns_whole_eq d cc0_scratch0 _).symm); iexists _; isplitr; · ipureintro; rfl
      iexact Hs0
    isplitl [Hs1]
    · iapply (Entails.of_eq (owns_whole_eq d cc0_scratch1 _).symm); iexists _; isplitr; · ipureintro; rfl
      iexact Hs1
    iintro ⟨H0, H1, H2, Hs0, Hs1⟩
    ihave Hs0' := (Entails.of_eq (owns_whole_eq d cc0_scratch0 _)) $$ Hs0
    ihave Hs1' := (Entails.of_eq (owns_whole_eq d cc0_scratch1 _)) $$ Hs1
    icases Hs0' with ⟨%f', %hf', Hs0⟩
    icases Hs1' with ⟨%g', %hg', Hs1⟩
    isplitl [Hs0 Hs1]
    · iexists f'; iexists g'; isplitr
      · ipureintro; intro _
        rw [Fin.val_succ, accM_succ, accV_succ]; exact ⟨hf', hg'⟩
      isplitl [Hs0]; · iexact Hs0
      iexact Hs1
    isplitl [HO]; · iexact HO
    isplitl [H0]; · iexact H0
    isplitl [H1]; · iexact H1
    rw [accM_succ, accV_succ]; iexact H2
  ·
    have hc1 : ¬ cond1 (grid0.coords t) = 1#1 := fun h => h0 ((cond1_iff t).mp h)
    have hc2 : ¬ k0_cond2 (grid0.coords t) = 1#1 := fun h => h39 ((cond2_iff t).mp h)
    have hi : idle0 2 (grid0.coords t) = true := by show (!(k0_cond2 (grid0.coords t) == 1#1)) = true; simp [hc2]
    have hfl : (win0 2).flush t = false := Bool.eq_false_iff.mpr fun h => by have := (flush0_2 t).mp h; omega
    generalize hidle : idle0 2 (grid0.coords t) = bi
    obtain rfl : bi = true := hidle.symm.trans hi
    generalize hflush : (win0 2).flush t = bf
    obtain rfl : bf = false := hflush.symm.trans hfl
    dsimp only
    obtain ⟨hf, hg⟩ := hfg (by rw [Fin.coe_castSucc]; exact h0)
    rw [Fin.coe_castSucc] at hf hg
    subst hf hg
    iapply (run_B d (grid0.coords t) hc1 hc2 _ _ _ _ _ _ _ _ _ _ (blk0 m d t) (blk1 m d t) _ (accM m d t.val) (accV m d t.val) Set.univ _)
    isplitl [H0]; · iexact H0
    isplitl [H1]; · iexact H1
    isplitl [H2]; · iexact H2
    isplitl [Hs0]
    · iapply (Entails.of_eq (owns_whole_eq d cc0_scratch0 _).symm); iexists _; isplitr; · ipureintro; rfl
      iexact Hs0
    isplitl [Hs1]
    · iapply (Entails.of_eq (owns_whole_eq d cc0_scratch1 _).symm); iexists _; isplitr; · ipureintro; rfl
      iexact Hs1
    iintro ⟨H0, H1, H2, Hs0, Hs1⟩
    ihave Hs0' := (Entails.of_eq (owns_whole_eq d cc0_scratch0 _)) $$ Hs0
    ihave Hs1' := (Entails.of_eq (owns_whole_eq d cc0_scratch1 _)) $$ Hs1
    icases Hs0' with ⟨%f', %hf', Hs0⟩
    icases Hs1' with ⟨%g', %hg', Hs1⟩
    isplitl [Hs0 Hs1]
    · iexists f'; iexists g'; isplitr
      · ipureintro; intro _
        rw [Fin.val_succ, accM_succ, accV_succ]; exact ⟨hf', hg'⟩
      isplitl [Hs0]; · iexact Hs0
      iexact Hs1
    isplitl [HO]; · iexact HO
    isplitl [H0]; · iexact H0
    isplitl [H1]; · iexact H1
    iexists d2; iexact H2

/-- The library's body obligation, at every point. -/
theorem body_obligation (d : Dev nD) : BodyObligation (dat0 (F := F) m d) (defs₀ (F := F)) 𝒱₀ (none : HIx 1) Set.univ := fun t => by
  rw [bigSep_W0, bigSep_W0]
  exact sound_body m d t

end Cert.Proof.KernelP
end
-- ==== Proof.RegionB.lean ====
/-
  The TensorCore region as one step of the TensorCore's program: entered holding every unscoped array of the device
  and what the TensorCore owes the SparseCore call that follows, it hands the three windowed arrays to the pipeline,
  keeps the rest aside, and leaves with the two inputs unchanged and the result array at the pipeline's final contents.
  What the TensorCore owes is untouched throughout: the pipeline's own waits sit at the index of no call, below every
  start signal still owed.
-/
import proofs.«203171_g79482664779815_cont_9to1_m_1298_18_alg».proof.Proof.CommonB
import proofs.«203171_g79482664779815_cont_9to1_m_1298_18_alg».proof.Proof.PayB
import proofs.«203171_g79482664779815_cont_9to1_m_1298_18_alg».proof.Proof.RegionDataB
import proofs.«203171_g79482664779815_cont_9to1_m_1298_18_alg».proof.Proof.RegionBodyB
import Idealize.ShloMosaic.Lib.Pipeline.Regions
import Idealize.ShloMosaic.Lib.Pipeline.FrameBody
import Idealize.ShloMosaic.Lib.Pipeline.Frame
import Idealize.ShloMosaic.Lib.Pipeline.Value
import Idealize.ShloMosaic.Lib.WholeRead
import Idealize.ShloMosaic.Lib.ValueIdx

noncomputable section

namespace Cert.Proof.KernelP

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ)

/-- The region's result array: what the pipeline's write-backs leave in it. -/
def RT (d : Dev nD) : Buf (Elt F) ((SparseCore.T d : Thread nD τ).loc main_v2) := (dat0 m d).arrAt 2 cfg0.N

/-- The device's buffers after the region: the result array at `RT`, every other as the region found it. -/
def V3 (d : Dev nD) : Valuation τ sig (Elt F) := Function.update (V2 m d) (Proc.devRef .tc main_v2) (RT m d)
/-- The same, read at the TensorCore's references. -/
abbrev Vr3 (d : Dev nD) : (b : Ref sig .tc) → Buf (Elt F) ((d : Thread nD τ).loc b) := fun b => V3 m d (Proc.devRef .tc b)

theorem Vr3_v2 (d : Dev nD) : Vr3 m d main_v2 = RT m d := Function.update_self ..
theorem Vr3_of_ne (d : Dev nD) (b : Ref sig .tc) (h : b ≠ main_v2) : Vr3 m d b = Vr m d b :=
  Function.update_of_ne (StableHlo.devRef_ne_of_ne h) ..

/-- What the TensorCore owes before the one SparseCore call, its recorded pairs all at the index of no call. -/
def tcOwes (d : Dev nD) : sProp 𝕄 :=
  iprop(∃ W, ⌜(K (F := F)).WBelow (SparseCore.T d) W (8 * 0)⌝ ∗ owes (SparseCore.T d) ((K (F := F)).Otc d 0) W)

omit [FloatOps F] in
theorem recNone_of_WBelow {d : Dev nD} {W : Waits sig (HIx 1)} (h : (K (F := F)).WBelow (SparseCore.T d) W (8 * 0)) :
    (↑W : Set (SemLoc sig × HIx 1)) ⊆ recNone := fun p hp => by
  have hle := h p hp
  show p.2 = none
  match hp2 : p.2 with
  | none => rfl
  | some q =>
    rw [hp2] at hle
    have := (K (F := F)).lev_some_pos (nD := nD) (SparseCore.T d, p.1) q
    omega

theorem WBelow_of_bound {d : Dev nD} {W : Waits sig (HIx 1)} (t : Fin (cfg0.N + 1))
    (h : (↑W : Set (SemLoc sig × HIx 1)) ⊆ (dat0 m d).bound (none : HIx 1) t) : (K (F := F)).WBelow (SparseCore.T d) W (8 * 0) := fun p hp => by
  have hp2 : p.2 = none := by
    rcases h hp with h1 | ⟨w, s, rfl⟩
    · exact h1
    · rfl
  rw [hp2]; exact Nat.zero_le _

theorem unscopedRest_Vr3 (c : Dev nD) :
    (Pipeline.unscopedRest (Ix := HIx 1) (Name := ℕ) (U := UU) (Lvl := ℕ) spec0 c (Vr3 m c) : sProp 𝕄) = Pipeline.unscopedRest spec0 c (Vr m c) := by
  unfold Pipeline.unscopedRest
  exact bigSep_congr fun b hb => by
    rw [Vr3_of_ne m c b (fun h => (Finset.mem_sdiff.mp hb).2 (Finset.mem_image.mpr ⟨2, Finset.mem_univ _, h ▸ rfl⟩))]

theorem arrAt0 (c : Dev nD) : (dat0 m c).arrAt 0 cfg0.N = Vr3 m c main_v1 :=
  ((dat0 m c).arrAt_in 0 rfl _).trans (Vr3_of_ne m c main_v1 (by decide)).symm
theorem arrAt1 (c : Dev nD) : (dat0 m c).arrAt 1 cfg0.N = Vr3 m c main_v0 :=
  ((dat0 m c).arrAt_in 1 rfl _).trans (Vr3_of_ne m c main_v0 (by decide)).symm
theorem arrAt2 (c : Dev nD) : (dat0 m c).arrAt 2 cfg0.N = Vr3 m c main_v2 := (Vr3_v2 m c).symm

set_option backward.isDefEq.respectTransparency.types false in
/-- The region. -/
def reg0 : Pipeline.RegionSeg (pcfgs (F := F)) adm (pdats m) (none : HIx 1) defs₀ 𝒱₀ (K (F := F)).L (K (F := F)).lev (0 : Fin 1) where
  win := launch0.win.to₀
  block_pos := launch0.block_pos
  stage_whole := launch0.stage_whole
  K := PEmpty
  osem k := k.elim
  ho := Pipeline.OwnSemFacts.none _
  hbody c := (body_obligation m c).loose
  hwaits c := Pipeline.cellsWaits_of_cut _ (pdats m) (none : HIx 1) 0 c (lev := (K (F := F)).lev) 0 ((K (F := F)).Otc c 0) (fun _ => rfl)
    (fun _ _ => Finset.mem_univ _) (fun _ _ => le_refl _) fun g i hg => ⟨Finset.mem_univ _, by have := SparseCore.Cfg.lev_of_Otc_pos hg; omega⟩
  pre c := iprop(unscopedBufs c (Vr m c) ∗ tcOwes c)
  post c := iprop(unscopedBufs c (Vr3 m c) ∗ tcOwes c)
  X _ := iprop(emp)
  Y _ := iprop(emp)
  Z c := Pipeline.unscopedRest (Ix := HIx 1) (Name := ℕ) (U := UU) (Lvl := ℕ) spec0 c (Vr m c)
  hentry c := by
    rw [Pipeline.ownSems0_none]
    have hsplit := Pipeline.arrays_of_unscopedBufs (pcfgs (F := F)) adm (pdats m) launch0.win launch0.arr_whole c
      ((pdats m 0 c).share_full fun _ => rfl) (Vr m c) fun _ => rfl
    unfold tcOwes
    iintro ⟨⟨Hub, %W, %hW, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (recNone_of_WBelow hW hp)
      iexact HO
    isplitr; · iempintro
    iexact Hr
  hin c := by
    rw [scopedRest0_eq]
    show _ ⊢ ΦR m c 0
    unfold ΦR
    iintro ⟨-, -, ⟨%f, Hf⟩, ⟨%g, Hg⟩⟩
    iexists f; iexists g; isplitr; · ipureintro; exact fun h => absurd rfl h
    isplitl [Hf]; · iexact Hf
    iexact Hg
  hout c := by
    rw [Pipeline.ownSems0_none, scopedRest0_eq]
    show ΦR m c _ ⊢ _
    unfold ΦR
    iintro ⟨%f, %g, -, Hf, Hg⟩
    isplitr; · iempintro
    isplitr; · iempintro
    isplitl [Hf]; · iexists f; iexact Hf
    iexists g; iexact Hg
  hexit c := by
    have hs := Pipeline.unscopedBufs_split (Ix := HIx 1) (Name := ℕ) (U := UU) (Lvl := ℕ) (Val := Elt F) (Pipeline.pin (pcfgs (F := F)) adm) (0 : Fin 1) launch0.win.arr_unscoped launch0.win.arr_inj c (Vr3 m c)
    rw [Pipeline.arrays_eq (Pipeline.pin (pcfgs (F := F)) adm) (pdats m) 0 c launch0.arr_whole ((pdats m 0 c).share_full fun _ => rfl), bigSep_W0]
    rw [hs, bigSep_W0, unscopedRest_Vr3]
    rw [show (pdats m 0 c).arrAt 0 (Pipeline.pin (pcfgs (F := F)) adm 0).N = Vr3 m c (Pipeline.arrRef (Pipeline.pin (pcfgs (F := F)) adm 0).spec 0) from arrAt0 m c,
      show (pdats m 0 c).arrAt 1 (Pipeline.pin (pcfgs (F := F)) adm 0).N = Vr3 m c (Pipeline.arrRef (Pipeline.pin (pcfgs (F := F)) adm 0).spec 1) from arrAt1 m c,
      show (pdats m 0 c).arrAt 2 (Pipeline.pin (pcfgs (F := F)) adm 0).N = Vr3 m c (Pipeline.arrRef (Pipeline.pin (pcfgs (F := F)) adm 0).spec 2) from arrAt2 m c]
    unfold tcOwes Pipeline.Dat.owesAt Pipeline.owesWithin
    iintro ⟨⟨H0, H1, H2⟩, ⟨%W, %hW, HO⟩, -, Hr⟩
    imodintro
    isplitr [HO]
    · isplitr [Hr]
      · isplitl [H0]; · iexact H0
        isplitl [H1]; · iexact H1
        iexact H2
      · iexact Hr
    iexists W; isplitr; · ipureintro; exact WBelow_of_bound m _ hW
    iexact HO

end Cert.Proof.KernelP
end
-- ==== Proof.TailB.lean ====
/-
  The program's last twelve host operations as one function of the two calls' results.

  After the two calls the program holds the TensorCore call's result `o` (two rows of 1024: the running maximum that
  leaves the target out, and the entry at the target, over the table rows that call walks) and the SparseCore call's two
  results `rm`, `rv` (four rows of 1024 each: the same two quantities over each quarter of the remaining table rows). The
  host then takes row 0 of `o` as a vector, the maximum of `rm` over its four rows starting from −∞, and the maximum of
  the two; likewise row 1 of `o` and `rv`; and subtracts the second maximum from the first. `tailOf o rm rv` is that
  value, written as the composition of the twelve operations' own functions, in program order, one `let` per operation,
  nothing simplified (a reshape's function is the row-major reading `shapeCast` of its operand at the result's shape).
-/
import proofs.«203171_g79482664779815_cont_9to1_m_1298_18_alg».proof.Kernel

noncomputable section

namespace Cert.Proof.KernelP

open Cert.Kernel
open Idealize.ShloMosaic
open Cert.Kernel.Facts₀ Cert.Kernel.Facts

variable {F : FTy → Type} [FloatOps F] [Cert.Kernel.Facts]

/-- The value the program's result buffer holds after its last twelve host operations, as a function of the contents
    of the TensorCore call's result (`o`) and of the SparseCore call's two results (`rm`, `rv`). -/
def tailOf (o : (⟨S2x1024, .f32⟩ : BufTy).Contents (Elt F)) (rm rv : (⟨S4x1024, .f32⟩ : BufTy).Contents (Elt F)) :
    (⟨S1024, .f32⟩ : BufTy).Contents (Elt F) :=
  -- %4 = stablehlo.slice %2 [0:1, 0:1024]
  let v4 : (⟨S1x1024, .f32⟩ : BufTy).Contents (Elt F) :=
    ((extractStridedSlice S1x1024 ![0, 0] · slices_S2x1024_S1x1024_0_0) : (⟨S2x1024, .f32⟩ : BufTy).Contents (Elt F) → (⟨S1x1024, .f32⟩ : BufTy).Contents (Elt F)) o
  -- %5 = stablehlo.reshape %4
  let v5 : (⟨S1024, .f32⟩ : BufTy).Contents (Elt F) := fun i => shapeCast S1024 v4 shapeCasts_S1x1024_S1024 i
  -- %cst = stablehlo.constant dense<0xFF800000>
  let cst : (⟨S_, .f32⟩ : BufTy).Contents (Elt F) := constant S_ .f32 0xFF800000#32
  -- %6 = stablehlo.reduce(%3#0 init: %cst) applies stablehlo.maximum across dimensions = [0]
  let v6 : (⟨S1024, .f32⟩ : BufTy).Contents (Elt F) :=
    ((fun x v => Host.reduce FloatOps.maximumf x v reducesTo_S4x1024_S1024_d0 h_S_) : (⟨S4x1024, .f32⟩ : BufTy).Contents (Elt F) → (⟨S_, .f32⟩ : BufTy).Contents (Elt F) → (⟨S1024, .f32⟩ : BufTy).Contents (Elt F)) rm cst
  -- %7 = stablehlo.maximum %5, %6
  let v7 : (⟨S1024, .f32⟩ : BufTy).Contents (Elt F) :=
    (maximumf : (⟨S1024, .f32⟩ : BufTy).Contents (Elt F) → (⟨S1024, .f32⟩ : BufTy).Contents (Elt F) → (⟨S1024, .f32⟩ : BufTy).Contents (Elt F)) v5 v6
  -- %8 = stablehlo.slice %2 [1:2, 0:1024]
  let v8 : (⟨S1x1024, .f32⟩ : BufTy).Contents (Elt F) :=
    ((extractStridedSlice S1x1024 ![1, 0] · slices_S2x1024_S1x1024_1_0) : (⟨S2x1024, .f32⟩ : BufTy).Contents (Elt F) → (⟨S1x1024, .f32⟩ : BufTy).Contents (Elt F)) o
  -- %9 = stablehlo.reshape %8
  let v9 : (⟨S1024, .f32⟩ : BufTy).Contents (Elt F) := fun i => shapeCast S1024 v8 shapeCasts_S1x1024_S1024 i
  -- %cst_0 = stablehlo.constant dense<0xFF800000>
  let cst_0 : (⟨S_, .f32⟩ : BufTy).Contents (Elt F) := constant S_ .f32 0xFF800000#32
  -- %10 = stablehlo.reduce(%3#1 init: %cst_0) applies stablehlo.maximum across dimensions = [0]
  let v10 : (⟨S1024, .f32⟩ : BufTy).Contents (Elt F) :=
    ((fun x v => Host.reduce FloatOps.maximumf x v reducesTo_S4x1024_S1024_d0 h_S_) : (⟨S4x1024, .f32⟩ : BufTy).Contents (Elt F) → (⟨S_, .f32⟩ : BufTy).Contents (Elt F) → (⟨S1024, .f32⟩ : BufTy).Contents (Elt F)) rv cst_0
  -- %11 = stablehlo.maximum %9, %10
  let v11 : (⟨S1024, .f32⟩ : BufTy).Contents (Elt F) :=
    (maximumf : (⟨S1024, .f32⟩ : BufTy).Contents (Elt F) → (⟨S1024, .f32⟩ : BufTy).Contents (Elt F) → (⟨S1024, .f32⟩ : BufTy).Contents (Elt F)) v9 v10
  -- %12 = stablehlo.subtract %7, %11
  (subf : (⟨S1024, .f32⟩ : BufTy).Contents (Elt F) → (⟨S1024, .f32⟩ : BufTy).Contents (Elt F) → (⟨S1024, .f32⟩ : BufTy).Contents (Elt F)) v7 v11

/-- The same value with the `let`s substituted: the nested composition of the operations' functions. -/
theorem tailOf_eq (o : (⟨S2x1024, .f32⟩ : BufTy).Contents (Elt F)) (rm rv : (⟨S4x1024, .f32⟩ : BufTy).Contents (Elt F)) :
    tailOf o rm rv =
      subf
        (maximumf (fun i => shapeCast S1024 (extractStridedSlice S1x1024 ![0, 0] o slices_S2x1024_S1x1024_0_0) shapeCasts_S1x1024_S1024 i)
          (Host.reduce FloatOps.maximumf rm (constant S_ .f32 0xFF800000#32) reducesTo_S4x1024_S1024_d0 h_S_))
        (maximumf (fun i => shapeCast S1024 (extractStridedSlice S1x1024 ![1, 0] o slices_S2x1024_S1x1024_1_0) shapeCasts_S1x1024_S1024 i)
          (Host.reduce FloatOps.maximumf rv (constant S_ .f32 0xFF800000#32) reducesTo_S4x1024_S1024_d0 h_S_)) := rfl

end Cert.Proof.KernelP

end
-- ==== Proof.VecSplitB.lean ====
/-
  One SparseCore's share of the call, dealt to its sixteen tiles and gathered back.

  A SparseCore's sequencer holds a read share of the two input arrays and, outright, the union of its sixteen tiles'
  pieces of each result array. Dealing: the read share splits into a remainder and sixteen tokens, one per tile (the
  remainder is kept until the tiles return); the union of the pieces splits into the pieces, because two different
  tiles' [1, 128] rectangles of the [4, 1024] array start at least one row or at least 128 columns apart and so have no
  element in common. Gathering: the sixteen tokens and the remainder compose to the read share again; the sixteen
  pieces, each held at its own contents of which the tile's property holds, join into the union held at ONE array's
  contents that agrees with each tile's on its piece — and a property that reads only its own piece therefore holds of
  the joined contents for every tile. Nothing is allocated: the update is the trivial one.
-/
import proofs.«203171_g79482664779815_cont_9to1_m_1298_18_alg».proof.Proof.PayB

noncomputable section

namespace Cert.Proof.KernelP

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The pieces' geometry -/

/-- A tile's piece of the first result array is its rectangle's elements. -/
theorem mSet_eq (L : grid1.Coords) : mSet L = (pieceRect L).set := by
  show (mPiece L).view.set = _
  rw [Memref.set_view_squeeze]
  exact View.set_slice_whole _ _

/-- A tile's piece of the second result array is its rectangle's elements. -/
theorem vSet_eq (L : grid1.Coords) : vSet L = (pieceRect L).set := by
  show (vPiece L).view.set = _
  rw [Memref.set_view_squeeze]
  exact View.set_slice_whole _ _

/-- Two different tiles' pieces start at least one row apart or at least 128 columns apart. -/
theorem piece_sep : ∀ L L' : grid1.Coords, L ≠ L' → ∃ a : Fin S4x1024.rank,
    k1_off48 L a + S1x128.size a ≤ k1_off48 L' a ∨ k1_off48 L' a + S1x128.size a ≤ k1_off48 L a := by
  decide +kernel

/-- So their rectangles have no element in common. -/
theorem pieces_disjoint {L L' : grid1.Coords} (h : L ≠ L') : Disjoint (pieceRect L).set (pieceRect L').set := by
  obtain ⟨a, ha⟩ := piece_sep L L' h
  exact Rect.unit_disjoint a ha

/-- Different subcores of one SparseCore are different tiles. -/
theorem coordsV_ne (c : Fin 2) {s s' : Fin 16} (h : s ≠ s') : coordsV c s ≠ coordsV c s' :=
  fun e => h (congrFun e 1)

/-- The pieces of one SparseCore's tiles in the first result array are pairwise disjoint; -/
theorem mSets_disjoint (c : Fin 2) : ∀ s ∈ (Finset.univ : Finset (Fin 16)), ∀ s' ∈ (Finset.univ : Finset (Fin 16)),
    s ≠ s' → Disjoint (mSet (coordsV c s)) (mSet (coordsV c s')) :=
  fun s _ s' _ h => by rw [mSet_eq, mSet_eq]; exact pieces_disjoint (coordsV_ne c h)

/-- and in the second. -/
theorem vSets_disjoint (c : Fin 2) : ∀ s ∈ (Finset.univ : Finset (Fin 16)), ∀ s' ∈ (Finset.univ : Finset (Fin 16)),
    s ≠ s' → Disjoint (vSet (coordsV c s)) (vSet (coordsV c s')) :=
  fun s _ s' _ h => by rw [vSet_eq, vSet_eq]; exact pieces_disjoint (coordsV_ne c h)

/-! ## Dealing and gathering the pieces of one result array

Stated for any location, any family of sixteen pairwise disjoint element sets and any property per set that reads
only the set's elements; used for the two result arrays. -/

section Pieces
variable {ℓ : Loc nD τ sig} (Ks : Fin 16 → Finset (Idx ℓ))

/-- The union held at anything is every piece held at anything. -/
theorem pieces_split
    (hK : ∀ s ∈ (Finset.univ : Finset (Fin 16)), ∀ s' ∈ (Finset.univ : Finset (Fin 16)), s ≠ s' → Disjoint (Ks s) (Ks s')) :
    (iprop(∃ f, ℓ ↦[Finset.univ.biUnion Ks]{fullShare} f) : sProp 𝕄)
      ⊢ bigSep Finset.univ fun s : Fin 16 => iprop(∃ f, ℓ ↦[Ks s]{fullShare} f) := by
  refine exists_elim fun f => ?_
  rw [pointsTo_biUnion Finset.univ Ks hK]
  refine bigSep_mono fun s _ => ?_
  show (ℓ ↦[Ks s]{fullShare} f : sProp 𝕄) ⊢ iprop(∃ f, ℓ ↦[Ks s]{fullShare} f)
  iintro H; iexists f; iexact H

/-- Every piece held at contents of which its property holds is the union held at ONE array's contents of which
    every property holds: the joined array agrees with each piece's on the piece. -/
theorem pieces_join
    (hK : ∀ s ∈ (Finset.univ : Finset (Fin 16)), ∀ s' ∈ (Finset.univ : Finset (Fin 16)), s ≠ s' → Disjoint (Ks s) (Ks s'))
    (f₀ : Buf (Elt F) ℓ) (G : Fin 16 → Buf (Elt F) ℓ → Prop)
    (hG : ∀ s (f f' : Buf (Elt F) ℓ), (∀ i ∈ Ks s, f i = f' i) → G s f → G s f') :
    (bigSep Finset.univ fun s : Fin 16 => iprop(∃ f, (ℓ ↦[Ks s]{fullShare} f) ∗ ⌜G s f⌝) : sProp 𝕄)
      ⊢ iprop(∃ f, (ℓ ↦[Finset.univ.biUnion Ks]{fullShare} f) ∗ ⌜∀ s : Fin 16, G s f⌝) := by
  haveI : Nonempty (Buf (Elt F) ℓ) := ⟨f₀⟩
  refine (bigSep_exists_pi (Y := fun _ : Fin 16 => Buf (Elt F) ℓ) Finset.univ (fun s (f : Buf (Elt F) ℓ) => iprop((ℓ ↦[Ks s]{fullShare} f) ∗ ⌜G s f⌝))).trans ?_
  iintro ⟨%fs, H⟩
  have hswap : (bigSep Finset.univ fun s : Fin 16 => iprop((ℓ ↦[Ks s]{fullShare} fs s) ∗ ⌜G s (fs s)⌝) : sProp 𝕄)
      ⊢ bigSep Finset.univ fun s : Fin 16 => iprop(⌜G s (fs s)⌝ ∗ (ℓ ↦[Ks s]{fullShare} fs s)) := by
    refine bigSep_mono fun s _ => ?_
    show (iprop((ℓ ↦[Ks s]{fullShare} fs s) ∗ ⌜G s (fs s)⌝) : sProp 𝕄) ⊢ iprop(⌜G s (fs s)⌝ ∗ (ℓ ↦[Ks s]{fullShare} fs s))
    iintro ⟨Hp, %hg⟩
    isplitr
    · ipureintro; exact hg
    · iexact Hp
  ihave H1 := hswap $$ H
  ihave H2 := (bigSep_pure_sep Finset.univ (fun s => G s (fs s)) (fun s => ℓ ↦[Ks s]{fullShare} fs s)) $$ H1
  icases H2 with ⟨%hfs, H3⟩
  ihave H4 := (pointsTo_biUnion_join Finset.univ Ks fs f₀ hK) $$ H3
  icases H4 with ⟨%g, %hg, Hg⟩
  iexists g
  isplitl [Hg]; · iexact Hg
  ipureintro
  exact fun s => hG s (fs s) g (fun i hi => (hg s (Finset.mem_univ s) i hi).symm) (hfs s (Finset.mem_univ s))

end Pieces

/-! ## One SparseCore's share, dealt and gathered -/

variable (m : (ℓ : Loc nD τ sig) → Buf (Elt F) ℓ)
variable (X : (d : Dev nD) → Buf (Elt F) (xLoc d))
variable (GM : (d : Dev nD) → grid1.Coords → Buf (Elt F) (mLoc d) → Prop) (GV : (d : Dev nD) → grid1.Coords → Buf (Elt F) (vLoc d) → Prop)

/-- A family over the call's subcores is the family over sixteen. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- SparseCore `c`'s share becomes its sixteen tiles' shares, and the tiles' returns become the SparseCore's. -/
theorem core_split
    (hGM : ∀ d L (f f' : Buf (Elt F) (mLoc d)), (∀ i ∈ mSet L, f i = f' i) → GM d L f → GM d L f')
    (hGV : ∀ d L (f f' : Buf (Elt F) (vLoc d)), (∀ i ∈ vSet L, f i = f' i) → GV d L f → GV d L f')
    (d : Dev nD) (c : Fin 2) :
    coreSt m X d c ⊢ |={Set.univ}=> iprop((bigSep Finset.univ fun s : Fin 16 => tileGo m X d c s)
      ∗ ((bigSep Finset.univ fun s : Fin 16 => tileTd m X GM GV d c s) -∗ coreDn m X GM GV d c)) := by
  unfold coreSt tileGo tileTd coreDn
  rw [bigSep_sep', bigSep_sep', bigSep_sep', bigSep_sep', bigSep_sep', bigSep_sep']
  iintro ⟨Hx, Ht, Hm, Hv⟩
  ihave Hx' := (Transfers.pointsTo_toks_split (coreQ c) 16) $$ Hx
  icases Hx' with ⟨Hxr, Hxs⟩
  ihave Ht' := (Transfers.pointsTo_toks_split (coreQ c) 16) $$ Ht
  icases Ht' with ⟨Htr, Hts⟩
  ihave Hm' := (pieces_split (F := F) (ℓ := mLoc d) (fun s : Fin 16 => mSet (coordsV c s)) (mSets_disjoint c)) $$ Hm
  ihave Hv' := (pieces_split (F := F) (ℓ := vLoc d) (fun s : Fin 16 => vSet (coordsV c s)) (vSets_disjoint c)) $$ Hv
  imodintro
  isplitl [Hxs Hts Hm' Hv']
  · isplitl [Hxs]; · iexact Hxs
    isplitl [Hts]; · iexact Hts
    isplitl [Hm']; · iexact Hm'
    iexact Hv'
  iintro ⟨Hxs, Hts, Hms, Hvs⟩
  isplitl [Hxr Hxs]
  · iapply (Transfers.pointsTo_toks_join (coreQ c) 16)
    isplitl [Hxr]; · iexact Hxr
    iexact Hxs
  isplitl [Htr Hts]
  · iapply (Transfers.pointsTo_toks_join (coreQ c) 16)
    isplitl [Htr]; · iexact Htr
    iexact Hts
  isplitl [Hms]
  · iapply (pieces_join (F := F) (ℓ := mLoc d) (fun s : Fin 16 => mSet (coordsV c s)) (mSets_disjoint c)
      (m (mLoc d)) (fun s => GM d (coordsV c s)) (fun s => hGM d (coordsV c s)))
    iexact Hms
  · iapply (pieces_join (F := F) (ℓ := vLoc d) (fun s : Fin 16 => vSet (coordsV c s)) (vSets_disjoint c)
      (m (vLoc d)) (fun s => GV d (coordsV c s)) (fun s => hGV d (coordsV c s)))
    iexact Hvs

/-- THE CALL'S DEAL: each SparseCore's share yields its tiles' shares, and a way back from the tiles' returns to the
    SparseCore's return. -/
theorem vecSplit (m : (ℓ : Loc nD τ sig) → Buf (Elt F) ℓ) (X : (d : Dev nD) → Buf (Elt F) (xLoc d))
    (GM : (d : Dev nD) → grid1.Coords → Buf (Elt F) (mLoc d) → Prop) (GV : (d : Dev nD) → grid1.Coords → Buf (Elt F) (vLoc d) → Prop)
    (hGM : ∀ d L (f f' : Buf (Elt F) (mLoc d)), (∀ i ∈ mSet L, f i = f' i) → GM d L f → GM d L f')
    (hGV : ∀ d L (f f' : Buf (Elt F) (vLoc d)), (∀ i ∈ vSet L, f i = f' i) → GV d L f → GV d L f') :
    (K (F := F)).VecSplit' (P m X GM GV) 0 := by
  intro d c
  show coreSt m X d (Fin.cast nCore_zero c) ⊢ |={Set.univ}=> iprop(
      (bigSep Finset.univ fun i : Fin ((K (F := F)).nSub 0) => tileGo m X d (Fin.cast nCore_zero c) (Fin.cast nSub_zero i))
      ∗ ((bigSep Finset.univ fun i : Fin ((K (F := F)).nSub 0) =>
          tileTd m X GM GV d (Fin.cast nCore_zero c) (Fin.cast nSub_zero i)) -∗ coreDn m X GM GV d (Fin.cast nCore_zero c)))
  rw [bigSep_tasks (F := F) (fun s => tileGo m X d (Fin.cast nCore_zero c) s),
    bigSep_tasks (F := F) (fun s => tileTd m X GM GV d (Fin.cast nCore_zero c) s)]
  exact core_split m X GM GV hGM hGV d (Fin.cast nCore_zero c)

end Cert.Proof.KernelP

end
-- ==== Proof.MainB.lean ====
/-
  @main on the TensorCore, and the launch element. @main transposes the table and reshapes the target words (two host
  operations), runs the TensorCore region, starts the SparseCore call and waits for it, and finishes with the host
  operations that combine the two calls' results. Its proof holds every unscoped array of the device as ONE set at a
  valuation that each step rewrites: the host operations at their results; the region at its result array; the
  SparseCore call, which is lent a read token of the two inputs per SparseCore and each SparseCore's sixteen pieces
  of the two result arrays (the two halves are disjoint and cover the array), at whatever contents come back, of which
  every tile's property holds. The launch element is the handshakes' rounds beside the pipeline's staging cells'.
-/
import proofs.«203171_g79482664779815_cont_9to1_m_1298_18_alg».proof.Proof.CommonB
import proofs.«203171_g79482664779815_cont_9to1_m_1298_18_alg».proof.Proof.PayB
import proofs.«203171_g79482664779815_cont_9to1_m_1298_18_alg».proof.Proof.RegionDataB
import proofs.«203171_g79482664779815_cont_9to1_m_1298_18_alg».proof.Proof.RegionBodyB
import Idealize.ShloMosaic.Lib.Pipeline.Regions
import proofs.«203171_g79482664779815_cont_9to1_m_1298_18_alg».proof.Proof.RegionB
import proofs.«203171_g79482664779815_cont_9to1_m_1298_18_alg».proof.Proof.TailB
import proofs.«203171_g79482664779815_cont_9to1_m_1298_18_alg».proof.Proof.VecSplitB
import Idealize.ShloMosaic.Lib.StableHlo.Run
import Idealize.ShloMosaic.Lib.Transfers
import Idealize.ShloMosaic.Lib.Pipeline.FrameBody
import Idealize.ShloMosaic.Lib.Pipeline.Frame
import Idealize.ShloMosaic.Lib.Pipeline.Value
import Idealize.ShloMosaic.Lib.WholeRead
import Idealize.ShloMosaic.Lib.ValueIdx

noncomputable section

namespace Cert.Proof.KernelP

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo (held held_split held_sdiff_result wp_hlo_within)

variable {F : FTy → Type} [FloatOps F]

local notation "𝕄" => MT nD τ sig (HIx 1) (Elt F) ℕ UU ℕ
variable (m : (ℓ : Loc nD τ sig) → Buf (Elt F) ℓ) (ρ : Dev nD → PrngReg)

/-! ## The two SparseCores' halves of a result array -/

/-- Every [1, 128] rectangle of the [4, 1024] array at a row and a multiple of 128 columns is some tile's piece. -/
theorem piece_at : ∀ (r : Fin 4) (b : Fin 8), ∃ c : Fin 2, ∃ s : Fin 16,
    k1_off48 (coordsV c s) 0 = r.val ∧ k1_off48 (coordsV c s) 1 = 128 * b.val := by decide +kernel

theorem pieces_cover (i : S4x1024.Idx) : ∃ c : Fin 2, ∃ s : Fin 16, i ∈ (pieceRect (coordsV c s)).set := by
  have h0 : (i 0 : ℕ) < 4 := (i 0).isLt
  have h1 : (i 1 : ℕ) < 1024 := (i 1).isLt
  obtain ⟨c, s, e0, e1⟩ := piece_at ⟨(i 0 : ℕ), h0⟩ ⟨(i 1 : ℕ) / 128, by omega⟩
  refine ⟨c, s, Rect.mem_set_unit.mpr fun a => ?_⟩
  match a with
  | ⟨0, _⟩ =>
    show k1_off48 (coordsV c s) 0 ≤ (i 0 : ℕ) ∧ (i 0 : ℕ) < k1_off48 (coordsV c s) 0 + 1
    rw [e0]; dsimp only; omega
  | ⟨1, _⟩ =>
    show k1_off48 (coordsV c s) 1 ≤ (i 1 : ℕ) ∧ (i 1 : ℕ) < k1_off48 (coordsV c s) 1 + 128
    rw [e1]; dsimp only; omega

theorem coreMSet_cover : (Finset.univ : Finset (Fin 2)).biUnion coreMSet = Finset.univ := by
  ext i
  simp only [Finset.mem_biUnion, Finset.mem_univ, true_and, iff_true]
  obtain ⟨c, s, h⟩ := pieces_cover i
  exact ⟨c, s, by rw [mSet_eq]; exact h⟩
theorem coreVSet_cover : (Finset.univ : Finset (Fin 2)).biUnion coreVSet = Finset.univ := by
  ext i
  simp only [Finset.mem_biUnion, Finset.mem_univ, true_and, iff_true]
  obtain ⟨c, s, h⟩ := pieces_cover i
  exact ⟨c, s, by rw [vSet_eq]; exact h⟩

theorem coreMSets_disjoint : ∀ c ∈ (Finset.univ : Finset (Fin 2)), ∀ c' ∈ (Finset.univ : Finset (Fin 2)), c ≠ c' → Disjoint (coreMSet c) (coreMSet c') :=
  fun c _ c' _ h => by
    rw [Finset.disjoint_biUnion_left]; intro s _
    rw [Finset.disjoint_biUnion_right]; intro s' _
    rw [mSet_eq, mSet_eq]; exact pieces_disjoint fun e => h (congrFun e 0)
theorem coreVSets_disjoint : ∀ c ∈ (Finset.univ : Finset (Fin 2)), ∀ c' ∈ (Finset.univ : Finset (Fin 2)), c ≠ c' → Disjoint (coreVSet c) (coreVSet c') :=
  fun c _ c' _ h => by
    rw [Finset.disjoint_biUnion_left]; intro s _
    rw [Finset.disjoint_biUnion_right]; intro s' _
    rw [vSet_eq, vSet_eq]; exact pieces_disjoint fun e => h (congrFun e 0)

/-! ## The TensorCore's unscoped buffers as one held set -/

/-- Every unscoped buffer of the TensorCore. -/
def Sall : Finset (DevRef τ sig) :=
  (Finset.univ.filter fun b : Ref sig .tc => ¬ b.isScoped).map ⟨Proc.devRef (sig := sig) (.tc : Proc τ), Proc.devRef_injective _⟩

omit [FloatOps F] in
theorem unscoped_held (d : Dev nD) (V : Valuation τ sig (Elt F)) :
    (unscopedBufs d (fun b => V (Proc.devRef .tc b)) : sProp 𝕄) = held (SparseCore.T d) Sall V := by
  unfold unscopedBufs held Sall
  rw [BI.bigSep_map]; rfl

/-- The host operations after the calls. -/
def tailOps : List (HloOp τ sig (Elt F)) :=
  [StableHlo.unary main_v2 main_v4 ((extractStridedSlice S1x1024 ![0, 0] · slices_S2x1024_S1x1024_0_0) : (⟨S2x1024, .f32⟩ : BufTy).Contents (Elt F) → (⟨S1x1024, .f32⟩ : BufTy).Contents (Elt F)),
   StableHlo.reshape main_v4 main_v5 rfl shapeCasts_S1x1024_S1024,
   StableHlo.nullary main_cst (constant S_ .f32 0xFF800000#32),
   StableHlo.binary main_v3_0 main_cst main_v6 ((fun x v => Host.reduce FloatOps.maximumf x v reducesTo_S4x1024_S1024_d0 h_S_) : (⟨S4x1024, .f32⟩ : BufTy).Contents (Elt F) → (⟨S_, .f32⟩ : BufTy).Contents (Elt F) → (⟨S1024, .f32⟩ : BufTy).Contents (Elt F)),
   StableHlo.binary main_v5 main_v6 main_v7 (maximumf : (⟨S1024, .f32⟩ : BufTy).Contents (Elt F) → (⟨S1024, .f32⟩ : BufTy).Contents (Elt F) → (⟨S1024, .f32⟩ : BufTy).Contents (Elt F)),
   StableHlo.unary main_v2 main_v8 ((extractStridedSlice S1x1024 ![1, 0] · slices_S2x1024_S1x1024_1_0) : (⟨S2x1024, .f32⟩ : BufTy).Contents (Elt F) → (⟨S1x1024, .f32⟩ : BufTy).Contents (Elt F)),
   StableHlo.reshape main_v8 main_v9 rfl shapeCasts_S1x1024_S1024,
   StableHlo.nullary main_cst_0 (constant S_ .f32 0xFF800000#32),
   StableHlo.binary main_v3_1 main_cst_0 main_v10 ((fun x v => Host.reduce FloatOps.maximumf x v reducesTo_S4x1024_S1024_d0 h_S_) : (⟨S4x1024, .f32⟩ : BufTy).Contents (Elt F) → (⟨S_, .f32⟩ : BufTy).Contents (Elt F) → (⟨S1024, .f32⟩ : BufTy).Contents (Elt F)),
   StableHlo.binary main_v9 main_v10 main_v11 (maximumf : (⟨S1024, .f32⟩ : BufTy).Contents (Elt F) → (⟨S1024, .f32⟩ : BufTy).Contents (Elt F) → (⟨S1024, .f32⟩ : BufTy).Contents (Elt F)),
   StableHlo.binary main_v7 main_v11 main_v12 (subf : (⟨S1024, .f32⟩ : BufTy).Contents (Elt F) → (⟨S1024, .f32⟩ : BufTy).Contents (Elt F) → (⟨S1024, .f32⟩ : BufTy).Contents (Elt F))]

/-- @main: the two host operations, the TensorCore call, the SparseCore call, the host operations after them. -/
theorem main_eq (d : Dev nD) : main (F := F) d =
    (StableHlo.seq [opT (F := F), opR (F := F)] >>= fun _ =>
      (Prog.lift (.customCall (SparseCore.inner (Pipeline.entry 0)) ()) >>= fun _ =>
        ((K (F := F)).run d 0 >>= fun _ => StableHlo.seq (tailOps (F := F))))) := rfl

/-! ## Every host operation touches unscoped buffers of the TensorCore only -/

omit [FloatOps F] in
theorem mem_Sall_of {b : DevRef τ sig} (h1 : b ∈ StableHlo.tcRefs τ sig) (h2 : b.isScoped = false) : b ∈ Sall := by
  obtain ⟨x, -, rfl⟩ := Finset.mem_map.mp h1
  exact Finset.mem_map.mpr ⟨x, Finset.mem_filter.mpr ⟨Finset.mem_univ _, by simpa using h2⟩, rfl⟩

theorem pre_sub : ∀ op ∈ [opT (F := F), opR (F := F)], op.bufs ⊆ Sall := fun op hop b hb =>
  mem_Sall_of ((show ∀ op ∈ [opT (F := F), opR (F := F)], op.bufs ⊆ StableHlo.tcRefs τ sig from by simp) op hop hb) (op.no_scoped b hb)
theorem pre_fresh : ∀ op ∈ [opT (F := F), opR (F := F)], op.fresh = ∅ := by simp [opT, opR]; constructor <;> rfl
theorem tail_sub : ∀ op ∈ tailOps (F := F), op.bufs ⊆ Sall := fun op hop b hb =>
  mem_Sall_of ((show ∀ op ∈ tailOps (F := F), op.bufs ⊆ StableHlo.tcRefs τ sig from by simp [tailOps]) op hop hb) (op.no_scoped b hb)
theorem tail_fresh : ∀ op ∈ tailOps (F := F), op.fresh = ∅ := by
  intro op hop
  simp only [tailOps, List.mem_cons, List.mem_nil_iff, or_false] at hop
  rcases hop with rfl | rfl | rfl | rfl | rfl | rfl | rfl | rfl | rfl | rfl | rfl <;> rfl

/-! ## The SparseCore call's operands, dealt to the two SparseCores and gathered back -/

theorem core_union_m : coreMSet 0 ∪ coreMSet 1 = Finset.univ := by
  rw [← coreMSet_cover, show (Finset.univ : Finset (Fin 2)) = {0, 1} by decide, Finset.biUnion_insert, Finset.singleton_biUnion]
theorem core_union_v : coreVSet 0 ∪ coreVSet 1 = Finset.univ := by
  rw [← coreVSet_cover, show (Finset.univ : Finset (Fin 2)) = {0, 1} by decide, Finset.biUnion_insert, Finset.singleton_biUnion]
theorem core_disj_m : Disjoint (coreMSet 0) (coreMSet 1) := coreMSets_disjoint 0 (Finset.mem_univ _) 1 (Finset.mem_univ _) (by decide)
theorem core_disj_v : Disjoint (coreVSet 0) (coreVSet 1) := coreVSets_disjoint 0 (Finset.mem_univ _) 1 (Finset.mem_univ _) (by decide)

theorem coords_eq (L : grid1.Coords) : L = coordsV (L 0) (L 1) := by
  funext a; match a with | ⟨0, _⟩ => rfl | ⟨1, _⟩ => rfl

section Call
variable (GM : (d : Dev nD) → grid1.Coords → Buf (Elt F) (mLoc d) → Prop) (GV : (d : Dev nD) → grid1.Coords → Buf (Elt F) (vLoc d) → Prop)

omit [FloatOps F] in
theorem st0_eq (X' : (d : Dev nD) → Buf (Elt F) (xLoc d)) (d : Dev nD) :
    (bigSep Finset.univ fun c : Fin ((K (F := F)).nCore 0) => (P m X' GM GV).st 0 d c : sProp 𝕄) = iprop(coreSt m X' d 0 ∗ coreSt m X' d 1) := by
  show (bigSep (Finset.univ : Finset (Fin 2)) fun c => coreSt m X' d c) = _
  rw [show (Finset.univ : Finset (Fin 2)) = {0, 1} by decide, SparseCore.bigSep_insert' (by decide), bigSep_singleton]
omit [FloatOps F] in
theorem dn0_eq (X' : (d : Dev nD) → Buf (Elt F) (xLoc d)) (d : Dev nD) :
    (bigSep Finset.univ fun c : Fin ((K (F := F)).nCore 0) => (P m X' GM GV).dn 0 d c : sProp 𝕄) = iprop(coreDn m X' GM GV d 0 ∗ coreDn m X' GM GV d 1) := by
  show (bigSep (Finset.univ : Finset (Fin 2)) fun c => coreDn m X' GM GV d c) = _
  rw [show (Finset.univ : Finset (Fin 2)) = {0, 1} by decide, SparseCore.bigSep_insert' (by decide), bigSep_singleton]

omit [FloatOps F] in
/-- A whole array's full share is a remainder and one read token per SparseCore. -/
theorem toks2 {ℓ : Loc nD τ sig} (f : Buf (Elt F) ℓ) :
    (ℓ ↦{fullShare} f : sProp 𝕄) ⊣⊢ iprop((ℓ ↦{Transfers.shareDrop fullShare 2} f) ∗ (ℓ ↦{coreQ 0} f) ∗ (ℓ ↦{coreQ 1} f)) := by
  have h := Transfers.pointsTo_toks (Ix := HIx 1) (Name := ℕ) (U := UU) (Lvl := ℕ) (ℓ := ℓ) (S := Finset.univ) (f := f) fullShare 2
  rw [show (Finset.univ : Finset (Fin 2)) = {0, 1} by decide, SparseCore.bigSep_insert' (by decide), bigSep_singleton] at h
  exact h

omit [FloatOps F] in
/-- The operands dealt: each SparseCore its read tokens and its half of each result array. -/
theorem call_in (X' : (d : Dev nD) → Buf (Elt F) (xLoc d)) (d : Dev nD) (fm : Buf (Elt F) (mLoc d)) (fv : Buf (Elt F) (vLoc d)) :
    iprop((xLoc d ↦{fullShare} X' d) ∗ (tLoc d ↦{fullShare} m (tLoc d)) ∗ (mLoc d ↦{fullShare} fm) ∗ (vLoc d ↦{fullShare} fv))
      ⊢ (iprop((coreSt m X' d 0 ∗ coreSt m X' d 1)
          ∗ (xLoc d ↦{Transfers.shareDrop fullShare 2} X' d) ∗ (tLoc d ↦{Transfers.shareDrop fullShare 2} m (tLoc d))) : sProp 𝕄) := by
  have hm : (mLoc d ↦{fullShare} fm : sProp 𝕄) ⊢ iprop((mLoc d ↦[coreMSet 0]{fullShare} fm) ∗ (mLoc d ↦[coreMSet 1]{fullShare} fm)) := by
    rw [show (Finset.univ : Finset (Idx (mLoc d))) = coreMSet 0 ∪ coreMSet 1 from core_union_m.symm]; exact (pointsTo_union core_disj_m).1
  have hv : (vLoc d ↦{fullShare} fv : sProp 𝕄) ⊢ iprop((vLoc d ↦[coreVSet 0]{fullShare} fv) ∗ (vLoc d ↦[coreVSet 1]{fullShare} fv)) := by
    rw [show (Finset.univ : Finset (Idx (vLoc d))) = coreVSet 0 ∪ coreVSet 1 from core_union_v.symm]; exact (pointsTo_union core_disj_v).1
  unfold coreSt
  iintro ⟨Hx, Ht, Hm, Hv⟩
  ihave Hx' := (toks2 (X' d)).1 $$ Hx
  icases Hx' with ⟨Hxd, Hx0, Hx1⟩
  ihave Ht' := (toks2 (m (tLoc d))).1 $$ Ht
  icases Ht' with ⟨Htd, Ht0, Ht1⟩
  ihave Hm' := hm $$ Hm
  icases Hm' with ⟨Hm0, Hm1⟩
  ihave Hv' := hv $$ Hv
  icases Hv' with ⟨Hv0, Hv1⟩
  isplitr [Hxd Htd]
  · isplitl [Hx0 Ht0 Hm0 Hv0]
    · isplitl [Hx0]; · iexact Hx0
      isplitl [Ht0]; · iexact Ht0
      isplitl [Hm0]; · iexists fm; iexact Hm0
      iexists fv; iexact Hv0
    · isplitl [Hx1]; · iexact Hx1
      isplitl [Ht1]; · iexact Ht1
      isplitl [Hm1]; · iexists fm; iexact Hm1
      iexists fv; iexact Hv1
  isplitl [Hxd]; · iexact Hxd
  iexact Htd

end Call

section CallOut
variable (GM : (d : Dev nD) → grid1.Coords → Buf (Elt F) (mLoc d) → Prop) (GV : (d : Dev nD) → grid1.Coords → Buf (Elt F) (vLoc d) → Prop)

omit [FloatOps F] in
theorem fin2_cases (c : Fin 2) : c = 0 ∨ c = 1 := by
  rcases c with ⟨n, hn⟩
  rcases n with _ | _ | n
  · exact .inl rfl
  · exact .inr rfl
  · omega

omit [FloatOps F] in
/-- The two halves joined: every tile's property of the first result array holds of the joined contents. -/
theorem GM_join (hGM : ∀ d L (f f' : Buf (Elt F) (mLoc d)), (∀ i ∈ mSet L, f i = f' i) → GM d L f → GM d L f')
    (d : Dev nD) (f0 f1 : Buf (Elt F) (mLoc d)) (h0 : ∀ s : Fin 16, GM d (coordsV (0 : Fin 2) s) f0) (h1 : ∀ s : Fin 16, GM d (coordsV (1 : Fin 2) s) f1)
    (L : grid1.Coords) : GM d L ((coreMSet 1).piecewise f1 f0) := by
  rw [coords_eq L]
  generalize L 1 = s
  rcases fin2_cases (L 0) with hc | hc <;> rw [hc]
  · exact hGM d _ f0 _ (fun i hi => by
      have hn : i ∉ coreMSet 1 := fun h1' => (Finset.disjoint_left.mp core_disj_m) (Finset.mem_biUnion.mpr ⟨s, Finset.mem_univ _, hi⟩) h1'
      exact (Finset.piecewise_eq_of_notMem _ _ _ hn).symm) (h0 s)
  · exact hGM d _ f1 _ (fun i hi => (Finset.piecewise_eq_of_mem _ _ _ (Finset.mem_biUnion.mpr ⟨s, Finset.mem_univ _, hi⟩)).symm) (h1 s)

omit [FloatOps F] in
theorem GV_join (hGV : ∀ d L (f f' : Buf (Elt F) (vLoc d)), (∀ i ∈ vSet L, f i = f' i) → GV d L f → GV d L f')
    (d : Dev nD) (f0 f1 : Buf (Elt F) (vLoc d)) (h0 : ∀ s : Fin 16, GV d (coordsV (0 : Fin 2) s) f0) (h1 : ∀ s : Fin 16, GV d (coordsV (1 : Fin 2) s) f1)
    (L : grid1.Coords) : GV d L ((coreVSet 1).piecewise f1 f0) := by
  rw [coords_eq L]
  generalize L 1 = s
  rcases fin2_cases (L 0) with hc | hc <;> rw [hc]
  · exact hGV d _ f0 _ (fun i hi => by
      have hn : i ∉ coreVSet 1 := fun h1' => (Finset.disjoint_left.mp core_disj_v) (Finset.mem_biUnion.mpr ⟨s, Finset.mem_univ _, hi⟩) h1'
      exact (Finset.piecewise_eq_of_notMem _ _ _ hn).symm) (h0 s)
  · exact hGV d _ f1 _ (fun i hi => (Finset.piecewise_eq_of_mem _ _ _ (Finset.mem_biUnion.mpr ⟨s, Finset.mem_univ _, hi⟩)).symm) (h1 s)

omit [FloatOps F] in
/-- The operands gathered: the read tokens rejoin, the two halves of each result array join at ONE contents of which
    every tile's property holds. -/
theorem call_out (hGM : ∀ d L (f f' : Buf (Elt F) (mLoc d)), (∀ i ∈ mSet L, f i = f' i) → GM d L f → GM d L f')
    (hGV : ∀ d L (f f' : Buf (Elt F) (vLoc d)), (∀ i ∈ vSet L, f i = f' i) → GV d L f → GV d L f')
    (X' : (d : Dev nD) → Buf (Elt F) (xLoc d)) (d : Dev nD) :
    iprop((coreDn m X' GM GV d 0 ∗ coreDn m X' GM GV d 1)
        ∗ (xLoc d ↦{Transfers.shareDrop fullShare 2} X' d) ∗ (tLoc d ↦{Transfers.shareDrop fullShare 2} m (tLoc d)))
      ⊢ (iprop((xLoc d ↦{fullShare} X' d) ∗ (tLoc d ↦{fullShare} m (tLoc d))
          ∗ ∃ (rm : Buf (Elt F) (mLoc d)) (rv : Buf (Elt F) (vLoc d)), ⌜(∀ L, GM d L rm) ∧ (∀ L, GV d L rv)⌝
              ∗ (mLoc d ↦{fullShare} rm) ∗ (vLoc d ↦{fullShare} rv)) : sProp 𝕄) := by
  have hm (f : Buf (Elt F) (mLoc d)) : (mLoc d ↦[coreMSet 0 ∪ coreMSet 1]{fullShare} f : sProp 𝕄) ⊢ (mLoc d ↦{fullShare} f) := by
    rw [show (Finset.univ : Finset (Idx (mLoc d))) = coreMSet 0 ∪ coreMSet 1 from core_union_m.symm]
  have hv (f : Buf (Elt F) (vLoc d)) : (vLoc d ↦[coreVSet 0 ∪ coreVSet 1]{fullShare} f : sProp 𝕄) ⊢ (vLoc d ↦{fullShare} f) := by
    rw [show (Finset.univ : Finset (Idx (vLoc d))) = coreVSet 0 ∪ coreVSet 1 from core_union_v.symm]
  unfold coreDn
  iintro ⟨⟨⟨Hx0, Ht0, ⟨%fm0, Hm0, %hm0⟩, ⟨%fv0, Hv0, %hv0⟩⟩, ⟨Hx1, Ht1, ⟨%fm1, Hm1, %hm1⟩, ⟨%fv1, Hv1, %hv1⟩⟩⟩, Hxd, Htd⟩
  isplitl [Hxd Hx0 Hx1]
  · iapply (toks2 (X' d)).2
    isplitl [Hxd]; · iexact Hxd
    isplitl [Hx0]; · iexact Hx0
    iexact Hx1
  isplitl [Htd Ht0 Ht1]
  · iapply (toks2 (m (tLoc d))).2
    isplitl [Htd]; · iexact Htd
    isplitl [Ht0]; · iexact Ht0
    iexact Ht1
  iexists ((coreMSet 1).piecewise fm1 fm0); iexists ((coreVSet 1).piecewise fv1 fv0)
  isplitr
  · ipureintro; exact ⟨GM_join GM hGM d fm0 fm1 hm0 hm1, GV_join GV hGV d fv0 fv1 hv0 hv1⟩
  isplitl [Hm0 Hm1]
  · iapply (hm _)
    iapply (pointsTo_join core_disj_m)
    isplitl [Hm0]; · iexact Hm0
    iexact Hm1
  iapply (hv _)
  iapply (pointsTo_join core_disj_v)
  isplitl [Hv0]; · iexact Hv0
  iexact Hv1

end CallOut

/-! ## The buffers' contents along @main -/

abbrev x' : DevRef τ sig := Proc.devRef .tc (main_v0 : Ref sig .tc)
abbrev t' : DevRef τ sig := Proc.devRef .tc (main_arg1 : Ref sig .tc)
abbrev m' : DevRef τ sig := Proc.devRef .tc (main_v3_0 : Ref sig .tc)
abbrev v' : DevRef τ sig := Proc.devRef .tc (main_v3_1 : Ref sig .tc)
abbrev a0' : DevRef τ sig := Proc.devRef .tc (main_arg0 : Ref sig .tc)
abbrev o' : DevRef τ sig := Proc.devRef .tc (main_v2 : Ref sig .tc)
abbrev r12' : DevRef τ sig := Proc.devRef .tc (main_v12 : Ref sig .tc)

/-- The SparseCore call's four arrays, -/
def S4 : Finset (DevRef τ sig) := {x', t', m', v'}
/-- and the three the claim reads. -/
def S3 : Finset (DevRef τ sig) := {a0', t', r12'}

theorem S4_sub : S4 ⊆ Sall := by
  intro b hb
  simp only [S4, Finset.mem_insert, Finset.mem_singleton] at hb
  rcases hb with rfl | rfl | rfl | rfl <;> exact mem_Sall_of (StableHlo.devRef_mem_tcRefs _) rfl
theorem S3_sub : S3 ⊆ Sall := by
  intro b hb
  simp only [S3, Finset.mem_insert, Finset.mem_singleton] at hb
  rcases hb with rfl | rfl | rfl <;> exact mem_Sall_of (StableHlo.devRef_mem_tcRefs _) rfl

omit [FloatOps F] in
theorem held_S4 (d : Dev nD) (W : Valuation τ sig (Elt F)) :
    (held (SparseCore.T d) S4 W : sProp 𝕄) = iprop((xLoc d ↦{fullShare} W x') ∗ (tLoc d ↦{fullShare} W t') ∗ (mLoc d ↦{fullShare} W m') ∗ (vLoc d ↦{fullShare} W v')) := by
  unfold held S4
  rw [SparseCore.bigSep_insert' (by decide), SparseCore.bigSep_insert' (by decide), SparseCore.bigSep_insert' (by decide), bigSep_singleton]
omit [FloatOps F] in
theorem held_S3 (d : Dev nD) (W : Valuation τ sig (Elt F)) :
    (held (SparseCore.T d) S3 W : sProp 𝕄) = iprop((((SparseCore.T d : Thread nD τ).loc main_arg0) ↦{fullShare} W a0') ∗ (tLoc d ↦{fullShare} W t')
      ∗ (((SparseCore.T d : Thread nD τ).loc main_v12) ↦{fullShare} W r12')) := by
  unfold held S3
  rw [SparseCore.bigSep_insert' (by decide), SparseCore.bigSep_insert' (by decide), bigSep_singleton]

theorem V2_t (d : Dev nD) : V2 m d t' = m (tLoc d) := by
  unfold V2
  exact (StableHlo.reshape_result_ne' (τ := τ) (x := main_arg1) (y := main_v1) rfl shapeCasts_S1024_S1x1024 _ _ _ (r := main_arg1) (by decide)).trans
    (StableHlo.unary_result_ne' (τ := τ) (x := main_arg0) (y := main_v0) _ _ _ _ (r := main_arg1) (by decide))
theorem V2_a0 (d : Dev nD) : V2 m d a0' = m ((SparseCore.T d : Thread nD τ).loc main_arg0) := by
  unfold V2
  exact (StableHlo.reshape_result_ne' (τ := τ) (x := main_arg1) (y := main_v1) rfl shapeCasts_S1024_S1x1024 _ _ _ (r := main_arg0) (by decide)).trans
    (StableHlo.unary_result_ne' (τ := τ) (x := main_arg0) (y := main_v0) _ _ _ _ (r := main_arg0) (by decide))

theorem V3_x (d : Dev nD) : V3 m d x' = X m d := Function.update_of_ne (by decide) _ _
theorem V3_t (d : Dev nD) : V3 m d t' = m (tLoc d) := (Function.update_of_ne (by decide) _ _).trans (V2_t m d)
theorem V3_a0 (d : Dev nD) : V3 m d a0' = m ((SparseCore.T d : Thread nD τ).loc main_arg0) := (Function.update_of_ne (by decide) _ _).trans (V2_a0 m d)
theorem V3_o (d : Dev nD) : V3 m d o' = RT m d := Function.update_self ..

/-- The buffers after the SparseCore call: its two results at `gm`, `gv`. -/
def V4 (d : Dev nD) (gm : Buf (Elt F) (mLoc d)) (gv : Buf (Elt F) (vLoc d)) : Valuation τ sig (Elt F) :=
  Function.update (Function.update (V3 m d) m' gm) v' gv

theorem V4_of_not_mem (d : Dev nD) (gm : Buf (Elt F) (mLoc d)) (gv : Buf (Elt F) (vLoc d)) {b : DevRef τ sig} (hm : b ≠ m') (hv : b ≠ v') :
    V4 m d gm gv b = V3 m d b := (Function.update_of_ne hv _ _).trans (Function.update_of_ne hm _ _)
theorem V4_x (d : Dev nD) (gm gv) : V4 m d gm gv x' = X m d := (V4_of_not_mem m d gm gv (by decide) (by decide)).trans (V3_x m d)
theorem V4_t (d : Dev nD) (gm gv) : V4 m d gm gv t' = m (tLoc d) := (V4_of_not_mem m d gm gv (by decide) (by decide)).trans (V3_t m d)
theorem V4_a0 (d : Dev nD) (gm gv) : V4 m d gm gv a0' = m ((SparseCore.T d : Thread nD τ).loc main_arg0) :=
  (V4_of_not_mem m d gm gv (by decide) (by decide)).trans (V3_a0 m d)
theorem V4_o (d : Dev nD) (gm gv) : V4 m d gm gv o' = RT m d := (V4_of_not_mem m d gm gv (by decide) (by decide)).trans (V3_o m d)
theorem V4_m (d : Dev nD) (gm gv) : V4 m d gm gv m' = gm := (Function.update_of_ne (by decide) _ _).trans (Function.update_self ..)
theorem V4_v (d : Dev nD) (gm gv) : V4 m d gm gv v' = gv := Function.update_self ..

theorem held_rest_V4 (d : Dev nD) (gm : Buf (Elt F) (mLoc d)) (gv : Buf (Elt F) (vLoc d)) :
    (held (SparseCore.T d) (Sall \ S4) (V4 m d gm gv) : sProp 𝕄) = held (SparseCore.T d) (Sall \ S4) (V3 m d) :=
  StableHlo.held_congr _ fun b hb => by
    have hn : b ∉ S4 := (Finset.mem_sdiff.mp hb).2
    exact V4_of_not_mem m d gm gv (fun h => hn (by rw [h]; simp [S4])) (fun h => hn (by rw [h]; simp [S4]))

/-- What the result buffer holds after the host tail: the tail's function of the region's result and the call's two. -/
theorem tail_v12 (d : Dev nD) (gm : Buf (Elt F) (mLoc d)) (gv : Buf (Elt F) (vLoc d)) :
    StableHlo.after (tailOps (F := F)) (V4 m d gm gv) r12' = tailOf (RT m d) gm gv := by
  unfold tailOps
  after_results
  rw [V4_o, V4_m, V4_v]
  rfl
theorem tail_a0 (d : Dev nD) (gm : Buf (Elt F) (mLoc d)) (gv : Buf (Elt F) (vLoc d)) :
    StableHlo.after (tailOps (F := F)) (V4 m d gm gv) a0' = m ((SparseCore.T d : Thread nD τ).loc main_arg0) := by
  unfold tailOps
  after_results
  exact V4_a0 m d gm gv
theorem tail_t (d : Dev nD) (gm : Buf (Elt F) (mLoc d)) (gv : Buf (Elt F) (vLoc d)) :
    StableHlo.after (tailOps (F := F)) (V4 m d gm gv) t' = m (tLoc d) := by
  unfold tailOps
  after_results
  exact V4_t m d gm gv

theorem held_S4_V3 (d : Dev nD) :
    (held (SparseCore.T d) S4 (V3 m d) : sProp 𝕄) = iprop((xLoc d ↦{fullShare} X m d) ∗ (tLoc d ↦{fullShare} m (tLoc d)) ∗ (mLoc d ↦{fullShare} V3 m d m') ∗ (vLoc d ↦{fullShare} V3 m d v')) := by
  rw [held_S4, V3_x, V3_t]
theorem held_S4_V4 (d : Dev nD) (gm : Buf (Elt F) (mLoc d)) (gv : Buf (Elt F) (vLoc d)) :
    (held (SparseCore.T d) S4 (V4 m d gm gv) : sProp 𝕄) = iprop((xLoc d ↦{fullShare} X m d) ∗ (tLoc d ↦{fullShare} m (tLoc d)) ∗ (mLoc d ↦{fullShare} gm) ∗ (vLoc d ↦{fullShare} gv)) := by
  rw [held_S4, V4_x, V4_t, V4_m, V4_v]
theorem held_S3_tail (d : Dev nD) (gm : Buf (Elt F) (mLoc d)) (gv : Buf (Elt F) (vLoc d)) :
    (held (SparseCore.T d) S3 (StableHlo.after (tailOps (F := F)) (V4 m d gm gv)) : sProp 𝕄)
      = iprop((((SparseCore.T d : Thread nD τ).loc main_arg0) ↦{fullShare} m ((SparseCore.T d : Thread nD τ).loc main_arg0)) ∗ (tLoc d ↦{fullShare} m (tLoc d))
        ∗ (((SparseCore.T d : Thread nD τ).loc main_v12) ↦{fullShare} tailOf (RT m d) gm gv)) := by
  rw [held_S3, tail_a0, tail_t, tail_v12]

variable (GM : (d : Dev nD) → grid1.Coords → Buf (Elt F) (mLoc d) → Prop) (GV : (d : Dev nD) → grid1.Coords → Buf (Elt F) (vLoc d) → Prop)

/-- The pipeline's staging cells' ghost state on device `d`, dealt at the launch. -/
abbrev G (d : Dev nD) : sProp 𝕄 :=
  iprop(Pipeline.cellsGhost (Pipeline.pin (pcfgs (F := F)) adm) EP 0 d ∗ Pipeline.toksInit (Pipeline.pin (pcfgs (F := F)) adm) EP 0 d)

/-- What @main leaves: the two arguments as launched, and the result at the host tail of the region's result and of
    SOME contents of the SparseCore call's two results of which every tile's property holds. -/
def FIN (d : Dev nD) : sProp 𝕄 :=
  iprop(∃ (rm : Buf (Elt F) (mLoc d)) (rv : Buf (Elt F) (vLoc d)), ⌜(∀ L, GM d L rm) ∧ (∀ L, GV d L rv)⌝
    ∗ (((SparseCore.T d : Thread nD τ).loc main_arg0) ↦{fullShare} m ((SparseCore.T d : Thread nD τ).loc main_arg0))
    ∗ (tLoc d ↦{fullShare} m (tLoc d))
    ∗ (((SparseCore.T d : Thread nD τ).loc main_v12) ↦{fullShare} tailOf (RT m d) rm rv))

theorem reg0_pre (d : Dev nD) : (reg0 m).pre d = iprop(unscopedBufs d (Vr m d) ∗ tcOwes d) := rfl
theorem reg0_post (d : Dev nD) : (reg0 m).post d = iprop(unscopedBufs d (Vr3 m d) ∗ tcOwes d) := rfl

omit [FloatOps F] in
theorem tcSt_split (d : Dev nD) : ∃ R : sProp 𝕄, ((K (F := F)).tcSt EH d 0 : sProp 𝕄) = iprop(tcOwes d ∗ R) := by
  unfold SparseCore.Cfg.tcSt tcOwes; exact ⟨_, rfl⟩

set_option backward.isDefEq.respectTransparency.types false in
theorem hmain (hGM : ∀ d L (f f' : Buf (Elt F) (mLoc d)), (∀ i ∈ mSet L, f i = f' i) → GM d L f → GM d L f')
    (hGV : ∀ d L (f f' : Buf (Elt F) (vLoc d)), (∀ i ∈ vSet L, f i = f' i) → GV d L f → GV d L f')
    (κ : GSem nD τ sig → ℕ) (d : Dev nD) :
    iprop((K (F := F)).ctx EH (P m (X m) GM GV) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m GM GV d) := by
  have hseq : (StableHlo.seq (tailOps (F := F)) : Prog (TpuEff nD τ sig (Elt F) (SparseCore.Sig (ΛP (F := F)) 1) .tc) PUnit) = (StableHlo.seq (tailOps (F := F)) >>= fun u => pure u) := (bind_pure _).symm
  rw [main_eq]
  obtain ⟨R, hR⟩ := tcSt_split (F := F) d
  rw [hR]
  unfold SparseCore.Cfg.tcRes
  rw [show (unscopedBufs d (fun b => m ((SparseCore.T d : Thread nD τ).loc b)) : sProp 𝕄) = held (SparseCore.T d) Sall (V0 m d) from unscoped_held d (V0 m d)]
  iintro ⟨#Hctx, ⟨Howes, HR⟩, ⟨Hb, Hheld, -, -⟩, ⟨Hcg, Htk⟩⟩
  ihave Hlev := (SparseCore.Cfg.ctx_levAts κ) $$ Hctx
  -- the two host operations
  iapply (StableHlo.wp_seq (𝒱 := 𝒱) (bd := none) (E := Set.univ) d Sall _ [opT (F := F), opR (F := F)] pre_sub pre_fresh (V0 m d)) $$ [Hb Hheld]
  · isplitl [Hb] <;> iassumption
  iintro ⟨Hb, Hheld⟩
  -- the TensorCore call: the region
  rw [wp_bind]
  iapply ((K (F := F)).wp_liftProg (D (F := F)) 𝒱 (SparseCore.T d) Set.univ none (Prog.lift (.customCall (Pipeline.entry 0) ())) _)
  iapply (Pipeline.RegionSeg.wp (pcfgs (F := F)) adm (pdats m) (none : HIx 1) cellOf_inj EP defs₀ 𝒱₀ (K (F := F)).L (K (F := F)).lev (reg0 m) d none (fun u hu => nomatch hu) (fun u => .ret u) _)
  isplitr [Hb Hheld Howes Hcg Htk]
  swap
  · isplitl [Hb]; · iexact Hb
    isplitl [Hheld Howes]
    · iapply (Entails.of_eq (reg0_pre m d).symm)
      isplitl [Hheld]
      · iapply (Entails.of_eq (unscoped_held d (V2 m d)).symm)
        iexact Hheld
      iexact Howes
    isplitr; · iexact Hlev
    isplitl [Hcg]; · iexact Hcg
    iexact Htk
  iintro ⟨Hb, Hpost⟩
  ihave Hp := (Entails.of_eq (reg0_post m d)) $$ Hpost
  icases Hp with ⟨Hub, Howes⟩
  ihave Hheld := (Entails.of_eq (unscoped_held d (V3 m d))) $$ Hub
  rw [wp_ret]; imodintro
  -- the SparseCore call
  rw [wp_bind]
  ihave Hs := (Entails.of_eq (StableHlo.held_sub_split (SparseCore.T d) S4_sub (V3 m d))) $$ Hheld
  icases Hs with ⟨H4, Hrest⟩
  ihave H4' := (Entails.of_eq (held_S4_V3 m d)) $$ H4
  ihave Hin := (call_in m (X m) d _ _) $$ H4'
  icases Hin with ⟨⟨Hst0, Hst1⟩, Hxd, Htd⟩
  iapply ((K (F := F)).wp_run (D (F := F)) 𝒱 (EH := EH) (P := P m (X m) GM GV) κ d 0) $$ [Howes HR Hst0 Hst1 Hb Hrest Hxd Htd]
  isplitr; · iexact Hctx
  isplitl [Howes HR]
  · iapply (Entails.of_eq hR.symm)
    isplitl [Howes]; · iexact Howes
    iexact HR
  isplitl [Hst0 Hst1]
  · iapply (Entails.of_eq (st0_eq m GM GV (X m) d).symm)
    isplitl [Hst0]; · iexact Hst0
    iexact Hst1
  iintro ⟨Hst, Hdn⟩
  ihave Hdn' := (Entails.of_eq (dn0_eq m GM GV (X m) d)) $$ Hdn
  ihave Hout := (call_out m GM GV hGM hGV (X m) d) $$ [Hdn' Hxd Htd]
  · isplitl [Hdn']; · iexact Hdn'
    isplitl [Hxd]; · iexact Hxd
    iexact Htd
  icases Hout with ⟨Hx, Ht, %rm, %rv, %hrmv, Hm, Hv⟩
  -- the held set again, the call's two results at what came back
  ihave Hrest' := (Entails.of_eq (held_rest_V4 m d rm rv).symm) $$ Hrest
  ihave Hheld := (Entails.of_eq (StableHlo.held_sub_split (SparseCore.T d) S4_sub (V4 m d rm rv)).symm) $$ [Hx Ht Hm Hv Hrest']
  · isplitr [Hrest']; swap; · iexact Hrest'
    iapply (Entails.of_eq (held_S4_V4 m d rm rv).symm)
    isplitl [Hx]; · iexact Hx
    isplitl [Ht]; · iexact Ht
    isplitl [Hm]; · iexact Hm
    iexact Hv
  -- the host tail
  rw [hseq]
  iapply (StableHlo.wp_seq (𝒱 := 𝒱) (bd := none) (E := Set.univ) d Sall _ (tailOps (F := F)) tail_sub tail_fresh (V4 m d rm rv)) $$ [Hb Hheld]
  · isplitl [Hb] <;> iassumption
  iintro ⟨Hb, Hheld⟩
  ihave Hs := (Entails.of_eq (StableHlo.held_sub_split (SparseCore.T d) S3_sub (StableHlo.after (tailOps (F := F)) (V4 m d rm rv)))) $$ Hheld
  icases Hs with ⟨H3, -⟩
  ihave H3' := (Entails.of_eq (held_S3_tail m d rm rv)) $$ H3
  icases H3' with ⟨Ha0, Ht, Hr⟩
  first | rw [wp_pure] | rw [wp_ret]
  imodintro
  try imodintro
  isplitl [Hst]; · iexact Hst
  unfold FIN
  iexists rm; iexists rv
  isplitr; · ipureintro; exact hrmv
  isplitl [Ha0]; · iexact Ha0
  isplitl [Ht]; · iexact Ht
  iexact Hr

/-! ## The launch element -/

omit [FloatOps F] in
theorem bigSep_emp' {I : Type} (s : Finset I) : (bigSep s fun _ => iprop(emp)) = (iprop(emp) : sProp 𝕄) := bigSep_emp_const s

/-- The launch element: the handshakes' rounds; the pipeline's staging cells' rounds; no counter. -/
def u₀ : UU := (initOf (K (F := F)).hsCells (K (F := F)).hsToks,
  (initOf (Pipeline.cells (nD := nD) (Pipeline.pin (pcfgs (F := F)) adm) cellOf_inj) (Pipeline.launchToks (nD := nD) (Pipeline.pin (pcfgs (F := F)) adm) cellOf_inj), 1))

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m (X m) GM GV).x q thr) := by
  have hG : iprop((bigSep Finset.univ fun c : Dev nD => bigSep Finset.univ fun p : Fin 1 => Pipeline.cellsGhost (Pipeline.pin (pcfgs (F := F)) adm) EP p c)
        ∗ (bigSep Finset.univ fun c : Dev nD => bigSep Finset.univ fun p : Fin 1 => (Pipeline.toksInit (Pipeline.pin (pcfgs (F := F)) adm) EP p c : sProp 𝕄)))
      ⊢ bigSep Finset.univ fun d : Dev nD => G (F := F) d := by
    rw [← bigSep_sep']
    refine bigSep_mono fun c _ => ?_
    rw [show (Finset.univ : Finset (Fin 1)) = {0} by decide, bigSep_singleton, bigSep_singleton]
    exact BI.Entails.refl _
  unfold u₀
  iintro Hu
  ihave H := (ownU_pair _ _) $$ Hu
  icases H with ⟨HH, HR⟩
  ihave H2 := (own_pair_emb embR _ _) $$ HR
  icases H2 with ⟨HP, -⟩
  imod (Pipeline.fund_ghost (Pipeline.pin (pcfgs (F := F)) adm) EP cellOf_inj) $$ HP with ⟨Hg, Ht⟩
  imodintro
  isplitl [HH]; · iexact HH
  isplitl [Hg Ht]
  · iapply hG
    isplitl [Hg]; · iexact Hg
    iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## What the final memory holds -/

def fq (d : Dev nD) (s' : Phys nD τ sig (Elt F)) : Prop :=
  (∃ (rm : Buf (Elt F) (mLoc d)) (rv : Buf (Elt F) (vLoc d)), (∀ L, GM d L rm) ∧ (∀ L, GV d L rv)
      ∧ s'.mem.mem ((SparseCore.T d : Thread nD τ).loc main_v12) = tailOf (RT m d) rm rv)
    ∧ s'.mem.mem ((SparseCore.T d : Thread nD τ).loc main_arg0) = m ((SparseCore.T d : Thread nD τ).loc main_arg0)
    ∧ s'.mem.mem (tLoc d) = m (tLoc d)

theorem hfin (d : Dev nD) (s' : Phys nD τ sig (Elt F)) : iprop(FIN m GM GV d ∗ SI s') ⊢ (⌜fq m GM GV d s'⌝ : sProp 𝕄) := by
  unfold FIN
  iintro ⟨⟨%rm, %rv, %h, Ha0, Ht, Hr⟩, HSI⟩
  icombine HSI Ha0 gives %h0
  icombine HSI Ht gives %h1
  icombine HSI Hr gives %h2
  ipureintro
  exact ⟨⟨rm, rv, h.1, h.2, funext fun i => h2 i (Finset.mem_univ i)⟩, funext fun i => h0 i (Finset.mem_univ i), funext fun i => h1 i (Finset.mem_univ i)⟩

end Cert.Proof.KernelP
end
-- ==== Proof.LaunchB.lean ====
/-
  The program's run: every weakly fair execution of the device's threads terminates, and in every final memory the two
  arguments are as launched and the result is the host tail of the TensorCore region's result and of some contents of
  the SparseCore call's two results of which every tile's property holds. By the SparseCore launch theorem at the one
  vector-subcore call, from the tile's obligation and the split of a SparseCore's operands among its tiles.
-/
import proofs.«203171_g79482664779815_cont_9to1_m_1298_18_alg».proof.Proof.CommonB
import proofs.«203171_g79482664779815_cont_9to1_m_1298_18_alg».proof.Proof.PayB
import proofs.«203171_g79482664779815_cont_9to1_m_1298_18_alg».proof.Proof.RegionDataB
import proofs.«203171_g79482664779815_cont_9to1_m_1298_18_alg».proof.Proof.RegionBodyB
import Idealize.ShloMosaic.Lib.Pipeline.Regions
import proofs.«203171_g79482664779815_cont_9to1_m_1298_18_alg».proof.Proof.RegionB
import proofs.«203171_g79482664779815_cont_9to1_m_1298_18_alg».proof.Proof.TailB
import proofs.«203171_g79482664779815_cont_9to1_m_1298_18_alg».proof.Proof.VecSplitB
import Idealize.ShloMosaic.Lib.StableHlo.Run
import proofs.«203171_g79482664779815_cont_9to1_m_1298_18_alg».proof.Proof.MainB
import Idealize.ShloMosaic.Lib.Transfers
import Idealize.ShloMosaic.Lib.Pipeline.FrameBody
import Idealize.ShloMosaic.Lib.Pipeline.Frame
import Idealize.ShloMosaic.Lib.Pipeline.Value
import Idealize.ShloMosaic.Lib.WholeRead
import Idealize.ShloMosaic.Lib.ValueIdx

noncomputable section

namespace Cert.Proof.KernelP

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo (held held_split held_sdiff_result wp_hlo_within)

variable {F : FTy → Type} [FloatOps F]

local notation "𝕄" => MT nD τ sig (HIx 1) (Elt F) ℕ UU ℕ

set_option backward.isDefEq.respectTransparency.types false in
theorem run_main [∀ e, Nonempty (Elt F e)] (m : (ℓ : Loc nD τ sig) → Buf (Elt F) ℓ) (ρ : Dev nD → PrngReg)
    (GM : (d : Dev nD) → grid1.Coords → Buf (Elt F) (mLoc d) → Prop) (GV : (d : Dev nD) → grid1.Coords → Buf (Elt F) (vLoc d) → Prop)
    (hGM : ∀ d L (f f' : Buf (Elt F) (mLoc d)), (∀ i ∈ mSet L, f i = f' i) → GM d L f → GM d L f')
    (hGV : ∀ d L (f f' : Buf (Elt F) (vLoc d)), (∀ i ∈ vSet L, f i = f' i) → GV d L f → GV d L f')
    (htile : (K (F := F)).TileObl (D (F := F)) 𝒱 (P m (X m) GM GV) v₀ 0)
    (hvec : (K (F := F)).VecSplit' (P m (X m) GM GV) 0) :
    θ_run (Cert.Kernel.defs (F := F)) (Cert.Kernel.threads (F := F)) ⟨m, fun _ => 0, ρ⟩ (fun r => ∀ c : Dev nD,
      (∃ (rm : Buf (Elt F) (mLoc c)) (rv : Buf (Elt F) (vLoc c)), (∀ L, GM c L rm) ∧ (∀ L, GV c L rv)
          ∧ r.2.mem ((c.tc : Thread nD τ).loc main_v12) = tailOf (RT m c) rm rv)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  SparseCore.Cfg.θ_run_sc (K := K (F := F)) (D := D (F := F)) (𝒱 := 𝒱) (EH := EH) (P := P m (X m) GM GV) facts v₀
    (fun q hq => match q with | 0 => nomatch hq)
    (fun q _ => match q with | 0 => htile)
    (fun q _ => match q with | 0 => SparseCore.Cfg.VecSplit.of_plain hvec)
    m ρ main (fun d => G (F := F) d) (FIN m GM GV) (u₀ (F := F)) (sep_elim_left.trans (hu₀ m GM GV)) (hmain m ρ GM GV hGM hGV) (fq m GM GV) (hfin m GM GV) _ (fun _ h => h)

end Cert.Proof.KernelP
end
-- ==== Proof.LibSepList.lean ====
/-
  Members of a big separating conjunction named by a LIST: for a duplicate-free list `l` of members of a finite set
  `s`, the conjunction over `s` is the conjunction of the listed members, in the list's order, beside the conjunction
  over the rest of `s`. Used to take a handful of named cells or buffers out of everything a thread owns in one step.
-/
import Idealize.ShloMosaic.Lib.SparseCore.Cells

noncomputable section

namespace Cert.SepList

open Idealize.SL Idealize.SL.RA Idealize.SL.BI
open scoped Idealize.SL.BI
open Idealize.SL.BI.BIBase Idealize.SL.BI.Laws

variable {M : Type} [URA M] {I : Type} [DecidableEq I]

/-- The listed propositions joined left to right, `emp` at the end. -/
def sepList : List (sProp M) → sProp M
  | [] => iprop(emp)
  | P :: Ps => iprop(P ∗ sepList Ps)

@[simp] theorem sepList_nil : (sepList [] : sProp M) = iprop(emp) := rfl
@[simp] theorem sepList_cons (P : sProp M) (Ps : List (sProp M)) : sepList (P :: Ps) = iprop(P ∗ sepList Ps) := rfl

/-- The conjunction over a duplicate-free list's members is the list's propositions joined. -/
theorem bigSep_toFinset (Φ : I → sProp M) : ∀ (l : List I), l.Nodup → bigSep l.toFinset Φ = sepList (l.map Φ)
  | [], _ => by rw [List.toFinset_nil, bigSep_empty]; rfl
  | a :: l, h => by
    have ha : a ∉ l.toFinset := fun hm => (List.nodup_cons.mp h).1 (List.mem_toFinset.mp hm)
    rw [List.toFinset_cons, Idealize.ShloMosaic.SparseCore.bigSep_insert' ha, bigSep_toFinset Φ l (List.nodup_cons.mp h).2]
    rfl

/-- Take the listed members out of the conjunction over `s`. -/
theorem bigSep_take (s : Finset I) (Φ : I → sProp M) (l : List I) (hnd : l.Nodup) (hs : ∀ i ∈ l, i ∈ s) :
    bigSep s Φ = iprop(sepList (l.map Φ) ∗ bigSep (s \ l.toFinset) Φ) := by
  rw [Idealize.ShloMosaic.SparseCore.bigSep_sdiff_split' (t := l.toFinset) (fun i hi => hs i (List.mem_toFinset.mp hi)),
    bigSep_toFinset Φ l hnd]

end Cert.SepList

end
-- ==== Proof.TileI.lean ====
/-
  One vector subcore's task: the body obligation of the SparseCore call.

  Tile `L = (c, s)` takes rows `v0 = 80000 + 5000·vq` … of 128 columns `b0 = 128·bt` … of the transposed table, 25 chunks
  of 200 rows, through a ring of four 200×128 buffers, one DMA semaphore per buffer and at most one copy in flight on
  each; a fifth semaphore carries, one at a time, the fetch of the tile's 128 target words and the two copies of its
  results out. Per chunk row and per group of 16 columns it keeps the running maximum of the entries whose row number
  is not the column's target, and the entry whose row number is.
-/
import proofs.«203171_g79482664779815_cont_9to1_m_1298_18_alg».proof.Proof.PayI
import Idealize.ShloMosaic.Lib.Transfers
import Idealize.ShloMosaic.Lib.Ring
import proofs.«203171_g79482664779815_cont_9to1_m_1298_18_alg».proof.Proof.LibSepList

noncomputable section

namespace Cert.Proof.KernelIdealP

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

/-- The SparseCore and the vector subcore of the tile at grid coordinates `L`. -/
abbrev cV (L : grid1.Coords) : Fin τ.nSC := (L 0).castLE hcore1
abbrev jV (L : grid1.Coords) : Fin τ.nSub := (L 1).castLE hsub1

-- the kernel's memrefs, spelt as the body table passes them
local notation "xW" => (Memref.whole Cert.KernelIdeal.main_v0_scv : Memref Cert.KernelIdeal.sig Kind.scVector Space.hbm Cert.KernelIdeal.S100000x1024 EltTy.f32)
local notation "tW" => (Memref.whole Cert.KernelIdeal.main_arg1_scv : Memref Cert.KernelIdeal.sig Kind.scVector Space.hbm Cert.KernelIdeal.S1024 EltTy.i32)
local notation "mW" => (Memref.whole Cert.KernelIdeal.main_v3_0_scv : Memref Cert.KernelIdeal.sig Kind.scVector Space.hbm Cert.KernelIdeal.S4x1024 EltTy.f32)
local notation "vW" => (Memref.whole Cert.KernelIdeal.main_v3_1_scv : Memref Cert.KernelIdeal.sig Kind.scVector Space.hbm Cert.KernelIdeal.S4x1024 EltTy.f32)
local notation "sT" => (Memref.whole Cert.KernelIdeal.cc1_scratch0 : Memref Cert.KernelIdeal.sig Kind.scVector Space.vmem Cert.KernelIdeal.S128 EltTy.i32)
local notation "sB" => (Memref.whole Cert.KernelIdeal.cc1_scratch1 : Memref Cert.KernelIdeal.sig Kind.scVector Space.vmem Cert.KernelIdeal.S4x200x128 EltTy.f32)
local notation "sR" => (Memref.whole Cert.KernelIdeal.cc1_scratch2 : Memref Cert.KernelIdeal.sig Kind.scVector Space.vmem Cert.KernelIdeal.S256 EltTy.f32)

/-- Semaphore `k` of the tile's five, and ring buffer `k` of its four, as the body slices them. -/
abbrev semK (k : Nat) (h : ∀ a, (![k] : Fin 1 → Nat) a + S1.size a ≤ S5.size a) : DmaSems sig S_ :=
  (cc1_scratch3.slice (Rect.unit (s := S5) ![k] S1.size h)).squeeze S_ squeezes_S1_S_
abbrev slotK (k : Nat) (h : ∀ a, (![k, 0, 0] : Fin 3 → Nat) a + S1x200x128.size a ≤ S4x200x128.size a) : Memref sig .scVector .vmem S200x128 .f32 :=
  ((sB).slice (Rect.unit (s := S4x200x128) ![k, 0, 0] S1x200x128.size h) (fun _ => rfl)).squeeze S200x128 squeezes_S1x200x128_S200x128

abbrev sem0 : DmaSems sig S_ := semK 0 inb_S5_S1_0
abbrev sem1 : DmaSems sig S_ := semK 1 inb_S5_S1_1
abbrev sem2 : DmaSems sig S_ := semK 2 inb_S5_S1_2
abbrev sem3 : DmaSems sig S_ := semK 3 inb_S5_S1_3
abbrev sem4 : DmaSems sig S_ := semK 4 inb_S5_S1_4
abbrev slot0 : Memref sig .scVector .vmem S200x128 .f32 := slotK 0 inb_S4x200x128_S1x200x128_0_0_0
abbrev slot1 : Memref sig .scVector .vmem S200x128 .f32 := slotK 1 inb_S4x200x128_S1x200x128_1_0_0
abbrev slot2 : Memref sig .scVector .vmem S200x128 .f32 := slotK 2 inb_S4x200x128_S1x200x128_2_0_0
abbrev slot3 : Memref sig .scVector .vmem S200x128 .f32 := slotK 3 inb_S4x200x128_S1x200x128_3_0_0

/-! ## The tile's own cells and scratch buffers, out of its scoped storage -/

theorem scratchRefs_nodup : ([cc1_scratch0, cc1_scratch1, cc1_scratch2] : List (Ref sig .scVector)).Nodup := by decide

section Own

variable (d : Dev nD) (L : grid1.Coords)

/-- The tile's five DMA semaphores as cells of the machine. -/
abbrev cellsV : List (GSem nD τ sig) :=
  [(V d (cV L) (jV L), SemLoc.dma sem0.sem), (V d (cV L) (jV L), SemLoc.dma sem1.sem), (V d (cV L) (jV L), SemLoc.dma sem2.sem),
   (V d (cV L) (jV L), SemLoc.dma sem3.sem), (V d (cV L) (jV L), SemLoc.dma sem4.sem)]

theorem cellsV_nodup : (cellsV d L).Nodup := by
  refine List.Nodup.of_map (fun g : GSem nD τ sig => g.2) ?_
  show ([SemLoc.dma sem0.sem, SemLoc.dma sem1.sem, SemLoc.dma sem2.sem, SemLoc.dma sem3.sem, SemLoc.dma sem4.sem] : List (SemLoc sig)).Nodup
  decide

theorem cellsV_mem : ∀ g ∈ cellsV d L, g ∈ ownCells (V d (cV L) (jV L)) := by
  intro g hg
  simp only [List.mem_cons, List.mem_nil_iff, or_false] at hg
  rcases hg with rfl | rfl | rfl | rfl | rfl
  · exact mem_ownCells.mpr ⟨rfl, by show (SemLoc.dma sem0.sem : SemLoc sig).isScoped .scVector = true; decide⟩
  · exact mem_ownCells.mpr ⟨rfl, by show (SemLoc.dma sem1.sem : SemLoc sig).isScoped .scVector = true; decide⟩
  · exact mem_ownCells.mpr ⟨rfl, by show (SemLoc.dma sem2.sem : SemLoc sig).isScoped .scVector = true; decide⟩
  · exact mem_ownCells.mpr ⟨rfl, by show (SemLoc.dma sem3.sem : SemLoc sig).isScoped .scVector = true; decide⟩
  · exact mem_ownCells.mpr ⟨rfl, by show (SemLoc.dma sem4.sem : SemLoc sig).isScoped .scVector = true; decide⟩

/-- The tile's own semaphores at zero: its five DMA semaphores, and the rest. -/
theorem ownSems0_V :
    (ownSems0 (V d (cV L) (jV L)) : sProp 𝕄)
      = iprop(Cert.SepList.sepList ((cellsV d L).map fun g => (semVal g 0 : sProp 𝕄))
          ∗ bigSep (ownCells (V d (cV L) (jV L)) \ (cellsV d L).toFinset) fun g => semVal g 0) := by
  unfold SparseCore.Cfg.ownSems0
  exact Cert.SepList.bigSep_take _ _ _ (cellsV_nodup d L) (cellsV_mem d L)

/-- The tile's three scratch buffers as buffers of the device. -/
abbrev bufsV : List (DevRef τ sig) :=
  [(Proc.scVector (cV L) (jV L)).devRef cc1_scratch0, (Proc.scVector (cV L) (jV L)).devRef cc1_scratch1, (Proc.scVector (cV L) (jV L)).devRef cc1_scratch2]

theorem bufsV_nodup : (bufsV L).Nodup := by
  show (([cc1_scratch0, cc1_scratch1, cc1_scratch2] : List (Ref sig .scVector)).map (Proc.scVector (cV L) (jV L)).devRef).Nodup
  exact List.Nodup.map (Proc.devRef_injective _) scratchRefs_nodup

theorem bufsV_mem : ∀ b ∈ bufsV L, b ∈ ownRefs (τ := τ) (.scVector (cV L) (jV L)) := by
  intro b hb
  simp only [List.mem_cons, List.mem_nil_iff, or_false] at hb
  rcases hb with rfl | rfl | rfl <;> exact SparseCore.Cfg.mem_ownRefs_of_owner (p := Proc.scVector (cV L) (jV L)) rfl

/-- The tile's own buffers: the three scratch buffers at some contents, and the rest. -/
theorem ownBufs_V :
    (ownBufs (V d (cV L) (jV L)) : sProp 𝕄)
      = iprop(Cert.SepList.sepList ((bufsV L).map fun b => (iprop(∃ f, ((d, b) : Loc nD τ sig) ↦{fullShare} f) : sProp 𝕄))
          ∗ bigSep (ownRefs (τ := τ) (.scVector (cV L) (jV L)) \ (bufsV L).toFinset) fun b => iprop(∃ f, ((d, b) : Loc nD τ sig) ↦{fullShare} f)) := by
  unfold SparseCore.Cfg.ownBufs
  exact Cert.SepList.bigSep_take _ _ _ (bufsV_nodup L) (bufsV_mem L)

end Own

/-! ## The ring buffer as four slot pieces -/

abbrev slotRect (k : Nat) (h : ∀ a, (![k, 0, 0] : Fin 3 → Nat) a + S1x200x128.size a ≤ S4x200x128.size a) : Rect S4x200x128 :=
  Rect.unit (s := S4x200x128) ![k, 0, 0] S1x200x128.size h

theorem slotK_set (k : Nat) (h : ∀ a, (![k, 0, 0] : Fin 3 → Nat) a + S1x200x128.size a ≤ S4x200x128.size a) :
    (slotK k h).view.set = (slotRect k h).set := by
  simp only [Memref.view_squeeze, View.set_reshape, Memref.view_slice, Memref.view_whole, View.set_slice_whole]

theorem mem_slotRect {k : Nat} {h : ∀ a, (![k, 0, 0] : Fin 3 → Nat) a + S1x200x128.size a ≤ S4x200x128.size a} (i : S4x200x128.Idx) :
    i ∈ (slotRect k h).set ↔ (i 0).val = k := by
  rw [Rect.mem_set_unit]
  have h1 : (i 1).val < 200 := (i 1).isLt
  have h2 : (i 2).val < 128 := (i 2).isLt
  constructor
  · intro hh
    have := hh 0
    simp only [Matrix.cons_val_zero] at this
    have hs : S1x200x128.size 0 = 1 := rfl
    omega
  · intro hk a
    fin_cases a
    · show k ≤ (i 0).val ∧ (i 0).val < k + 1; omega
    · show 0 ≤ (i 1).val ∧ (i 1).val < 0 + 200; omega
    · show 0 ≤ (i 2).val ∧ (i 2).val < 0 + 128; omega

theorem slots_cover :
    (slotRect 0 inb_S4x200x128_S1x200x128_0_0_0).set ∪ ((slotRect 1 inb_S4x200x128_S1x200x128_1_0_0).set
      ∪ ((slotRect 2 inb_S4x200x128_S1x200x128_2_0_0).set ∪ (slotRect 3 inb_S4x200x128_S1x200x128_3_0_0).set)) = Finset.univ := by
  ext i
  simp only [Finset.mem_union, mem_slotRect, Finset.mem_univ, iff_true]
  have h0 : (i 0).val < 4 := (i 0).isLt
  omega

theorem slots_disjoint {k k' : Nat} {h h'} (hk : k ≠ k') : Disjoint (slotRect k h).set (slotRect k' h').set := by
  rw [Finset.disjoint_left]
  intro i hi hi'
  exact hk ((mem_slotRect i).mp hi ▸ (mem_slotRect i).mp hi')

section Pieces

variable (d : Dev nD) (L : grid1.Coords)

/-- The ring buffer whole is its four slots, each by its own elements. -/
theorem buf_slots (f : Buf (Elt F) ((sB).view.loc (V d (cV L) (jV L)))) :
    ((sB).view.loc (V d (cV L) (jV L)) ↦{fullShare} f : sProp 𝕄)
      ⊣⊢ iprop((slot0.view.loc (V d (cV L) (jV L)) ↦[slot0.view.set]{fullShare} f)
          ∗ (slot1.view.loc (V d (cV L) (jV L)) ↦[slot1.view.set]{fullShare} f)
          ∗ (slot2.view.loc (V d (cV L) (jV L)) ↦[slot2.view.set]{fullShare} f)
          ∗ (slot3.view.loc (V d (cV L) (jV L)) ↦[slot3.view.set]{fullShare} f)) := by
  rw [slotK_set, slotK_set, slotK_set, slotK_set]
  have e : ((sB).view.loc (V d (cV L) (jV L)) ↦{fullShare} f : sProp 𝕄)
      = ((sB).view.loc (V d (cV L) (jV L)) ↦[(slotRect 0 inb_S4x200x128_S1x200x128_0_0_0).set ∪ ((slotRect 1 inb_S4x200x128_S1x200x128_1_0_0).set
      ∪ ((slotRect 2 inb_S4x200x128_S1x200x128_2_0_0).set ∪ (slotRect 3 inb_S4x200x128_S1x200x128_3_0_0).set))]{fullShare} f) := by
    rw [slots_cover]
  rw [e]
  have d01 : Disjoint (slotRect 0 inb_S4x200x128_S1x200x128_0_0_0).set ((slotRect 1 inb_S4x200x128_S1x200x128_1_0_0).set
      ∪ ((slotRect 2 inb_S4x200x128_S1x200x128_2_0_0).set ∪ (slotRect 3 inb_S4x200x128_S1x200x128_3_0_0).set)) :=
    Finset.disjoint_union_right.mpr ⟨slots_disjoint (by decide), Finset.disjoint_union_right.mpr ⟨slots_disjoint (by decide), slots_disjoint (by decide)⟩⟩
  have d12 : Disjoint (slotRect 1 inb_S4x200x128_S1x200x128_1_0_0).set
      ((slotRect 2 inb_S4x200x128_S1x200x128_2_0_0).set ∪ (slotRect 3 inb_S4x200x128_S1x200x128_3_0_0).set) :=
    Finset.disjoint_union_right.mpr ⟨slots_disjoint (by decide), slots_disjoint (by decide)⟩
  have d23 : Disjoint (slotRect 2 inb_S4x200x128_S1x200x128_2_0_0).set (slotRect 3 inb_S4x200x128_S1x200x128_3_0_0).set := slots_disjoint (by decide)
  constructor
  · exact (pointsTo_union d01).1.trans (sep_mono_right ((pointsTo_union d12).1.trans (sep_mono_right (pointsTo_union d23).1)))
  · exact (sep_mono_right ((sep_mono_right (pointsTo_union d23).2).trans (pointsTo_union d12).2)).trans (pointsTo_union d01).2

end Pieces

end Cert.Proof.KernelIdealP

end
-- ==== Proof.TileRunI.lean ====
/-
  The tile's task, as a frame: from its resources it runs to the end and hands them back.

  The ring's state between trips of the chunk loop is a loop invariant: at the start of trip `k` (of six, four chunks
  each) slot 0 has a copy in flight for every `k ≤ 6` (the 25th chunk at `k = 6`), slots 1 and 2 have one for `k < 6`
  and are free at `k = 6`, slot 3 is free: chunk `c` is issued three chunk steps ahead into the slot chunk `c − 1` has
  just been read out of, so no semaphore ever has two copies pending, and no slot is read or written while a copy
  into it is pending. A copy in flight is an assertion like any other (the transfer's `Flight`): it owns the slot's
  elements and the part of the table's read token lent to it, and its wait gives both back. The four issue
  conditions of a trip are decided from the trip number: the first two always hold, the last two hold exactly when
  another trip follows.
-/
import proofs.«203171_g79482664779815_cont_9to1_m_1298_18_alg».proof.Proof.TileI

noncomputable section

namespace Cert.Proof.KernelIdealP

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ

local notation "xW" => (Memref.whole Cert.KernelIdeal.main_v0_scv : Memref Cert.KernelIdeal.sig Kind.scVector Space.hbm Cert.KernelIdeal.S100000x1024 EltTy.f32)
local notation "tW" => (Memref.whole Cert.KernelIdeal.main_arg1_scv : Memref Cert.KernelIdeal.sig Kind.scVector Space.hbm Cert.KernelIdeal.S1024 EltTy.i32)
local notation "mW" => (Memref.whole Cert.KernelIdeal.main_v3_0_scv : Memref Cert.KernelIdeal.sig Kind.scVector Space.hbm Cert.KernelIdeal.S4x1024 EltTy.f32)
local notation "vW" => (Memref.whole Cert.KernelIdeal.main_v3_1_scv : Memref Cert.KernelIdeal.sig Kind.scVector Space.hbm Cert.KernelIdeal.S4x1024 EltTy.f32)
local notation "sT" => (Memref.whole Cert.KernelIdeal.cc1_scratch0 : Memref Cert.KernelIdeal.sig Kind.scVector Space.vmem Cert.KernelIdeal.S128 EltTy.i32)
local notation "sB" => (Memref.whole Cert.KernelIdeal.cc1_scratch1 : Memref Cert.KernelIdeal.sig Kind.scVector Space.vmem Cert.KernelIdeal.S4x200x128 EltTy.f32)
local notation "sR" => (Memref.whole Cert.KernelIdeal.cc1_scratch2 : Memref Cert.KernelIdeal.sig Kind.scVector Space.vmem Cert.KernelIdeal.S256 EltTy.f32)

section Ring

variable (d : Dev nD) (L : grid1.Coords) (q : PosShare TreeShare)
  (fx : Buf (Elt F) ((xW).view.loc (V d (cV L) (jV L))))

/-- The sixteen running values a tile carries: eight maxima, eight target entries, each a vector of 16 lanes. -/
abbrev T16 (F : FTy → Type) : Type :=
  FVec F S16 .f32 × FVec F S16 .f32 × FVec F S16 .f32 × FVec F S16 .f32 × FVec F S16 .f32 × FVec F S16 .f32 × FVec F S16 .f32 × FVec F S16 .f32
    × FVec F S16 .f32 × FVec F S16 .f32 × FVec F S16 .f32 × FVec F S16 .f32 × FVec F S16 .f32 × FVec F S16 .f32 × FVec F S16 .f32 × FVec F S16 .f32

/-- Ring slot FREE: its semaphore at zero, the slot's elements at anything, the table's read token for that semaphore whole. -/
def slotFree (cell : SemLoc sig) (slot : Memref sig .scVector .vmem S200x128 .f32) (n : ℕ) : sProp 𝕄 :=
  iprop(semVal (V d (cV L) (jV L), cell) 0
    ∗ (∃ g, slot.view.loc (V d (cV L) (jV L)) ↦[slot.view.set]{fullShare} g)
    ∗ ((xW).view.loc (V d (cV L) (jV L)) ↦{Transfers.shareTokN q n} fx))

/-- Ring slot IN FLIGHT: a copy of 200 table rows into it is pending on its semaphore; it will deliver the slot's elements
    (at the rows copied) and the part of the read token lent to it; the token's rest stays here. -/
def slotFlying (cell : SemLoc sig) (slot : Memref sig .scVector .vmem S200x128 .f32) (n : ℕ) : sProp 𝕄 :=
  iprop(∃ (g : Buf (Elt F) (slot.view.loc (V d (cV L) (jV L)))) (Sx : Finset (Idx ((xW).view.loc (V d (cV L) (jV L))))),
    Transfers.Flight countersEmb (V d (cV L) (jV L)) cell (default : HIx 1) 819200
        iprop((slot.view.loc (V d (cV L) (jV L)) ↦[slot.view.set]{fullShare} g)
          ∗ ((xW).view.loc (V d (cV L) (jV L)) ↦[Sx]{Transfers.shareTokN q n} fx))
      ∗ ((xW).view.loc (V d (cV L) (jV L)) ↦[Finset.univ \ Sx]{Transfers.shareTokN q n} fx))

end Ring

theorem cond1_all : ∀ k : Fin k1_t1_loop.trips, k1_cond1 k = 1#1 := by decide
theorem cond2_all : ∀ k : Fin k1_t1_loop.trips, k1_cond2 k = 1#1 := by decide
theorem cond3_lt : ∀ k : Fin k1_t1_loop.trips, k.val + 1 < 6 → k1_cond3 k = 1#1 := by decide
theorem cond4_lt : ∀ k : Fin k1_t1_loop.trips, k.val + 1 < 6 → k1_cond4 k = 1#1 := by decide
theorem cond3_ge : ∀ k : Fin k1_t1_loop.trips, ¬ k.val + 1 < 6 → ¬ k1_cond3 k = 1#1 := by decide
theorem cond4_ge : ∀ k : Fin k1_t1_loop.trips, ¬ k.val + 1 < 6 → ¬ k1_cond4 k = 1#1 := by decide
theorem trips1 : Scf.trips k1_t1_loop.lb k1_t1_loop.ub k1_t1_loop.st = 6 := by decide

/-- The tile's task, over the resources in the spelling its memrefs give them: it runs to the end and hands everything
    back — the table's four read tokens, the target's share, its two result pieces, its scratch buffers and ring slots,
    its five semaphores at zero — having recorded only waits on its own semaphores. -/
theorem tile_run (d : Dev nD) (L : grid1.Coords) (q : PosShare TreeShare)
    (fx : Buf (Elt F) ((xW).view.loc (V d (cV L) (jV L)))) (ft : Buf (Elt F) ((tW).view.loc (V d (cV L) (jV L))))
    (f6 : Buf (Elt F) ((sT).view.loc (V d (cV L) (jV L)))) (fB : Buf (Elt F) ((sB).view.loc (V d (cV L) (jV L))))
    (fR : Buf (Elt F) ((sR).view.loc (V d (cV L) (jV L))))
    (fm : Buf (Elt F) ((mPiece L).view.loc (V d (cV L) (jV L)))) (fv : Buf (Elt F) ((vPiece L).view.loc (V d (cV L) (jV L))))
    (O : CellTallies nD τ sig (HIx 1)) (W : Waits sig (HIx 1)) :
    iprop(Transfers.MayWaits (V d (cV L) (jV L)) (none : HIx 1) O
        ∗ ((xW).view.loc (V d (cV L) (jV L)) ↦{Transfers.shareTokN q 4} fx)
        ∗ ((xW).view.loc (V d (cV L) (jV L)) ↦{Transfers.shareTokN q 5} fx)
        ∗ ((xW).view.loc (V d (cV L) (jV L)) ↦{Transfers.shareTokN q 6} fx)
        ∗ ((xW).view.loc (V d (cV L) (jV L)) ↦{Transfers.shareTokN q 7} fx)
        ∗ ((tW).view.loc (V d (cV L) (jV L)) ↦{q} ft)
        ∗ ((mPiece L).view.loc (V d (cV L) (jV L)) ↦[(mPiece L).view.set]{fullShare} fm)
        ∗ ((vPiece L).view.loc (V d (cV L) (jV L)) ↦[(vPiece L).view.set]{fullShare} fv)
        ∗ ((sT).view.loc (V d (cV L) (jV L)) ↦{fullShare} f6)
        ∗ (slot0.view.loc (V d (cV L) (jV L)) ↦[slot0.view.set]{fullShare} fB)
        ∗ (slot1.view.loc (V d (cV L) (jV L)) ↦[slot1.view.set]{fullShare} fB)
        ∗ (slot2.view.loc (V d (cV L) (jV L)) ↦[slot2.view.set]{fullShare} fB)
        ∗ (slot3.view.loc (V d (cV L) (jV L)) ↦[slot3.view.set]{fullShare} fB)
        ∗ ((sR).view.loc (V d (cV L) (jV L)) ↦{fullShare} fR)
        ∗ semVal ((V d (cV L) (jV L)), SemLoc.dma sem0.sem) 0
        ∗ semVal ((V d (cV L) (jV L)), SemLoc.dma sem1.sem) 0
        ∗ semVal ((V d (cV L) (jV L)), SemLoc.dma sem2.sem) 0
        ∗ semVal ((V d (cV L) (jV L)), SemLoc.dma sem3.sem) 0
        ∗ semVal ((V d (cV L) (jV L)), SemLoc.dma sem4.sem) 0
        ∗ owes (V d (cV L) (jV L)) O W)
      ⊢ wp frame (wpE (defs₀ (F := F)) 𝒱₀ (V d (cV L) (jV L)) none) Set.univ
          (cc1__sc_body L xW (Memref.isWhole_whole _) tW (Memref.isWhole_whole _) mW (Memref.isWhole_whole _) vW (Memref.isWhole_whole _)
            sT (Memref.isWhole_whole _) sB (Memref.isWhole_whole _) sR (Memref.isWhole_whole _) cc1_scratch3)
          fun _ => (iprop(
            ((xW).view.loc (V d (cV L) (jV L)) ↦{Transfers.shareTokN q 4} fx)
            ∗ ((xW).view.loc (V d (cV L) (jV L)) ↦{Transfers.shareTokN q 5} fx)
            ∗ ((xW).view.loc (V d (cV L) (jV L)) ↦{Transfers.shareTokN q 6} fx)
            ∗ ((xW).view.loc (V d (cV L) (jV L)) ↦{Transfers.shareTokN q 7} fx)
            ∗ ((tW).view.loc (V d (cV L) (jV L)) ↦{q} ft)
            ∗ (∃ f, (mPiece L).view.loc (V d (cV L) (jV L)) ↦[(mPiece L).view.set]{fullShare} f)
            ∗ (∃ f, (vPiece L).view.loc (V d (cV L) (jV L)) ↦[(vPiece L).view.set]{fullShare} f)
            ∗ (∃ f, (sT).view.loc (V d (cV L) (jV L)) ↦{fullShare} f)
            ∗ (∃ f, slot0.view.loc (V d (cV L) (jV L)) ↦[slot0.view.set]{fullShare} f)
            ∗ (∃ f, slot1.view.loc (V d (cV L) (jV L)) ↦[slot1.view.set]{fullShare} f)
            ∗ (∃ f, slot2.view.loc (V d (cV L) (jV L)) ↦[slot2.view.set]{fullShare} f)
            ∗ (∃ f, slot3.view.loc (V d (cV L) (jV L)) ↦[slot3.view.set]{fullShare} f)
            ∗ (∃ f, (sR).view.loc (V d (cV L) (jV L)) ↦{fullShare} f)
            ∗ semVal ((V d (cV L) (jV L)), SemLoc.dma sem0.sem) 0
            ∗ semVal ((V d (cV L) (jV L)), SemLoc.dma sem1.sem) 0
            ∗ semVal ((V d (cV L) (jV L)), SemLoc.dma sem2.sem) 0
            ∗ semVal ((V d (cV L) (jV L)), SemLoc.dma sem3.sem) 0
            ∗ semVal ((V d (cV L) (jV L)), SemLoc.dma sem4.sem) 0
            ∗ ∃ W', ⌜∀ p ∈ W', p ∈ W ∨ p.2 = none⌝ ∗ owes (V d (cV L) (jV L)) O W') : sProp 𝕄) := by
  iintro ⟨Hmw, Hx4, Hx5, Hx6, Hx7, Ht, Hm, Hv, H6, Hb0, Hb1, Hb2, Hb3, HR, Hs0, Hs1, Hs2, Hs3, Hs4, HO⟩
  sl_unfold [cc1__sc_body]
  sl_exec
  sl_for (fun (k : Nat) (_ : T16 F) => iprop(
      Transfers.MayWaits (V d (cV L) (jV L)) (none : HIx 1) O
      ∗ slotFlying d L q fx (SemLoc.dma sem0.sem) slot0 4
      ∗ (if k < 6 then iprop(slotFlying d L q fx (SemLoc.dma sem1.sem) slot1 5 ∗ slotFlying d L q fx (SemLoc.dma sem2.sem) slot2 6)
          else iprop(slotFree d L q fx (SemLoc.dma sem1.sem) slot1 5 ∗ slotFree d L q fx (SemLoc.dma sem2.sem) slot2 6))
      ∗ slotFree d L q fx (SemLoc.dma sem3.sem) slot3 7
      ∗ (∃ W', ⌜∀ p ∈ W', p ∈ W ∨ p.2 = none⌝ ∗ owes (V d (cV L) (jV L)) O W'))) $$ [Hmw Hs0 Hx4 Hs1 Hx5 Hs2 Hx6 Hs3 Hb3 Hx7 HO]
  case region =>
    intro k st
    have hk6 : (k : Nat) < 6 := lt_of_lt_of_eq k.isLt trips1
    rw [if_pos hk6]
    have k1_h1 : k1_cond1 k = 1#1 := cond1_all k
    have k1_h2 : k1_cond2 k = 1#1 := cond2_all k
    by_cases h5 : k.val + 1 < 6
    · have k1_h3 : k1_cond3 k = 1#1 := cond3_lt k h5
      have k1_h4 : k1_cond4 k = 1#1 := cond4_lt k h5
      rw [if_pos h5]
      unfold slotFlying slotFree
      iintro ⟨Hmw, ⟨%g0, %S0, Hf0, Hr0⟩, ⟨⟨%g1, %S1, Hf1, Hr1⟩, ⟨%g2, %S2, Hf2, Hr2⟩⟩, ⟨Hs3, ⟨%g3, Hb3⟩, Hx7⟩, %W', %hW', HO⟩
      sl_exec
      sl_for (fun (_ : Nat) (_ : T16 F) => iprop(∃ g, slot0.view.loc (V d (cV L) (jV L)) ↦[slot0.view.set]{fullShare} g)) $$ [Hf0_dst]
      case region =>
        intro v st2
        iintro ⟨%gg, Hs⟩
        sl_exec
        sl_step
        iexists gg; iexact Hs
      · iexists _; iexact Hf0_dst
      iintro %acc0 ⟨%gl_acc0, Hf0_dst⟩
      sl_exec
      sl_for (fun (_ : Nat) (_ : T16 F) => iprop(∃ g, slot1.view.loc (V d (cV L) (jV L)) ↦[slot1.view.set]{fullShare} g)) $$ [Hf1_dst]
      case region =>
        intro v st2
        iintro ⟨%gg, Hs⟩
        sl_exec
        sl_step
        iexists gg; iexact Hs
      · iexists _; iexact Hf1_dst
      iintro %acc1 ⟨%gl_acc1, Hf1_dst⟩
      sl_exec
      sl_for (fun (_ : Nat) (_ : T16 F) => iprop(∃ g, slot2.view.loc (V d (cV L) (jV L)) ↦[slot2.view.set]{fullShare} g)) $$ [Hf2_dst]
      case region =>
        intro v st2
        iintro ⟨%gg, Hs⟩
        sl_exec
        sl_step
        iexists gg; iexact Hs
      · iexists _; iexact Hf2_dst
      iintro %acc2 ⟨%gl_acc2, Hf2_dst⟩
      sl_exec
      sl_for (fun (_ : Nat) (_ : T16 F) => iprop(∃ g, slot3.view.loc (V d (cV L) (jV L)) ↦[slot3.view.set]{fullShare} g)) $$ [Hb3]
      case region =>
        intro v st2
        iintro ⟨%gg, Hs⟩
        sl_exec
        sl_step
        iexists gg; iexact Hs
      · iexists _; iexact Hb3
      iintro %acc3 ⟨%gl_acc3, Hb3⟩
      sl_exec
      sl_step
      isplitl [Hmw]; · iexact Hmw
      isplitl [Hf0 Hr0]
      · iexists _, _; isplitl [Hf0]; · iexact Hf0
        iexact Hr0
      isplitl [Hf1 Hr1 Hf2 Hr2]
      · isplitl [Hf1 Hr1]
        · iexists _, _; isplitl [Hf1]; · iexact Hf1
          iexact Hr1
        · iexists _, _; isplitl [Hf2]; · iexact Hf2
          iexact Hr2
      isplitl [Hs3 Hb3 Hx7]
      · isplitl [Hs3]; · iexact Hs3
        isplitl [Hb3]; · iexists _; iexact Hb3
        iexact Hx7
      iexists _; isplitr
      rotate_left
      · iexact HO
      · ipureintro; intro p hp
        rcases Finset.mem_insert.mp hp with hp | hp
        · subst hp; exact .inr rfl
        rcases Finset.mem_insert.mp hp with hp | hp
        · subst hp; exact .inr rfl
        rcases Finset.mem_insert.mp hp with hp | hp
        · subst hp; exact .inr rfl
        rcases Finset.mem_insert.mp hp with hp | hp
        · subst hp; exact .inr rfl
        exact hW' p hp
    · have k1_h3 : ¬ k1_cond3 k = 1#1 := cond3_ge k h5
      have k1_h4 : ¬ k1_cond4 k = 1#1 := cond4_ge k h5
      rw [if_neg h5]
      unfold slotFlying slotFree
      iintro ⟨Hmw, ⟨%g0, %S0, Hf0, Hr0⟩, ⟨⟨%g1, %S1, Hf1, Hr1⟩, ⟨%g2, %S2, Hf2, Hr2⟩⟩, ⟨Hs3, ⟨%g3, Hb3⟩, Hx7⟩, %W', %hW', HO⟩
      sl_exec
      sl_for (fun (_ : Nat) (_ : T16 F) => iprop(∃ g, slot0.view.loc (V d (cV L) (jV L)) ↦[slot0.view.set]{fullShare} g)) $$ [Hf0_dst]
      case region =>
        intro v st2
        iintro ⟨%gg, Hs⟩
        sl_exec
        sl_step
        iexists gg; iexact Hs
      · iexists _; iexact Hf0_dst
      iintro %acc0 ⟨%gl_acc0, Hf0_dst⟩
      sl_exec
      sl_for (fun (_ : Nat) (_ : T16 F) => iprop(∃ g, slot1.view.loc (V d (cV L) (jV L)) ↦[slot1.view.set]{fullShare} g)) $$ [Hf1_dst]
      case region =>
        intro v st2
        iintro ⟨%gg, Hs⟩
        sl_exec
        sl_step
        iexists gg; iexact Hs
      · iexists _; iexact Hf1_dst
      iintro %acc1 ⟨%gl_acc1, Hf1_dst⟩
      sl_exec
      sl_for (fun (_ : Nat) (_ : T16 F) => iprop(∃ g, slot2.view.loc (V d (cV L) (jV L)) ↦[slot2.view.set]{fullShare} g)) $$ [Hf2_dst]
      case region =>
        intro v st2
        iintro ⟨%gg, Hs⟩
        sl_exec
        sl_step
        iexists gg; iexact Hs
      · iexists _; iexact Hf2_dst
      iintro %acc2 ⟨%gl_acc2, Hf2_dst⟩
      sl_exec
      sl_for (fun (_ : Nat) (_ : T16 F) => iprop(∃ g, slot3.view.loc (V d (cV L) (jV L)) ↦[slot3.view.set]{fullShare} g)) $$ [Hb3]
      case region =>
        intro v st2
        iintro ⟨%gg, Hs⟩
        sl_exec
        sl_step
        iexists gg; iexact Hs
      · iexists _; iexact Hb3
      iintro %acc3 ⟨%gl_acc3, Hb3⟩
      sl_exec
      sl_step
      isplitl [Hmw]; · iexact Hmw
      isplitl [Hf0 Hr0]
      · iexists _, _; isplitl [Hf0]; · iexact Hf0
        iexact Hr0
      isplitl [Hf1 Hf1_dst Hr1 Hf2 Hf2_dst Hr2]
      · isplitl [Hf1 Hf1_dst Hr1]
        · isplitl [Hf1]; · iexact Hf1
          isplitl [Hf1_dst]; · iexists _; iexact Hf1_dst
          iexact Hr1
        · isplitl [Hf2]; · iexact Hf2
          isplitl [Hf2_dst]; · iexists _; iexact Hf2_dst
          iexact Hr2
      isplitl [Hs3 Hb3 Hx7]
      · isplitl [Hs3]; · iexact Hs3
        isplitl [Hb3]; · iexists _; iexact Hb3
        iexact Hx7
      iexists _; isplitr
      rotate_left
      · iexact HO
      · ipureintro; intro p hp
        rcases Finset.mem_insert.mp hp with hp | hp
        · subst hp; exact .inr rfl
        rcases Finset.mem_insert.mp hp with hp | hp
        · subst hp; exact .inr rfl
        rcases Finset.mem_insert.mp hp with hp | hp
        · subst hp; exact .inr rfl
        rcases Finset.mem_insert.mp hp with hp | hp
        · subst hp; exact .inr rfl
        exact hW' p hp
  · rw [if_pos (by decide : (0 : Nat) < 6)]
    unfold slotFlying slotFree
    isplitl [Hmw]; · iexact Hmw
    isplitl [Hs0 Hx4]
    · iexists _, _; isplitl [Hs0]; · iexact Hs0
      iexact Hx4
    isplitl [Hs1 Hx5 Hs2 Hx6]
    · isplitl [Hs1 Hx5]
      · iexists _, _; isplitl [Hs1]; · iexact Hs1
        iexact Hx5
      · iexists _, _; isplitl [Hs2]; · iexact Hs2
        iexact Hx6
    isplitl [Hs3 Hb3 Hx7]
    · isplitl [Hs3]; · iexact Hs3
      isplitl [Hb3]; · iexists _; iexact Hb3
      iexact Hx7
    iexists _; isplitr
    rotate_left
    · iexact HO
    · ipureintro; intro p hp
      rcases Finset.mem_insert.mp hp with hp | hp
      · subst hp; exact .inr rfl
      exact .inl hp
  iintro %acc HI
  rw [if_neg (by rw [trips1]; decide)]
  unfold slotFlying slotFree
  icases HI with ⟨Hmw, ⟨%g0, %S0, Hf0, Hr0⟩, ⟨⟨Hf1, ⟨%g1, Hf1_dst⟩, Hr1⟩, ⟨Hf2, ⟨%g2, Hf2_dst⟩, Hr2⟩⟩, ⟨Hs3, ⟨%g3, Hb3⟩, Hx7⟩, %W', %hW', HO⟩
  sl_exec
  sl_for (fun (_ : Nat) (_ : T16 F) => iprop(∃ g, slot0.view.loc (V d (cV L) (jV L)) ↦[slot0.view.set]{fullShare} g)) $$ [Hf0_dst]
  case region =>
    intro v st2
    iintro ⟨%gg, Hs⟩
    sl_exec
    sl_step
    iexists gg; iexact Hs
  · iexists _; iexact Hf0_dst
  iintro %acc6 ⟨%gl_acc6, Hf0_dst⟩
  sl_exec
  sl_step
  isplitl [Hr0]; · iexact Hr0
  isplitl [Hr1]; · iexact Hr1
  isplitl [Hr2]; · iexact Hr2
  isplitl [Hx7]; · iexact Hx7
  isplitl [Ht]; · iexact Ht
  isplitl [Hm]; · iexists _; iexact Hm
  isplitl [Hv]; · iexists _; iexact Hv
  isplitl [H6]; · iexists _; iexact H6
  isplitl [Hf0_dst]; · iexists _; iexact Hf0_dst
  isplitl [Hf1_dst]; · iexists _; iexact Hf1_dst
  isplitl [Hf2_dst]; · iexists _; iexact Hf2_dst
  isplitl [Hb3]; · iexists _; iexact Hb3
  isplitl [HR]; · iexists _; iexact HR
  isplitl [Hf0]; · iexact Hf0
  isplitl [Hf1]; · iexact Hf1
  isplitl [Hf2]; · iexact Hf2
  isplitl [Hs3]; · iexact Hs3
  isplitl [Hs4]; · iexact Hs4
  iexists _; isplitr
  rotate_left
  · iexact HO
  · ipureintro; intro p hp
    rcases Finset.mem_insert.mp hp with hp | hp
    · subst hp; exact .inr rfl
    rcases Finset.mem_insert.mp hp with hp | hp
    · subst hp; exact .inr rfl
    rcases Finset.mem_insert.mp hp with hp | hp
    · subst hp; exact .inr rfl
    exact hW' p hp

end Cert.Proof.KernelIdealP

end
-- ==== Proof.TileOblI.lean ====
/-
  The tile's body obligation for the launch theorem: the launch hands a tile its `go` payload (read shares of the two
  input arrays, its two result pieces), its scoped storage (three scratch buffers, five DMA semaphores) and what it
  owes; this module sorts those into the resources the run wants — the ring buffer as four slots, the table's share
  as one read token per ring semaphore — runs the task, and packs everything back.
-/
import proofs.«203171_g79482664779815_cont_9to1_m_1298_18_alg».proof.Proof.TileRunI

noncomputable section

namespace Cert.Proof.KernelIdealP

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ

local notation "xW" => (Memref.whole Cert.KernelIdeal.main_v0_scv : Memref Cert.KernelIdeal.sig Kind.scVector Space.hbm Cert.KernelIdeal.S100000x1024 EltTy.f32)
local notation "tW" => (Memref.whole Cert.KernelIdeal.main_arg1_scv : Memref Cert.KernelIdeal.sig Kind.scVector Space.hbm Cert.KernelIdeal.S1024 EltTy.i32)
local notation "mW" => (Memref.whole Cert.KernelIdeal.main_v3_0_scv : Memref Cert.KernelIdeal.sig Kind.scVector Space.hbm Cert.KernelIdeal.S4x1024 EltTy.f32)
local notation "vW" => (Memref.whole Cert.KernelIdeal.main_v3_1_scv : Memref Cert.KernelIdeal.sig Kind.scVector Space.hbm Cert.KernelIdeal.S4x1024 EltTy.f32)
local notation "sT" => (Memref.whole Cert.KernelIdeal.cc1_scratch0 : Memref Cert.KernelIdeal.sig Kind.scVector Space.vmem Cert.KernelIdeal.S128 EltTy.i32)
local notation "sB" => (Memref.whole Cert.KernelIdeal.cc1_scratch1 : Memref Cert.KernelIdeal.sig Kind.scVector Space.vmem Cert.KernelIdeal.S4x200x128 EltTy.f32)
local notation "sR" => (Memref.whole Cert.KernelIdeal.cc1_scratch2 : Memref Cert.KernelIdeal.sig Kind.scVector Space.vmem Cert.KernelIdeal.S256 EltTy.f32)

section Obl

variable (m : (ℓ : Loc nD τ sig) → Buf (Elt F) ℓ) (X : (d : Dev nD) → Buf (Elt F) (xLoc d))
variable (d : Dev nD) (L : grid1.Coords)

/-- The eight read tokens of a share, listed. -/
theorem toks8 {ℓ : Loc nD τ sig} (q : PosShare TreeShare) (f : Buf (Elt F) ℓ) :
    (bigSep (Finset.range 8) fun i => (ℓ ↦{Transfers.shareTokN q i} f : sProp 𝕄))
      = iprop((ℓ ↦{Transfers.shareTokN q 7} f) ∗ (ℓ ↦{Transfers.shareTokN q 6} f) ∗ (ℓ ↦{Transfers.shareTokN q 5} f) ∗ (ℓ ↦{Transfers.shareTokN q 4} f)
          ∗ (ℓ ↦{Transfers.shareTokN q 3} f) ∗ (ℓ ↦{Transfers.shareTokN q 2} f) ∗ (ℓ ↦{Transfers.shareTokN q 1} f) ∗ (ℓ ↦{Transfers.shareTokN q 0} f) ∗ emp) := by
  rw [Finset.range_add_one, SparseCore.bigSep_insert' Finset.notMem_range_self, Finset.range_add_one, SparseCore.bigSep_insert' Finset.notMem_range_self,
    Finset.range_add_one, SparseCore.bigSep_insert' Finset.notMem_range_self, Finset.range_add_one, SparseCore.bigSep_insert' Finset.notMem_range_self,
    Finset.range_add_one, SparseCore.bigSep_insert' Finset.notMem_range_self, Finset.range_add_one, SparseCore.bigSep_insert' Finset.notMem_range_self,
    Finset.range_add_one, SparseCore.bigSep_insert' Finset.notMem_range_self, Finset.range_add_one, SparseCore.bigSep_insert' Finset.notMem_range_self,
    Finset.range_zero, bigSep_empty]
  rfl

/-- Four slot pieces at four contents are the ring buffer whole at some contents. -/
theorem slots_join (g0 g1 g2 g3 : Buf (Elt F) ((sB).view.loc (V d (cV L) (jV L)))) :
    iprop((slot0.view.loc (V d (cV L) (jV L)) ↦[slot0.view.set]{fullShare} g0)
        ∗ (slot1.view.loc (V d (cV L) (jV L)) ↦[slot1.view.set]{fullShare} g1)
        ∗ (slot2.view.loc (V d (cV L) (jV L)) ↦[slot2.view.set]{fullShare} g2)
        ∗ (slot3.view.loc (V d (cV L) (jV L)) ↦[slot3.view.set]{fullShare} g3))
      ⊢ (iprop(∃ f, (sB).view.loc (V d (cV L) (jV L)) ↦{fullShare} f) : sProp 𝕄) := by
  rw [slotK_set, slotK_set, slotK_set, slotK_set]
  have d23 : Disjoint (slotRect 2 inb_S4x200x128_S1x200x128_2_0_0).set (slotRect 3 inb_S4x200x128_S1x200x128_3_0_0).set := slots_disjoint (by decide)
  have d12 : Disjoint (slotRect 1 inb_S4x200x128_S1x200x128_1_0_0).set
      ((slotRect 2 inb_S4x200x128_S1x200x128_2_0_0).set ∪ (slotRect 3 inb_S4x200x128_S1x200x128_3_0_0).set) :=
    Finset.disjoint_union_right.mpr ⟨slots_disjoint (by decide), slots_disjoint (by decide)⟩
  have d01 : Disjoint (slotRect 0 inb_S4x200x128_S1x200x128_0_0_0).set ((slotRect 1 inb_S4x200x128_S1x200x128_1_0_0).set
      ∪ ((slotRect 2 inb_S4x200x128_S1x200x128_2_0_0).set ∪ (slotRect 3 inb_S4x200x128_S1x200x128_3_0_0).set)) :=
    Finset.disjoint_union_right.mpr ⟨slots_disjoint (by decide), Finset.disjoint_union_right.mpr ⟨slots_disjoint (by decide), slots_disjoint (by decide)⟩⟩
  iintro ⟨H0, H1, H2, H3⟩
  ihave H23 := (pointsTo_join (ℓ := (sB).view.loc (V d (cV L) (jV L))) (q := fullShare) (f := g2) (g := g3) d23) $$ [H2 H3]
  · isplitl [H2] <;> iassumption
  ihave H123 := (pointsTo_join (ℓ := (sB).view.loc (V d (cV L) (jV L))) (q := fullShare) (f := g1) d12) $$ [H1 H23]
  · isplitl [H1] <;> iassumption
  ihave H0123 := (pointsTo_join (ℓ := (sB).view.loc (V d (cV L) (jV L))) (q := fullShare) (f := g0) d01) $$ [H0 H123]
  · isplitl [H0] <;> iassumption
  rw [slots_cover]
  iexists _; iexact H0123

/-- The ring buffer whole splits into its four slots. -/
theorem buf_split (f : Buf (Elt F) ((sB).view.loc (V d (cV L) (jV L)))) :
    ((sB).view.loc (V d (cV L) (jV L)) ↦{fullShare} f : sProp 𝕄)
      ⊢ iprop((slot0.view.loc (V d (cV L) (jV L)) ↦[slot0.view.set]{fullShare} f)
          ∗ (slot1.view.loc (V d (cV L) (jV L)) ↦[slot1.view.set]{fullShare} f)
          ∗ (slot2.view.loc (V d (cV L) (jV L)) ↦[slot2.view.set]{fullShare} f)
          ∗ (slot3.view.loc (V d (cV L) (jV L)) ↦[slot3.view.set]{fullShare} f)) := (buf_slots d L f).1

theorem tile_body (hF : (K (F := F)).Facts) (q : PosShare TreeShare)
    (GM : (d : Dev nD) → grid1.Coords → Buf (Elt F) (mLoc d) → Prop) (GV : (d : Dev nD) → grid1.Coords → Buf (Elt F) (vLoc d) → Prop)
    (hgm : ∀ f, GM d L f) (hgv : ∀ f, GV d L f)
    (O : CellTallies nD τ sig (HIx 1)) (W : Waits sig (HIx 1)) (hO : ∀ g, O g none = 0) :
    iprop(levAts (K (F := F)).L (K (F := F)).lev ∗ emp
        ∗ ((xLoc d ↦{q} X d) ∗ (tLoc d ↦{q} m (tLoc d)) ∗ (∃ f, mLoc d ↦[mSet L]{fullShare} f) ∗ (∃ f, vLoc d ↦[vSet L]{fullShare} f))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_body L xW (Memref.isWhole_whole _) tW (Memref.isWhole_whole _) mW (Memref.isWhole_whole _) vW (Memref.isWhole_whole _)
            sT (Memref.isWhole_whole _) sB (Memref.isWhole_whole _) sR (Memref.isWhole_whole _) cc1_scratch3)
          fun _ => (iprop(((xLoc d ↦{q} X d) ∗ (tLoc d ↦{q} m (tLoc d))
              ∗ (∃ f, (mLoc d ↦[mSet L]{fullShare} f) ∗ ⌜GM d L f⌝) ∗ (∃ f, (vLoc d ↦[vSet L]{fullShare} f) ∗ ⌜GV d L f⌝))
            ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) := by
  rw [(K (F := F)).scopedBufs_V hF, SparseCore.Cfg.scopedSems0_V, ownBufs_V, ownSems0_V]
  iintro ⟨#Hlv, -, ⟨Hx, Ht, ⟨%fm, Hm⟩, ⟨%fv, Hv⟩⟩, ⟨Hbufs, Hbrest⟩, ⟨Hsems, Hsrest⟩, HO⟩
  ihave Hmw := ((K (F := F)).mayWaits_none (thr := V d (cV L) (jV L)) hO) $$ Hlv
  simp only [Cert.SepList.sepList_cons, Cert.SepList.sepList_nil, List.map_cons, List.map_nil]
  icases Hbufs with ⟨⟨%f6, H6⟩, ⟨%fB, HB⟩, ⟨%fR, HR⟩, -⟩
  icases Hsems with ⟨Hs0, Hs1, Hs2, Hs3, Hs4, -⟩
  ihave Hx' := (Transfers.pointsTo_toks_range (q := q) 8).1 $$ Hx
  icases Hx' with ⟨Hxd, Hxt⟩
  ihave Hxt' := (Entails.of_eq (toks8 (F := F) q (X d))) $$ Hxt
  icases Hxt' with ⟨Hx7, Hx6, Hx5, Hx4, Hx3, Hx2, Hx1, Hx0, -⟩
  ihave HBs := (buf_split d L fB) $$ [HB]
  · iexact HB
  icases HBs with ⟨Hb0, Hb1, Hb2, Hb3⟩
  iapply (wp_wand_r frame _ _)
  isplitl [Hmw Hx4 Hx5 Hx6 Hx7 Ht Hm Hv H6 Hb0 Hb1 Hb2 Hb3 HR Hs0 Hs1 Hs2 Hs3 Hs4 HO]
  · iapply (tile_run d L q (X d) (m (tLoc d)) f6 fB fR fm fv O W)
    isplitl [Hmw]; · iexact Hmw
    isplitl [Hx4]; · iexact Hx4
    isplitl [Hx5]; · iexact Hx5
    isplitl [Hx6]; · iexact Hx6
    isplitl [Hx7]; · iexact Hx7
    isplitl [Ht]; · iexact Ht
    isplitl [Hm]; · iexact Hm
    isplitl [Hv]; · iexact Hv
    isplitl [H6]; · iexact H6
    isplitl [Hb0]; · iexact Hb0
    isplitl [Hb1]; · iexact Hb1
    isplitl [Hb2]; · iexact Hb2
    isplitl [Hb3]; · iexact Hb3
    isplitl [HR]; · iexact HR
    isplitl [Hs0]; · iexact Hs0
    isplitl [Hs1]; · iexact Hs1
    isplitl [Hs2]; · iexact Hs2
    isplitl [Hs3]; · iexact Hs3
    isplitl [Hs4]; · iexact Hs4
    iexact HO
  iintro %_ ⟨Hx4, Hx5, Hx6, Hx7, Ht, ⟨%fm', Hm⟩, ⟨%fv', Hv⟩, ⟨%f6', H6⟩, ⟨%g0, Hb0⟩, ⟨%g1, Hb1⟩, ⟨%g2, Hb2⟩, ⟨%g3, Hb3⟩, ⟨%fR', HR⟩, Hs0, Hs1, Hs2, Hs3, Hs4, %W', %hW', HO⟩
  ihave Hxt := (Entails.of_eq (toks8 (F := F) q (X d)).symm) $$ [Hx7 Hx6 Hx5 Hx4 Hx3 Hx2 Hx1 Hx0]
  · isplitl [Hx7]; · iexact Hx7
    isplitl [Hx6]; · iexact Hx6
    isplitl [Hx5]; · iexact Hx5
    isplitl [Hx4]; · iexact Hx4
    isplitl [Hx3]; · iexact Hx3
    isplitl [Hx2]; · iexact Hx2
    isplitl [Hx1]; · iexact Hx1
    isplitl [Hx0]; · iexact Hx0
    iempintro
  ihave Hx := (Transfers.pointsTo_toks_range (q := q) 8).2 $$ [Hxd Hxt]
  · isplitl [Hxd] <;> iassumption
  ihave HB := (slots_join d L g0 g1 g2 g3) $$ [Hb0 Hb1 Hb2 Hb3]
  · isplitl [Hb0]; · iexact Hb0
    isplitl [Hb1]; · iexact Hb1
    isplitl [Hb2]; · iexact Hb2
    iexact Hb3
  icases HB with ⟨%fB', HB⟩
  isplitl [Hx Ht Hm Hv]
  · isplitl [Hx]; · iexact Hx
    isplitl [Ht]; · iexact Ht
    isplitl [Hm]
    · iexists fm'; isplitl [Hm]; · iexact Hm
      ipureintro; exact hgm _
    · iexists fv'; isplitl [Hv]; · iexact Hv
      ipureintro; exact hgv _
  isplitl [H6 HB HR Hbrest]
  · isplitr [Hbrest]
    · isplitl [H6]; · iexists _; iexact H6
      isplitl [HB]; · iexists _; iexact HB
      isplitl [HR]; · iexists _; iexact HR
      iempintro
    · iexact Hbrest
  isplitl [Hs0 Hs1 Hs2 Hs3 Hs4 Hsrest]
  · isplitr [Hsrest]
    · isplitl [Hs0]; · iexact Hs0
      isplitl [Hs1]; · iexact Hs1
      isplitl [Hs2]; · iexact Hs2
      isplitl [Hs3]; · iexact Hs3
      isplitl [Hs4]; · iexact Hs4
      iempintro
    · iexact Hsrest
  iexists W'; isplitr
  · ipureintro; exact hW'
  · iexact HO

end Obl

section Wrap

variable (m : (ℓ : Loc nD τ sig) → Buf (Elt F) ℓ) (X : (d : Dev nD) → Buf (Elt F) (xLoc d))

theorem defs₀_vector (c : Fin τ.nSC) (s : Fin τ.nSub) :
    defs₀ (F := F) (.scVector c s) 1 ()
      = SparseCore.onTile hcore1 hsub1 (fun c s => cc1__sc_body (coordsV c s)
          xW (Memref.isWhole_whole _) tW (Memref.isWhole_whole _) mW (Memref.isWhole_whole _) vW (Memref.isWhole_whole _)
          sT (Memref.isWhole_whole _) sB (Memref.isWhole_whole _) sR (Memref.isWhole_whole _) cc1_scratch3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The body obligation of the SparseCore call, for any two properties of the result pieces that hold of every contents
    (the trivial ones: what the frames need). -/
theorem tileObl (GM : (d : Dev nD) → grid1.Coords → Buf (Elt F) (mLoc d) → Prop) (GV : (d : Dev nD) → grid1.Coords → Buf (Elt F) (vLoc d) → Prop)
    (hgm : ∀ d L f, GM d L f) (hgv : ∀ d L f, GV d L f) :
    (K (F := F)).TileObl (D (F := F)) 𝒱 (P m X GM GV) v₀ 0 := by
  intro d c i O W hO _ _
  simp only [show (P m X GM GV).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body m X d (coordsV ⟨_, hc.1⟩ ⟨_, hc.2⟩) facts (tileQ (Fin.cast nCore_zero c) (Fin.cast nSub_zero i)) GM GV (hgm _ _) (hgv _ _) O W hO).trans
    (wp_mono frame _ _ fun _ => obl_post)

end Wrap

end Cert.Proof.KernelIdealP

end
-- ==== Proof.TileB.lean ====
/-
  One vector subcore's task: the body obligation of the SparseCore call.

  Tile `L = (c, s)` takes rows `v0 = 80000 + 5000·vq` … of 128 columns `b0 = 128·bt` … of the transposed table, 25 chunks
  of 200 rows, through a ring of four 200×128 buffers, one DMA semaphore per buffer and at most one copy in flight on
  each; a fifth semaphore carries, one at a time, the fetch of the tile's 128 target words and the two copies of its
  results out. Per chunk row and per group of 16 columns it keeps the running maximum of the entries whose row number
  is not the column's target, and the entry whose row number is.
-/
import proofs.«203171_g79482664779815_cont_9to1_m_1298_18_alg».proof.Proof.PayB
import Idealize.ShloMosaic.Lib.Transfers
import Idealize.ShloMosaic.Lib.Ring
import proofs.«203171_g79482664779815_cont_9to1_m_1298_18_alg».proof.Proof.LibSepList

noncomputable section

namespace Cert.Proof.KernelP

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

/-- The SparseCore and the vector subcore of the tile at grid coordinates `L`. -/
abbrev cV (L : grid1.Coords) : Fin τ.nSC := (L 0).castLE hcore1
abbrev jV (L : grid1.Coords) : Fin τ.nSub := (L 1).castLE hsub1

-- the kernel's memrefs, spelt as the body table passes them
local notation "xW" => (Memref.whole Cert.Kernel.main_v0_scv : Memref Cert.Kernel.sig Kind.scVector Space.hbm Cert.Kernel.S100000x1024 EltTy.f32)
local notation "tW" => (Memref.whole Cert.Kernel.main_arg1_scv : Memref Cert.Kernel.sig Kind.scVector Space.hbm Cert.Kernel.S1024 EltTy.i32)
local notation "mW" => (Memref.whole Cert.Kernel.main_v3_0_scv : Memref Cert.Kernel.sig Kind.scVector Space.hbm Cert.Kernel.S4x1024 EltTy.f32)
local notation "vW" => (Memref.whole Cert.Kernel.main_v3_1_scv : Memref Cert.Kernel.sig Kind.scVector Space.hbm Cert.Kernel.S4x1024 EltTy.f32)
local notation "sT" => (Memref.whole Cert.Kernel.cc1_scratch0 : Memref Cert.Kernel.sig Kind.scVector Space.vmem Cert.Kernel.S128 EltTy.i32)
local notation "sB" => (Memref.whole Cert.Kernel.cc1_scratch1 : Memref Cert.Kernel.sig Kind.scVector Space.vmem Cert.Kernel.S4x200x128 EltTy.f32)
local notation "sR" => (Memref.whole Cert.Kernel.cc1_scratch2 : Memref Cert.Kernel.sig Kind.scVector Space.vmem Cert.Kernel.S256 EltTy.f32)

/-- Semaphore `k` of the tile's five, and ring buffer `k` of its four, as the body slices them. -/
abbrev semK (k : Nat) (h : ∀ a, (![k] : Fin 1 → Nat) a + S1.size a ≤ S5.size a) : DmaSems sig S_ :=
  (cc1_scratch3.slice (Rect.unit (s := S5) ![k] S1.size h)).squeeze S_ squeezes_S1_S_
abbrev slotK (k : Nat) (h : ∀ a, (![k, 0, 0] : Fin 3 → Nat) a + S1x200x128.size a ≤ S4x200x128.size a) : Memref sig .scVector .vmem S200x128 .f32 :=
  ((sB).slice (Rect.unit (s := S4x200x128) ![k, 0, 0] S1x200x128.size h) (fun _ => rfl)).squeeze S200x128 squeezes_S1x200x128_S200x128

abbrev sem0 : DmaSems sig S_ := semK 0 inb_S5_S1_0
abbrev sem1 : DmaSems sig S_ := semK 1 inb_S5_S1_1
abbrev sem2 : DmaSems sig S_ := semK 2 inb_S5_S1_2
abbrev sem3 : DmaSems sig S_ := semK 3 inb_S5_S1_3
abbrev sem4 : DmaSems sig S_ := semK 4 inb_S5_S1_4
abbrev slot0 : Memref sig .scVector .vmem S200x128 .f32 := slotK 0 inb_S4x200x128_S1x200x128_0_0_0
abbrev slot1 : Memref sig .scVector .vmem S200x128 .f32 := slotK 1 inb_S4x200x128_S1x200x128_1_0_0
abbrev slot2 : Memref sig .scVector .vmem S200x128 .f32 := slotK 2 inb_S4x200x128_S1x200x128_2_0_0
abbrev slot3 : Memref sig .scVector .vmem S200x128 .f32 := slotK 3 inb_S4x200x128_S1x200x128_3_0_0

/-! ## The tile's own cells and scratch buffers, out of its scoped storage -/

theorem scratchRefs_nodup : ([cc1_scratch0, cc1_scratch1, cc1_scratch2] : List (Ref sig .scVector)).Nodup := by decide

section Own

variable (d : Dev nD) (L : grid1.Coords)

/-- The tile's five DMA semaphores as cells of the machine. -/
abbrev cellsV : List (GSem nD τ sig) :=
  [(V d (cV L) (jV L), SemLoc.dma sem0.sem), (V d (cV L) (jV L), SemLoc.dma sem1.sem), (V d (cV L) (jV L), SemLoc.dma sem2.sem),
   (V d (cV L) (jV L), SemLoc.dma sem3.sem), (V d (cV L) (jV L), SemLoc.dma sem4.sem)]

theorem cellsV_nodup : (cellsV d L).Nodup := by
  refine List.Nodup.of_map (fun g : GSem nD τ sig => g.2) ?_
  show ([SemLoc.dma sem0.sem, SemLoc.dma sem1.sem, SemLoc.dma sem2.sem, SemLoc.dma sem3.sem, SemLoc.dma sem4.sem] : List (SemLoc sig)).Nodup
  decide

theorem cellsV_mem : ∀ g ∈ cellsV d L, g ∈ ownCells (V d (cV L) (jV L)) := by
  intro g hg
  simp only [List.mem_cons, List.mem_nil_iff, or_false] at hg
  rcases hg with rfl | rfl | rfl | rfl | rfl
  · exact mem_ownCells.mpr ⟨rfl, by show (SemLoc.dma sem0.sem : SemLoc sig).isScoped .scVector = true; decide⟩
  · exact mem_ownCells.mpr ⟨rfl, by show (SemLoc.dma sem1.sem : SemLoc sig).isScoped .scVector = true; decide⟩
  · exact mem_ownCells.mpr ⟨rfl, by show (SemLoc.dma sem2.sem : SemLoc sig).isScoped .scVector = true; decide⟩
  · exact mem_ownCells.mpr ⟨rfl, by show (SemLoc.dma sem3.sem : SemLoc sig).isScoped .scVector = true; decide⟩
  · exact mem_ownCells.mpr ⟨rfl, by show (SemLoc.dma sem4.sem : SemLoc sig).isScoped .scVector = true; decide⟩

/-- The tile's own semaphores at zero: its five DMA semaphores, and the rest. -/
theorem ownSems0_V :
    (ownSems0 (V d (cV L) (jV L)) : sProp 𝕄)
      = iprop(Cert.SepList.sepList ((cellsV d L).map fun g => (semVal g 0 : sProp 𝕄))
          ∗ bigSep (ownCells (V d (cV L) (jV L)) \ (cellsV d L).toFinset) fun g => semVal g 0) := by
  unfold SparseCore.Cfg.ownSems0
  exact Cert.SepList.bigSep_take _ _ _ (cellsV_nodup d L) (cellsV_mem d L)

/-- The tile's three scratch buffers as buffers of the device. -/
abbrev bufsV : List (DevRef τ sig) :=
  [(Proc.scVector (cV L) (jV L)).devRef cc1_scratch0, (Proc.scVector (cV L) (jV L)).devRef cc1_scratch1, (Proc.scVector (cV L) (jV L)).devRef cc1_scratch2]

theorem bufsV_nodup : (bufsV L).Nodup := by
  show (([cc1_scratch0, cc1_scratch1, cc1_scratch2] : List (Ref sig .scVector)).map (Proc.scVector (cV L) (jV L)).devRef).Nodup
  exact List.Nodup.map (Proc.devRef_injective _) scratchRefs_nodup

theorem bufsV_mem : ∀ b ∈ bufsV L, b ∈ ownRefs (τ := τ) (.scVector (cV L) (jV L)) := by
  intro b hb
  simp only [List.mem_cons, List.mem_nil_iff, or_false] at hb
  rcases hb with rfl | rfl | rfl <;> exact SparseCore.Cfg.mem_ownRefs_of_owner (p := Proc.scVector (cV L) (jV L)) rfl

/-- The tile's own buffers: the three scratch buffers at some contents, and the rest. -/
theorem ownBufs_V :
    (ownBufs (V d (cV L) (jV L)) : sProp 𝕄)
      = iprop(Cert.SepList.sepList ((bufsV L).map fun b => (iprop(∃ f, ((d, b) : Loc nD τ sig) ↦{fullShare} f) : sProp 𝕄))
          ∗ bigSep (ownRefs (τ := τ) (.scVector (cV L) (jV L)) \ (bufsV L).toFinset) fun b => iprop(∃ f, ((d, b) : Loc nD τ sig) ↦{fullShare} f)) := by
  unfold SparseCore.Cfg.ownBufs
  exact Cert.SepList.bigSep_take _ _ _ (bufsV_nodup L) (bufsV_mem L)

end Own

/-! ## The ring buffer as four slot pieces -/

abbrev slotRect (k : Nat) (h : ∀ a, (![k, 0, 0] : Fin 3 → Nat) a + S1x200x128.size a ≤ S4x200x128.size a) : Rect S4x200x128 :=
  Rect.unit (s := S4x200x128) ![k, 0, 0] S1x200x128.size h

theorem slotK_set (k : Nat) (h : ∀ a, (![k, 0, 0] : Fin 3 → Nat) a + S1x200x128.size a ≤ S4x200x128.size a) :
    (slotK k h).view.set = (slotRect k h).set := by
  simp only [Memref.view_squeeze, View.set_reshape, Memref.view_slice, Memref.view_whole, View.set_slice_whole]

theorem mem_slotRect {k : Nat} {h : ∀ a, (![k, 0, 0] : Fin 3 → Nat) a + S1x200x128.size a ≤ S4x200x128.size a} (i : S4x200x128.Idx) :
    i ∈ (slotRect k h).set ↔ (i 0).val = k := by
  rw [Rect.mem_set_unit]
  have h1 : (i 1).val < 200 := (i 1).isLt
  have h2 : (i 2).val < 128 := (i 2).isLt
  constructor
  · intro hh
    have := hh 0
    simp only [Matrix.cons_val_zero] at this
    have hs : S1x200x128.size 0 = 1 := rfl
    omega
  · intro hk a
    fin_cases a
    · show k ≤ (i 0).val ∧ (i 0).val < k + 1; omega
    · show 0 ≤ (i 1).val ∧ (i 1).val < 0 + 200; omega
    · show 0 ≤ (i 2).val ∧ (i 2).val < 0 + 128; omega

theorem slots_cover :
    (slotRect 0 inb_S4x200x128_S1x200x128_0_0_0).set ∪ ((slotRect 1 inb_S4x200x128_S1x200x128_1_0_0).set
      ∪ ((slotRect 2 inb_S4x200x128_S1x200x128_2_0_0).set ∪ (slotRect 3 inb_S4x200x128_S1x200x128_3_0_0).set)) = Finset.univ := by
  ext i
  simp only [Finset.mem_union, mem_slotRect, Finset.mem_univ, iff_true]
  have h0 : (i 0).val < 4 := (i 0).isLt
  omega

theorem slots_disjoint {k k' : Nat} {h h'} (hk : k ≠ k') : Disjoint (slotRect k h).set (slotRect k' h').set := by
  rw [Finset.disjoint_left]
  intro i hi hi'
  exact hk ((mem_slotRect i).mp hi ▸ (mem_slotRect i).mp hi')

section Pieces

variable (d : Dev nD) (L : grid1.Coords)

/-- The ring buffer whole is its four slots, each by its own elements. -/
theorem buf_slots (f : Buf (Elt F) ((sB).view.loc (V d (cV L) (jV L)))) :
    ((sB).view.loc (V d (cV L) (jV L)) ↦{fullShare} f : sProp 𝕄)
      ⊣⊢ iprop((slot0.view.loc (V d (cV L) (jV L)) ↦[slot0.view.set]{fullShare} f)
          ∗ (slot1.view.loc (V d (cV L) (jV L)) ↦[slot1.view.set]{fullShare} f)
          ∗ (slot2.view.loc (V d (cV L) (jV L)) ↦[slot2.view.set]{fullShare} f)
          ∗ (slot3.view.loc (V d (cV L) (jV L)) ↦[slot3.view.set]{fullShare} f)) := by
  rw [slotK_set, slotK_set, slotK_set, slotK_set]
  have e : ((sB).view.loc (V d (cV L) (jV L)) ↦{fullShare} f : sProp 𝕄)
      = ((sB).view.loc (V d (cV L) (jV L)) ↦[(slotRect 0 inb_S4x200x128_S1x200x128_0_0_0).set ∪ ((slotRect 1 inb_S4x200x128_S1x200x128_1_0_0).set
      ∪ ((slotRect 2 inb_S4x200x128_S1x200x128_2_0_0).set ∪ (slotRect 3 inb_S4x200x128_S1x200x128_3_0_0).set))]{fullShare} f) := by
    rw [slots_cover]
  rw [e]
  have d01 : Disjoint (slotRect 0 inb_S4x200x128_S1x200x128_0_0_0).set ((slotRect 1 inb_S4x200x128_S1x200x128_1_0_0).set
      ∪ ((slotRect 2 inb_S4x200x128_S1x200x128_2_0_0).set ∪ (slotRect 3 inb_S4x200x128_S1x200x128_3_0_0).set)) :=
    Finset.disjoint_union_right.mpr ⟨slots_disjoint (by decide), Finset.disjoint_union_right.mpr ⟨slots_disjoint (by decide), slots_disjoint (by decide)⟩⟩
  have d12 : Disjoint (slotRect 1 inb_S4x200x128_S1x200x128_1_0_0).set
      ((slotRect 2 inb_S4x200x128_S1x200x128_2_0_0).set ∪ (slotRect 3 inb_S4x200x128_S1x200x128_3_0_0).set) :=
    Finset.disjoint_union_right.mpr ⟨slots_disjoint (by decide), slots_disjoint (by decide)⟩
  have d23 : Disjoint (slotRect 2 inb_S4x200x128_S1x200x128_2_0_0).set (slotRect 3 inb_S4x200x128_S1x200x128_3_0_0).set := slots_disjoint (by decide)
  constructor
  · exact (pointsTo_union d01).1.trans (sep_mono_right ((pointsTo_union d12).1.trans (sep_mono_right (pointsTo_union d23).1)))
  · exact (sep_mono_right ((sep_mono_right (pointsTo_union d23).2).trans (pointsTo_union d12).2)).trans (pointsTo_union d01).2

end Pieces

end Cert.Proof.KernelP

end
-- ==== Proof.TileRunB.lean ====
/-
  The tile's task, as a frame: from its resources it runs to the end and hands them back.

  The ring's state between trips of the chunk loop is a loop invariant: at the start of trip `k` (of six, four chunks
  each) slot 0 has a copy in flight for every `k ≤ 6` (the 25th chunk at `k = 6`), slots 1 and 2 have one for `k < 6`
  and are free at `k = 6`, slot 3 is free: chunk `c` is issued three chunk steps ahead into the slot chunk `c − 1` has
  just been read out of, so no semaphore ever has two copies pending, and no slot is read or written while a copy
  into it is pending. A copy in flight is an assertion like any other (the transfer's `Flight`): it owns the slot's
  elements and the part of the table's read token lent to it, and its wait gives both back. The four issue
  conditions of a trip are decided from the trip number: the first two always hold, the last two hold exactly when
  another trip follows.
-/
import proofs.«203171_g79482664779815_cont_9to1_m_1298_18_alg».proof.Proof.TileB

noncomputable section

namespace Cert.Proof.KernelP

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ

local notation "xW" => (Memref.whole Cert.Kernel.main_v0_scv : Memref Cert.Kernel.sig Kind.scVector Space.hbm Cert.Kernel.S100000x1024 EltTy.f32)
local notation "tW" => (Memref.whole Cert.Kernel.main_arg1_scv : Memref Cert.Kernel.sig Kind.scVector Space.hbm Cert.Kernel.S1024 EltTy.i32)
local notation "mW" => (Memref.whole Cert.Kernel.main_v3_0_scv : Memref Cert.Kernel.sig Kind.scVector Space.hbm Cert.Kernel.S4x1024 EltTy.f32)
local notation "vW" => (Memref.whole Cert.Kernel.main_v3_1_scv : Memref Cert.Kernel.sig Kind.scVector Space.hbm Cert.Kernel.S4x1024 EltTy.f32)
local notation "sT" => (Memref.whole Cert.Kernel.cc1_scratch0 : Memref Cert.Kernel.sig Kind.scVector Space.vmem Cert.Kernel.S128 EltTy.i32)
local notation "sB" => (Memref.whole Cert.Kernel.cc1_scratch1 : Memref Cert.Kernel.sig Kind.scVector Space.vmem Cert.Kernel.S4x200x128 EltTy.f32)
local notation "sR" => (Memref.whole Cert.Kernel.cc1_scratch2 : Memref Cert.Kernel.sig Kind.scVector Space.vmem Cert.Kernel.S256 EltTy.f32)

section Ring

variable (d : Dev nD) (L : grid1.Coords) (q : PosShare TreeShare)
  (fx : Buf (Elt F) ((xW).view.loc (V d (cV L) (jV L))))

/-- The sixteen running values a tile carries: eight maxima, eight target entries, each a vector of 16 lanes. -/
abbrev T16 (F : FTy → Type) : Type :=
  FVec F S16 .f32 × FVec F S16 .f32 × FVec F S16 .f32 × FVec F S16 .f32 × FVec F S16 .f32 × FVec F S16 .f32 × FVec F S16 .f32 × FVec F S16 .f32
    × FVec F S16 .f32 × FVec F S16 .f32 × FVec F S16 .f32 × FVec F S16 .f32 × FVec F S16 .f32 × FVec F S16 .f32 × FVec F S16 .f32 × FVec F S16 .f32

/-- Ring slot FREE: its semaphore at zero, the slot's elements at anything, the table's read token for that semaphore whole. -/
def slotFree (cell : SemLoc sig) (slot : Memref sig .scVector .vmem S200x128 .f32) (n : ℕ) : sProp 𝕄 :=
  iprop(semVal (V d (cV L) (jV L), cell) 0
    ∗ (∃ g, slot.view.loc (V d (cV L) (jV L)) ↦[slot.view.set]{fullShare} g)
    ∗ ((xW).view.loc (V d (cV L) (jV L)) ↦{Transfers.shareTokN q n} fx))

/-- Ring slot IN FLIGHT: a copy of 200 table rows into it is pending on its semaphore; it will deliver the slot's elements
    (at the rows copied) and the part of the read token lent to it; the token's rest stays here. -/
def slotFlying (cell : SemLoc sig) (slot : Memref sig .scVector .vmem S200x128 .f32) (n : ℕ) : sProp 𝕄 :=
  iprop(∃ (g : Buf (Elt F) (slot.view.loc (V d (cV L) (jV L)))) (Sx : Finset (Idx ((xW).view.loc (V d (cV L) (jV L))))),
    Transfers.Flight countersEmb (V d (cV L) (jV L)) cell (default : HIx 1) 819200
        iprop((slot.view.loc (V d (cV L) (jV L)) ↦[slot.view.set]{fullShare} g)
          ∗ ((xW).view.loc (V d (cV L) (jV L)) ↦[Sx]{Transfers.shareTokN q n} fx))
      ∗ ((xW).view.loc (V d (cV L) (jV L)) ↦[Finset.univ \ Sx]{Transfers.shareTokN q n} fx))

end Ring

theorem cond1_all : ∀ k : Fin k1_t1_loop.trips, k1_cond1 k = 1#1 := by decide
theorem cond2_all : ∀ k : Fin k1_t1_loop.trips, k1_cond2 k = 1#1 := by decide
theorem cond3_lt : ∀ k : Fin k1_t1_loop.trips, k.val + 1 < 6 → k1_cond3 k = 1#1 := by decide
theorem cond4_lt : ∀ k : Fin k1_t1_loop.trips, k.val + 1 < 6 → k1_cond4 k = 1#1 := by decide
theorem cond3_ge : ∀ k : Fin k1_t1_loop.trips, ¬ k.val + 1 < 6 → ¬ k1_cond3 k = 1#1 := by decide
theorem cond4_ge : ∀ k : Fin k1_t1_loop.trips, ¬ k.val + 1 < 6 → ¬ k1_cond4 k = 1#1 := by decide
theorem trips1 : Scf.trips k1_t1_loop.lb k1_t1_loop.ub k1_t1_loop.st = 6 := by decide

/-- The tile's task, over the resources in the spelling its memrefs give them: it runs to the end and hands everything
    back — the table's four read tokens, the target's share, its two result pieces, its scratch buffers and ring slots,
    its five semaphores at zero — having recorded only waits on its own semaphores. -/
theorem tile_run (d : Dev nD) (L : grid1.Coords) (q : PosShare TreeShare)
    (fx : Buf (Elt F) ((xW).view.loc (V d (cV L) (jV L)))) (ft : Buf (Elt F) ((tW).view.loc (V d (cV L) (jV L))))
    (f6 : Buf (Elt F) ((sT).view.loc (V d (cV L) (jV L)))) (fB : Buf (Elt F) ((sB).view.loc (V d (cV L) (jV L))))
    (fR : Buf (Elt F) ((sR).view.loc (V d (cV L) (jV L))))
    (fm : Buf (Elt F) ((mPiece L).view.loc (V d (cV L) (jV L)))) (fv : Buf (Elt F) ((vPiece L).view.loc (V d (cV L) (jV L))))
    (O : CellTallies nD τ sig (HIx 1)) (W : Waits sig (HIx 1)) :
    iprop(Transfers.MayWaits (V d (cV L) (jV L)) (none : HIx 1) O
        ∗ ((xW).view.loc (V d (cV L) (jV L)) ↦{Transfers.shareTokN q 4} fx)
        ∗ ((xW).view.loc (V d (cV L) (jV L)) ↦{Transfers.shareTokN q 5} fx)
        ∗ ((xW).view.loc (V d (cV L) (jV L)) ↦{Transfers.shareTokN q 6} fx)
        ∗ ((xW).view.loc (V d (cV L) (jV L)) ↦{Transfers.shareTokN q 7} fx)
        ∗ ((tW).view.loc (V d (cV L) (jV L)) ↦{q} ft)
        ∗ ((mPiece L).view.loc (V d (cV L) (jV L)) ↦[(mPiece L).view.set]{fullShare} fm)
        ∗ ((vPiece L).view.loc (V d (cV L) (jV L)) ↦[(vPiece L).view.set]{fullShare} fv)
        ∗ ((sT).view.loc (V d (cV L) (jV L)) ↦{fullShare} f6)
        ∗ (slot0.view.loc (V d (cV L) (jV L)) ↦[slot0.view.set]{fullShare} fB)
        ∗ (slot1.view.loc (V d (cV L) (jV L)) ↦[slot1.view.set]{fullShare} fB)
        ∗ (slot2.view.loc (V d (cV L) (jV L)) ↦[slot2.view.set]{fullShare} fB)
        ∗ (slot3.view.loc (V d (cV L) (jV L)) ↦[slot3.view.set]{fullShare} fB)
        ∗ ((sR).view.loc (V d (cV L) (jV L)) ↦{fullShare} fR)
        ∗ semVal ((V d (cV L) (jV L)), SemLoc.dma sem0.sem) 0
        ∗ semVal ((V d (cV L) (jV L)), SemLoc.dma sem1.sem) 0
        ∗ semVal ((V d (cV L) (jV L)), SemLoc.dma sem2.sem) 0
        ∗ semVal ((V d (cV L) (jV L)), SemLoc.dma sem3.sem) 0
        ∗ semVal ((V d (cV L) (jV L)), SemLoc.dma sem4.sem) 0
        ∗ owes (V d (cV L) (jV L)) O W)
      ⊢ wp frame (wpE (defs₀ (F := F)) 𝒱₀ (V d (cV L) (jV L)) none) Set.univ
          (cc1__sc_body L xW (Memref.isWhole_whole _) tW (Memref.isWhole_whole _) mW (Memref.isWhole_whole _) vW (Memref.isWhole_whole _)
            sT (Memref.isWhole_whole _) sB (Memref.isWhole_whole _) sR (Memref.isWhole_whole _) cc1_scratch3)
          fun _ => (iprop(
            ((xW).view.loc (V d (cV L) (jV L)) ↦{Transfers.shareTokN q 4} fx)
            ∗ ((xW).view.loc (V d (cV L) (jV L)) ↦{Transfers.shareTokN q 5} fx)
            ∗ ((xW).view.loc (V d (cV L) (jV L)) ↦{Transfers.shareTokN q 6} fx)
            ∗ ((xW).view.loc (V d (cV L) (jV L)) ↦{Transfers.shareTokN q 7} fx)
            ∗ ((tW).view.loc (V d (cV L) (jV L)) ↦{q} ft)
            ∗ (∃ f, (mPiece L).view.loc (V d (cV L) (jV L)) ↦[(mPiece L).view.set]{fullShare} f)
            ∗ (∃ f, (vPiece L).view.loc (V d (cV L) (jV L)) ↦[(vPiece L).view.set]{fullShare} f)
            ∗ (∃ f, (sT).view.loc (V d (cV L) (jV L)) ↦{fullShare} f)
            ∗ (∃ f, slot0.view.loc (V d (cV L) (jV L)) ↦[slot0.view.set]{fullShare} f)
            ∗ (∃ f, slot1.view.loc (V d (cV L) (jV L)) ↦[slot1.view.set]{fullShare} f)
            ∗ (∃ f, slot2.view.loc (V d (cV L) (jV L)) ↦[slot2.view.set]{fullShare} f)
            ∗ (∃ f, slot3.view.loc (V d (cV L) (jV L)) ↦[slot3.view.set]{fullShare} f)
            ∗ (∃ f, (sR).view.loc (V d (cV L) (jV L)) ↦{fullShare} f)
            ∗ semVal ((V d (cV L) (jV L)), SemLoc.dma sem0.sem) 0
            ∗ semVal ((V d (cV L) (jV L)), SemLoc.dma sem1.sem) 0
            ∗ semVal ((V d (cV L) (jV L)), SemLoc.dma sem2.sem) 0
            ∗ semVal ((V d (cV L) (jV L)), SemLoc.dma sem3.sem) 0
            ∗ semVal ((V d (cV L) (jV L)), SemLoc.dma sem4.sem) 0
            ∗ ∃ W', ⌜∀ p ∈ W', p ∈ W ∨ p.2 = none⌝ ∗ owes (V d (cV L) (jV L)) O W') : sProp 𝕄) := by
  iintro ⟨Hmw, Hx4, Hx5, Hx6, Hx7, Ht, Hm, Hv, H6, Hb0, Hb1, Hb2, Hb3, HR, Hs0, Hs1, Hs2, Hs3, Hs4, HO⟩
  sl_unfold [cc1__sc_body]
  sl_exec
  sl_for (fun (k : Nat) (_ : T16 F) => iprop(
      Transfers.MayWaits (V d (cV L) (jV L)) (none : HIx 1) O
      ∗ slotFlying d L q fx (SemLoc.dma sem0.sem) slot0 4
      ∗ (if k < 6 then iprop(slotFlying d L q fx (SemLoc.dma sem1.sem) slot1 5 ∗ slotFlying d L q fx (SemLoc.dma sem2.sem) slot2 6)
          else iprop(slotFree d L q fx (SemLoc.dma sem1.sem) slot1 5 ∗ slotFree d L q fx (SemLoc.dma sem2.sem) slot2 6))
      ∗ slotFree d L q fx (SemLoc.dma sem3.sem) slot3 7
      ∗ (∃ W', ⌜∀ p ∈ W', p ∈ W ∨ p.2 = none⌝ ∗ owes (V d (cV L) (jV L)) O W'))) $$ [Hmw Hs0 Hx4 Hs1 Hx5 Hs2 Hx6 Hs3 Hb3 Hx7 HO]
  case region =>
    intro k st
    have hk6 : (k : Nat) < 6 := lt_of_lt_of_eq k.isLt trips1
    rw [if_pos hk6]
    have k1_h1 : k1_cond1 k = 1#1 := cond1_all k
    have k1_h2 : k1_cond2 k = 1#1 := cond2_all k
    by_cases h5 : k.val + 1 < 6
    · have k1_h3 : k1_cond3 k = 1#1 := cond3_lt k h5
      have k1_h4 : k1_cond4 k = 1#1 := cond4_lt k h5
      rw [if_pos h5]
      unfold slotFlying slotFree
      iintro ⟨Hmw, ⟨%g0, %S0, Hf0, Hr0⟩, ⟨⟨%g1, %S1, Hf1, Hr1⟩, ⟨%g2, %S2, Hf2, Hr2⟩⟩, ⟨Hs3, ⟨%g3, Hb3⟩, Hx7⟩, %W', %hW', HO⟩
      sl_exec
      sl_for (fun (_ : Nat) (_ : T16 F) => iprop(∃ g, slot0.view.loc (V d (cV L) (jV L)) ↦[slot0.view.set]{fullShare} g)) $$ [Hf0_dst]
      case region =>
        intro v st2
        iintro ⟨%gg, Hs⟩
        sl_exec
        sl_step
        iexists gg; iexact Hs
      · iexists _; iexact Hf0_dst
      iintro %acc0 ⟨%gl_acc0, Hf0_dst⟩
      sl_exec
      sl_for (fun (_ : Nat) (_ : T16 F) => iprop(∃ g, slot1.view.loc (V d (cV L) (jV L)) ↦[slot1.view.set]{fullShare} g)) $$ [Hf1_dst]
      case region =>
        intro v st2
        iintro ⟨%gg, Hs⟩
        sl_exec
        sl_step
        iexists gg; iexact Hs
      · iexists _; iexact Hf1_dst
      iintro %acc1 ⟨%gl_acc1, Hf1_dst⟩
      sl_exec
      sl_for (fun (_ : Nat) (_ : T16 F) => iprop(∃ g, slot2.view.loc (V d (cV L) (jV L)) ↦[slot2.view.set]{fullShare} g)) $$ [Hf2_dst]
      case region =>
        intro v st2
        iintro ⟨%gg, Hs⟩
        sl_exec
        sl_step
        iexists gg; iexact Hs
      · iexists _; iexact Hf2_dst
      iintro %acc2 ⟨%gl_acc2, Hf2_dst⟩
      sl_exec
      sl_for (fun (_ : Nat) (_ : T16 F) => iprop(∃ g, slot3.view.loc (V d (cV L) (jV L)) ↦[slot3.view.set]{fullShare} g)) $$ [Hb3]
      case region =>
        intro v st2
        iintro ⟨%gg, Hs⟩
        sl_exec
        sl_step
        iexists gg; iexact Hs
      · iexists _; iexact Hb3
      iintro %acc3 ⟨%gl_acc3, Hb3⟩
      sl_exec
      sl_step
      isplitl [Hmw]; · iexact Hmw
      isplitl [Hf0 Hr0]
      · iexists _, _; isplitl [Hf0]; · iexact Hf0
        iexact Hr0
      isplitl [Hf1 Hr1 Hf2 Hr2]
      · isplitl [Hf1 Hr1]
        · iexists _, _; isplitl [Hf1]; · iexact Hf1
          iexact Hr1
        · iexists _, _; isplitl [Hf2]; · iexact Hf2
          iexact Hr2
      isplitl [Hs3 Hb3 Hx7]
      · isplitl [Hs3]; · iexact Hs3
        isplitl [Hb3]; · iexists _; iexact Hb3
        iexact Hx7
      iexists _; isplitr
      rotate_left
      · iexact HO
      · ipureintro; intro p hp
        rcases Finset.mem_insert.mp hp with hp | hp
        · subst hp; exact .inr rfl
        rcases Finset.mem_insert.mp hp with hp | hp
        · subst hp; exact .inr rfl
        rcases Finset.mem_insert.mp hp with hp | hp
        · subst hp; exact .inr rfl
        rcases Finset.mem_insert.mp hp with hp | hp
        · subst hp; exact .inr rfl
        exact hW' p hp
    · have k1_h3 : ¬ k1_cond3 k = 1#1 := cond3_ge k h5
      have k1_h4 : ¬ k1_cond4 k = 1#1 := cond4_ge k h5
      rw [if_neg h5]
      unfold slotFlying slotFree
      iintro ⟨Hmw, ⟨%g0, %S0, Hf0, Hr0⟩, ⟨⟨%g1, %S1, Hf1, Hr1⟩, ⟨%g2, %S2, Hf2, Hr2⟩⟩, ⟨Hs3, ⟨%g3, Hb3⟩, Hx7⟩, %W', %hW', HO⟩
      sl_exec
      sl_for (fun (_ : Nat) (_ : T16 F) => iprop(∃ g, slot0.view.loc (V d (cV L) (jV L)) ↦[slot0.view.set]{fullShare} g)) $$ [Hf0_dst]
      case region =>
        intro v st2
        iintro ⟨%gg, Hs⟩
        sl_exec
        sl_step
        iexists gg; iexact Hs
      · iexists _; iexact Hf0_dst
      iintro %acc0 ⟨%gl_acc0, Hf0_dst⟩
      sl_exec
      sl_for (fun (_ : Nat) (_ : T16 F) => iprop(∃ g, slot1.view.loc (V d (cV L) (jV L)) ↦[slot1.view.set]{fullShare} g)) $$ [Hf1_dst]
      case region =>
        intro v st2
        iintro ⟨%gg, Hs⟩
        sl_exec
        sl_step
        iexists gg; iexact Hs
      · iexists _; iexact Hf1_dst
      iintro %acc1 ⟨%gl_acc1, Hf1_dst⟩
      sl_exec
      sl_for (fun (_ : Nat) (_ : T16 F) => iprop(∃ g, slot2.view.loc (V d (cV L) (jV L)) ↦[slot2.view.set]{fullShare} g)) $$ [Hf2_dst]
      case region =>
        intro v st2
        iintro ⟨%gg, Hs⟩
        sl_exec
        sl_step
        iexists gg; iexact Hs
      · iexists _; iexact Hf2_dst
      iintro %acc2 ⟨%gl_acc2, Hf2_dst⟩
      sl_exec
      sl_for (fun (_ : Nat) (_ : T16 F) => iprop(∃ g, slot3.view.loc (V d (cV L) (jV L)) ↦[slot3.view.set]{fullShare} g)) $$ [Hb3]
      case region =>
        intro v st2
        iintro ⟨%gg, Hs⟩
        sl_exec
        sl_step
        iexists gg; iexact Hs
      · iexists _; iexact Hb3
      iintro %acc3 ⟨%gl_acc3, Hb3⟩
      sl_exec
      sl_step
      isplitl [Hmw]; · iexact Hmw
      isplitl [Hf0 Hr0]
      · iexists _, _; isplitl [Hf0]; · iexact Hf0
        iexact Hr0
      isplitl [Hf1 Hf1_dst Hr1 Hf2 Hf2_dst Hr2]
      · isplitl [Hf1 Hf1_dst Hr1]
        · isplitl [Hf1]; · iexact Hf1
          isplitl [Hf1_dst]; · iexists _; iexact Hf1_dst
          iexact Hr1
        · isplitl [Hf2]; · iexact Hf2
          isplitl [Hf2_dst]; · iexists _; iexact Hf2_dst
          iexact Hr2
      isplitl [Hs3 Hb3 Hx7]
      · isplitl [Hs3]; · iexact Hs3
        isplitl [Hb3]; · iexists _; iexact Hb3
        iexact Hx7
      iexists _; isplitr
      rotate_left
      · iexact HO
      · ipureintro; intro p hp
        rcases Finset.mem_insert.mp hp with hp | hp
        · subst hp; exact .inr rfl
        rcases Finset.mem_insert.mp hp with hp | hp
        · subst hp; exact .inr rfl
        rcases Finset.mem_insert.mp hp with hp | hp
        · subst hp; exact .inr rfl
        rcases Finset.mem_insert.mp hp with hp | hp
        · subst hp; exact .inr rfl
        exact hW' p hp
  · rw [if_pos (by decide : (0 : Nat) < 6)]
    unfold slotFlying slotFree
    isplitl [Hmw]; · iexact Hmw
    isplitl [Hs0 Hx4]
    · iexists _, _; isplitl [Hs0]; · iexact Hs0
      iexact Hx4
    isplitl [Hs1 Hx5 Hs2 Hx6]
    · isplitl [Hs1 Hx5]
      · iexists _, _; isplitl [Hs1]; · iexact Hs1
        iexact Hx5
      · iexists _, _; isplitl [Hs2]; · iexact Hs2
        iexact Hx6
    isplitl [Hs3 Hb3 Hx7]
    · isplitl [Hs3]; · iexact Hs3
      isplitl [Hb3]; · iexists _; iexact Hb3
      iexact Hx7
    iexists _; isplitr
    rotate_left
    · iexact HO
    · ipureintro; intro p hp
      rcases Finset.mem_insert.mp hp with hp | hp
      · subst hp; exact .inr rfl
      exact .inl hp
  iintro %acc HI
  rw [if_neg (by rw [trips1]; decide)]
  unfold slotFlying slotFree
  icases HI with ⟨Hmw, ⟨%g0, %S0, Hf0, Hr0⟩, ⟨⟨Hf1, ⟨%g1, Hf1_dst⟩, Hr1⟩, ⟨Hf2, ⟨%g2, Hf2_dst⟩, Hr2⟩⟩, ⟨Hs3, ⟨%g3, Hb3⟩, Hx7⟩, %W', %hW', HO⟩
  sl_exec
  sl_for (fun (_ : Nat) (_ : T16 F) => iprop(∃ g, slot0.view.loc (V d (cV L) (jV L)) ↦[slot0.view.set]{fullShare} g)) $$ [Hf0_dst]
  case region =>
    intro v st2
    iintro ⟨%gg, Hs⟩
    sl_exec
    sl_step
    iexists gg; iexact Hs
  · iexists _; iexact Hf0_dst
  iintro %acc6 ⟨%gl_acc6, Hf0_dst⟩
  sl_exec
  sl_step
  isplitl [Hr0]; · iexact Hr0
  isplitl [Hr1]; · iexact Hr1
  isplitl [Hr2]; · iexact Hr2
  isplitl [Hx7]; · iexact Hx7
  isplitl [Ht]; · iexact Ht
  isplitl [Hm]; · iexists _; iexact Hm
  isplitl [Hv]; · iexists _; iexact Hv
  isplitl [H6]; · iexists _; iexact H6
  isplitl [Hf0_dst]; · iexists _; iexact Hf0_dst
  isplitl [Hf1_dst]; · iexists _; iexact Hf1_dst
  isplitl [Hf2_dst]; · iexists _; iexact Hf2_dst
  isplitl [Hb3]; · iexists _; iexact Hb3
  isplitl [HR]; · iexists _; iexact HR
  isplitl [Hf0]; · iexact Hf0
  isplitl [Hf1]; · iexact Hf1
  isplitl [Hf2]; · iexact Hf2
  isplitl [Hs3]; · iexact Hs3
  isplitl [Hs4]; · iexact Hs4
  iexists _; isplitr
  rotate_left
  · iexact HO
  · ipureintro; intro p hp
    rcases Finset.mem_insert.mp hp with hp | hp
    · subst hp; exact .inr rfl
    rcases Finset.mem_insert.mp hp with hp | hp
    · subst hp; exact .inr rfl
    rcases Finset.mem_insert.mp hp with hp | hp
    · subst hp; exact .inr rfl
    exact hW' p hp

end Cert.Proof.KernelP

end
-- ==== Proof.TileOblB.lean ====
/-
  The tile's body obligation for the launch theorem: the launch hands a tile its `go` payload (read shares of the two
  input arrays, its two result pieces), its scoped storage (three scratch buffers, five DMA semaphores) and what it
  owes; this module sorts those into the resources the run wants — the ring buffer as four slots, the table's share
  as one read token per ring semaphore — runs the task, and packs everything back.
-/
import proofs.«203171_g79482664779815_cont_9to1_m_1298_18_alg».proof.Proof.TileRunB

noncomputable section

namespace Cert.Proof.KernelP

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ

local notation "xW" => (Memref.whole Cert.Kernel.main_v0_scv : Memref Cert.Kernel.sig Kind.scVector Space.hbm Cert.Kernel.S100000x1024 EltTy.f32)
local notation "tW" => (Memref.whole Cert.Kernel.main_arg1_scv : Memref Cert.Kernel.sig Kind.scVector Space.hbm Cert.Kernel.S1024 EltTy.i32)
local notation "mW" => (Memref.whole Cert.Kernel.main_v3_0_scv : Memref Cert.Kernel.sig Kind.scVector Space.hbm Cert.Kernel.S4x1024 EltTy.f32)
local notation "vW" => (Memref.whole Cert.Kernel.main_v3_1_scv : Memref Cert.Kernel.sig Kind.scVector Space.hbm Cert.Kernel.S4x1024 EltTy.f32)
local notation "sT" => (Memref.whole Cert.Kernel.cc1_scratch0 : Memref Cert.Kernel.sig Kind.scVector Space.vmem Cert.Kernel.S128 EltTy.i32)
local notation "sB" => (Memref.whole Cert.Kernel.cc1_scratch1 : Memref Cert.Kernel.sig Kind.scVector Space.vmem Cert.Kernel.S4x200x128 EltTy.f32)
local notation "sR" => (Memref.whole Cert.Kernel.cc1_scratch2 : Memref Cert.Kernel.sig Kind.scVector Space.vmem Cert.Kernel.S256 EltTy.f32)

section Obl

variable (m : (ℓ : Loc nD τ sig) → Buf (Elt F) ℓ) (X : (d : Dev nD) → Buf (Elt F) (xLoc d))
variable (d : Dev nD) (L : grid1.Coords)

/-- The eight read tokens of a share, listed. -/
theorem toks8 {ℓ : Loc nD τ sig} (q : PosShare TreeShare) (f : Buf (Elt F) ℓ) :
    (bigSep (Finset.range 8) fun i => (ℓ ↦{Transfers.shareTokN q i} f : sProp 𝕄))
      = iprop((ℓ ↦{Transfers.shareTokN q 7} f) ∗ (ℓ ↦{Transfers.shareTokN q 6} f) ∗ (ℓ ↦{Transfers.shareTokN q 5} f) ∗ (ℓ ↦{Transfers.shareTokN q 4} f)
          ∗ (ℓ ↦{Transfers.shareTokN q 3} f) ∗ (ℓ ↦{Transfers.shareTokN q 2} f) ∗ (ℓ ↦{Transfers.shareTokN q 1} f) ∗ (ℓ ↦{Transfers.shareTokN q 0} f) ∗ emp) := by
  rw [Finset.range_add_one, SparseCore.bigSep_insert' Finset.notMem_range_self, Finset.range_add_one, SparseCore.bigSep_insert' Finset.notMem_range_self,
    Finset.range_add_one, SparseCore.bigSep_insert' Finset.notMem_range_self, Finset.range_add_one, SparseCore.bigSep_insert' Finset.notMem_range_self,
    Finset.range_add_one, SparseCore.bigSep_insert' Finset.notMem_range_self, Finset.range_add_one, SparseCore.bigSep_insert' Finset.notMem_range_self,
    Finset.range_add_one, SparseCore.bigSep_insert' Finset.notMem_range_self, Finset.range_add_one, SparseCore.bigSep_insert' Finset.notMem_range_self,
    Finset.range_zero, bigSep_empty]
  rfl

/-- Four slot pieces at four contents are the ring buffer whole at some contents. -/
theorem slots_join (g0 g1 g2 g3 : Buf (Elt F) ((sB).view.loc (V d (cV L) (jV L)))) :
    iprop((slot0.view.loc (V d (cV L) (jV L)) ↦[slot0.view.set]{fullShare} g0)
        ∗ (slot1.view.loc (V d (cV L) (jV L)) ↦[slot1.view.set]{fullShare} g1)
        ∗ (slot2.view.loc (V d (cV L) (jV L)) ↦[slot2.view.set]{fullShare} g2)
        ∗ (slot3.view.loc (V d (cV L) (jV L)) ↦[slot3.view.set]{fullShare} g3))
      ⊢ (iprop(∃ f, (sB).view.loc (V d (cV L) (jV L)) ↦{fullShare} f) : sProp 𝕄) := by
  rw [slotK_set, slotK_set, slotK_set, slotK_set]
  have d23 : Disjoint (slotRect 2 inb_S4x200x128_S1x200x128_2_0_0).set (slotRect 3 inb_S4x200x128_S1x200x128_3_0_0).set := slots_disjoint (by decide)
  have d12 : Disjoint (slotRect 1 inb_S4x200x128_S1x200x128_1_0_0).set
      ((slotRect 2 inb_S4x200x128_S1x200x128_2_0_0).set ∪ (slotRect 3 inb_S4x200x128_S1x200x128_3_0_0).set) :=
    Finset.disjoint_union_right.mpr ⟨slots_disjoint (by decide), slots_disjoint (by decide)⟩
  have d01 : Disjoint (slotRect 0 inb_S4x200x128_S1x200x128_0_0_0).set ((slotRect 1 inb_S4x200x128_S1x200x128_1_0_0).set
      ∪ ((slotRect 2 inb_S4x200x128_S1x200x128_2_0_0).set ∪ (slotRect 3 inb_S4x200x128_S1x200x128_3_0_0).set)) :=
    Finset.disjoint_union_right.mpr ⟨slots_disjoint (by decide), Finset.disjoint_union_right.mpr ⟨slots_disjoint (by decide), slots_disjoint (by decide)⟩⟩
  iintro ⟨H0, H1, H2, H3⟩
  ihave H23 := (pointsTo_join (ℓ := (sB).view.loc (V d (cV L) (jV L))) (q := fullShare) (f := g2) (g := g3) d23) $$ [H2 H3]
  · isplitl [H2] <;> iassumption
  ihave H123 := (pointsTo_join (ℓ := (sB).view.loc (V d (cV L) (jV L))) (q := fullShare) (f := g1) d12) $$ [H1 H23]
  · isplitl [H1] <;> iassumption
  ihave H0123 := (pointsTo_join (ℓ := (sB).view.loc (V d (cV L) (jV L))) (q := fullShare) (f := g0) d01) $$ [H0 H123]
  · isplitl [H0] <;> iassumption
  rw [slots_cover]
  iexists _; iexact H0123

/-- The ring buffer whole splits into its four slots. -/
theorem buf_split (f : Buf (Elt F) ((sB).view.loc (V d (cV L) (jV L)))) :
    ((sB).view.loc (V d (cV L) (jV L)) ↦{fullShare} f : sProp 𝕄)
      ⊢ iprop((slot0.view.loc (V d (cV L) (jV L)) ↦[slot0.view.set]{fullShare} f)
          ∗ (slot1.view.loc (V d (cV L) (jV L)) ↦[slot1.view.set]{fullShare} f)
          ∗ (slot2.view.loc (V d (cV L) (jV L)) ↦[slot2.view.set]{fullShare} f)
          ∗ (slot3.view.loc (V d (cV L) (jV L)) ↦[slot3.view.set]{fullShare} f)) := (buf_slots d L f).1

theorem tile_body (hF : (K (F := F)).Facts) (q : PosShare TreeShare)
    (GM : (d : Dev nD) → grid1.Coords → Buf (Elt F) (mLoc d) → Prop) (GV : (d : Dev nD) → grid1.Coords → Buf (Elt F) (vLoc d) → Prop)
    (hgm : ∀ f, GM d L f) (hgv : ∀ f, GV d L f)
    (O : CellTallies nD τ sig (HIx 1)) (W : Waits sig (HIx 1)) (hO : ∀ g, O g none = 0) :
    iprop(levAts (K (F := F)).L (K (F := F)).lev ∗ emp
        ∗ ((xLoc d ↦{q} X d) ∗ (tLoc d ↦{q} m (tLoc d)) ∗ (∃ f, mLoc d ↦[mSet L]{fullShare} f) ∗ (∃ f, vLoc d ↦[vSet L]{fullShare} f))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_body L xW (Memref.isWhole_whole _) tW (Memref.isWhole_whole _) mW (Memref.isWhole_whole _) vW (Memref.isWhole_whole _)
            sT (Memref.isWhole_whole _) sB (Memref.isWhole_whole _) sR (Memref.isWhole_whole _) cc1_scratch3)
          fun _ => (iprop(((xLoc d ↦{q} X d) ∗ (tLoc d ↦{q} m (tLoc d))
              ∗ (∃ f, (mLoc d ↦[mSet L]{fullShare} f) ∗ ⌜GM d L f⌝) ∗ (∃ f, (vLoc d ↦[vSet L]{fullShare} f) ∗ ⌜GV d L f⌝))
            ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) := by
  rw [(K (F := F)).scopedBufs_V hF, SparseCore.Cfg.scopedSems0_V, ownBufs_V, ownSems0_V]
  iintro ⟨#Hlv, -, ⟨Hx, Ht, ⟨%fm, Hm⟩, ⟨%fv, Hv⟩⟩, ⟨Hbufs, Hbrest⟩, ⟨Hsems, Hsrest⟩, HO⟩
  ihave Hmw := ((K (F := F)).mayWaits_none (thr := V d (cV L) (jV L)) hO) $$ Hlv
  simp only [Cert.SepList.sepList_cons, Cert.SepList.sepList_nil, List.map_cons, List.map_nil]
  icases Hbufs with ⟨⟨%f6, H6⟩, ⟨%fB, HB⟩, ⟨%fR, HR⟩, -⟩
  icases Hsems with ⟨Hs0, Hs1, Hs2, Hs3, Hs4, -⟩
  ihave Hx' := (Transfers.pointsTo_toks_range (q := q) 8).1 $$ Hx
  icases Hx' with ⟨Hxd, Hxt⟩
  ihave Hxt' := (Entails.of_eq (toks8 (F := F) q (X d))) $$ Hxt
  icases Hxt' with ⟨Hx7, Hx6, Hx5, Hx4, Hx3, Hx2, Hx1, Hx0, -⟩
  ihave HBs := (buf_split d L fB) $$ [HB]
  · iexact HB
  icases HBs with ⟨Hb0, Hb1, Hb2, Hb3⟩
  iapply (wp_wand_r frame _ _)
  isplitl [Hmw Hx4 Hx5 Hx6 Hx7 Ht Hm Hv H6 Hb0 Hb1 Hb2 Hb3 HR Hs0 Hs1 Hs2 Hs3 Hs4 HO]
  · iapply (tile_run d L q (X d) (m (tLoc d)) f6 fB fR fm fv O W)
    isplitl [Hmw]; · iexact Hmw
    isplitl [Hx4]; · iexact Hx4
    isplitl [Hx5]; · iexact Hx5
    isplitl [Hx6]; · iexact Hx6
    isplitl [Hx7]; · iexact Hx7
    isplitl [Ht]; · iexact Ht
    isplitl [Hm]; · iexact Hm
    isplitl [Hv]; · iexact Hv
    isplitl [H6]; · iexact H6
    isplitl [Hb0]; · iexact Hb0
    isplitl [Hb1]; · iexact Hb1
    isplitl [Hb2]; · iexact Hb2
    isplitl [Hb3]; · iexact Hb3
    isplitl [HR]; · iexact HR
    isplitl [Hs0]; · iexact Hs0
    isplitl [Hs1]; · iexact Hs1
    isplitl [Hs2]; · iexact Hs2
    isplitl [Hs3]; · iexact Hs3
    isplitl [Hs4]; · iexact Hs4
    iexact HO
  iintro %_ ⟨Hx4, Hx5, Hx6, Hx7, Ht, ⟨%fm', Hm⟩, ⟨%fv', Hv⟩, ⟨%f6', H6⟩, ⟨%g0, Hb0⟩, ⟨%g1, Hb1⟩, ⟨%g2, Hb2⟩, ⟨%g3, Hb3⟩, ⟨%fR', HR⟩, Hs0, Hs1, Hs2, Hs3, Hs4, %W', %hW', HO⟩
  ihave Hxt := (Entails.of_eq (toks8 (F := F) q (X d)).symm) $$ [Hx7 Hx6 Hx5 Hx4 Hx3 Hx2 Hx1 Hx0]
  · isplitl [Hx7]; · iexact Hx7
    isplitl [Hx6]; · iexact Hx6
    isplitl [Hx5]; · iexact Hx5
    isplitl [Hx4]; · iexact Hx4
    isplitl [Hx3]; · iexact Hx3
    isplitl [Hx2]; · iexact Hx2
    isplitl [Hx1]; · iexact Hx1
    isplitl [Hx0]; · iexact Hx0
    iempintro
  ihave Hx := (Transfers.pointsTo_toks_range (q := q) 8).2 $$ [Hxd Hxt]
  · isplitl [Hxd] <;> iassumption
  ihave HB := (slots_join d L g0 g1 g2 g3) $$ [Hb0 Hb1 Hb2 Hb3]
  · isplitl [Hb0]; · iexact Hb0
    isplitl [Hb1]; · iexact Hb1
    isplitl [Hb2]; · iexact Hb2
    iexact Hb3
  icases HB with ⟨%fB', HB⟩
  isplitl [Hx Ht Hm Hv]
  · isplitl [Hx]; · iexact Hx
    isplitl [Ht]; · iexact Ht
    isplitl [Hm]
    · iexists fm'; isplitl [Hm]; · iexact Hm
      ipureintro; exact hgm _
    · iexists fv'; isplitl [Hv]; · iexact Hv
      ipureintro; exact hgv _
  isplitl [H6 HB HR Hbrest]
  · isplitr [Hbrest]
    · isplitl [H6]; · iexists _; iexact H6
      isplitl [HB]; · iexists _; iexact HB
      isplitl [HR]; · iexists _; iexact HR
      iempintro
    · iexact Hbrest
  isplitl [Hs0 Hs1 Hs2 Hs3 Hs4 Hsrest]
  · isplitr [Hsrest]
    · isplitl [Hs0]; · iexact Hs0
      isplitl [Hs1]; · iexact Hs1
      isplitl [Hs2]; · iexact Hs2
      isplitl [Hs3]; · iexact Hs3
      isplitl [Hs4]; · iexact Hs4
      iempintro
    · iexact Hsrest
  iexists W'; isplitr
  · ipureintro; exact hW'
  · iexact HO

end Obl

section Wrap

variable (m : (ℓ : Loc nD τ sig) → Buf (Elt F) ℓ) (X : (d : Dev nD) → Buf (Elt F) (xLoc d))

theorem defs₀_vector (c : Fin τ.nSC) (s : Fin τ.nSub) :
    defs₀ (F := F) (.scVector c s) 1 ()
      = SparseCore.onTile hcore1 hsub1 (fun c s => cc1__sc_body (coordsV c s)
          xW (Memref.isWhole_whole _) tW (Memref.isWhole_whole _) mW (Memref.isWhole_whole _) vW (Memref.isWhole_whole _)
          sT (Memref.isWhole_whole _) sB (Memref.isWhole_whole _) sR (Memref.isWhole_whole _) cc1_scratch3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The body obligation of the SparseCore call, for any two properties of the result pieces that hold of every contents
    (the trivial ones: what the frames need). -/
theorem tileObl (GM : (d : Dev nD) → grid1.Coords → Buf (Elt F) (mLoc d) → Prop) (GV : (d : Dev nD) → grid1.Coords → Buf (Elt F) (vLoc d) → Prop)
    (hgm : ∀ d L f, GM d L f) (hgv : ∀ d L f, GV d L f) :
    (K (F := F)).TileObl (D (F := F)) 𝒱 (P m X GM GV) v₀ 0 := by
  intro d c i O W hO _ _
  simp only [show (P m X GM GV).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body m X d (coordsV ⟨_, hc.1⟩ ⟨_, hc.2⟩) facts (tileQ (Fin.cast nCore_zero c) (Fin.cast nSub_zero i)) GM GV (hgm _ _) (hgv _ _) O W hO).trans
    (wp_mono frame _ _ fun _ => obl_post)

end Wrap

end Cert.Proof.KernelP

end
-- ==== Proof.FramesAll.lean ====
/-
  The three frame claims. Each program's run, proved with the strongest post (arguments unchanged and the result named),
  read with the result dropped. For the two kernel programs the SparseCore tiles' property of their results is taken
  trivial: the frames need nothing of the values.
-/
import proofs.«203171_g79482664779815_cont_9to1_m_1298_18_alg».proof.Defs
import proofs.«203171_g79482664779815_cont_9to1_m_1298_18_alg».proof.Proof.LaunchI
import proofs.«203171_g79482664779815_cont_9to1_m_1298_18_alg».proof.Proof.LaunchB
import proofs.«203171_g79482664779815_cont_9to1_m_1298_18_alg».proof.Proof.TileOblI
import proofs.«203171_g79482664779815_cont_9to1_m_1298_18_alg».proof.Proof.TileOblB
import proofs.«203171_g79482664779815_cont_9to1_m_1298_18_alg».proof.Proof.VecSplitI
import proofs.«203171_g79482664779815_cont_9to1_m_1298_18_alg».proof.Proof.VecSplitB
import proofs.«203171_g79482664779815_cont_9to1_m_1298_18_alg».proof.Proof.Gen.ReferenceIdeal.Run
import proofs.«203171_g79482664779815_cont_9to1_m_1298_18_alg».proof.Proof.Gen.Pre_input_domain

noncomputable section

namespace Cert.Proof.Frames

open Idealize.ShloMosaic Idealize.SL.Sem

/-- The kernel's frame, at the machine's floats. -/
theorem frame_k : Cert.frame_Kernel := fun m g _ =>
  (θ_run (Cert.Kernel.defs (F := Bits)) _ _).mono (fun _ h c => ⟨(h c).2.1, (h c).2.2⟩)
    (Cert.Proof.KernelP.run_main (F := Bits) m g (fun _ _ _ => True) (fun _ _ _ => True)
      (fun _ _ _ _ _ _ => trivial) (fun _ _ _ _ _ _ => trivial)
      (Cert.Proof.KernelP.tileObl m (Cert.Proof.KernelP.X m) _ _ (fun _ _ _ => trivial) (fun _ _ _ => trivial))
      (Cert.Proof.KernelP.vecSplit m (Cert.Proof.KernelP.X m) _ _ (fun _ _ _ _ _ _ => trivial) (fun _ _ _ _ _ _ => trivial)))

/-- The idealized kernel's frame, at the extended reals. -/
theorem frame_ki : Cert.frame_KernelIdeal := fun m g _ =>
  (θ_run (Cert.KernelIdeal.defs (F := Ideal)) _ _).mono (fun _ h c => ⟨(h c).2.1, (h c).2.2⟩)
    (Cert.Proof.KernelIdealP.run_main (F := Ideal) m g (fun _ _ _ => True) (fun _ _ _ => True)
      (fun _ _ _ _ _ _ => trivial) (fun _ _ _ _ _ _ => trivial)
      (Cert.Proof.KernelIdealP.tileObl m (Cert.Proof.KernelIdealP.X m) _ _ (fun _ _ _ => trivial) (fun _ _ _ => trivial))
      (Cert.Proof.KernelIdealP.vecSplit m (Cert.Proof.KernelIdealP.X m) _ _ (fun _ _ _ _ _ _ => trivial) (fun _ _ _ _ _ _ => trivial)))

/-- The idealized reference's frame. -/
theorem frame_ri : Cert.frame_ReferenceIdeal := fun m ρ _ =>
  (θ_run Cert.ReferenceIdeal.defs _ _).mono (fun _ h c => (h c).2) (Cert.ReferenceIdeal.Value.run (F := Ideal) m ρ)

end Cert.Proof.Frames

end
-- ==== Proof.RegionResultI.lean ====
/-
  The TensorCore region's result array in closed form: the pipeline writes the result block back once, after the last
  point, and the block is the whole [2, 1024] array; so the array ends holding the two running rows after all forty
  points, the first as row 0 and the second as row 1.
-/
import proofs.«203171_g79482664779815_cont_9to1_m_1298_18_alg».proof.Proof.CommonI
import proofs.«203171_g79482664779815_cont_9to1_m_1298_18_alg».proof.Proof.PayI
import proofs.«203171_g79482664779815_cont_9to1_m_1298_18_alg».proof.Proof.RegionDataI
import proofs.«203171_g79482664779815_cont_9to1_m_1298_18_alg».proof.Proof.RegionBodyI
import Idealize.ShloMosaic.Lib.Pipeline.Regions
import proofs.«203171_g79482664779815_cont_9to1_m_1298_18_alg».proof.Proof.RegionI
import Idealize.ShloMosaic.Lib.Pipeline.FrameBody
import Idealize.ShloMosaic.Lib.Pipeline.Frame
import Idealize.ShloMosaic.Lib.Pipeline.Value
import Idealize.ShloMosaic.Lib.WholeRead
import Idealize.ShloMosaic.Lib.ValueIdx

noncomputable section

namespace Cert.Proof.KernelIdealP

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ)

/-- The one point that writes the result block back is the last. -/
theorem flush_last (t : Fin cfg0.N) (hf : (cfg0.win 2).flush t = true) : t.val = 39 := by
  have h1 := (flush0_2 t).mp hf
  have h2 : t.val < 40 := lt_of_lt_of_eq t.isLt (show cfg0.N = 40 from N_0)
  omega

/-- The last point. -/
abbrev t39 : Fin cfg0.N := ⟨39, by rw [show cfg0.N = 40 from N_0]; decide⟩

set_option maxRecDepth 16384 in
/-- The result array after the region: the two running rows after forty points. -/
theorem RT_eq (d : Dev nD) : RT m d = rows2 (accM m d 40) (accV m d 40) := by
  unfold RT
  refine (dat0 m d).arrAt_eq_of_cover 2 (rows2 (accM m d 40) (accV m d 40)) (fun t hf => ?_) (fun i => ?_)
  · obtain rfl : t = t39 := Fin.ext (flush_last t hf)
    show (cfg0.win 2).cut (grid0.coords t39) ((dat0 m d).after 2 t39) = _
    rw [after2]
    have hz' : (fun a => win0_2.index t39 a * main_v2.ty.shape.size a) = fun _ => 0 := funext fun a => by fin_cases a <;> decide
    exact (Memref.read_access_unit_zero (Elt F) main_v2 hz' (fun a => by rw [congrFun hz' a]; simp) (rows2 (accM m d 40) (accV m d 40))).symm
  · refine ⟨t39, (flush0_2 t39).mpr rfl, ?_⟩
    show i ∈ ((View.whole main_v2).slice (win0_2.rect t39)).set
    rw [View.set_slice_whole, Rect.mem_set_unit]
    intro a
    have h0 : (i 0 : Nat) < 2 := (i 0).isLt
    have h1 : (i 1 : Nat) < 1024 := (i 1).isLt
    match a with
    | ⟨0, _⟩ =>
      show win0_2.index t39 0 * win0_2.size 0 ≤ (i 0 : Nat) ∧ (i 0 : Nat) < win0_2.index t39 0 * win0_2.size 0 + win0_2.xsize (grid0.coords t39) 0
      rw [show win0_2.index t39 0 * win0_2.size 0 = 0 from by decide +kernel, show win0_2.xsize (grid0.coords t39) 0 = 2 from by decide +kernel]; omega
    | ⟨1, _⟩ =>
      show win0_2.index t39 1 * win0_2.size 1 ≤ (i 1 : Nat) ∧ (i 1 : Nat) < win0_2.index t39 1 * win0_2.size 1 + win0_2.xsize (grid0.coords t39) 1
      rw [show win0_2.index t39 1 * win0_2.size 1 = 0 from by decide +kernel, show win0_2.xsize (grid0.coords t39) 1 = 1024 from by decide +kernel]; omega

end Cert.Proof.KernelIdealP
end
-- ==== Proof.Spec.lean ====
/-
  The margin of each row of a score table against its target column, on the extended reals.

  For a table `x` of 1024 rows and 100000 columns and a target column `t b` per row, the result at row `b` is

      (the maximum of `x b v` over the columns `v` other than the target)  −  (the entry `x b (t b)`).

  Both terms are written as a supremum over ALL columns of a masked entry, the mask deciding by equality of the
  32-bit column number with the target word: an excluded column contributes `⊥`, the neutral element of `max`
  on the extended reals. In this form the first term is literally "overwrite the target entry with −∞, then take
  the row maximum", and the second is "the maximum of the row with every entry but the target's overwritten with
  −∞", which is the target's entry whenever the target names a column. A supremum over all columns splits over
  any partition of the columns into ranges, which is how a computation that walks the columns block by block
  reaches the same value.
-/
import Idealize.ShloMosaic.PureOps.Ideal
import Idealize.ShloMosaic.Lib.ValueIdx

noncomputable section

namespace Cert.Spec

open Idealize.ShloMosaic

/-- The row maximum leaving out the target's column: `sup_v (if t b = v then ⊥ else x b v)`. -/
def rowMaxOff (x : Fin 1024 → Fin 100000 → EReal) (t : Fin 1024 → BitVec 32) (b : Fin 1024) : EReal :=
  Finset.univ.sup fun v : Fin 100000 => if t b = BitVec.ofNat 32 v.val then ⊥ else x b v

/-- The entry at the target's column, as a masked row maximum: `sup_v (if t b = v then x b v else ⊥)`. -/
def rowAtTarget (x : Fin 1024 → Fin 100000 → EReal) (t : Fin 1024 → BitVec 32) (b : Fin 1024) : EReal :=
  Finset.univ.sup fun v : Fin 100000 => if t b = BitVec.ofNat 32 v.val then x b v else ⊥

/-- The margin: the best score among the other columns minus the target's score. -/
def margin (x : Fin 1024 → Fin 100000 → EReal) (t : Fin 1024 → BitVec 32) (b : Fin 1024) : EReal :=
  rowMaxOff x t b - rowAtTarget x t b

/-- A [1024, 100000] array read by its two coordinates. -/
def tableOf (a : (⟨2, ![1024, 100000]⟩ : Shape).Idx → EReal) : Fin 1024 → Fin 100000 → EReal :=
  fun b v => a (ValueIdx.ix2 b v)

/-- A [1024] array of words read by its coordinate. -/
def targetOf (a : (⟨1, ![1024]⟩ : Shape).Idx → BitVec 32) : Fin 1024 → BitVec 32 :=
  fun b => a (ValueIdx.ix1 b)

/-- The result array: the margin of every row. -/
def G (x : (⟨2, ![1024, 100000]⟩ : Shape).Idx → EReal) (t : (⟨1, ![1024]⟩ : Shape).Idx → BitVec 32) :
    (⟨1, ![1024]⟩ : Shape).Idx → EReal :=
  fun j => margin (tableOf x) (targetOf t) (j 0)

/-- When the target names a column, the masked maximum IS the entry there. -/
theorem rowAtTarget_eq (x : Fin 1024 → Fin 100000 → EReal) (t : Fin 1024 → BitVec 32) (b : Fin 1024)
    (v₀ : Fin 100000) (h : t b = BitVec.ofNat 32 v₀.val) : rowAtTarget x t b = x b v₀ := by
  unfold rowAtTarget
  apply le_antisymm
  · refine Finset.sup_le fun v _ => ?_
    split
    · next hv =>
      have : v = v₀ := by
        apply Fin.ext
        have e := hv.symm.trans h
        have := congrArg BitVec.toNat e
        simp only [BitVec.toNat_ofNat] at this
        have h1 : v.val < 2 ^ 32 := lt_of_lt_of_le v.isLt (by norm_num)
        have h2 : v₀.val < 2 ^ 32 := lt_of_lt_of_le v₀.isLt (by norm_num)
        rwa [Nat.mod_eq_of_lt h1, Nat.mod_eq_of_lt h2] at this
      rw [this]
    · exact bot_le
  · have := Finset.le_sup (f := fun v : Fin 100000 => if t b = BitVec.ofNat 32 v.val then x b v else ⊥) (Finset.mem_univ v₀)
    simpa [h] using this

end Cert.Spec

end
-- ==== Proof.SpecParts.lean ====
/-
  The two masked row maxima of the specification, taken over a RANGE of table rows only.

  A computation that walks the 100000 vocabulary rows in ranges — the first 80000 in forty blocks of 2000, the last
  20000 in four quarters of 5000 — reaches the specification's suprema as the join of the ranges' suprema:
  `Finset.sup` over a union is the `max` of the parts. The range algebra is proved once for any number of rows and
  instantiated at 100000 (at the literal size no step may enumerate the rows).
-/
import proofs.«203171_g79482664779815_cont_9to1_m_1298_18_alg».proof.Proof.Spec

noncomputable section

namespace Cert.Spec

/-! ## Suprema over a range of `Fin n`, any `n` -/

section Generic

variable {n : ℕ}

/-- The supremum of `f` over the indices `v` with `lo ≤ v < hi`. -/
def supOn (lo hi : ℕ) (f : Fin n → EReal) : EReal :=
  (Finset.univ.filter fun v : Fin n => lo ≤ v.val ∧ v.val < hi).sup f

/-- Two adjacent ranges join. -/
theorem supOn_append (lo mid hi : ℕ) (h1 : lo ≤ mid) (h2 : mid ≤ hi) (f : Fin n → EReal) :
    supOn lo hi f = max (supOn lo mid f) (supOn mid hi f) := by
  unfold supOn
  rw [← Finset.sup_union]
  congr 1
  ext v
  simp only [Finset.mem_filter, Finset.mem_univ, true_and, Finset.mem_union]
  omega

/-- The whole range is the supremum over all indices. -/
theorem supOn_all (f : Fin n → EReal) : supOn 0 n f = Finset.univ.sup f := by
  unfold supOn
  congr 1
  ext v
  simp only [Finset.mem_filter, Finset.mem_univ, true_and]
  exact ⟨fun _ => trivial, fun _ => ⟨Nat.zero_le _, v.isLt⟩⟩

/-- An empty range contributes the neutral element. -/
theorem supOn_empty (lo : ℕ) (f : Fin n → EReal) : supOn lo lo f = ⊥ := by
  unfold supOn
  rw [show (Finset.univ.filter fun v : Fin n => lo ≤ v.val ∧ v.val < lo) = ∅ from by
    ext v; simp only [Finset.mem_filter, Finset.mem_univ, true_and, Finset.notMem_empty, iff_false]; omega]
  exact Finset.sup_empty

/-- One more index: the supremum after `hi` is the `max` of the supremum before it and the entry there. -/
theorem supOn_succ (lo hi : ℕ) (h : lo ≤ hi) (hh : hi < n) (f : Fin n → EReal) :
    supOn lo (hi + 1) f = max (supOn lo hi f) (f ⟨hi, hh⟩) := by
  rw [supOn_append lo hi (hi + 1) h (Nat.le_succ _)]
  congr 1
  unfold supOn
  rw [show (Finset.univ.filter fun v : Fin n => hi ≤ v.val ∧ v.val < hi + 1) = {⟨hi, hh⟩} from by
    ext v; simp only [Finset.mem_filter, Finset.mem_univ, true_and, Finset.mem_singleton, Fin.ext_iff]; omega]
  exact Finset.sup_singleton

end Generic

/-! ## The specification's two maxima over a range of table rows -/

/-- The maximum, over the rows `v` with `lo ≤ v < hi`, of column `b`'s entries, leaving out the target's row. -/
def maxOffOn (lo hi : ℕ) (x : Fin 1024 → Fin 100000 → EReal) (t : Fin 1024 → BitVec 32) (b : Fin 1024) : EReal :=
  supOn lo hi fun v : Fin 100000 => if t b = BitVec.ofNat 32 v.val then ⊥ else x b v

/-- The entry at the target's row if it lies in `lo ≤ v < hi`, else `⊥`: the masked maximum over that range. -/
def atTargetOn (lo hi : ℕ) (x : Fin 1024 → Fin 100000 → EReal) (t : Fin 1024 → BitVec 32) (b : Fin 1024) : EReal :=
  supOn lo hi fun v : Fin 100000 => if t b = BitVec.ofNat 32 v.val then x b v else ⊥

variable (x : Fin 1024 → Fin 100000 → EReal) (t : Fin 1024 → BitVec 32) (b : Fin 1024)

theorem maxOffOn_append (lo mid hi : ℕ) (h1 : lo ≤ mid) (h2 : mid ≤ hi) :
    maxOffOn lo hi x t b = max (maxOffOn lo mid x t b) (maxOffOn mid hi x t b) := supOn_append lo mid hi h1 h2 _
theorem atTargetOn_append (lo mid hi : ℕ) (h1 : lo ≤ mid) (h2 : mid ≤ hi) :
    atTargetOn lo hi x t b = max (atTargetOn lo mid x t b) (atTargetOn mid hi x t b) := supOn_append lo mid hi h1 h2 _

/-- The whole range is the specification's maximum; -/
theorem maxOffOn_all : maxOffOn 0 100000 x t b = rowMaxOff x t b := supOn_all _
/-- and its target entry. -/
theorem atTargetOn_all : atTargetOn 0 100000 x t b = rowAtTarget x t b := supOn_all _

theorem maxOffOn_empty (lo : ℕ) : maxOffOn lo lo x t b = ⊥ := supOn_empty lo _
theorem atTargetOn_empty (lo : ℕ) : atTargetOn lo lo x t b = ⊥ := supOn_empty lo _

/-- One more row. -/
theorem maxOffOn_succ (lo hi : ℕ) (h : lo ≤ hi) (hh : hi < 100000) :
    maxOffOn lo (hi + 1) x t b = max (maxOffOn lo hi x t b) (if t b = BitVec.ofNat 32 hi then ⊥ else x b ⟨hi, hh⟩) :=
  supOn_succ lo hi h hh _
theorem atTargetOn_succ (lo hi : ℕ) (h : lo ≤ hi) (hh : hi < 100000) :
    atTargetOn lo (hi + 1) x t b = max (atTargetOn lo hi x t b) (if t b = BitVec.ofNat 32 hi then x b ⟨hi, hh⟩ else ⊥) :=
  supOn_succ lo hi h hh _

end Cert.Spec

end
-- ==== Proof.TailValueI.lean ====
/-
  The host tail's value at the extended reals: the margin.

  With the TensorCore call's result holding, per column `b`, the two masked maxima of the specification over the
  first 80000 table rows, and the SparseCore call's results holding them over each quarter of the last 20000, the host
  tail takes the maximum of five ranges' maxima — adjacent ranges, which join (a supremum over a union is the maximum of
  the parts) into the maximum over all 100000 rows — for each of the two quantities, and subtracts: the margin. At the
  extended reals the maximum operation is `max`, the pattern 0xFF800000 is −∞ = ⊥, the neutral element, and the
  reduction of a four-row array over its rows is the supremum over the four rows.
-/
import proofs.«203171_g79482664779815_cont_9to1_m_1298_18_alg».proof.Proof.TailI
import proofs.«203171_g79482664779815_cont_9to1_m_1298_18_alg».proof.Proof.SpecParts
import Idealize.ShloMosaic.Lib.ValueIdx
import Idealize.ShloMosaic.Lib.Pipeline.Value
import Idealize.ShloMosaic.PureOps.Ideal.Laws

noncomputable section

namespace Cert.Proof.KernelIdealP

open Cert.KernelIdeal
open Idealize.ShloMosaic
open Cert.KernelIdeal.Facts₀ Cert.KernelIdeal.Facts

variable [Cert.KernelIdeal.Facts]

/-! ## Reading a table's reduction over its rows, any extents -/

section RowsLift
variable {R C : Nat}

/-- Reducing a table `[R, C]` over its rows: the source index over column `j` with row `k` inserted is `(k, j)`. -/
theorem lift_rows (h : (⟨2, ![R, C]⟩ : Shape).Reduces [(0 : Fin 2)] ⟨1, ![C]⟩) (j : (⟨1, ![C]⟩ : Shape).Idx)
    (k : Fin ((⟨2, ![R, C]⟩ : Shape).size (0 : Fin 2))) :
    h.lift j k = ValueIdx.ix2 (⟨k.val, k.isLt⟩ : Fin R) (⟨(j 0).val, (j 0).isLt⟩ : Fin C) := by
  funext c
  refine Fin.ext ?_
  show h.liftVal j k.val c = _
  unfold Shape.Reduces.liftVal
  match c with
  | ⟨0, _⟩ => rfl
  | ⟨1, _⟩ => rfl

end RowsLift

/-! ## The pieces of the tail at the extended reals -/

/-- The all-ones-exponent, zero-fraction, negative f32 pattern is −∞. -/
theorem tail_ofBits_neg_inf : Ideal.ofBits .f32 0xFF800000#32 = (⊥ : EReal) := by
  simp [Ideal.ofBits, Ideal.ieee]

/-- A fold of the ideal maximum from −∞ over a whole finite index type is the supremum. -/
theorem tail_fold_maximumf_bot_eq_sup {ι : Type} [Fintype ι] (f : ι → EReal) :
    (Finset.univ : Finset ι).fold (FloatOps.maximumf (F := Ideal) (φ := .f32)) (⊥ : EReal) f = Finset.univ.sup f := rfl

/-- The four rows are what the reduction drops. -/
theorem reduces_rows : S4x1024.Reduces [(0 : Fin 2)] S1024 := by decide

/-- The reduction of a four-row array over its rows, from −∞, read at column `b`: the supremum of the column. -/
theorem rowsMax_apply (r : (⟨S4x1024, .f32⟩ : BufTy).Contents (Elt Ideal)) (b : Fin 1024) :
    (Host.reduce (FloatOps.maximumf (F := Ideal) (φ := .f32)) r (constant S_ .f32 0xFF800000#32 : FVec Ideal S_ .f32)
        reducesTo_S4x1024_S1024_d0 h_S_ : (⟨S1024, .f32⟩ : BufTy).Contents (Elt Ideal)) (ValueIdx.ix1 b)
      = Finset.univ.sup (fun vq : Fin 4 => r (ValueIdx.ix2 vq b)) := by
  rw [Host.reduce_eq_fold_single _ _ _ _ reduces_rows]
  have hl : reduces_rows.lift (ValueIdx.ix1 b) = fun k => ValueIdx.ix2 k b :=
    funext fun k => lift_rows reduces_rows (ValueIdx.ix1 b) k
  rw [hl]
  have hb : (constant S_ .f32 0xFF800000#32 : FVec Ideal S_ .f32) (Shape.Idx.first h_S_) = (⊥ : EReal) :=
    tail_ofBits_neg_inf
  rw [hb, tail_fold_maximumf_bot_eq_sup]
  rfl

/-- Row 0 of the two-row array, as a vector, read at column `b`. -/
theorem sliceRow0_apply (o : (⟨S2x1024, .f32⟩ : BufTy).Contents (Elt Ideal)) (b : Fin 1024) :
    shapeCast S1024 (extractStridedSlice S1x1024 ![0, 0] o slices_S2x1024_S1x1024_0_0) shapeCasts_S1x1024_S1024 (ValueIdx.ix1 b)
      = o (ValueIdx.ix2 (0 : Fin 2) b) := by
  rw [shapeCast_dropUnit_apply]
  exact extractStridedSlice_apply _ _ _ _ (ValueIdx.ix2 (0 : Fin 2) b)
    (fun a => match a with | ⟨0, _⟩ => rfl | ⟨1, _⟩ => (Nat.zero_add _).symm)

/-- Row 1 of the two-row array, as a vector, read at column `b`. -/
theorem sliceRow1_apply (o : (⟨S2x1024, .f32⟩ : BufTy).Contents (Elt Ideal)) (b : Fin 1024) :
    shapeCast S1024 (extractStridedSlice S1x1024 ![1, 0] o slices_S2x1024_S1x1024_1_0) shapeCasts_S1x1024_S1024 (ValueIdx.ix1 b)
      = o (ValueIdx.ix2 (1 : Fin 2) b) := by
  rw [shapeCast_dropUnit_apply]
  exact extractStridedSlice_apply _ _ _ _ (ValueIdx.ix2 (1 : Fin 2) b)
    (fun a => match a with | ⟨0, _⟩ => rfl | ⟨1, _⟩ => (Nat.zero_add _).symm)

/-- A supremum over four indices is the nested maximum. -/
theorem sup_fin4 (f : Fin 4 → EReal) : Finset.univ.sup f = max (f 0) (max (f 1) (max (f 2) (f 3))) := by
  rw [show (Finset.univ : Finset (Fin 4)) = {0, 1, 2, 3} from by decide]
  rw [Finset.sup_insert, Finset.sup_insert, Finset.sup_insert, Finset.sup_singleton]

/-! ## The tail is the margin -/

/-- THE TAIL IS THE MARGIN: given what the two calls' results hold per range of table rows, the program's result at
    column `b` is the specification's margin. -/
theorem tail_is_margin (x : Fin 1024 → Fin 100000 → EReal) (t : Fin 1024 → BitVec 32)
    (o : (⟨S2x1024, .f32⟩ : BufTy).Contents (Elt Ideal)) (rm rv : (⟨S4x1024, .f32⟩ : BufTy).Contents (Elt Ideal))
    (ho0 : ∀ b : Fin 1024, o (ValueIdx.ix2 (0 : Fin 2) b) = Cert.Spec.maxOffOn 0 80000 x t b)
    (ho1 : ∀ b : Fin 1024, o (ValueIdx.ix2 (1 : Fin 2) b) = Cert.Spec.atTargetOn 0 80000 x t b)
    (hrm : ∀ (vq : Fin 4) (b : Fin 1024), rm (ValueIdx.ix2 vq b) = Cert.Spec.maxOffOn (80000 + 5000 * vq.val) (80000 + 5000 * (vq.val + 1)) x t b)
    (hrv : ∀ (vq : Fin 4) (b : Fin 1024), rv (ValueIdx.ix2 vq b) = Cert.Spec.atTargetOn (80000 + 5000 * vq.val) (80000 + 5000 * (vq.val + 1)) x t b) :
    ∀ b : Fin 1024, tailOf (F := Ideal) o rm rv (ValueIdx.ix1 b) = Cert.Spec.margin x t b := by
  intro b
  rw [tailOf_eq, ValueIdx.subf_apply, ValueIdx.maximumf_apply, ValueIdx.maximumf_apply, rowsMax_apply, rowsMax_apply,
    sliceRow0_apply, sliceRow1_apply, sup_fin4, sup_fin4, ho0, ho1]
  have m0 : rm (ValueIdx.ix2 (0 : Fin 4) b) = Cert.Spec.maxOffOn 80000 85000 x t b := hrm 0 b
  have m1 : rm (ValueIdx.ix2 (1 : Fin 4) b) = Cert.Spec.maxOffOn 85000 90000 x t b := hrm 1 b
  have m2 : rm (ValueIdx.ix2 (2 : Fin 4) b) = Cert.Spec.maxOffOn 90000 95000 x t b := hrm 2 b
  have m3 : rm (ValueIdx.ix2 (3 : Fin 4) b) = Cert.Spec.maxOffOn 95000 100000 x t b := hrm 3 b
  have v0 : rv (ValueIdx.ix2 (0 : Fin 4) b) = Cert.Spec.atTargetOn 80000 85000 x t b := hrv 0 b
  have v1 : rv (ValueIdx.ix2 (1 : Fin 4) b) = Cert.Spec.atTargetOn 85000 90000 x t b := hrv 1 b
  have v2 : rv (ValueIdx.ix2 (2 : Fin 4) b) = Cert.Spec.atTargetOn 90000 95000 x t b := hrv 2 b
  have v3 : rv (ValueIdx.ix2 (3 : Fin 4) b) = Cert.Spec.atTargetOn 95000 100000 x t b := hrv 3 b
  rw [m0, m1, m2, m3, v0, v1, v2, v3]
  unfold Cert.Spec.margin
  rw [← Cert.Spec.maxOffOn_all, ← Cert.Spec.atTargetOn_all,
    Cert.Spec.maxOffOn_append x t b 0 80000 100000 (by norm_num) (by norm_num),
    Cert.Spec.maxOffOn_append x t b 80000 85000 100000 (by norm_num) (by norm_num),
    Cert.Spec.maxOffOn_append x t b 85000 90000 100000 (by norm_num) (by norm_num),
    Cert.Spec.maxOffOn_append x t b 90000 95000 100000 (by norm_num) (by norm_num),
    Cert.Spec.atTargetOn_append x t b 0 80000 100000 (by norm_num) (by norm_num),
    Cert.Spec.atTargetOn_append x t b 80000 85000 100000 (by norm_num) (by norm_num),
    Cert.Spec.atTargetOn_append x t b 85000 90000 100000 (by norm_num) (by norm_num),
    Cert.Spec.atTargetOn_append x t b 90000 95000 100000 (by norm_num) (by norm_num)]

end Cert.Proof.KernelIdealP

end
-- ==== Proof.RegionValueI.lean ====
/-
  The TensorCore region's result on the extended reals. The region walks the first 80000 rows of the transposed table
  in forty blocks of 2000; at each block, per lane `b`, it takes the maximum over the block's rows of the entries whose
  row number differs from the target word of `b` (and, separately, of the entry whose row number IS the target), and
  joins it with the running value, which starts at −∞. A block's lane maximum is a supremum over its 2000 rows; the row
  number compared is `2000 · block + row` as a 32-bit word; and suprema over adjacent ranges of rows join by `max`.
  So after `n` blocks the two running rows are the specification's two masked maxima over the first `2000 n` rows,
  and the region's result holds them over the first 80000.
-/
import proofs.«203171_g79482664779815_cont_9to1_m_1298_18_alg».proof.Proof.RegionResultI
import proofs.«203171_g79482664779815_cont_9to1_m_1298_18_alg».proof.Proof.SpecParts
import proofs.«203171_g79482664779815_cont_9to1_m_1298_18_alg».proof.Proof.TailValueI
import Idealize.ShloMosaic.Lib.ValueIdx
import Idealize.ShloMosaic.Lib.ValueLayout
import Idealize.ShloMosaic.Lib.Pipeline.Value
import Idealize.ShloMosaic.PureOps.Ideal.Laws

noncomputable section

namespace Cert.Proof.KernelIdealP

open Cert.KernelIdeal Cert.KernelIdeal.Gen
open Idealize.ShloMosaic Idealize.ShloMosaic.TcCoe
open Idealize.ShloMosaic.SparseCore (S V T)
open Idealize.SL Idealize.SL.Sem
open Idealize.ShloMosaic.Pipeline (Dat Cfg Window)
open Cert.KernelIdeal.Facts₀ Cert.KernelIdeal.Facts

/-! ## Generic facts -/

/-- A supremum over a range of `k` consecutive indices from `lo` is the supremum over `Fin k` of the shifted family. -/
theorem supOn_block {n : ℕ} (lo k : ℕ) (h : lo + k ≤ n) (f : Fin n → EReal) :
    Cert.Spec.supOn lo (lo + k) f = Finset.univ.sup fun r : Fin k => f ⟨lo + r.val, by have := r.isLt; omega⟩ := by
  unfold Cert.Spec.supOn
  apply le_antisymm
  · refine Finset.sup_le fun v hv => ?_
    have hv' := (Finset.mem_filter.mp hv).2
    have hr : v.val - lo < k := by omega
    have := Finset.le_sup (f := fun r : Fin k => f ⟨lo + r.val, by have := r.isLt; omega⟩) (Finset.mem_univ (⟨v.val - lo, hr⟩ : Fin k))
    have e : (⟨lo + (v.val - lo), by omega⟩ : Fin n) = v := Fin.ext (by show lo + (v.val - lo) = v.val; omega)
    simpa [e] using this
  · refine Finset.sup_le fun r _ => ?_
    exact Finset.le_sup (f := f) (Finset.mem_filter.mpr ⟨Finset.mem_univ _, by show lo ≤ lo + r.val ∧ lo + r.val < lo + k; have := r.isLt; omega⟩)

/-- A selection on an equality test of two words. -/
theorem select_cmpi_eq {α : Type} (u v : BitVec 32) (A B : α) : Scalar.select (IntOp.cmpi .eq u v) A B = if u = v then A else B := by
  unfold Scalar.select IntOp.cmpi
  by_cases h : u = v
  · subst h; simp
  · have hb : (u == v) = false := by simpa using h
    simp [hb, h]

theorem reduces_block : S2000x1024.Reduces [(0 : Fin 2)] S1024 := by decide

/-- The body's first accumulation step at lane `b`. -/
theorem pay5_apply (i : grid0.Coords) (x : Vec Ideal S2000x1024 .f32) (t2 : Vec Ideal S1x1024 .i32) (acc : Vec Ideal S1x1024 .f32) (b : Fin 1024) :
    k0_pay5 (F := Ideal) i x t2 acc (ValueIdx.ix2 (0 : Fin 1) b)
      = max (acc (ValueIdx.ix2 (0 : Fin 1) b)) (Finset.univ.sup fun r : Fin 2000 =>
          if BitVec.ofNat 32 r.val + BitVec.ofNat 32 (i 0).val * 2000#32 = t2 (ValueIdx.ix2 (0 : Fin 1) b) then (⊥ : EReal) else x (ValueIdx.ix2 r b)) := by
  unfold k0_pay5 k0_pay4 k0_pay3
  simp only [shapeCast_self]
  show max (acc (ValueIdx.ix2 (0 : Fin 1) b)) _ = max (acc (ValueIdx.ix2 (0 : Fin 1) b)) _
  refine congrArg (max (acc (ValueIdx.ix2 (0 : Fin 1) b))) ?_
  refine (ValueIdx.shapeCast_a_1a_apply (a := 1024) _ Gen.shapeCasts_S1024_S1x1024 (0 : Fin 1) b).trans ?_
  refine (Ideal.multiReduction_maximumf_single _ _ Gen.reduces_S2000x1024_S1024 _ _ (ValueIdx.ix1 b)).trans ?_
  rw [show (FloatOps.ofBits FTy.f32 4286578688#32 : Ideal .f32) = (⊥ : EReal) from tail_ofBits_neg_inf]
  refine (tail_fold_maximumf_bot_eq_sup _).trans ?_
  refine Finset.sup_congr rfl fun (r : Fin 2000) _ => ?_
  have hl : Gen.reduces_S2000x1024_S1024.lift (ValueIdx.ix1 b) r = ValueIdx.ix2 r b :=
    lift_rows (R := 2000) (C := 1024) Gen.reduces_S2000x1024_S1024 (ValueIdx.ix1 b) r
  have key : ∀ idx : S2000x1024.Idx, idx = ValueIdx.ix2 r b →
      Scalar.select (IntOp.cmpi .eq (IntOp.addi (iota Kind.tc S2000x1024 32 [0] Gen.iota_S2000x1024_d0_w32 idx) (Scalar.muli (BitVec.ofNat 32 (i 0).val) 2000#32))
        (broadcastTo S2000x1024 t2 Gen.broadcasts_S1x1024_S2000x1024 idx)) ((⊥ : EReal)) ((x idx))
      = if BitVec.ofNat 32 r.val + BitVec.ofNat 32 (i 0).val * 2000#32 = t2 (ValueIdx.ix2 (0 : Fin 1) b) then (⊥ : EReal) else x (ValueIdx.ix2 r b) := by
    intro idx hidx
    subst hidx
    rw [select_cmpi_eq, iota_single_apply, ValueIdx.broadcastTo_1b_ab_apply]
    rfl
  exact key _ hl

/-- The second accumulation step at lane `b`. -/
theorem pay6_apply (i : grid0.Coords) (x : Vec Ideal S2000x1024 .f32) (t2 : Vec Ideal S1x1024 .i32) (acc : Vec Ideal S1x1024 .f32) (b : Fin 1024) :
    k0_pay6 (F := Ideal) i x t2 acc (ValueIdx.ix2 (0 : Fin 1) b)
      = max (acc (ValueIdx.ix2 (0 : Fin 1) b)) (Finset.univ.sup fun r : Fin 2000 =>
          if BitVec.ofNat 32 r.val + BitVec.ofNat 32 (i 0).val * 2000#32 = t2 (ValueIdx.ix2 (0 : Fin 1) b) then x (ValueIdx.ix2 r b) else (⊥ : EReal)) := by
  unfold k0_pay6 k0_pay4 k0_pay3
  simp only [shapeCast_self]
  show max (acc (ValueIdx.ix2 (0 : Fin 1) b)) _ = max (acc (ValueIdx.ix2 (0 : Fin 1) b)) _
  refine congrArg (max (acc (ValueIdx.ix2 (0 : Fin 1) b))) ?_
  refine (ValueIdx.shapeCast_a_1a_apply (a := 1024) _ Gen.shapeCasts_S1024_S1x1024 (0 : Fin 1) b).trans ?_
  refine (Ideal.multiReduction_maximumf_single _ _ Gen.reduces_S2000x1024_S1024 _ _ (ValueIdx.ix1 b)).trans ?_
  rw [show (FloatOps.ofBits FTy.f32 4286578688#32 : Ideal .f32) = (⊥ : EReal) from tail_ofBits_neg_inf]
  refine (tail_fold_maximumf_bot_eq_sup _).trans ?_
  refine Finset.sup_congr rfl fun (r : Fin 2000) _ => ?_
  have hl : Gen.reduces_S2000x1024_S1024.lift (ValueIdx.ix1 b) r = ValueIdx.ix2 r b :=
    lift_rows (R := 2000) (C := 1024) Gen.reduces_S2000x1024_S1024 (ValueIdx.ix1 b) r
  have key : ∀ idx : S2000x1024.Idx, idx = ValueIdx.ix2 r b →
      Scalar.select (IntOp.cmpi .eq (IntOp.addi (iota Kind.tc S2000x1024 32 [0] Gen.iota_S2000x1024_d0_w32 idx) (Scalar.muli (BitVec.ofNat 32 (i 0).val) 2000#32))
        (broadcastTo S2000x1024 t2 Gen.broadcasts_S1x1024_S2000x1024 idx)) ((x idx)) ((⊥ : EReal))
      = if BitVec.ofNat 32 r.val + BitVec.ofNat 32 (i 0).val * 2000#32 = t2 (ValueIdx.ix2 (0 : Fin 1) b) then x (ValueIdx.ix2 r b) else (⊥ : EReal) := by
    intro idx hidx
    subst hidx
    rw [select_cmpi_eq, iota_single_apply, ValueIdx.broadcastTo_1b_ab_apply]
    rfl
  exact key _ hl

/-! ## What the body reads: the table's rows and the target words -/

variable (m : (ℓ : Loc nD τ sig) → Buf (Elt Ideal) ℓ)

/-- The table and the targets as the specification reads them. -/
abbrev xS (d : Dev nD) : Fin 1024 → Fin 100000 → EReal := fun b v => m ((SparseCore.T d : Thread nD τ).loc main_arg0) (ValueIdx.ix2 b v)
abbrev tS (d : Dev nD) : Fin 1024 → BitVec 32 := fun b => m ((SparseCore.T d : Thread nD τ).loc main_arg1) (ValueIdx.ix1 b)

/-- The transposed table at row `v`, column `b` is the table at `(b, v)`. -/
theorem X_apply (d : Dev nD) (v : Fin 100000) (b : Fin 1024) : X m d (ValueIdx.ix2 v b) = xS m d b v := by
  rw [X_eq]; exact ValueIdx.transpose_ix2_apply _ _ v b

/-- The target row at column `b` is the target word `b`. -/
theorem T2_apply (d : Dev nD) (b : Fin 1024) : T2 m d (ValueIdx.ix2 (0 : Fin 1) b) = tS m d b := by
  unfold T2
  show V2 m d (Proc.devRef .tc main_v1) _ = _
  unfold V2
  rw [StableHlo.reshape_result' (τ := τ) (x := main_arg1) (y := main_v1)]
  rw [StableHlo.unary_result_ne' (τ := τ) (x := main_arg0) (y := main_v0) _ _ _ _ (r := main_arg1) (by decide)]
  exact ValueIdx.shapeCast_a_1a_apply (a := 1024) _ _ (0 : Fin 1) b

theorem win1_index : ∀ t : Fin grid0.N, win0_1.index t 0 = t.val ∧ win0_1.index t 1 = 0 := by decide +kernel
theorem win0_index : ∀ t : Fin grid0.N, win0_0.index t 0 = 0 ∧ win0_0.index t 1 = 0 := by decide +kernel
theorem coords0 : ∀ t : Fin grid0.N, (grid0.coords t 0).val = t.val := by decide +kernel

/-- Block `t` of the transposed table at `(r, b)` is the table's row `2000 t + r`. -/
theorem blk1_apply (d : Dev nD) (t : Fin cfg0.N) (r : Fin 2000) (b : Fin 1024) (h : 2000 * t.val + r.val < 100000) :
    blk1 m d t (ValueIdx.ix2 r b) = X m d (ValueIdx.ix2 (⟨2000 * t.val + r.val, h⟩ : Fin 100000) b) := by
  unfold blk1
  rw [View.read_apply]
  show X m d _ = X m d _
  refine congrArg (X m d) ?_
  funext a
  apply Fin.ext
  match a with
  | ⟨0, _⟩ => show win0_1.index t 0 * 2000 + 1 * r.val = 2000 * t.val + r.val; rw [(win1_index t).1]; omega
  | ⟨1, _⟩ => show win0_1.index t 1 * 1024 + 1 * b.val = b.val; rw [(win1_index t).2]; omega

/-- The target block is the target row, at every point. -/
theorem blk0_apply (d : Dev nD) (t : Fin cfg0.N) (b : Fin 1024) :
    blk0 m d t (ValueIdx.ix2 (0 : Fin 1) b) = T2 m d (ValueIdx.ix2 (0 : Fin 1) b) := by
  unfold blk0
  rw [View.read_apply]
  show T2 m d _ = T2 m d _
  refine congrArg (T2 m d) ?_
  funext a
  apply Fin.ext
  match a with
  | ⟨0, _⟩ => show win0_0.index t 0 * 1 + 1 * 0 = 0; rw [(win0_index t).1]
  | ⟨1, _⟩ => show win0_0.index t 1 * 1024 + 1 * b.val = b.val; rw [(win0_index t).2]; omega

/-! ## The two running rows are the specification's maxima over the rows walked so far -/

/-- The word the body compares with the target at row `r` of block `n` is the row's number. -/
theorem word_eq (n r : ℕ) : BitVec.ofNat 32 r + BitVec.ofNat 32 n * 2000#32 = BitVec.ofNat 32 (2000 * n + r) := by
  apply BitVec.eq_of_toNat_eq
  simp only [BitVec.toNat_add, BitVec.toNat_mul, BitVec.toNat_ofNat]
  norm_num
  omega

theorem block_maxOff (d : Dev nD) (t : Fin cfg0.N) (b : Fin 1024) :
    (Finset.univ.sup (α := EReal) fun r : Fin 2000 =>
      if BitVec.ofNat 32 r.val + BitVec.ofNat 32 (grid0.coords t 0).val * 2000#32 = (blk0 m d t (ValueIdx.ix2 (0 : Fin 1) b) : BitVec 32) then (⊥ : EReal) else (blk1 m d t (ValueIdx.ix2 r b) : EReal))
      = Cert.Spec.maxOffOn (2000 * t.val) (2000 * t.val + 2000) (xS m d) (tS m d) b := by
  have hN : t.val < 40 := lt_of_lt_of_eq t.isLt (show cfg0.N = 40 from N_0)
  unfold Cert.Spec.maxOffOn
  rw [supOn_block (2000 * t.val) 2000 (by omega)]
  refine Finset.sup_congr rfl fun r _ => ?_
  have hr := r.isLt
  rw [blk0_apply, T2_apply, blk1_apply m d t r b (by omega), X_apply, coords0 t, word_eq]
  by_cases h : tS m d b = BitVec.ofNat 32 (2000 * t.val + r.val)
  · rw [if_pos h.symm, if_pos h]
  · rw [if_neg (fun e => h e.symm), if_neg h]

theorem block_atTarget (d : Dev nD) (t : Fin cfg0.N) (b : Fin 1024) :
    (Finset.univ.sup (α := EReal) fun r : Fin 2000 =>
      if BitVec.ofNat 32 r.val + BitVec.ofNat 32 (grid0.coords t 0).val * 2000#32 = (blk0 m d t (ValueIdx.ix2 (0 : Fin 1) b) : BitVec 32) then (blk1 m d t (ValueIdx.ix2 r b) : EReal) else (⊥ : EReal))
      = Cert.Spec.atTargetOn (2000 * t.val) (2000 * t.val + 2000) (xS m d) (tS m d) b := by
  have hN : t.val < 40 := lt_of_lt_of_eq t.isLt (show cfg0.N = 40 from N_0)
  unfold Cert.Spec.atTargetOn
  rw [supOn_block (2000 * t.val) 2000 (by omega)]
  refine Finset.sup_congr rfl fun r _ => ?_
  have hr := r.isLt
  rw [blk0_apply, T2_apply, blk1_apply m d t r b (by omega), X_apply, coords0 t, word_eq]
  by_cases h : tS m d b = BitVec.ofNat 32 (2000 * t.val + r.val)
  · rw [if_pos h.symm, if_pos h]
  · rw [if_neg (fun e => h e.symm), if_neg h]

/-- After `n` points the first running row holds, at lane `b`, the maximum off the target over the first `2000 n` rows. -/
theorem accM_val (d : Dev nD) (b : Fin 1024) : ∀ n, n ≤ 40 →
    accM m d n (ValueIdx.ix2 (0 : Fin 1) b) = Cert.Spec.maxOffOn 0 (2000 * n) (xS m d) (tS m d) b
  | 0, _ => by
    rw [Nat.mul_zero, Cert.Spec.maxOffOn_empty]
    show k0_pay1 (F := Ideal) (ValueIdx.ix2 (0 : Fin 1) b) = _
    unfold k0_pay1
    simp only [shapeCast_self]
    exact tail_ofBits_neg_inf
  | n + 1, h => by
    have hn : n < cfg0.N := by rw [show cfg0.N = 40 from N_0]; omega
    rw [accM, dif_pos hn, pay5_apply, accM_val d b n (by omega), block_maxOff m d ⟨n, hn⟩ b,
      show 2000 * (n + 1) = 2000 * n + 2000 from by ring,
      Cert.Spec.maxOffOn_append (xS m d) (tS m d) b 0 (2000 * n) (2000 * n + 2000) (by omega) (by omega)]

/-- And the second, the entry at the target if it is among them. -/
theorem accV_val (d : Dev nD) (b : Fin 1024) : ∀ n, n ≤ 40 →
    accV m d n (ValueIdx.ix2 (0 : Fin 1) b) = Cert.Spec.atTargetOn 0 (2000 * n) (xS m d) (tS m d) b
  | 0, _ => by
    rw [Nat.mul_zero, Cert.Spec.atTargetOn_empty]
    show k0_pay2 (F := Ideal) (ValueIdx.ix2 (0 : Fin 1) b) = _
    unfold k0_pay2
    simp only [shapeCast_self]
    exact tail_ofBits_neg_inf
  | n + 1, h => by
    have hn : n < cfg0.N := by rw [show cfg0.N = 40 from N_0]; omega
    rw [accV, dif_pos hn, pay6_apply, accV_val d b n (by omega), block_atTarget m d ⟨n, hn⟩ b,
      show 2000 * (n + 1) = 2000 * n + 2000 from by ring,
      Cert.Spec.atTargetOn_append (xS m d) (tS m d) b 0 (2000 * n) (2000 * n + 2000) (by omega) (by omega)]

/-! ## The region's result -/

/-- Row 0 of the region's result: the maximum off the target over the first 80000 table rows. -/
theorem RT_row0 (d : Dev nD) (b : Fin 1024) :
    RT m d (ValueIdx.ix2 (0 : Fin 2) b) = Cert.Spec.maxOffOn 0 80000 (xS m d) (tS m d) b := by
  rw [RT_eq]
  show accM m d 40 (ValueIdx.ix2 (0 : Fin 1) b) = _
  exact accM_val m d b 40 le_rfl

/-- Row 1: the entry at the target if it is among them. -/
theorem RT_row1 (d : Dev nD) (b : Fin 1024) :
    RT m d (ValueIdx.ix2 (1 : Fin 2) b) = Cert.Spec.atTargetOn 0 80000 (xS m d) (tS m d) b := by
  rw [RT_eq]
  show accV m d 40 (ValueIdx.ix2 (0 : Fin 1) b) = _
  exact accV_val m d b 40 le_rfl

end Cert.Proof.KernelIdealP
end
-- ==== Proof.LibPointScatter.lean ====
/-
  A point gather and a point scatter of a rank-2 array, read at an index.

  `x[rows, cols]` of a table `x : [R, C]` at one (row, column) pair per result element is a gather whose start
  indices form an `[R, 2]` array (column 0 the row number, column 1 the column number), both operand axes collapsed;
  `x.at[rows, cols].set(u)` is the scatter with the same index array, both operand axes inserted, whose body returns
  the update. Here both are read at an index, for any extents `R` and `C`:

  * the gather's element `j` is the table at the pair the index array holds in row `j`, each component read as a
    signed number and clamped into the table;
  * a scatter whose body returns the update leaves, at each position, either the operand's element (when no update
    lands there) or the element of SOME update that lands there — and an update lands at a position exactly when its
    pair of signed numbers IS that position.

  A left fold of overwriting steps is what the scatter is; its read at a position is proved once for any such fold.
-/
import Idealize.ShloMosaic.PureOps.ShapeOps
import Idealize.ShloMosaic.PureOps.Reduce
import Idealize.ShloMosaic.Lib.ValueIdx

namespace Cert.LibPointScatter

open Idealize.ShloMosaic Idealize.ShloMosaic.ValueIdx

/-! ## A left fold of overwriting steps -/

section Fold
variable {ι κ α : Type} [DecidableEq κ]

/-- One overwriting step: update `n` replaces the element at its target position, when it has one. -/
def setStep (tgt : ι → Option κ) (upd : ι → α) (r : κ → α) (n : ι) : κ → α :=
  fun i' => if tgt n = some i' then upd n else r i'

/-- A left fold of overwriting steps, read at a position: some update of the list that targets the position supplied
    the element, or none targets it and the element is the initial one. -/
theorem foldl_setStep (tgt : ι → Option κ) (upd : ι → α) :
    ∀ (l : List ι) (x : κ → α) (i' : κ),
      (∃ n ∈ l, tgt n = some i' ∧ l.foldl (setStep tgt upd) x i' = upd n) ∨
      ((∀ n ∈ l, tgt n ≠ some i') ∧ l.foldl (setStep tgt upd) x i' = x i')
  | [], x, i' => Or.inr ⟨fun _ hn => (nomatch hn), rfl⟩
  | a :: l, x, i' => by
    rw [List.foldl_cons]
    rcases foldl_setStep tgt upd l (setStep tgt upd x a) i' with ⟨n, hn, ht, he⟩ | ⟨hall, he⟩
    · exact Or.inl ⟨n, List.mem_cons_of_mem _ hn, ht, he⟩
    · by_cases ha : tgt a = some i'
      · refine Or.inl ⟨a, List.mem_cons_self .., ha, ?_⟩
        rw [he]; unfold setStep; rw [if_pos ha]
      · refine Or.inr ⟨fun n hn => ?_, ?_⟩
        · rcases List.mem_cons.1 hn with rfl | hn
          exacts [ha, hall n hn]
        · rw [he]; unfold setStep; rw [if_neg ha]

end Fold

/-! ## A scatter whose body returns the update -/

section ScatterSet
variable {s si u : Shape} {w : Nat} {α : Type}

/-- A scatter whose body returns the update is the left fold of overwriting steps over the updates in row-major
    order, update `n` targeting its result index. -/
theorem scatter_set_eq_foldl (d : ScatterDims s si u) (x : s.Idx → α) (idx : IVec si w) (upd : u.Idx → α) :
    Host.scatter d (fun _ b => b) x idx upd =
      (List.finRange u.numel).foldl
        (setStep (fun n => d.resultIdx? (u.rowMajor.symm n) idx) (fun n => upd (u.rowMajor.symm n))) x := by
  unfold Host.scatter
  congr 1
  funext r n
  funext i'
  unfold setStep
  cases hres : d.resultIdx? (u.rowMajor.symm n) idx with
  | none => simp [hres]
  | some i =>
    by_cases hi : i' = i
    · subst hi; simp [hres]
    · have : ¬ (some i = some i') := fun h => hi (Option.some.inj h).symm
      simp [hi, this, hres]

/-- A scatter whose body returns the update, read at a position `i'`: the element of some update whose result
    index is `i'`, or — when no update's result index is `i'` — the operand's element. -/
theorem scatter_set_apply (d : ScatterDims s si u) (x : s.Idx → α) (idx : IVec si w) (upd : u.Idx → α) (i' : s.Idx) :
    (∃ j : u.Idx, d.resultIdx? j idx = some i' ∧ Host.scatter d (fun _ b => b) x idx upd i' = upd j) ∨
    ((∀ j : u.Idx, d.resultIdx? j idx ≠ some i') ∧ Host.scatter d (fun _ b => b) x idx upd i' = x i') := by
  rw [scatter_set_eq_foldl]
  rcases foldl_setStep (fun n => d.resultIdx? (u.rowMajor.symm n) idx) (fun n => upd (u.rowMajor.symm n))
      (List.finRange u.numel) x i' with ⟨n, _, ht, he⟩ | ⟨hall, he⟩
  · exact Or.inl ⟨u.rowMajor.symm n, ht, he⟩
  · refine Or.inr ⟨fun j => ?_, he⟩
    have := hall (u.rowMajor j) (List.mem_finRange _)
    simpa using this

end ScatterSet

/-! ## The point scatter's result index -/

section Point
variable {α : Type} {R C w : Nat}

/-- The dimension numbers of `x.at[rows, cols].set(u)` for a table `[R, C]`, an index array `[R, 2]` and updates
    `[R]`: both operand axes inserted, the index vector along axis 1 of the index array naming (row, column). -/
abbrev pointScatterDims (R C : Nat)
    (wf : ScatterDims.WF ⟨2, ![R, C]⟩ ⟨2, ![R, 2]⟩ ⟨1, ![R]⟩ [] [0, 1] [0, 1] 1) :
    ScatterDims ⟨2, ![R, C]⟩ ⟨2, ![R, 2]⟩ ⟨1, ![R]⟩ where
  updateWindowDims := []
  insertedWindowDims := [0, 1]
  scatterDimsToOperandDims := [0, 1]
  indexVectorDim := 1
  wf := wf

/-- Row `j` of the index array, component `c`. -/
abbrev pairIdx (j : (⟨1, ![R]⟩ : Shape).Idx) (c : Fin 2) : (⟨2, ![R, 2]⟩ : Shape).Idx :=
  ix2 (⟨(j 0).val, (j 0).isLt⟩ : Fin R) c

/-- The window of update `j` starts, on the row axis, at component 0 of its pair, read signed. -/
theorem point_start0 (wf : ScatterDims.WF ⟨2, ![R, C]⟩ ⟨2, ![R, 2]⟩ ⟨1, ![R]⟩ [] [0, 1] [0, 1] 1)
    (j : (⟨1, ![R]⟩ : Shape).Idx) (idx : IVec ⟨2, ![R, 2]⟩ w) :
    (pointScatterDims R C wf).start j idx (0 : Fin 2) = (idx (pairIdx j 0)).toInt := by
  unfold ScatterDims.start
  have hm : (0 : Fin 2) ∈ (pointScatterDims R C wf).scatterDimsToOperandDims := List.mem_cons_self ..
  rw [dif_pos hm]
  have hsi : (pointScatterDims R C wf).siIdx j ⟨List.idxOf (0 : Fin 2) (pointScatterDims R C wf).scatterDimsToOperandDims,
      List.idxOf_lt_length_iff.2 hm⟩ = pairIdx j 0 := by
    funext b; refine Fin.ext ?_
    match b with
    | ⟨0, _⟩ => rfl
    | ⟨1, _⟩ => rfl
  rw [hsi]

/-- The window of update `j` starts, on the column axis, at component 1 of its pair, read signed. -/
theorem point_start1 (wf : ScatterDims.WF ⟨2, ![R, C]⟩ ⟨2, ![R, 2]⟩ ⟨1, ![R]⟩ [] [0, 1] [0, 1] 1)
    (j : (⟨1, ![R]⟩ : Shape).Idx) (idx : IVec ⟨2, ![R, 2]⟩ w) :
    (pointScatterDims R C wf).start j idx (1 : Fin 2) = (idx (pairIdx j 1)).toInt := by
  unfold ScatterDims.start
  have hm : (1 : Fin 2) ∈ (pointScatterDims R C wf).scatterDimsToOperandDims :=
    List.mem_cons_of_mem _ (List.mem_cons_self ..)
  rw [dif_pos hm]
  have hsi : (pointScatterDims R C wf).siIdx j ⟨List.idxOf (1 : Fin 2) (pointScatterDims R C wf).scatterDimsToOperandDims,
      List.idxOf_lt_length_iff.2 hm⟩ = pairIdx j 1 := by
    funext b; refine Fin.ext ?_
    match b with
    | ⟨0, _⟩ => rfl
    | ⟨1, _⟩ => rfl
  rw [hsi]

/-- On either axis. -/
theorem point_start (wf : ScatterDims.WF ⟨2, ![R, C]⟩ ⟨2, ![R, 2]⟩ ⟨1, ![R]⟩ [] [0, 1] [0, 1] 1)
    (j : (⟨1, ![R]⟩ : Shape).Idx) (idx : IVec ⟨2, ![R, 2]⟩ w) (a : Fin 2) :
    (pointScatterDims R C wf).start j idx a = (idx (pairIdx j a)).toInt :=
  match a with
  | ⟨0, _⟩ => point_start0 wf j idx
  | ⟨1, _⟩ => point_start1 wf j idx

/-- Both operand axes are inserted: an update has no window coordinate. -/
theorem point_window (wf : ScatterDims.WF ⟨2, ![R, C]⟩ ⟨2, ![R, 2]⟩ ⟨1, ![R]⟩ [] [0, 1] [0, 1] 1)
    (j : (⟨1, ![R]⟩ : Shape).Idx) (a : Fin 2) : (pointScatterDims R C wf).window j a = 0 := by
  unfold ScatterDims.window
  rw [dif_neg]
  intro h
  have hk : a ∉ (⟨2, ![R, C]⟩ : Shape).kept [0, 1] := by
    match a with
    | ⟨0, _⟩ => simp [Shape.kept]
    | ⟨1, _⟩ => simp [Shape.kept]
  exact hk h

/-- UPDATE `j` LANDS AT POSITION `i'` exactly when its pair, read signed, is `i'`'s (row, column). -/
theorem point_resultIdx?_eq_some_iff (wf : ScatterDims.WF ⟨2, ![R, C]⟩ ⟨2, ![R, 2]⟩ ⟨1, ![R]⟩ [] [0, 1] [0, 1] 1)
    (j : (⟨1, ![R]⟩ : Shape).Idx) (idx : IVec ⟨2, ![R, 2]⟩ w) (i' : (⟨2, ![R, C]⟩ : Shape).Idx) :
    (pointScatterDims R C wf).resultIdx? j idx = some i' ↔
      (idx (pairIdx j 0)).toInt = ((i' 0).val : Int) ∧ (idx (pairIdx j 1)).toInt = ((i' 1).val : Int) := by
  have hs : ∀ a : Fin 2, (pointScatterDims R C wf).start j idx a + ((pointScatterDims R C wf).window j a : Int)
      = (idx (pairIdx j a)).toInt := fun a => by
    rw [point_start, point_window]; simp
  unfold ScatterDims.resultIdx?
  constructor
  · intro h
    split at h
    · next hall =>
      have hf := Option.some.inj h
      have h0 := congrArg (fun f : (⟨2, ![R, C]⟩ : Shape).Idx => (f 0).val) hf
      have h1 := congrArg (fun f : (⟨2, ![R, C]⟩ : Shape).Idx => (f 1).val) hf
      simp only at h0 h1
      have a0 := (hall 0).1
      have a1 := (hall 1).1
      have s0 := hs 0
      have s1 := hs 1
      constructor <;> omega
    · exact absurd h (by simp)
  · rintro ⟨h0, h1⟩
    have hall : ∀ a : Fin 2, 0 ≤ (pointScatterDims R C wf).start j idx a + ((pointScatterDims R C wf).window j a : Int) ∧
        (pointScatterDims R C wf).start j idx a + ((pointScatterDims R C wf).window j a : Int) < ((⟨2, ![R, C]⟩ : Shape).size a : Int) := by
      intro a
      have sa := hs a
      have hv : (idx (pairIdx j a)).toInt = ((i' a).val : Int) := by
        match a with
        | ⟨0, _⟩ => exact h0
        | ⟨1, _⟩ => exact h1
      have := (i' a).isLt
      constructor <;> omega
    rw [dif_pos hall]
    congr 1
    funext a
    refine Fin.ext ?_
    match a with
    | ⟨0, _⟩ =>
      have s0 := hs 0
      show ((pointScatterDims R C wf).start j idx 0 + ((pointScatterDims R C wf).window j 0 : Int)).toNat = (i' 0).val
      omega
    | ⟨1, _⟩ =>
      have s1 := hs 1
      show ((pointScatterDims R C wf).start j idx 1 + ((pointScatterDims R C wf).window j 1 : Int)).toNat = (i' 1).val
      omega

end Point

/-! ## The point gather read at an index -/

section PointGather
variable {α : Type} {R C w : Nat}

/-- The dimension numbers of `x[rows, cols]` for a table `[R, C]`, an index array `[R, 2]` and a result `[R]`:
    both operand axes collapsed, slices of one element, the index vector along axis 1 naming (row, column). -/
abbrev pointGatherDims (R C : Nat)
    (wf : GatherDims.WF ⟨2, ![R, C]⟩ ⟨2, ![R, 2]⟩ ⟨1, ![R]⟩ [] [0, 1] [] [0, 1] [] 1 ![1, 1]) :
    GatherDims ⟨2, ![R, C]⟩ ⟨2, ![R, 2]⟩ ⟨1, ![R]⟩ where
  offsetDims := []
  collapsedSliceDims := [0, 1]
  operandBatchingDims := []
  startIndicesBatchingDims := []
  startIndexMap := [0, 1]
  indexVectorDim := 1
  sliceSizes := ![1, 1]
  wf := wf

/-- THE POINT GATHER READ AT `j`: the table at the pair row `j` of the index array holds, each component read
    signed and clamped into its axis. -/
theorem gather_point_apply (hC : 0 < C)
    (wf : GatherDims.WF ⟨2, ![R, C]⟩ ⟨2, ![R, 2]⟩ ⟨1, ![R]⟩ [] [0, 1] [] [0, 1] [] 1 ![1, 1])
    (x : (⟨2, ![R, C]⟩ : Shape).Idx → α) (idx : IVec ⟨2, ![R, 2]⟩ w) (j : (⟨1, ![R]⟩ : Shape).Idx) :
    Host.gather (pointGatherDims R C wf) x idx j =
      x (ix2 (⟨min (idx (pairIdx j 0)).toInt.toNat (R - 1), by have : (j 0).val < R := (j 0).isLt; omega⟩ : Fin R)
             (⟨min (idx (pairIdx j 1)).toInt.toNat (C - 1), by omega⟩ : Fin C)) := by
  unfold Host.gather
  congr 1
  funext a
  refine Fin.ext ?_
  have hb : ∀ a : Fin 2, (pointGatherDims R C wf).batchCoord j a = 0 := fun a =>
    GatherDims.batchCoord_eq_zero _ _ _ List.not_mem_nil
  have ho : ∀ a : Fin 2, (pointGatherDims R C wf).offCoord j a = 0 := fun a =>
    GatherDims.offCoord_eq_zero _ _ _ (fun h => ((GatherDims.mem_sKept _ _).mp h).1 (by
      match a with
      | ⟨0, _⟩ => exact List.mem_cons_self ..
      | ⟨1, _⟩ => exact List.mem_cons_of_mem _ (List.mem_cons_self ..)))
  match a with
  | ⟨0, _⟩ =>
    show (pointGatherDims R C wf).start j idx 0 + (pointGatherDims R C wf).batchCoord j 0
      + (pointGatherDims R C wf).offCoord j 0 = _
    rw [hb 0, ho 0]
    simp only [Nat.add_zero]
    unfold GatherDims.start
    have hm : (0 : Fin 2) ∈ (pointGatherDims R C wf).startIndexMap := List.mem_cons_self ..
    rw [dif_pos hm]
    have hsi : (pointGatherDims R C wf).siIdx j ⟨List.idxOf (0 : Fin 2) (pointGatherDims R C wf).startIndexMap,
        List.idxOf_lt_length_iff.2 hm⟩ = pairIdx j 0 := by
      funext b; refine Fin.ext ?_
      match b with
      | ⟨0, _⟩ => rfl
      | ⟨1, _⟩ => rfl
    rw [hsi]
    rfl
  | ⟨1, _⟩ =>
    show (pointGatherDims R C wf).start j idx 1 + (pointGatherDims R C wf).batchCoord j 1
      + (pointGatherDims R C wf).offCoord j 1 = _
    rw [hb 1, ho 1]
    simp only [Nat.add_zero]
    unfold GatherDims.start
    have hm : (1 : Fin 2) ∈ (pointGatherDims R C wf).startIndexMap :=
      List.mem_cons_of_mem _ (List.mem_cons_self ..)
    rw [dif_pos hm]
    have hsi : (pointGatherDims R C wf).siIdx j ⟨List.idxOf (1 : Fin 2) (pointGatherDims R C wf).startIndexMap,
        List.idxOf_lt_length_iff.2 hm⟩ = pairIdx j 1 := by
      funext b; refine Fin.ext ?_
      match b with
      | ⟨0, _⟩ => rfl
      | ⟨1, _⟩ => rfl
    rw [hsi]
    rfl

end PointGather

/-! ## A row's reduction over the columns -/

section RowLift
variable {R C : Nat}

/-- Reducing a table `[R, C]` over its columns: the source index over row `j` with column `k` inserted is `(j, k)`. -/
theorem lift_cols (h : (⟨2, ![R, C]⟩ : Shape).Reduces [(1 : Fin 2)] ⟨1, ![R]⟩) (j : (⟨1, ![R]⟩ : Shape).Idx)
    (k : Fin ((⟨2, ![R, C]⟩ : Shape).size (1 : Fin 2))) :
    h.lift j k = ix2 (⟨(j 0).val, (j 0).isLt⟩ : Fin R) (⟨k.val, k.isLt⟩ : Fin C) := by
  funext c
  refine Fin.ext ?_
  show h.liftVal j k.val c = _
  unfold Shape.Reduces.liftVal
  match c with
  | ⟨0, _⟩ => rfl
  | ⟨1, _⟩ => rfl

end RowLift

end Cert.LibPointScatter
-- ==== Proof.RefValue.lean ====
/-
  The reference program's result read as one function of its two argument arrays.

  For a table `x` of 1024 rows and 100000 columns of real numbers and a target column `t b` per row, given as a
  32-bit word whose value is below 100000, the reference computes per row `b`

      −( x[b, t b] − max over v of (x with the entry at (b, t b) overwritten by −∞)[b, v] ).

  Read operation by operation at the extended reals: row `b` of either index array is the pair (b, t b) — the
  normalisation of negative indices keeps a word that is not negative —; the gather therefore reads `x[b, t b]`; an
  update of the scatter lands at (b, v) exactly when it is row `b`'s and `t b = v`, so the scattered table is −∞ at
  each row's target column and `x` elsewhere; the reduction from −∞ by `max` over the columns is the supremum of the
  scattered row, which is the specification's row maximum leaving out the target; and `−(a − M) = M − a` because
  the gathered entry `a` is a real number. The second theorem reads the input-domain predicate back: every entry of
  the table has absolute value below +∞, so is a real number, and every target word lies between 0 and 99999 as a
  signed number, so its value is below 100000.
-/
import proofs.«203171_g79482664779815_cont_9to1_m_1298_18_alg».proof.Defs
import proofs.«203171_g79482664779815_cont_9to1_m_1298_18_alg».proof.Proof.Gen.ReferenceIdeal.Run
import proofs.«203171_g79482664779815_cont_9to1_m_1298_18_alg».proof.Proof.Gen.ReferenceIdeal.Read
import proofs.«203171_g79482664779815_cont_9to1_m_1298_18_alg».proof.Proof.Spec
import proofs.«203171_g79482664779815_cont_9to1_m_1298_18_alg».proof.Proof.Gen.Pre_input_domain
import proofs.«203171_g79482664779815_cont_9to1_m_1298_18_alg».proof.Proof.LibPointScatter
import Idealize.ShloMosaic.Lib.ValueIdx
import Idealize.ShloMosaic.Lib.Pipeline.Value
import Idealize.ShloMosaic.Lib.ReduceAll
import Idealize.ShloMosaic.PureOps.Ideal.Laws

noncomputable section

namespace Cert.ReferenceIdeal.RefValue

open Idealize.ShloMosaic Idealize.SL.Sem Cert.ReferenceIdeal Cert.LibPointScatter

/-- The all-ones-exponent, zero-fraction, positive f32 pattern is +∞. -/
theorem ofBits_pos_inf : Ideal.ofBits .f32 0x7F800000#32 = (⊤ : EReal) := by
  simp [Ideal.ofBits, Ideal.ieee]

/-- The all-ones-exponent, zero-fraction, negative f32 pattern is −∞. -/
theorem ofBits_neg_inf : Ideal.ofBits .f32 0xFF800000#32 = (⊥ : EReal) := by
  simp [Ideal.ofBits, Ideal.ieee]

/-- The ordered "less than" comparison of two extended reals answers 1 exactly when the first is below the second. -/
theorem cmp_olt_eq_one (a b : EReal) : Ideal.cmp .olt a b = 1#1 ↔ a < b := by
  unfold Ideal.cmp
  by_cases h : a < b <;> simp [h]

/-- An extended real whose absolute value is below +∞ is a real number. -/
theorem real_of_abs_lt_top (a : EReal) (h : max a (-a) < ⊤) : ∃ r : ℝ, a = (r : EReal) := by
  induction a using EReal.rec with
  | bot => simp at h
  | coe r => exact ⟨r, rfl⟩
  | top => simp at h

/-- A 32-bit word that is between 0 and 99999 as a signed number is below 100000 as a natural number. -/
theorem toNat_lt_of_toInt_range (w : BitVec 32) (h0 : 0 ≤ w.toInt) (h1 : w.toInt ≤ 99999) : w.toNat < 100000 := by
  have hc := BitVec.toInt_eq_toNat_cond w
  have hlt := w.isLt
  split at hc <;> omega

/-- What the input-domain predicate says: the table's entries are real numbers and the target words are column numbers. -/
theorem pre_facts
    (x : FVec Ideal Cert.Pre_input_domain.S1024x100000 .f32) (t : IVec Cert.Pre_input_domain.S1024 32)
    (h : Cert.Pre_input_domain.fn (F := Ideal) x t = fun _ => 1#1) :
    (∀ i, ∃ r : ℝ, x i = ((r : ℝ) : EReal)) ∧ (∀ i, (t i).toNat < 100000) := by
  have h0 := congrFun h ValueIdx.ix0
  dsimp only [Cert.Pre_input_domain.fn] at h0
  obtain ⟨h1, h2⟩ := IntOp.andi_eq_one.1 h0
  haveI : Subsingleton Cert.Pre_input_domain.S_.Idx := ⟨fun a b => funext fun d => d.elim0⟩
  refine ⟨fun i => ?_, fun i => ?_⟩
  · have e := Host.reduce_andi_all _ _ _ _ _ h1 i
    have e' : Ideal.cmp .olt (max (x i) (-(x i))) (Ideal.ofBits .f32 0x7F800000#32) = 1#1 := e
    rw [ofBits_pos_inf] at e'
    have hlt : max (x i) (-(x i)) < ⊤ := (cmp_olt_eq_one _ _).1 e'
    exact real_of_abs_lt_top _ hlt
  · have e := Host.reduce_andi_all _ _ _ _ _ h2 i
    obtain ⟨e1, e2⟩ := IntOp.andi_eq_one.1 e
    have g1 : (0#32).toInt ≤ (t i).toInt := IntOp.cmpi_sge.1 e1
    have g2 : (t i).toInt ≤ (99999#32).toInt := IntOp.cmpi_sle.1 e2
    have c0 : (0#32).toInt = 0 := by decide
    have c1 : (99999#32).toInt = 99999 := by decide
    rw [c0] at g1; rw [c1] at g2
    exact toNat_lt_of_toInt_range _ g1 g2

/-! ## Words -/

/-- A 32-bit word below 2³¹ as a natural number is that number as a signed one. -/
theorem toInt_of_toNat_lt (w : BitVec 32) (h : w.toNat < 2 ^ 31) : w.toInt = (w.toNat : Int) := by
  have hc := BitVec.toInt_eq_toNat_cond w
  split at hc <;> omega

/-- The negative-index normalisation `select (w < 0) (w + n) w` keeps a word that is not negative. -/
theorem select_slt_zero (w a : BitVec 32) (h : w.toNat < 2 ^ 31) :
    Scalar.select (IntOp.cmpi .slt w 0#32) a w = w := by
  have hc : IntOp.cmpi .slt w 0#32 ≠ 1#1 := fun e => by
    have h1 := IntOp.cmpi_slt.1 e
    have h0 : (0#32 : BitVec 32).toInt = 0 := by decide
    rw [toInt_of_toNat_lt w h, h0] at h1
    omega
  unfold Scalar.select
  exact if_neg hc

/-- A row number as a 32-bit word, read back as a natural number. -/
theorem toNat_ofNat_row (b : Fin 1024) : (BitVec.ofNat 32 b.val).toNat = b.val := by
  rw [BitVec.toNat_ofNat]
  exact Nat.mod_eq_of_lt (lt_of_lt_of_le b.isLt (by norm_num))

/-! ## The index array: row `b` holds (b, t b) -/

/-- The second index array is the first: the same operations on the same arguments. -/
theorem v27_eq_v13 (t : (⟨S1024, .i32⟩ : BufTy).Contents (Elt Ideal)) :
    Read.val_main_v27 (F := Ideal) t = Read.val_main_v13 (F := Ideal) t := rfl

/-- Component 0 of row `b` of the index array is the row number. -/
theorem v13_col0 (t : (⟨S1024, .i32⟩ : BufTy).Contents (Elt Ideal)) (b : Fin 1024) :
    Read.val_main_v13 (F := Ideal) t (ValueIdx.ix2 b (0 : Fin 2)) = BitVec.ofNat 32 b.val := by
  unfold Read.val_main_v13
  refine (concatenate_pair_apply_left (t := S1024x2) (s₁ := S1024x1) (s₂ := S1024x1) 1 _ _ _
    (ValueIdx.ix2 b (0 : Fin 2) : S1024x2.Idx) rfl (ValueIdx.ix2 b (0 : Fin 1) : S1024x1.Idx)
    (fun c => match c with | ⟨0, _⟩ => rfl | ⟨1, _⟩ => rfl)).trans ?_
  rw [Read.val_main_v11_apply, Read.val_main_v5_apply, Read.val_main_v2_apply, Read.val_main_v0_apply,
    Read.val_main_v1_apply, Read.val_main_c_apply]
  exact select_slt_zero _ _ (by
    have := toNat_ofNat_row b
    have hb := b.isLt
    show (BitVec.ofNat 32 b.val).toNat < 2 ^ 31
    omega)

/-- Component 1 of row `b` of the index array is the target word, when that is not negative. -/
theorem v13_col1 (t : (⟨S1024, .i32⟩ : BufTy).Contents (Elt Ideal)) (b : Fin 1024)
    (ht : (t (ValueIdx.ix1 b)).toNat < 100000) :
    Read.val_main_v13 (F := Ideal) t (ValueIdx.ix2 b (1 : Fin 2)) = t (ValueIdx.ix1 b) := by
  unfold Read.val_main_v13
  refine (concatenate_pair_apply_right (t := S1024x2) (s₁ := S1024x1) (s₂ := S1024x1) 1 _ _ _
    (ValueIdx.ix2 b (1 : Fin 2) : S1024x2.Idx) rfl rfl (ValueIdx.ix2 b (0 : Fin 1) : S1024x1.Idx)
    (fun c hc => match c, hc with | ⟨0, _⟩, _ => rfl | ⟨1, _⟩, hc => absurd rfl hc) rfl).trans ?_
  rw [Read.val_main_v12_apply, Read.val_main_v10_apply, Read.val_main_v7_apply, Read.val_main_v6_apply,
    Read.val_main_c_1_apply]
  have hi : Read.idx_main_v12 (ValueIdx.ix2 b (0 : Fin 1)) = ValueIdx.ix1 b := by
    funext a; match a with | ⟨0, _⟩ => rfl
  rw [hi]
  exact select_slt_zero _ _ (by omega)

/-! ## The gather and the scatter read at an index -/

/-- The program's scatter dimension numbers are the point scatter's. -/
theorem scatterDims_eq :
    scatter_S1024x100000_S1024x2_S1024_n_01_01_1
      = pointScatterDims 1024 100000 Facts₀.scatter_S1024x100000_S1024x2_S1024_n_01_01_1_wf := rfl

/-- The program's gather dimension numbers are the point gather's. -/
theorem gatherDims_eq :
    gather_S1024x100000_S1024x2_S1024_n_01_n_n_01_1_11
      = pointGatherDims 1024 100000 Facts₀.gather_S1024x100000_S1024x2_S1024_n_01_n_n_01_1_11_wf := rfl

/-- Update `j` lands at position `(b, v)` exactly when `j` is row `b` and the row's target is column `v`: the
    rows' pairs are (row number, target), so the rows are distinct and each update stays in its own row. -/
theorem lands_iff (t : (⟨S1024, .i32⟩ : BufTy).Contents (Elt Ideal)) (ht : ∀ i, (t i).toNat < 100000)
    (j : S1024.Idx) (b : Fin 1024) (v : Fin 100000) :
    (pointScatterDims 1024 100000 Facts₀.scatter_S1024x100000_S1024x2_S1024_n_01_01_1_wf).resultIdx? j
        (Read.val_main_v13 (F := Ideal) t) = some (ValueIdx.ix2 b v)
      ↔ j = ValueIdx.ix1 b ∧ (t (ValueIdx.ix1 b)).toNat = v.val := by
  rw [point_resultIdx?_eq_some_iff]
  obtain ⟨c, rfl⟩ : ∃ c, j = ValueIdx.ix1 c := ⟨j 0, ValueIdx.eq_ix1 j⟩
  have e0 : Read.val_main_v13 (F := Ideal) t (pairIdx (ValueIdx.ix1 c) 0) = BitVec.ofNat 32 c.val := v13_col0 t c
  have e1 : Read.val_main_v13 (F := Ideal) t (pairIdx (ValueIdx.ix1 c) 1) = t (ValueIdx.ix1 c) :=
    v13_col1 t c (ht _)
  have hc := ht (ValueIdx.ix1 c)
  have hcl := c.isLt
  rw [e0, e1, toInt_of_toNat_lt _ (by rw [toNat_ofNat_row]; omega), toInt_of_toNat_lt _ (by omega), toNat_ofNat_row]
  show ((c.val : Int) = (b.val : Int) ∧ ((t (ValueIdx.ix1 c)).toNat : Int) = (v.val : Int)) ↔ _
  constructor
  · rintro ⟨h0, h1⟩
    have hcb : c = b := Fin.ext (by omega)
    subst hcb
    exact ⟨rfl, by omega⟩
  · rintro ⟨h0, h1⟩
    have hcb : c = b := congrFun h0 0
    subst hcb
    exact ⟨rfl, by omega⟩

/-- THE SCATTER READ AT `(b, v)`: −∞ at the row's target column, the table's entry elsewhere. -/
theorem v29_apply (x : (⟨S1024x100000, .f32⟩ : BufTy).Contents (Elt Ideal))
    (t : (⟨S1024, .i32⟩ : BufTy).Contents (Elt Ideal)) (ht : ∀ i, (t i).toNat < 100000)
    (b : Fin 1024) (v : Fin 100000) :
    Read.val_main_v29 (F := Ideal) x t (ValueIdx.ix2 b v)
      = if (t (ValueIdx.ix1 b)).toNat = v.val then (⊥ : EReal) else x (ValueIdx.ix2 b v) := by
  unfold Read.val_main_v29
  rw [scatterDims_eq, v27_eq_v13]
  rcases scatter_set_apply (pointScatterDims 1024 100000 Facts₀.scatter_S1024x100000_S1024x2_S1024_n_01_01_1_wf) x
      (Read.val_main_v13 (F := Ideal) t) (Read.val_main_v28 (F := Ideal)) (ValueIdx.ix2 b v)
    with ⟨j, hj, he⟩ | ⟨hall, he⟩
  · rw [he]
    obtain ⟨-, hv⟩ := (lands_iff t ht j b v).1 hj
    rw [if_pos hv, Read.val_main_v28_apply, Read.val_main_cst_apply]
    exact ofBits_neg_inf
  · rw [he]
    have hv : ¬ (t (ValueIdx.ix1 b)).toNat = v.val := fun hv =>
      hall (ValueIdx.ix1 b) ((lands_iff t ht _ b v).2 ⟨rfl, hv⟩)
    rw [if_neg hv]

/-- THE GATHER READ AT ROW `b`: the table's entry at the row's target column. -/
theorem v14_apply (x : (⟨S1024x100000, .f32⟩ : BufTy).Contents (Elt Ideal))
    (t : (⟨S1024, .i32⟩ : BufTy).Contents (Elt Ideal)) (ht : ∀ i, (t i).toNat < 100000) (b : Fin 1024) :
    Read.val_main_v14 (F := Ideal) x t (ValueIdx.ix1 b)
      = x (ValueIdx.ix2 b (⟨(t (ValueIdx.ix1 b)).toNat, ht _⟩ : Fin 100000)) := by
  unfold Read.val_main_v14
  rw [gatherDims_eq, gather_point_apply (by decide)]
  have e0 : Read.val_main_v13 (F := Ideal) t (pairIdx (ValueIdx.ix1 b) 0) = BitVec.ofNat 32 b.val := v13_col0 t b
  have e1 : Read.val_main_v13 (F := Ideal) t (pairIdx (ValueIdx.ix1 b) 1) = t (ValueIdx.ix1 b) :=
    v13_col1 t b (ht _)
  have hb := ht (ValueIdx.ix1 b)
  have hbl := b.isLt
  refine congrArg x ?_
  funext a
  refine Fin.ext ?_
  match a with
  | ⟨0, _⟩ =>
    show min (Read.val_main_v13 (F := Ideal) t (pairIdx (ValueIdx.ix1 b) 0)).toInt.toNat (1024 - 1) = b.val
    rw [e0, toInt_of_toNat_lt _ (by rw [toNat_ofNat_row]; omega), toNat_ofNat_row]
    omega
  | ⟨1, _⟩ =>
    show min (Read.val_main_v13 (F := Ideal) t (pairIdx (ValueIdx.ix1 b) 1)).toInt.toNat (100000 - 1)
      = (t (ValueIdx.ix1 b)).toNat
    rw [e1, toInt_of_toNat_lt _ (by omega)]
    omega

/-! ## The row maximum -/

/-- A fold of the ideal `maximumf` from −∞ over a whole finite index type is the supremum. -/
theorem fold_maximumf_bot_eq_sup {ι : Type} [Fintype ι] (f : ι → EReal) :
    (Finset.univ : Finset ι).fold (FloatOps.maximumf (F := Ideal) (φ := .f32)) (⊥ : EReal) f = Finset.univ.sup f := rfl

/-- The table's columns are what the reduction drops. -/
theorem reduces_cols : S1024x100000.Reduces [(1 : Fin 2)] S1024 := by decide

/-- THE REDUCTION READ AT ROW `b`: the supremum of the scattered row. -/
theorem v30_apply (x : (⟨S1024x100000, .f32⟩ : BufTy).Contents (Elt Ideal))
    (t : (⟨S1024, .i32⟩ : BufTy).Contents (Elt Ideal)) (b : Fin 1024) :
    Read.val_main_v30 (F := Ideal) x t (ValueIdx.ix1 b)
      = Finset.univ.sup (fun v : Fin 100000 => Read.val_main_v29 (F := Ideal) x t (ValueIdx.ix2 b v)) := by
  unfold Read.val_main_v30
  generalize Read.val_main_v29 (F := Ideal) x t = g
  rw [Host.reduce_eq_fold_single _ _ _ _ reduces_cols, Read.val_main_cst_7_apply]
  have hl : reduces_cols.lift (ValueIdx.ix1 b) = fun k => ValueIdx.ix2 b k :=
    funext fun k => lift_cols reduces_cols (ValueIdx.ix1 b) k
  rw [hl]
  have hb : FloatOps.ofBits (F := Ideal) .f32 0xFF800000#32 = (⊥ : EReal) := ofBits_neg_inf
  rw [hb, fold_maximumf_bot_eq_sup]
  rfl

/-! ## The reference is the margin -/

/-- A word below 100000 is the 32-bit word of a column number exactly when that number is its value. -/
theorem word_eq_ofNat_iff (w : BitVec 32) (v : Fin 100000) : w = BitVec.ofNat 32 v.val ↔ w.toNat = v.val := by
  have hv : v.val % 2 ^ 32 = v.val := Nat.mod_eq_of_lt (lt_of_lt_of_le v.isLt (by norm_num))
  constructor
  · intro h; rw [h, BitVec.toNat_ofNat, hv]
  · intro h; apply BitVec.eq_of_toNat_eq; rw [BitVec.toNat_ofNat, hv, h]

/-- THE REFERENCE IS THE MARGIN: on a table of real numbers with target words below 100000, the reference's result
    is the specification's array of margins. -/
theorem ref_is_margin
    (x : (⟨S1024x100000, .f32⟩ : BufTy).Contents (Elt Ideal)) (t : (⟨S1024, .i32⟩ : BufTy).Contents (Elt Ideal))
    (hx : ∀ i, ∃ r : ℝ, x i = ((r : ℝ) : EReal)) (ht : ∀ i, (t i).toNat < 100000) :
    Cert.ReferenceIdeal.Read.val_main_v32 (F := Ideal) x t = Cert.Spec.G x t := by
  funext j
  obtain ⟨b, rfl⟩ : ∃ b, j = ValueIdx.ix1 b := ⟨j 0, ValueIdx.eq_ix1 j⟩
  rw [Read.val_main_v32_apply, Read.val_main_v31_apply, v14_apply x t ht b, v30_apply x t b]
  have hA : Spec.rowAtTarget (Spec.tableOf x) (Spec.targetOf t) b
      = x (ValueIdx.ix2 b (⟨(t (ValueIdx.ix1 b)).toNat, ht _⟩ : Fin 100000)) :=
    Spec.rowAtTarget_eq (Spec.tableOf x) (Spec.targetOf t) b ⟨(t (ValueIdx.ix1 b)).toNat, ht _⟩
      ((word_eq_ofNat_iff _ _).2 rfl)
  have hM : Finset.univ.sup (fun v : Fin 100000 => Read.val_main_v29 (F := Ideal) x t (ValueIdx.ix2 b v))
      = Spec.rowMaxOff (Spec.tableOf x) (Spec.targetOf t) b := by
    unfold Spec.rowMaxOff
    refine Finset.sup_congr rfl (fun v _ => ?_)
    rw [v29_apply x t ht b v]
    show (if (t (ValueIdx.ix1 b)).toNat = v.val then (⊥ : EReal) else x (ValueIdx.ix2 b v))
      = if t (ValueIdx.ix1 b) = BitVec.ofNat 32 v.val then (⊥ : EReal) else x (ValueIdx.ix2 b v)
    by_cases hc : (t (ValueIdx.ix1 b)).toNat = v.val
    · rw [if_pos hc, if_pos ((word_eq_ofNat_iff _ _).2 hc)]
    · rw [if_neg hc, if_neg (fun e => hc ((word_eq_ofNat_iff _ _).1 e))]
  show (_ : EReal) = Spec.margin (Spec.tableOf x) (Spec.targetOf t) b
  unfold Spec.margin
  rw [hA, hM]
  obtain ⟨r, hr⟩ := hx (ValueIdx.ix2 b (⟨(t (ValueIdx.ix1 b)).toNat, ht _⟩ : Fin 100000))
  rw [hr]
  show -((r : EReal) - Spec.rowMaxOff (Spec.tableOf x) (Spec.targetOf t) b)
    = Spec.rowMaxOff (Spec.tableOf x) (Spec.targetOf t) b - (r : EReal)
  rw [EReal.neg_sub (Or.inl (EReal.coe_ne_bot r)) (Or.inl (EReal.coe_ne_top r)), sub_eq_add_neg, add_comm]

end Cert.ReferenceIdeal.RefValue

end
-- ==== Proof.AlgebraicI.lean ====
/-
  The idealized kernel and the idealized reference compute the same result. On the extended reals the kernel's result
  at row `b` is the host tail of three things: the TensorCore region's two masked maxima over the first 80000 table
  rows, and the SparseCore tiles' two masked maxima over each quarter of the last 20000 — every [1, 128] piece of the
  two [4, 1024] arrays being some tile's. Suprema over adjacent ranges join by `max`, so the tail is the margin of the
  specification; and the reference's result is the same margin on a table of real numbers with target words that name
  columns, which is what the precondition says.
-/
import proofs.«203171_g79482664779815_cont_9to1_m_1298_18_alg».proof.Defs
import proofs.«203171_g79482664779815_cont_9to1_m_1298_18_alg».proof.Proof.LaunchI
import proofs.«203171_g79482664779815_cont_9to1_m_1298_18_alg».proof.Proof.RegionValueI
import proofs.«203171_g79482664779815_cont_9to1_m_1298_18_alg».proof.Proof.TailValueI
import proofs.«203171_g79482664779815_cont_9to1_m_1298_18_alg».proof.Proof.RefValue
import proofs.«203171_g79482664779815_cont_9to1_m_1298_18_alg».proof.Proof.Gen.ReferenceIdeal.Run
import proofs.«203171_g79482664779815_cont_9to1_m_1298_18_alg».proof.Proof.Gen.ReferenceIdeal.Read
import proofs.«203171_g79482664779815_cont_9to1_m_1298_18_alg».proof.Proof.Gen.Pre_input_domain

noncomputable section

namespace Cert.Proof.KernelIdealP

open Cert.KernelIdeal Cert.KernelIdeal.Gen
open Idealize.ShloMosaic Idealize.ShloMosaic.TcCoe
open Idealize.ShloMosaic.SparseCore (S V T)
open Idealize.SL Idealize.SL.Sem

/-- A tile's property of a result array, read at one element: every element of the [4, 1024] array lies in some tile's
    piece, at some lane group and lane of it. -/
theorem tile_at (vq : Fin 4) (b : Fin 1024) : ∃ (L : grid1.Coords) (j : Fin 8) (l : Fin 16),
    (k1_off48 L) 0 = vq.val ∧ (k1_off48 L) 1 + 16 * j.val + l.val = b.val := by
  have hb := b.isLt
  obtain ⟨c, s, h0, h1⟩ := piece_at vq ⟨b.val / 128, by omega⟩
  exact ⟨coordsV c s, ⟨(b.val % 128) / 16, by omega⟩, ⟨b.val % 16, by omega⟩, h0, by rw [h1]; dsimp only; omega⟩

/-- THE ALGEBRAIC CLAIM from the kernel's run with tile properties that say: each tile's piece holds, lane by lane, the
    specification's masked maximum over the tile's quarter of the last 20000 table rows. -/
theorem algebraic_of
    (GM : ((ℓ : Loc nD τ sig) → Buf (Elt Ideal) ℓ) → (d : Dev nD) → grid1.Coords → Buf (Elt Ideal) (mLoc d) → Prop)
    (GV : ((ℓ : Loc nD τ sig) → Buf (Elt Ideal) ℓ) → (d : Dev nD) → grid1.Coords → Buf (Elt Ideal) (vLoc d) → Prop)
    (lo : grid1.Coords → ℕ) (hlo : ∀ L, lo L = 80000 + 5000 * (k1_off48 L) 0)
    (xT : ((ℓ : Loc nD τ sig) → Buf (Elt Ideal) ℓ) → Dev nD → Fin 1024 → Fin 100000 → EReal)
    (tT : ((ℓ : Loc nD τ sig) → Buf (Elt Ideal) ℓ) → Dev nD → Fin 1024 → BitVec 32)
    (hxT : ∀ m d, xT m d = xS m d) (htT : ∀ m d, tT m d = tS m d)
    (hGM : ∀ m d L f, GM m d L f → ∀ (j : Fin 8) (l : Fin 16) (R : Fin 4) (C : Fin 1024), (k1_off48 L) 0 = R.val →
      (k1_off48 L) 1 + 16 * j.val + l.val = C.val → f (ValueIdx.ix2 R C) = Cert.Spec.maxOffOn (lo L) (lo L + 5000) (xT m d) (tT m d) C)
    (hGV : ∀ m d L f, GV m d L f → ∀ (j : Fin 8) (l : Fin 16) (R : Fin 4) (C : Fin 1024), (k1_off48 L) 0 = R.val →
      (k1_off48 L) 1 + 16 * j.val + l.val = C.val → f (ValueIdx.ix2 R C) = Cert.Spec.atTargetOn (lo L) (lo L + 5000) (xT m d) (tT m d) C)
    (hrun : ∀ (m : (ℓ : Loc nD τ sig) → Buf (Elt Ideal) ℓ) (ρ : Dev nD → PrngReg),
      θ_run (Cert.KernelIdeal.defs (F := Ideal)) (Cert.KernelIdeal.threads (F := Ideal)) ⟨m, fun _ => 0, ρ⟩ (fun r => ∀ c : Dev nD,
        (∃ (rm : Buf (Elt Ideal) (mLoc c)) (rv : Buf (Elt Ideal) (vLoc c)), (∀ L, GM m c L rm) ∧ (∀ L, GV m c L rv)
            ∧ r.2.mem ((c.tc : Thread nD τ).loc main_v12) = tailOf (RT m c) rm rv)
        ∧ r.2.mem ((c.tc : Thread nD τ).loc main_arg0) = m ((c.tc : Thread nD τ).loc main_arg0)
        ∧ r.2.mem ((c.tc : Thread nD τ).loc main_arg1) = m ((c.tc : Thread nD τ).loc main_arg1))) :
    Cert.algebraic_KernelIdeal_ReferenceIdeal := by
  intro m ρ m' ρ' hpre hagree
  refine ⟨fun c => Cert.Spec.G (m ((c.tc : Thread nD τ).loc main_arg0)) (m ((c.tc : Thread nD τ).loc main_arg1)), ?_, ?_⟩
  · refine (θ_run (Cert.KernelIdeal.defs (F := Ideal)) _ _).mono (fun _ h c => ⟨?_, (h c).2.1, (h c).2.2⟩) (hrun m ρ)
    obtain ⟨rm, rv, hm, hv, hr⟩ := (h c).1
    rw [hr]
    have hrm : ∀ (vq : Fin 4) (b : Fin 1024), rm (ValueIdx.ix2 vq b)
        = Cert.Spec.maxOffOn (80000 + 5000 * vq.val) (80000 + 5000 * (vq.val + 1)) (xS m c) (tS m c) b := by
      intro vq b
      obtain ⟨L, j, l, h0, h1⟩ := tile_at vq b
      have := hGM m c L rm (hm L) j l vq b h0 h1
      rw [this, hlo L, h0, hxT, htT, show 80000 + 5000 * (vq.val + 1) = 80000 + 5000 * vq.val + 5000 from by ring]
    have hrv : ∀ (vq : Fin 4) (b : Fin 1024), rv (ValueIdx.ix2 vq b)
        = Cert.Spec.atTargetOn (80000 + 5000 * vq.val) (80000 + 5000 * (vq.val + 1)) (xS m c) (tS m c) b := by
      intro vq b
      obtain ⟨L, j, l, h0, h1⟩ := tile_at vq b
      have := hGV m c L rv (hv L) j l vq b h0 h1
      rw [this, hlo L, h0, hxT, htT, show 80000 + 5000 * (vq.val + 1) = 80000 + 5000 * vq.val + 5000 from by ring]
    funext j
    obtain ⟨b, rfl⟩ : ∃ b, j = ValueIdx.ix1 b := ⟨j 0, ValueIdx.eq_ix1 j⟩
    exact tail_is_margin (xS m c) (tS m c) (RT m c) rm rv (RT_row0 m c) (RT_row1 m c) hrm hrv b
  · refine (θ_run Cert.ReferenceIdeal.defs _ _).mono (fun _ h c => ⟨(h c).1.trans ?_, (h c).2⟩)
      (Cert.ReferenceIdeal.Value.run (F := Ideal) m' ρ')
    rw [(hagree c).1, (hagree c).2]
    exact (Cert.ReferenceIdeal.Read.val_main_v32_eq _ _).trans
      (Cert.ReferenceIdeal.RefValue.ref_is_margin _ _ (Cert.ReferenceIdeal.RefValue.pre_facts _ _ (hpre c)).1 (Cert.ReferenceIdeal.RefValue.pre_facts _ _ (hpre c)).2)

end Cert.Proof.KernelIdealP

end
-- ==== Proof.TileSpecI.lean ====
/-
  The arithmetic of one table row, once: the sixteen running values of a tile — for each of eight groups of 16 columns a
  running maximum that leaves the target out, and the entry at the target — after one more row.

  With `tg j` the 16 target words of group `j`, `vid` the row's number as a 32-bit word, `ld j` the row's 16 entries in
  group `j` and `neg` the vector of −∞, a lane whose target equals the row number takes −∞ into its maximum and the
  entry into its target value; every other lane takes the entry into its maximum and keeps its target value.
  Every inner loop of the tile's body computes exactly this tuple (its payload functions unfold to it).
-/
import proofs.«203171_g79482664779815_cont_9to1_m_1298_18_alg».proof.Proof.TileRunI

noncomputable section

namespace Cert.Proof.KernelIdealP

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ

local notation "xW" => (Memref.whole Cert.KernelIdeal.main_v0_scv : Memref Cert.KernelIdeal.sig Kind.scVector Space.hbm Cert.KernelIdeal.S100000x1024 EltTy.f32)
local notation "tW" => (Memref.whole Cert.KernelIdeal.main_arg1_scv : Memref Cert.KernelIdeal.sig Kind.scVector Space.hbm Cert.KernelIdeal.S1024 EltTy.i32)
local notation "mW" => (Memref.whole Cert.KernelIdeal.main_v3_0_scv : Memref Cert.KernelIdeal.sig Kind.scVector Space.hbm Cert.KernelIdeal.S4x1024 EltTy.f32)
local notation "vW" => (Memref.whole Cert.KernelIdeal.main_v3_1_scv : Memref Cert.KernelIdeal.sig Kind.scVector Space.hbm Cert.KernelIdeal.S4x1024 EltTy.f32)
local notation "sT" => (Memref.whole Cert.KernelIdeal.cc1_scratch0 : Memref Cert.KernelIdeal.sig Kind.scVector Space.vmem Cert.KernelIdeal.S128 EltTy.i32)
local notation "sB" => (Memref.whole Cert.KernelIdeal.cc1_scratch1 : Memref Cert.KernelIdeal.sig Kind.scVector Space.vmem Cert.KernelIdeal.S4x200x128 EltTy.f32)
local notation "sR" => (Memref.whole Cert.KernelIdeal.cc1_scratch2 : Memref Cert.KernelIdeal.sig Kind.scVector Space.vmem Cert.KernelIdeal.S256 EltTy.f32)

/-- Running maximum `j` (of eight) of the sixteen values, -/
def T16.m (a : T16 F) : Fin 8 → FVec F S16 .f32
  | 0 => a.1 | 1 => a.2.1 | 2 => a.2.2.1 | 3 => a.2.2.2.1 | 4 => a.2.2.2.2.1 | 5 => a.2.2.2.2.2.1 | 6 => a.2.2.2.2.2.2.1 | 7 => a.2.2.2.2.2.2.2.1
/-- and target value `j`. -/
def T16.tv (a : T16 F) : Fin 8 → FVec F S16 .f32
  | 0 => a.2.2.2.2.2.2.2.2.1 | 1 => a.2.2.2.2.2.2.2.2.2.1 | 2 => a.2.2.2.2.2.2.2.2.2.2.1 | 3 => a.2.2.2.2.2.2.2.2.2.2.2.1
  | 4 => a.2.2.2.2.2.2.2.2.2.2.2.2.1 | 5 => a.2.2.2.2.2.2.2.2.2.2.2.2.2.1 | 6 => a.2.2.2.2.2.2.2.2.2.2.2.2.2.2.1 | 7 => a.2.2.2.2.2.2.2.2.2.2.2.2.2.2.2

/-- One group's new running maximum: `max a (target = row ? −∞ : entry)`, lane by lane. -/
def stepM (tg : Vec F S16 .i32) (neg : FVec F S16 .f32) (vid : BitVec 32) (ld : Vec F S1x16 .f32) (a : FVec F S16 .f32) : FVec F S16 .f32 :=
  maximumf a (select (cmpi .eq tg (broadcast S16 vid)) neg (shapeCast S16 ld shapeCasts_S1x16_S16))

/-- One group's new target value: `target = row ? entry : kept`, lane by lane. -/
def stepV (tg : Vec F S16 .i32) (vid : BitVec 32) (ld : Vec F S1x16 .f32) (a : FVec F S16 .f32) : FVec F S16 .f32 :=
  select (cmpi .eq tg (broadcast S16 vid)) (shapeCast S16 ld shapeCasts_S1x16_S16) a

/-- The sixteen values after one more row. -/
def rowStep (tg : Fin 8 → Vec F S16 .i32) (neg : FVec F S16 .f32) (vid : BitVec 32) (ld : Fin 8 → Vec F S1x16 .f32) (a : T16 F) : T16 F :=
  (stepM (tg 0) neg vid (ld 0) (a.m 0), stepM (tg 1) neg vid (ld 1) (a.m 1), stepM (tg 2) neg vid (ld 2) (a.m 2), stepM (tg 3) neg vid (ld 3) (a.m 3),
   stepM (tg 4) neg vid (ld 4) (a.m 4), stepM (tg 5) neg vid (ld 5) (a.m 5), stepM (tg 6) neg vid (ld 6) (a.m 6), stepM (tg 7) neg vid (ld 7) (a.m 7),
   stepV (tg 0) vid (ld 0) (a.tv 0), stepV (tg 1) vid (ld 1) (a.tv 1), stepV (tg 2) vid (ld 2) (a.tv 2), stepV (tg 3) vid (ld 3) (a.tv 3),
   stepV (tg 4) vid (ld 4) (a.tv 4), stepV (tg 5) vid (ld 5) (a.tv 5), stepV (tg 6) vid (ld 6) (a.tv 6), stepV (tg 7) vid (ld 7) (a.tv 7))

theorem rowStep_m (tg : Fin 8 → Vec F S16 .i32) (neg : FVec F S16 .f32) (vid : BitVec 32) (ld : Fin 8 → Vec F S1x16 .f32) (a : T16 F) (j : Fin 8) :
    (rowStep tg neg vid ld a).m j = stepM (tg j) neg vid (ld j) (a.m j) := by
  fin_cases j <;> rfl

theorem rowStep_tv (tg : Fin 8 → Vec F S16 .i32) (neg : FVec F S16 .f32) (vid : BitVec 32) (ld : Fin 8 → Vec F S1x16 .f32) (a : T16 F) (j : Fin 8) :
    (rowStep tg neg vid ld a).tv j = stepV (tg j) vid (ld j) (a.tv j) := by
  fin_cases j <;> rfl

/-- The sixteen values a tile starts from: −∞ everywhere. -/
def start16 : T16 F :=
  (k1_pay134, k1_pay134, k1_pay134, k1_pay134, k1_pay134, k1_pay134, k1_pay134, k1_pay134, k1_pay134, k1_pay134, k1_pay134, k1_pay134, k1_pay134, k1_pay134, k1_pay134, k1_pay134)

/-- One inner-loop trip's payloads ARE the row step (first inner loop: slot 0 inside the chunk loop). -/
theorem pay_t2_m (v22 : BitVec 32) (v31 : FVec F S16 .f32) (v32 : Vec F S16 .i32) (v129 c0 c1 : BitVec 32) (k : Fin k1_t2_loop.trips)
    (a : FVec F S16 .f32) (ld : Vec F S1x16 .f32) :
    k1_pay4 v22 v31 v32 v129 c0 c1 k a ld = stepM v32 v31 (Scalar.addi (Scalar.addi v22 (Scalar.muli v129 200#32)) (Scf.iv c0 c1 k)) ld a := rfl
theorem pay_t2_v (v22 : BitVec 32) (v32 : Vec F S16 .i32) (v129 c0 c1 : BitVec 32) (k : Fin k1_t2_loop.trips)
    (a : FVec F S16 .f32) (ld : Vec F S1x16 .f32) :
    k1_pay5 v22 v32 v129 c0 c1 k a ld = stepV v32 (Scalar.addi (Scalar.addi v22 (Scalar.muli v129 200#32)) (Scf.iv c0 c1 k)) ld a := rfl

end Cert.Proof.KernelIdealP

end
-- ==== Proof.TileRunValI.lean ====
/-
  The tile's task again, now carrying values: the same run as the frame, with two properties threaded through its loops.

  "Slot holds chunk c" is stated of a ring slot's contents when a copy of chunk `c` is in flight into it or has landed;
  "n rows done" is stated of the sixteen running values. The theorem is generic in both: it asks that a landed copy of
  the table rectangle each issue names establishes the first (seven issue sites: three before the chunk loop, four inside
  it), and that each inner loop's row step — the sixteen values after one more row, computed from the target vectors,
  the row's number and the eight loads from the slot — carries the second from `n` to `n + 1` (five inner loops: one
  per slot inside the chunk loop, one for the 25th chunk). It concludes that the two result pieces hold the first and
  the second half of the result scratch, written from values of which "5000 rows done" holds. What the two
  properties ARE, and why the hypotheses hold of them, is separate: nothing here reads an element.
-/
import proofs.«203171_g79482664779815_cont_9to1_m_1298_18_alg».proof.Proof.TileSpecI

noncomputable section

namespace Cert.Proof.KernelIdealP

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ

local notation "xW" => (Memref.whole Cert.KernelIdeal.main_v0_scv : Memref Cert.KernelIdeal.sig Kind.scVector Space.hbm Cert.KernelIdeal.S100000x1024 EltTy.f32)
local notation "tW" => (Memref.whole Cert.KernelIdeal.main_arg1_scv : Memref Cert.KernelIdeal.sig Kind.scVector Space.hbm Cert.KernelIdeal.S1024 EltTy.i32)
local notation "mW" => (Memref.whole Cert.KernelIdeal.main_v3_0_scv : Memref Cert.KernelIdeal.sig Kind.scVector Space.hbm Cert.KernelIdeal.S4x1024 EltTy.f32)
local notation "vW" => (Memref.whole Cert.KernelIdeal.main_v3_1_scv : Memref Cert.KernelIdeal.sig Kind.scVector Space.hbm Cert.KernelIdeal.S4x1024 EltTy.f32)
local notation "sT" => (Memref.whole Cert.KernelIdeal.cc1_scratch0 : Memref Cert.KernelIdeal.sig Kind.scVector Space.vmem Cert.KernelIdeal.S128 EltTy.i32)
local notation "sB" => (Memref.whole Cert.KernelIdeal.cc1_scratch1 : Memref Cert.KernelIdeal.sig Kind.scVector Space.vmem Cert.KernelIdeal.S4x200x128 EltTy.f32)
local notation "sR" => (Memref.whole Cert.KernelIdeal.cc1_scratch2 : Memref Cert.KernelIdeal.sig Kind.scVector Space.vmem Cert.KernelIdeal.S256 EltTy.f32)

/-! ## The body's words and loaded vectors, spelt as its run spells them -/

section Words

variable (d : Dev nD) (L : grid1.Coords)
  (ft : Buf (Elt F) ((tW).view.loc (V d (cV L) (jV L)))) (f6 : Buf (Elt F) ((sT).view.loc (V d (cV L) (jV L))))

/-- The tile's first table row, as the 32-bit word the body computes. -/
def v22w (L : grid1.Coords) : BitVec 32 :=
  Scalar.addi (80000#32) (Scalar.muli (Scalar.remsi (Scalar.addi (Scalar.muli (BitVec.ofNat 32 (L 1).val) 2#32) (BitVec.ofNat 32 (L 0).val)) 4#32) 5000#32)

/-- The chunk number `4k + b` in ring trip `k`, as the body's word. -/
def cw (k : Fin k1_t1_loop.trips) (b : BitVec 32) : BitVec 32 := Scalar.addi (Scalar.muli (Scf.iv 0#32 1#32 k) 4#32) b

/-- The scratch holding the tile's 128 target words after their fetch. -/
def tgtBuf : Buf (Elt F) ((sT).view.loc (V d (cV L) (jV L))) :=
  View.write (Elt F) (sT).view f6 (ReadAs.same.apply (View.read (Elt F) ((tW).slice (Rect.unit (s := S1024) (k1_off1 L) S128.size (k1_off1_inb L)) (fun _ => rfl)).view ft)) Finset.univ

/-- The eight target vectors (16 words each), as loaded. -/
def tgv : Fin 8 → Vec F S16 .i32
  | 0 => View.readAt (Elt F) (sT).view (Rect.unit (s := S128) ![0] S16.size inb_S128_S16_0).toLoadRect (tgtBuf d L ft f6)
  | 1 => View.readAt (Elt F) (sT).view (Rect.unit (s := S128) ![16] S16.size inb_S128_S16_16).toLoadRect (tgtBuf d L ft f6)
  | 2 => View.readAt (Elt F) (sT).view (Rect.unit (s := S128) ![32] S16.size inb_S128_S16_32).toLoadRect (tgtBuf d L ft f6)
  | 3 => View.readAt (Elt F) (sT).view (Rect.unit (s := S128) ![48] S16.size inb_S128_S16_48).toLoadRect (tgtBuf d L ft f6)
  | 4 => View.readAt (Elt F) (sT).view (Rect.unit (s := S128) ![64] S16.size inb_S128_S16_64).toLoadRect (tgtBuf d L ft f6)
  | 5 => View.readAt (Elt F) (sT).view (Rect.unit (s := S128) ![80] S16.size inb_S128_S16_80).toLoadRect (tgtBuf d L ft f6)
  | 6 => View.readAt (Elt F) (sT).view (Rect.unit (s := S128) ![96] S16.size inb_S128_S16_96).toLoadRect (tgtBuf d L ft f6)
  | 7 => View.readAt (Elt F) (sT).view (Rect.unit (s := S128) ![112] S16.size inb_S128_S16_112).toLoadRect (tgtBuf d L ft f6)

/-- The eight row loads of the first inner loop (slot 0) at its trip `v`. -/
def ld2 (v : Fin k1_t2_loop.trips) (g : Buf (Elt F) (slot0.view.loc (V d (cV L) (jV L)))) : Fin 8 → Vec F S1x16 .f32
  | 0 => View.readAt (Elt F) slot0.view (Rect.unit (s := S200x128) (k1_off5 v) S1x16.size (k1_off5_inb v)).toLoadRect g
  | 1 => View.readAt (Elt F) slot0.view (Rect.unit (s := S200x128) (k1_off6 v) S1x16.size (k1_off6_inb v)).toLoadRect g
  | 2 => View.readAt (Elt F) slot0.view (Rect.unit (s := S200x128) (k1_off7 v) S1x16.size (k1_off7_inb v)).toLoadRect g
  | 3 => View.readAt (Elt F) slot0.view (Rect.unit (s := S200x128) (k1_off8 v) S1x16.size (k1_off8_inb v)).toLoadRect g
  | 4 => View.readAt (Elt F) slot0.view (Rect.unit (s := S200x128) (k1_off9 v) S1x16.size (k1_off9_inb v)).toLoadRect g
  | 5 => View.readAt (Elt F) slot0.view (Rect.unit (s := S200x128) (k1_off10 v) S1x16.size (k1_off10_inb v)).toLoadRect g
  | 6 => View.readAt (Elt F) slot0.view (Rect.unit (s := S200x128) (k1_off11 v) S1x16.size (k1_off11_inb v)).toLoadRect g
  | 7 => View.readAt (Elt F) slot0.view (Rect.unit (s := S200x128) (k1_off12 v) S1x16.size (k1_off12_inb v)).toLoadRect g

/-- The eight row loads of inner loop 3 at its trip `v`. -/
def ld3 (v : Fin k1_t3_loop.trips) (g : Buf (Elt F) (slot1.view.loc (V d (cV L) (jV L)))) : Fin 8 → Vec F S1x16 .f32
  | 0 => View.readAt (Elt F) slot1.view (Rect.unit (s := S200x128) (k1_off14 v) S1x16.size (k1_off14_inb v)).toLoadRect g
  | 1 => View.readAt (Elt F) slot1.view (Rect.unit (s := S200x128) (k1_off15 v) S1x16.size (k1_off15_inb v)).toLoadRect g
  | 2 => View.readAt (Elt F) slot1.view (Rect.unit (s := S200x128) (k1_off16 v) S1x16.size (k1_off16_inb v)).toLoadRect g
  | 3 => View.readAt (Elt F) slot1.view (Rect.unit (s := S200x128) (k1_off17 v) S1x16.size (k1_off17_inb v)).toLoadRect g
  | 4 => View.readAt (Elt F) slot1.view (Rect.unit (s := S200x128) (k1_off18 v) S1x16.size (k1_off18_inb v)).toLoadRect g
  | 5 => View.readAt (Elt F) slot1.view (Rect.unit (s := S200x128) (k1_off19 v) S1x16.size (k1_off19_inb v)).toLoadRect g
  | 6 => View.readAt (Elt F) slot1.view (Rect.unit (s := S200x128) (k1_off20 v) S1x16.size (k1_off20_inb v)).toLoadRect g
  | 7 => View.readAt (Elt F) slot1.view (Rect.unit (s := S200x128) (k1_off21 v) S1x16.size (k1_off21_inb v)).toLoadRect g

/-- The eight row loads of inner loop 4 at its trip `v`. -/
def ld4 (v : Fin k1_t4_loop.trips) (g : Buf (Elt F) (slot2.view.loc (V d (cV L) (jV L)))) : Fin 8 → Vec F S1x16 .f32
  | 0 => View.readAt (Elt F) slot2.view (Rect.unit (s := S200x128) (k1_off23 v) S1x16.size (k1_off23_inb v)).toLoadRect g
  | 1 => View.readAt (Elt F) slot2.view (Rect.unit (s := S200x128) (k1_off24 v) S1x16.size (k1_off24_inb v)).toLoadRect g
  | 2 => View.readAt (Elt F) slot2.view (Rect.unit (s := S200x128) (k1_off25 v) S1x16.size (k1_off25_inb v)).toLoadRect g
  | 3 => View.readAt (Elt F) slot2.view (Rect.unit (s := S200x128) (k1_off26 v) S1x16.size (k1_off26_inb v)).toLoadRect g
  | 4 => View.readAt (Elt F) slot2.view (Rect.unit (s := S200x128) (k1_off27 v) S1x16.size (k1_off27_inb v)).toLoadRect g
  | 5 => View.readAt (Elt F) slot2.view (Rect.unit (s := S200x128) (k1_off28 v) S1x16.size (k1_off28_inb v)).toLoadRect g
  | 6 => View.readAt (Elt F) slot2.view (Rect.unit (s := S200x128) (k1_off29 v) S1x16.size (k1_off29_inb v)).toLoadRect g
  | 7 => View.readAt (Elt F) slot2.view (Rect.unit (s := S200x128) (k1_off30 v) S1x16.size (k1_off30_inb v)).toLoadRect g

/-- The eight row loads of inner loop 5 at its trip `v`. -/
def ld5 (v : Fin k1_t5_loop.trips) (g : Buf (Elt F) (slot3.view.loc (V d (cV L) (jV L)))) : Fin 8 → Vec F S1x16 .f32
  | 0 => View.readAt (Elt F) slot3.view (Rect.unit (s := S200x128) (k1_off32 v) S1x16.size (k1_off32_inb v)).toLoadRect g
  | 1 => View.readAt (Elt F) slot3.view (Rect.unit (s := S200x128) (k1_off33 v) S1x16.size (k1_off33_inb v)).toLoadRect g
  | 2 => View.readAt (Elt F) slot3.view (Rect.unit (s := S200x128) (k1_off34 v) S1x16.size (k1_off34_inb v)).toLoadRect g
  | 3 => View.readAt (Elt F) slot3.view (Rect.unit (s := S200x128) (k1_off35 v) S1x16.size (k1_off35_inb v)).toLoadRect g
  | 4 => View.readAt (Elt F) slot3.view (Rect.unit (s := S200x128) (k1_off36 v) S1x16.size (k1_off36_inb v)).toLoadRect g
  | 5 => View.readAt (Elt F) slot3.view (Rect.unit (s := S200x128) (k1_off37 v) S1x16.size (k1_off37_inb v)).toLoadRect g
  | 6 => View.readAt (Elt F) slot3.view (Rect.unit (s := S200x128) (k1_off38 v) S1x16.size (k1_off38_inb v)).toLoadRect g
  | 7 => View.readAt (Elt F) slot3.view (Rect.unit (s := S200x128) (k1_off39 v) S1x16.size (k1_off39_inb v)).toLoadRect g

/-- The eight row loads of inner loop 6 at its trip `v`. -/
def ld6 (v : Fin k1_t6_loop.trips) (g : Buf (Elt F) (slot0.view.loc (V d (cV L) (jV L)))) : Fin 8 → Vec F S1x16 .f32
  | 0 => View.readAt (Elt F) slot0.view (Rect.unit (s := S200x128) (k1_off40 v) S1x16.size (k1_off40_inb v)).toLoadRect g
  | 1 => View.readAt (Elt F) slot0.view (Rect.unit (s := S200x128) (k1_off41 v) S1x16.size (k1_off41_inb v)).toLoadRect g
  | 2 => View.readAt (Elt F) slot0.view (Rect.unit (s := S200x128) (k1_off42 v) S1x16.size (k1_off42_inb v)).toLoadRect g
  | 3 => View.readAt (Elt F) slot0.view (Rect.unit (s := S200x128) (k1_off43 v) S1x16.size (k1_off43_inb v)).toLoadRect g
  | 4 => View.readAt (Elt F) slot0.view (Rect.unit (s := S200x128) (k1_off44 v) S1x16.size (k1_off44_inb v)).toLoadRect g
  | 5 => View.readAt (Elt F) slot0.view (Rect.unit (s := S200x128) (k1_off45 v) S1x16.size (k1_off45_inb v)).toLoadRect g
  | 6 => View.readAt (Elt F) slot0.view (Rect.unit (s := S200x128) (k1_off46 v) S1x16.size (k1_off46_inb v)).toLoadRect g
  | 7 => View.readAt (Elt F) slot0.view (Rect.unit (s := S200x128) (k1_off47 v) S1x16.size (k1_off47_inb v)).toLoadRect g

/-- What a landed copy of the table rectangle at `off` leaves in a slot. -/
def landed (slot : Memref sig .scVector .vmem S200x128 .f32) (fx : Buf (Elt F) ((xW).view.loc (V d (cV L) (jV L))))
    (off : Fin 2 → Nat) (inb : ∀ a, off a + S200x128.size a ≤ S100000x1024.size a) (g : Buf (Elt F) (slot.view.loc (V d (cV L) (jV L)))) :
    Buf (Elt F) (slot.view.loc (V d (cV L) (jV L))) :=
  slot.view.writes (Elt F) g [⟨Rect.whole S200x128, ReadAs.same.apply (View.read (Elt F) ((xW).slice (Rect.unit (s := S100000x1024) off S200x128.size inb) (fun _ => rfl)).view fx)⟩]

theorem trips2 : Scf.trips k1_t2_loop.lb k1_t2_loop.ub k1_t2_loop.st = 200 := by decide
theorem trips3 : Scf.trips k1_t3_loop.lb k1_t3_loop.ub k1_t3_loop.st = 200 := by decide
theorem trips4 : Scf.trips k1_t4_loop.lb k1_t4_loop.ub k1_t4_loop.st = 200 := by decide
theorem trips5 : Scf.trips k1_t5_loop.lb k1_t5_loop.ub k1_t5_loop.st = 200 := by decide
theorem trips6 : Scf.trips k1_t6_loop.lb k1_t6_loop.ub k1_t6_loop.st = 200 := by decide

/-- The tile's result scratch after the sixteen stores of its final values: running maximum `j` at words `16 j …`, target
    value `j` at words `128 + 16 j …` (the list is in the order the stores were made, last first). -/
def resBuf (fR : Buf (Elt F) ((sR).view.loc (V d (cV L) (jV L)))) (acc : T16 F) : Buf (Elt F) ((sR).view.loc (V d (cV L) (jV L))) :=
  (sR).view.writes (Elt F) fR
    [⟨Rect.unit (s := S256) ![240] S16.size inb_S256_S16_240, acc.2.2.2.2.2.2.2.2.2.2.2.2.2.2.2⟩,
     ⟨Rect.unit (s := S256) ![112] S16.size inb_S256_S16_112, acc.2.2.2.2.2.2.2.1⟩,
     ⟨Rect.unit (s := S256) ![224] S16.size inb_S256_S16_224, acc.2.2.2.2.2.2.2.2.2.2.2.2.2.2.1⟩,
     ⟨Rect.unit (s := S256) ![96] S16.size inb_S256_S16_96, acc.2.2.2.2.2.2.1⟩,
     ⟨Rect.unit (s := S256) ![208] S16.size inb_S256_S16_208, acc.2.2.2.2.2.2.2.2.2.2.2.2.2.1⟩,
     ⟨Rect.unit (s := S256) ![80] S16.size inb_S256_S16_80, acc.2.2.2.2.2.1⟩,
     ⟨Rect.unit (s := S256) ![192] S16.size inb_S256_S16_192, acc.2.2.2.2.2.2.2.2.2.2.2.2.1⟩,
     ⟨Rect.unit (s := S256) ![64] S16.size inb_S256_S16_64, acc.2.2.2.2.1⟩,
     ⟨Rect.unit (s := S256) ![176] S16.size inb_S256_S16_176, acc.2.2.2.2.2.2.2.2.2.2.2.1⟩,
     ⟨Rect.unit (s := S256) ![48] S16.size inb_S256_S16_48, acc.2.2.2.1⟩,
     ⟨Rect.unit (s := S256) ![160] S16.size inb_S256_S16_160, acc.2.2.2.2.2.2.2.2.2.2.1⟩,
     ⟨Rect.unit (s := S256) ![32] S16.size inb_S256_S16_32, acc.2.2.1⟩,
     ⟨Rect.unit (s := S256) ![144] S16.size inb_S256_S16_144, acc.2.2.2.2.2.2.2.2.2.1⟩,
     ⟨Rect.unit (s := S256) ![16] S16.size inb_S256_S16_16, acc.2.1⟩,
     ⟨Rect.unit (s := S256) ![128] S16.size inb_S256_S16_128, acc.2.2.2.2.2.2.2.2.1⟩,
     ⟨Rect.unit (s := S256) ![0] S16.size inb_S256_S16_0, acc.1⟩]

/-- The tile's piece of the first result array after its copy out: the first 128 words of the result scratch; -/
def outM (fm : Buf (Elt F) ((mPiece L).view.loc (V d (cV L) (jV L)))) (fR : Buf (Elt F) ((sR).view.loc (V d (cV L) (jV L)))) (acc : T16 F) :
    Buf (Elt F) ((mPiece L).view.loc (V d (cV L) (jV L))) :=
  (mPiece L).view.writes (Elt F) fm
    [⟨Rect.whole S128, ReadAs.same.apply (View.read (Elt F) ((sR).slice (Rect.unit (s := S256) ![0] S128.size inb_S256_S128_0) (fun _ => rfl)).view (resBuf d L fR acc))⟩]
/-- and of the second: the last 128. -/
def outV (fv : Buf (Elt F) ((vPiece L).view.loc (V d (cV L) (jV L)))) (fR : Buf (Elt F) ((sR).view.loc (V d (cV L) (jV L)))) (acc : T16 F) :
    Buf (Elt F) ((vPiece L).view.loc (V d (cV L) (jV L))) :=
  (vPiece L).view.writes (Elt F) fv
    [⟨Rect.whole S128, ReadAs.same.apply (View.read (Elt F) ((sR).slice (Rect.unit (s := S256) ![128] S128.size inb_S256_S128_128) (fun _ => rfl)).view (resBuf d L fR acc))⟩]

end Words
section RingV

variable (d : Dev nD) (L : grid1.Coords) (q : PosShare TreeShare)
  (fx : Buf (Elt F) ((xW).view.loc (V d (cV L) (jV L))))
  (SH : ℕ → ℕ → Buf (Elt F) ((sB).view.loc (V d (cV L) (jV L))) → Prop)

/-- Ring slot `k` IN FLIGHT with chunk `c`: as `slotFlying`, and what the copy will deliver IS chunk `c`. -/
def slotFlyingV (cell : SemLoc sig) (k : ℕ) (h : ∀ a, (![k, 0, 0] : Fin 3 → Nat) a + S1x200x128.size a ≤ S4x200x128.size a) (n : ℕ) (c : ℕ) : sProp 𝕄 :=
  iprop(∃ (g : Buf (Elt F) ((slotK k h).view.loc (V d (cV L) (jV L)))) (Sx : Finset (Idx ((xW).view.loc (V d (cV L) (jV L))))),
    ⌜SH c k g⌝
      ∗ Transfers.Flight countersEmb (V d (cV L) (jV L)) cell (default : HIx 1) 819200
        iprop(((slotK k h).view.loc (V d (cV L) (jV L)) ↦[(slotK k h).view.set]{fullShare} g)
          ∗ ((xW).view.loc (V d (cV L) (jV L)) ↦[Sx]{Transfers.shareTokN q n} fx))
      ∗ ((xW).view.loc (V d (cV L) (jV L)) ↦[Finset.univ \ Sx]{Transfers.shareTokN q n} fx))

end RingV

/-- What the value-carrying run asks of the two properties (`SH c slot g`: slot's contents `g` are chunk `c`; `Inv n a`:
    the sixteen values `a` are right after `n` rows): the start, the seven landings, the five row steps. -/
structure RunHyps (d : Dev nD) (L : grid1.Coords)
    (fx : Buf (Elt F) ((xW).view.loc (V d (cV L) (jV L)))) (ft : Buf (Elt F) ((tW).view.loc (V d (cV L) (jV L)))) (f6 : Buf (Elt F) ((sT).view.loc (V d (cV L) (jV L))))
    (SH : ℕ → ℕ → Buf (Elt F) ((sB).view.loc (V d (cV L) (jV L))) → Prop) (Inv : ℕ → T16 F → Prop) : Prop where
  h0 : Inv 0 start16
  hl_p0 : ∀ g, SH (4 * 0 + 0) 0 (landed d L slot0 fx (k1_off2 L 0#32) (k1_off2_inb L 0) g)
  hl_p1 : ∀ g, SH (4 * 0 + 1) 1 (landed d L slot1 fx (k1_off2 L 200#32) (k1_off2_inb L 1) g)
  hl_p2 : ∀ g, SH (4 * 0 + 2) 2 (landed d L slot2 fx (k1_off2 L 400#32) (k1_off2_inb L 2) g)
  hl_3 : ∀ (k : Fin k1_t1_loop.trips) (h : k1_cond1 k = 1#1) g, SH (4 * k.val + 3) 3 (landed d L slot3 fx (k1_off4 L k) (k1_off4_inb L k h) g)
  hl_0 : ∀ (k : Fin k1_t1_loop.trips) (h : k1_cond2 k = 1#1) g, SH (4 * (k.val + 1) + 0) 0 (landed d L slot0 fx (k1_off13 L k) (k1_off13_inb L k h) g)
  hl_1 : ∀ (k : Fin k1_t1_loop.trips) (h : k1_cond3 k = 1#1) g, SH (4 * (k.val + 1) + 1) 1 (landed d L slot1 fx (k1_off22 L k) (k1_off22_inb L k h) g)
  hl_2 : ∀ (k : Fin k1_t1_loop.trips) (h : k1_cond4 k = 1#1) g, SH (4 * (k.val + 1) + 2) 2 (landed d L slot2 fx (k1_off31 L k) (k1_off31_inb L k h) g)
  hrow2 : ∀ (k : Fin k1_t1_loop.trips) (v : Fin k1_t2_loop.trips) (gg : Buf (Elt F) (slot0.view.loc (V d (cV L) (jV L)))) (a : T16 F),
      SH (4 * k.val + 0) 0 gg → Inv (800 * k.val + v.val) a → Inv (800 * k.val + (v.val + 1))
        (rowStep (tgv d L ft f6) k1_pay134 (Scalar.addi (Scalar.addi (v22w L) (Scalar.muli (cw k 0#32) 200#32)) (Scf.iv 0#32 1#32 v)) (ld2 d L v gg) a)
  hrow3 : ∀ (k : Fin k1_t1_loop.trips) (v : Fin k1_t3_loop.trips) (gg : Buf (Elt F) (slot1.view.loc (V d (cV L) (jV L)))) (a : T16 F),
      SH (4 * k.val + 1) 1 gg → Inv (800 * k.val + 200 + v.val) a → Inv (800 * k.val + 200 + (v.val + 1))
        (rowStep (tgv d L ft f6) k1_pay134 (Scalar.addi (Scalar.addi (v22w L) (Scalar.muli (cw k 1#32) 200#32)) (Scf.iv 0#32 1#32 v)) (ld3 d L v gg) a)
  hrow4 : ∀ (k : Fin k1_t1_loop.trips) (v : Fin k1_t4_loop.trips) (gg : Buf (Elt F) (slot2.view.loc (V d (cV L) (jV L)))) (a : T16 F),
      SH (4 * k.val + 2) 2 gg → Inv (800 * k.val + 400 + v.val) a → Inv (800 * k.val + 400 + (v.val + 1))
        (rowStep (tgv d L ft f6) k1_pay134 (Scalar.addi (Scalar.addi (v22w L) (Scalar.muli (cw k 2#32) 200#32)) (Scf.iv 0#32 1#32 v)) (ld4 d L v gg) a)
  hrow5 : ∀ (k : Fin k1_t1_loop.trips) (v : Fin k1_t5_loop.trips) (gg : Buf (Elt F) (slot3.view.loc (V d (cV L) (jV L)))) (a : T16 F),
      SH (4 * k.val + 3) 3 gg → Inv (800 * k.val + 600 + v.val) a → Inv (800 * k.val + 600 + (v.val + 1))
        (rowStep (tgv d L ft f6) k1_pay134 (Scalar.addi (Scalar.addi (v22w L) (Scalar.muli (cw k 3#32) 200#32)) (Scf.iv 0#32 1#32 v)) (ld5 d L v gg) a)
  hrow6 : ∀ (v : Fin k1_t6_loop.trips) (gg : Buf (Elt F) (slot0.view.loc (V d (cV L) (jV L)))) (a : T16 F),
      SH 24 0 gg → Inv (4800 + v.val) a → Inv (4800 + (v.val + 1))
        (rowStep (tgv d L ft f6) k1_pay134 (Scalar.addi (Scalar.addi (v22w L) 4800#32) (Scf.iv 0#32 1#32 v)) (ld6 d L v gg) a)
set_option maxHeartbeats 4000000 in
theorem tile_run_val (d : Dev nD) (L : grid1.Coords) (q : PosShare TreeShare)
    (fx : Buf (Elt F) ((xW).view.loc (V d (cV L) (jV L)))) (ft : Buf (Elt F) ((tW).view.loc (V d (cV L) (jV L))))
    (f6 : Buf (Elt F) ((sT).view.loc (V d (cV L) (jV L)))) (fB : Buf (Elt F) ((sB).view.loc (V d (cV L) (jV L))))
    (fR : Buf (Elt F) ((sR).view.loc (V d (cV L) (jV L))))
    (fm : Buf (Elt F) ((mPiece L).view.loc (V d (cV L) (jV L)))) (fv : Buf (Elt F) ((vPiece L).view.loc (V d (cV L) (jV L))))
    (O : CellTallies nD τ sig (HIx 1)) (W : Waits sig (HIx 1))
    (SH : ℕ → ℕ → Buf (Elt F) ((sB).view.loc (V d (cV L) (jV L))) → Prop) (Inv : ℕ → T16 F → Prop)
    (H : RunHyps d L fx ft f6 SH Inv) :
    iprop(Transfers.MayWaits (V d (cV L) (jV L)) (none : HIx 1) O
        ∗ ((xW).view.loc (V d (cV L) (jV L)) ↦{Transfers.shareTokN q 4} fx)
        ∗ ((xW).view.loc (V d (cV L) (jV L)) ↦{Transfers.shareTokN q 5} fx)
        ∗ ((xW).view.loc (V d (cV L) (jV L)) ↦{Transfers.shareTokN q 6} fx)
        ∗ ((xW).view.loc (V d (cV L) (jV L)) ↦{Transfers.shareTokN q 7} fx)
        ∗ ((tW).view.loc (V d (cV L) (jV L)) ↦{q} ft)
        ∗ ((mPiece L).view.loc (V d (cV L) (jV L)) ↦[(mPiece L).view.set]{fullShare} fm)
        ∗ ((vPiece L).view.loc (V d (cV L) (jV L)) ↦[(vPiece L).view.set]{fullShare} fv)
        ∗ ((sT).view.loc (V d (cV L) (jV L)) ↦{fullShare} f6)
        ∗ (slot0.view.loc (V d (cV L) (jV L)) ↦[slot0.view.set]{fullShare} fB)
        ∗ (slot1.view.loc (V d (cV L) (jV L)) ↦[slot1.view.set]{fullShare} fB)
        ∗ (slot2.view.loc (V d (cV L) (jV L)) ↦[slot2.view.set]{fullShare} fB)
        ∗ (slot3.view.loc (V d (cV L) (jV L)) ↦[slot3.view.set]{fullShare} fB)
        ∗ ((sR).view.loc (V d (cV L) (jV L)) ↦{fullShare} fR)
        ∗ semVal ((V d (cV L) (jV L)), SemLoc.dma sem0.sem) 0
        ∗ semVal ((V d (cV L) (jV L)), SemLoc.dma sem1.sem) 0
        ∗ semVal ((V d (cV L) (jV L)), SemLoc.dma sem2.sem) 0
        ∗ semVal ((V d (cV L) (jV L)), SemLoc.dma sem3.sem) 0
        ∗ semVal ((V d (cV L) (jV L)), SemLoc.dma sem4.sem) 0
        ∗ owes (V d (cV L) (jV L)) O W)
      ⊢ wp frame (wpE (defs₀ (F := F)) 𝒱₀ (V d (cV L) (jV L)) none) Set.univ
          (cc1__sc_body L xW (Memref.isWhole_whole _) tW (Memref.isWhole_whole _) mW (Memref.isWhole_whole _) vW (Memref.isWhole_whole _)
            sT (Memref.isWhole_whole _) sB (Memref.isWhole_whole _) sR (Memref.isWhole_whole _) cc1_scratch3)
          fun _ => (iprop(
            ((xW).view.loc (V d (cV L) (jV L)) ↦{Transfers.shareTokN q 4} fx)
            ∗ ((xW).view.loc (V d (cV L) (jV L)) ↦{Transfers.shareTokN q 5} fx)
            ∗ ((xW).view.loc (V d (cV L) (jV L)) ↦{Transfers.shareTokN q 6} fx)
            ∗ ((xW).view.loc (V d (cV L) (jV L)) ↦{Transfers.shareTokN q 7} fx)
            ∗ ((tW).view.loc (V d (cV L) (jV L)) ↦{q} ft)
            ∗ (∃ acc : T16 F, ⌜Inv 5000 acc⌝
                ∗ ((mPiece L).view.loc (V d (cV L) (jV L)) ↦[(mPiece L).view.set]{fullShare} outM d L fm fR acc)
                ∗ ((vPiece L).view.loc (V d (cV L) (jV L)) ↦[(vPiece L).view.set]{fullShare} outV d L fv fR acc))
            ∗ (∃ f, (sT).view.loc (V d (cV L) (jV L)) ↦{fullShare} f)
            ∗ (∃ f, slot0.view.loc (V d (cV L) (jV L)) ↦[slot0.view.set]{fullShare} f)
            ∗ (∃ f, slot1.view.loc (V d (cV L) (jV L)) ↦[slot1.view.set]{fullShare} f)
            ∗ (∃ f, slot2.view.loc (V d (cV L) (jV L)) ↦[slot2.view.set]{fullShare} f)
            ∗ (∃ f, slot3.view.loc (V d (cV L) (jV L)) ↦[slot3.view.set]{fullShare} f)
            ∗ (∃ f, (sR).view.loc (V d (cV L) (jV L)) ↦{fullShare} f)
            ∗ semVal ((V d (cV L) (jV L)), SemLoc.dma sem0.sem) 0
            ∗ semVal ((V d (cV L) (jV L)), SemLoc.dma sem1.sem) 0
            ∗ semVal ((V d (cV L) (jV L)), SemLoc.dma sem2.sem) 0
            ∗ semVal ((V d (cV L) (jV L)), SemLoc.dma sem3.sem) 0
            ∗ semVal ((V d (cV L) (jV L)), SemLoc.dma sem4.sem) 0
            ∗ ∃ W', ⌜∀ p ∈ W', p ∈ W ∨ p.2 = none⌝ ∗ owes (V d (cV L) (jV L)) O W') : sProp 𝕄) := by
  obtain ⟨h0, hl_p0, hl_p1, hl_p2, hl_3, hl_0, hl_1, hl_2, hrow2, hrow3, hrow4, hrow5, hrow6⟩ := H
  iintro ⟨Hmw, Hx4, Hx5, Hx6, Hx7, Ht, Hm, Hv, H6, Hb0, Hb1, Hb2, Hb3, HR, Hs0, Hs1, Hs2, Hs3, Hs4, HO⟩
  sl_unfold [cc1__sc_body]
  sl_exec
  sl_for (fun (k : Nat) (st : T16 F) => iprop(
      Transfers.MayWaits (V d (cV L) (jV L)) (none : HIx 1) O
      ∗ slotFlyingV d L q fx SH (SemLoc.dma sem0.sem) 0 inb_S4x200x128_S1x200x128_0_0_0 4 (4 * k + 0)
      ∗ (if k < 6 then iprop(slotFlyingV d L q fx SH (SemLoc.dma sem1.sem) 1 inb_S4x200x128_S1x200x128_1_0_0 5 (4 * k + 1) ∗ slotFlyingV d L q fx SH (SemLoc.dma sem2.sem) 2 inb_S4x200x128_S1x200x128_2_0_0 6 (4 * k + 2))
          else iprop(slotFree d L q fx (SemLoc.dma sem1.sem) slot1 5 ∗ slotFree d L q fx (SemLoc.dma sem2.sem) slot2 6))
      ∗ slotFree d L q fx (SemLoc.dma sem3.sem) slot3 7
      ∗ ⌜Inv (800 * k) st⌝
      ∗ (∃ W', ⌜∀ p ∈ W', p ∈ W ∨ p.2 = none⌝ ∗ owes (V d (cV L) (jV L)) O W'))) $$ [Hmw Hs0 Hx4 Hs1 Hx5 Hs2 Hx6 Hs3 Hb3 Hx7 HO]
  case region =>
    intro k st
    have hk6 : (k : Nat) < 6 := lt_of_lt_of_eq k.isLt trips1
    rw [if_pos hk6]
    have k1_h1 : k1_cond1 k = 1#1 := cond1_all k
    have k1_h2 : k1_cond2 k = 1#1 := cond2_all k
    by_cases h5 : k.val + 1 < 6
    · have k1_h3 : k1_cond3 k = 1#1 := cond3_lt k h5
      have k1_h4 : k1_cond4 k = 1#1 := cond4_lt k h5
      rw [if_pos h5]
      unfold slotFlyingV slotFree
      iintro ⟨Hmw, ⟨%g0, %S0, %hS0, Hf0, Hr0⟩, ⟨⟨%g1, %S1, %hS1, Hf1, Hr1⟩, ⟨%g2, %S2, %hS2, Hf2, Hr2⟩⟩, ⟨Hs3, ⟨%g3, Hb3⟩, Hx7⟩, %hInv, %W', %hW', HO⟩
      sl_exec
      sl_for (fun (v : Nat) (st2 : T16 F) => iprop((∃ g, (slot0.view.loc (V d (cV L) (jV L)) ↦[slot0.view.set]{fullShare} g) ∗ ⌜SH (4 * k.val + 0) 0 g⌝) ∗ ⌜Inv (800 * k.val + v) st2⌝)) $$ [Hf0_dst]
      case region =>
        intro v st2
        iintro ⟨⟨%gg, Hs, %hS⟩, %hI⟩
        sl_exec
        sl_step
        sl_unfold_run_names
        isplitl [Hs]
        · iexists gg; isplitl [Hs]; · iexact Hs
          ipureintro; exact hS
        ipureintro
        exact hrow2 k v gg st2 hS hI
      · isplitl [Hf0_dst]
        · iexists _; isplitl [Hf0_dst]; · iexact Hf0_dst
          ipureintro; exact hS0
        · ipureintro; exact (Nat.add_zero _).symm ▸ hInv
      iintro %acc0 ⟨⟨%g_acc0, Hf0_dst, %hS_acc0⟩, %hI_acc0⟩
      rw [trips2] at hI_acc0
      sl_exec
      sl_for (fun (v : Nat) (st2 : T16 F) => iprop((∃ g, (slot1.view.loc (V d (cV L) (jV L)) ↦[slot1.view.set]{fullShare} g) ∗ ⌜SH (4 * k.val + 1) 1 g⌝) ∗ ⌜Inv (800 * k.val + 200 + v) st2⌝)) $$ [Hf1_dst]
      case region =>
        intro v st2
        iintro ⟨⟨%gg, Hs, %hS⟩, %hI⟩
        sl_exec
        sl_step
        sl_unfold_run_names
        isplitl [Hs]
        · iexists gg; isplitl [Hs]; · iexact Hs
          ipureintro; exact hS
        ipureintro
        exact hrow3 k v gg st2 hS hI
      · isplitl [Hf1_dst]
        · iexists _; isplitl [Hf1_dst]; · iexact Hf1_dst
          ipureintro; exact hS1
        · ipureintro; exact (Nat.add_zero _).symm ▸ hI_acc0
      iintro %acc1 ⟨⟨%g_acc1, Hf1_dst, %hS_acc1⟩, %hI_acc1⟩
      rw [trips3] at hI_acc1
      sl_exec
      sl_for (fun (v : Nat) (st2 : T16 F) => iprop((∃ g, (slot2.view.loc (V d (cV L) (jV L)) ↦[slot2.view.set]{fullShare} g) ∗ ⌜SH (4 * k.val + 2) 2 g⌝) ∗ ⌜Inv (800 * k.val + 400 + v) st2⌝)) $$ [Hf2_dst]
      case region =>
        intro v st2
        iintro ⟨⟨%gg, Hs, %hS⟩, %hI⟩
        sl_exec
        sl_step
        sl_unfold_run_names
        isplitl [Hs]
        · iexists gg; isplitl [Hs]; · iexact Hs
          ipureintro; exact hS
        ipureintro
        exact hrow4 k v gg st2 hS hI
      · isplitl [Hf2_dst]
        · iexists _; isplitl [Hf2_dst]; · iexact Hf2_dst
          ipureintro; exact hS2
        · ipureintro; exact (Nat.add_zero _).symm ▸ hI_acc1
      iintro %acc2 ⟨⟨%g_acc2, Hf2_dst, %hS_acc2⟩, %hI_acc2⟩
      rw [trips4] at hI_acc2
      sl_exec
      sl_for (fun (v : Nat) (st2 : T16 F) => iprop((∃ g, (slot3.view.loc (V d (cV L) (jV L)) ↦[slot3.view.set]{fullShare} g) ∗ ⌜SH (4 * k.val + 3) 3 g⌝) ∗ ⌜Inv (800 * k.val + 600 + v) st2⌝)) $$ [Hb3]
      case region =>
        intro v st2
        iintro ⟨⟨%gg, Hs, %hS⟩, %hI⟩
        sl_exec
        sl_step
        sl_unfold_run_names
        isplitl [Hs]
        · iexists gg; isplitl [Hs]; · iexact Hs
          ipureintro; exact hS
        ipureintro
        exact hrow5 k v gg st2 hS hI
      · isplitl [Hb3]
        · iexists _; isplitl [Hb3]; · iexact Hb3
          ipureintro; exact hl_3 k k1_h1 _
        · ipureintro; exact (Nat.add_zero _).symm ▸ hI_acc2
      iintro %acc3 ⟨⟨%g_acc3, Hb3, %hS_acc3⟩, %hI_acc3⟩
      rw [trips5] at hI_acc3
      sl_exec
      sl_step
      have eI : 800 * (k.val + 1) = 800 * k.val + 600 + 200 := by ring
      isplitl [Hmw]; · iexact Hmw
      isplitl [Hf0 Hr0]
      · iexists _, _; isplitr
        rotate_left
        · isplitl [Hf0]; · iexact Hf0
          iexact Hr0
        · ipureintro; exact hl_0 k k1_h2 _
      isplitl [Hf1 Hr1 Hf2 Hr2]
      · isplitl [Hf1 Hr1]
        · iexists _, _; isplitr
          rotate_left
          · isplitl [Hf1]; · iexact Hf1
            iexact Hr1
          · ipureintro; exact hl_1 k k1_h3 _
        · iexists _, _; isplitr
          rotate_left
          · isplitl [Hf2]; · iexact Hf2
            iexact Hr2
          · ipureintro; exact hl_2 k k1_h4 _
      isplitl [Hs3 Hb3 Hx7]
      · isplitl [Hs3]; · iexact Hs3
        isplitl [Hb3]; · iexists _; iexact Hb3
        iexact Hx7
      isplitr
      · ipureintro; exact eI ▸ hI_acc3
      iexists _; isplitr
      rotate_left
      · iexact HO
      · ipureintro; intro p hp
        rcases Finset.mem_insert.mp hp with hp | hp
        · subst hp; exact .inr rfl
        rcases Finset.mem_insert.mp hp with hp | hp
        · subst hp; exact .inr rfl
        rcases Finset.mem_insert.mp hp with hp | hp
        · subst hp; exact .inr rfl
        rcases Finset.mem_insert.mp hp with hp | hp
        · subst hp; exact .inr rfl
        exact hW' p hp
    · have k1_h3 : ¬ k1_cond3 k = 1#1 := cond3_ge k h5
      have k1_h4 : ¬ k1_cond4 k = 1#1 := cond4_ge k h5
      rw [if_neg h5]
      unfold slotFlyingV slotFree
      iintro ⟨Hmw, ⟨%g0, %S0, %hS0, Hf0, Hr0⟩, ⟨⟨%g1, %S1, %hS1, Hf1, Hr1⟩, ⟨%g2, %S2, %hS2, Hf2, Hr2⟩⟩, ⟨Hs3, ⟨%g3, Hb3⟩, Hx7⟩, %hInv, %W', %hW', HO⟩
      sl_exec
      sl_for (fun (v : Nat) (st2 : T16 F) => iprop((∃ g, (slot0.view.loc (V d (cV L) (jV L)) ↦[slot0.view.set]{fullShare} g) ∗ ⌜SH (4 * k.val + 0) 0 g⌝) ∗ ⌜Inv (800 * k.val + v) st2⌝)) $$ [Hf0_dst]
      case region =>
        intro v st2
        iintro ⟨⟨%gg, Hs, %hS⟩, %hI⟩
        sl_exec
        sl_step
        sl_unfold_run_names
        isplitl [Hs]
        · iexists gg; isplitl [Hs]; · iexact Hs
          ipureintro; exact hS
        ipureintro
        exact hrow2 k v gg st2 hS hI
      · isplitl [Hf0_dst]
        · iexists _; isplitl [Hf0_dst]; · iexact Hf0_dst
          ipureintro; exact hS0
        · ipureintro; exact (Nat.add_zero _).symm ▸ hInv
      iintro %acc0 ⟨⟨%g_acc0, Hf0_dst, %hS_acc0⟩, %hI_acc0⟩
      rw [trips2] at hI_acc0
      sl_exec
      sl_for (fun (v : Nat) (st2 : T16 F) => iprop((∃ g, (slot1.view.loc (V d (cV L) (jV L)) ↦[slot1.view.set]{fullShare} g) ∗ ⌜SH (4 * k.val + 1) 1 g⌝) ∗ ⌜Inv (800 * k.val + 200 + v) st2⌝)) $$ [Hf1_dst]
      case region =>
        intro v st2
        iintro ⟨⟨%gg, Hs, %hS⟩, %hI⟩
        sl_exec
        sl_step
        sl_unfold_run_names
        isplitl [Hs]
        · iexists gg; isplitl [Hs]; · iexact Hs
          ipureintro; exact hS
        ipureintro
        exact hrow3 k v gg st2 hS hI
      · isplitl [Hf1_dst]
        · iexists _; isplitl [Hf1_dst]; · iexact Hf1_dst
          ipureintro; exact hS1
        · ipureintro; exact (Nat.add_zero _).symm ▸ hI_acc0
      iintro %acc1 ⟨⟨%g_acc1, Hf1_dst, %hS_acc1⟩, %hI_acc1⟩
      rw [trips3] at hI_acc1
      sl_exec
      sl_for (fun (v : Nat) (st2 : T16 F) => iprop((∃ g, (slot2.view.loc (V d (cV L) (jV L)) ↦[slot2.view.set]{fullShare} g) ∗ ⌜SH (4 * k.val + 2) 2 g⌝) ∗ ⌜Inv (800 * k.val + 400 + v) st2⌝)) $$ [Hf2_dst]
      case region =>
        intro v st2
        iintro ⟨⟨%gg, Hs, %hS⟩, %hI⟩
        sl_exec
        sl_step
        sl_unfold_run_names
        isplitl [Hs]
        · iexists gg; isplitl [Hs]; · iexact Hs
          ipureintro; exact hS
        ipureintro
        exact hrow4 k v gg st2 hS hI
      · isplitl [Hf2_dst]
        · iexists _; isplitl [Hf2_dst]; · iexact Hf2_dst
          ipureintro; exact hS2
        · ipureintro; exact (Nat.add_zero _).symm ▸ hI_acc1
      iintro %acc2 ⟨⟨%g_acc2, Hf2_dst, %hS_acc2⟩, %hI_acc2⟩
      rw [trips4] at hI_acc2
      sl_exec
      sl_for (fun (v : Nat) (st2 : T16 F) => iprop((∃ g, (slot3.view.loc (V d (cV L) (jV L)) ↦[slot3.view.set]{fullShare} g) ∗ ⌜SH (4 * k.val + 3) 3 g⌝) ∗ ⌜Inv (800 * k.val + 600 + v) st2⌝)) $$ [Hb3]
      case region =>
        intro v st2
        iintro ⟨⟨%gg, Hs, %hS⟩, %hI⟩
        sl_exec
        sl_step
        sl_unfold_run_names
        isplitl [Hs]
        · iexists gg; isplitl [Hs]; · iexact Hs
          ipureintro; exact hS
        ipureintro
        exact hrow5 k v gg st2 hS hI
      · isplitl [Hb3]
        · iexists _; isplitl [Hb3]; · iexact Hb3
          ipureintro; exact hl_3 k k1_h1 _
        · ipureintro; exact (Nat.add_zero _).symm ▸ hI_acc2
      iintro %acc3 ⟨⟨%g_acc3, Hb3, %hS_acc3⟩, %hI_acc3⟩
      rw [trips5] at hI_acc3
      sl_exec
      sl_step
      have eI : 800 * (k.val + 1) = 800 * k.val + 600 + 200 := by ring
      isplitl [Hmw]; · iexact Hmw
      isplitl [Hf0 Hr0]
      · iexists _, _; isplitr
        rotate_left
        · isplitl [Hf0]; · iexact Hf0
          iexact Hr0
        · ipureintro; exact hl_0 k k1_h2 _
      isplitl [Hf1 Hf1_dst Hr1 Hf2 Hf2_dst Hr2]
      · isplitl [Hf1 Hf1_dst Hr1]
        · isplitl [Hf1]; · iexact Hf1
          isplitl [Hf1_dst]; · iexists _; iexact Hf1_dst
          iexact Hr1
        · isplitl [Hf2]; · iexact Hf2
          isplitl [Hf2_dst]; · iexists _; iexact Hf2_dst
          iexact Hr2
      isplitl [Hs3 Hb3 Hx7]
      · isplitl [Hs3]; · iexact Hs3
        isplitl [Hb3]; · iexists _; iexact Hb3
        iexact Hx7
      isplitr
      · ipureintro; exact eI ▸ hI_acc3
      iexists _; isplitr
      rotate_left
      · iexact HO
      · ipureintro; intro p hp
        rcases Finset.mem_insert.mp hp with hp | hp
        · subst hp; exact .inr rfl
        rcases Finset.mem_insert.mp hp with hp | hp
        · subst hp; exact .inr rfl
        rcases Finset.mem_insert.mp hp with hp | hp
        · subst hp; exact .inr rfl
        rcases Finset.mem_insert.mp hp with hp | hp
        · subst hp; exact .inr rfl
        exact hW' p hp
  · rw [if_pos (by decide : (0 : Nat) < 6)]
    unfold slotFlyingV slotFree
    isplitl [Hmw]; · iexact Hmw
    isplitl [Hs0 Hx4]
    · iexists _, _; isplitr
      rotate_left
      · isplitl [Hs0]; · iexact Hs0
        iexact Hx4
      · ipureintro; exact hl_p0 _
    isplitl [Hs1 Hx5 Hs2 Hx6]
    · isplitl [Hs1 Hx5]
      · iexists _, _; isplitr
        rotate_left
        · isplitl [Hs1]; · iexact Hs1
          iexact Hx5
        · ipureintro; exact hl_p1 _
      · iexists _, _; isplitr
        rotate_left
        · isplitl [Hs2]; · iexact Hs2
          iexact Hx6
        · ipureintro; exact hl_p2 _
    isplitl [Hs3 Hb3 Hx7]
    · isplitl [Hs3]; · iexact Hs3
      isplitl [Hb3]; · iexists _; iexact Hb3
      iexact Hx7
    isplitr
    · ipureintro; exact h0
    iexists _; isplitr
    rotate_left
    · iexact HO
    · ipureintro; intro p hp
      rcases Finset.mem_insert.mp hp with hp | hp
      · subst hp; exact .inr rfl
      exact .inl hp
  iintro %acc HI
  rw [if_neg (by rw [trips1]; decide)]
  unfold slotFlyingV slotFree
  icases HI with ⟨Hmw, ⟨%g0, %S0, %hS0, Hf0, Hr0⟩, ⟨⟨Hf1, ⟨%g1, Hf1_dst⟩, Hr1⟩, ⟨Hf2, ⟨%g2, Hf2_dst⟩, Hr2⟩⟩, ⟨Hs3, ⟨%g3, Hb3⟩, Hx7⟩, %hInvA, %W', %hW', HO⟩
  rw [trips1] at hInvA hS0
  sl_exec
  sl_for (fun (v : Nat) (st2 : T16 F) => iprop((∃ g, (slot0.view.loc (V d (cV L) (jV L)) ↦[slot0.view.set]{fullShare} g) ∗ ⌜SH (24) 0 g⌝) ∗ ⌜Inv (4800 + v) st2⌝)) $$ [Hf0_dst]
  case region =>
    intro v st2
    iintro ⟨⟨%gg, Hs, %hS⟩, %hI⟩
    sl_exec
    sl_step
    sl_unfold_run_names
    isplitl [Hs]
    · iexists gg; isplitl [Hs]; · iexact Hs
      ipureintro; exact hS
    ipureintro
    exact hrow6 v gg st2 hS hI
  · isplitl [Hf0_dst]
    · iexists _; isplitl [Hf0_dst]; · iexact Hf0_dst
      ipureintro; exact hS0
    · ipureintro; exact (Nat.add_zero _).symm ▸ hInvA
  iintro %acc6 ⟨⟨%g_acc6, Hf0_dst, %hS_acc6⟩, %hI_acc6⟩
  rw [trips6] at hI_acc6
  sl_exec
  sl_unfold_run_names
  sl_step
  isplitl [Hr0]; · iexact Hr0
  isplitl [Hr1]; · iexact Hr1
  isplitl [Hr2]; · iexact Hr2
  isplitl [Hx7]; · iexact Hx7
  isplitl [Ht]; · iexact Ht
  isplitl [Hm Hv]
  · iexists acc6; isplitr
    · ipureintro; exact hI_acc6
    isplitl [Hm]; · iexact Hm
    iexact Hv
  isplitl [H6]; · iexists _; iexact H6
  isplitl [Hf0_dst]; · iexists _; iexact Hf0_dst
  isplitl [Hf1_dst]; · iexists _; iexact Hf1_dst
  isplitl [Hf2_dst]; · iexists _; iexact Hf2_dst
  isplitl [Hb3]; · iexists _; iexact Hb3
  isplitl [HR]; · iexists _; iexact HR
  isplitl [Hf0]; · iexact Hf0
  isplitl [Hf1]; · iexact Hf1
  isplitl [Hf2]; · iexact Hf2
  isplitl [Hs3]; · iexact Hs3
  isplitl [Hs4]; · iexact Hs4
  iexists _; isplitr
  rotate_left
  · iexact HO
  · ipureintro; intro p hp
    rcases Finset.mem_insert.mp hp with hp | hp
    · subst hp; exact .inr rfl
    rcases Finset.mem_insert.mp hp with hp | hp
    · subst hp; exact .inr rfl
    rcases Finset.mem_insert.mp hp with hp | hp
    · subst hp; exact .inr rfl
    exact hW' p hp

end Cert.Proof.KernelIdealP

end
-- ==== Proof.TileOblValI.lean ====
/-
  The tile's body obligation carrying values: as the frame's wrapper, with the properties of the two result pieces derived
  from "5000 rows done" of the values they were written from.
-/
import proofs.«203171_g79482664779815_cont_9to1_m_1298_18_alg».proof.Proof.TileOblI
import proofs.«203171_g79482664779815_cont_9to1_m_1298_18_alg».proof.Proof.TileRunValI

noncomputable section

namespace Cert.Proof.KernelIdealP

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ

local notation "xW" => (Memref.whole Cert.KernelIdeal.main_v0_scv : Memref Cert.KernelIdeal.sig Kind.scVector Space.hbm Cert.KernelIdeal.S100000x1024 EltTy.f32)
local notation "tW" => (Memref.whole Cert.KernelIdeal.main_arg1_scv : Memref Cert.KernelIdeal.sig Kind.scVector Space.hbm Cert.KernelIdeal.S1024 EltTy.i32)
local notation "mW" => (Memref.whole Cert.KernelIdeal.main_v3_0_scv : Memref Cert.KernelIdeal.sig Kind.scVector Space.hbm Cert.KernelIdeal.S4x1024 EltTy.f32)
local notation "vW" => (Memref.whole Cert.KernelIdeal.main_v3_1_scv : Memref Cert.KernelIdeal.sig Kind.scVector Space.hbm Cert.KernelIdeal.S4x1024 EltTy.f32)
local notation "sT" => (Memref.whole Cert.KernelIdeal.cc1_scratch0 : Memref Cert.KernelIdeal.sig Kind.scVector Space.vmem Cert.KernelIdeal.S128 EltTy.i32)
local notation "sB" => (Memref.whole Cert.KernelIdeal.cc1_scratch1 : Memref Cert.KernelIdeal.sig Kind.scVector Space.vmem Cert.KernelIdeal.S4x200x128 EltTy.f32)
local notation "sR" => (Memref.whole Cert.KernelIdeal.cc1_scratch2 : Memref Cert.KernelIdeal.sig Kind.scVector Space.vmem Cert.KernelIdeal.S256 EltTy.f32)

section OblVal

variable (m : (ℓ : Loc nD τ sig) → Buf (Elt F) ℓ) (X : (d : Dev nD) → Buf (Elt F) (xLoc d))
variable (d : Dev nD) (L : grid1.Coords)

theorem tile_body_val (hF : (K (F := F)).Facts) (q : PosShare TreeShare)
    (GM : (d : Dev nD) → grid1.Coords → Buf (Elt F) (mLoc d) → Prop) (GV : (d : Dev nD) → grid1.Coords → Buf (Elt F) (vLoc d) → Prop)
    (SH : ℕ → ℕ → Buf (Elt F) ((sB).view.loc (V d (cV L) (jV L))) → Prop) (Inv : ℕ → T16 F → Prop)
    (H : ∀ f6, RunHyps d L (X d) (m (tLoc d)) f6 SH Inv)
    (hgm : ∀ acc fm fR, Inv 5000 acc → GM d L (outM d L fm fR acc)) (hgv : ∀ acc fv fR, Inv 5000 acc → GV d L (outV d L fv fR acc))
    (O : CellTallies nD τ sig (HIx 1)) (W : Waits sig (HIx 1)) (hO : ∀ g, O g none = 0) :
    iprop(levAts (K (F := F)).L (K (F := F)).lev ∗ emp
        ∗ ((xLoc d ↦{q} X d) ∗ (tLoc d ↦{q} m (tLoc d)) ∗ (∃ f, mLoc d ↦[mSet L]{fullShare} f) ∗ (∃ f, vLoc d ↦[vSet L]{fullShare} f))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_body L xW (Memref.isWhole_whole _) tW (Memref.isWhole_whole _) mW (Memref.isWhole_whole _) vW (Memref.isWhole_whole _)
            sT (Memref.isWhole_whole _) sB (Memref.isWhole_whole _) sR (Memref.isWhole_whole _) cc1_scratch3)
          fun _ => (iprop(((xLoc d ↦{q} X d) ∗ (tLoc d ↦{q} m (tLoc d))
              ∗ (∃ f, (mLoc d ↦[mSet L]{fullShare} f) ∗ ⌜GM d L f⌝) ∗ (∃ f, (vLoc d ↦[vSet L]{fullShare} f) ∗ ⌜GV d L f⌝))
            ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) := by
  rw [(K (F := F)).scopedBufs_V hF, SparseCore.Cfg.scopedSems0_V, ownBufs_V, ownSems0_V]
  iintro ⟨#Hlv, -, ⟨Hx, Ht, ⟨%fm, Hm⟩, ⟨%fv, Hv⟩⟩, ⟨Hbufs, Hbrest⟩, ⟨Hsems, Hsrest⟩, HO⟩
  ihave Hmw := ((K (F := F)).mayWaits_none (thr := V d (cV L) (jV L)) hO) $$ Hlv
  simp only [Cert.SepList.sepList_cons, Cert.SepList.sepList_nil, List.map_cons, List.map_nil]
  icases Hbufs with ⟨⟨%f6, H6⟩, ⟨%fB, HB⟩, ⟨%fR, HR⟩, -⟩
  icases Hsems with ⟨Hs0, Hs1, Hs2, Hs3, Hs4, -⟩
  ihave Hx' := (Transfers.pointsTo_toks_range (q := q) 8).1 $$ Hx
  icases Hx' with ⟨Hxd, Hxt⟩
  ihave Hxt' := (Entails.of_eq (toks8 (F := F) q (X d))) $$ Hxt
  icases Hxt' with ⟨Hx7, Hx6, Hx5, Hx4, Hx3, Hx2, Hx1, Hx0, -⟩
  ihave HBs := (buf_split d L fB) $$ [HB]
  · iexact HB
  icases HBs with ⟨Hb0, Hb1, Hb2, Hb3⟩
  iapply (wp_wand_r frame _ _)
  isplitl [Hmw Hx4 Hx5 Hx6 Hx7 Ht Hm Hv H6 Hb0 Hb1 Hb2 Hb3 HR Hs0 Hs1 Hs2 Hs3 Hs4 HO]
  · iapply (tile_run_val d L q (X d) (m (tLoc d)) f6 fB fR fm fv O W SH Inv (H f6))
    isplitl [Hmw]; · iexact Hmw
    isplitl [Hx4]; · iexact Hx4
    isplitl [Hx5]; · iexact Hx5
    isplitl [Hx6]; · iexact Hx6
    isplitl [Hx7]; · iexact Hx7
    isplitl [Ht]; · iexact Ht
    isplitl [Hm]; · iexact Hm
    isplitl [Hv]; · iexact Hv
    isplitl [H6]; · iexact H6
    isplitl [Hb0]; · iexact Hb0
    isplitl [Hb1]; · iexact Hb1
    isplitl [Hb2]; · iexact Hb2
    isplitl [Hb3]; · iexact Hb3
    isplitl [HR]; · iexact HR
    isplitl [Hs0]; · iexact Hs0
    isplitl [Hs1]; · iexact Hs1
    isplitl [Hs2]; · iexact Hs2
    isplitl [Hs3]; · iexact Hs3
    isplitl [Hs4]; · iexact Hs4
    iexact HO
  iintro %_ ⟨Hx4, Hx5, Hx6, Hx7, Ht, ⟨%acc, %hacc, Hm, Hv⟩, ⟨%f6', H6⟩, ⟨%g0, Hb0⟩, ⟨%g1, Hb1⟩, ⟨%g2, Hb2⟩, ⟨%g3, Hb3⟩, ⟨%fR', HR⟩, Hs0, Hs1, Hs2, Hs3, Hs4, %W', %hW', HO⟩
  ihave Hxt := (Entails.of_eq (toks8 (F := F) q (X d)).symm) $$ [Hx7 Hx6 Hx5 Hx4 Hx3 Hx2 Hx1 Hx0]
  · isplitl [Hx7]; · iexact Hx7
    isplitl [Hx6]; · iexact Hx6
    isplitl [Hx5]; · iexact Hx5
    isplitl [Hx4]; · iexact Hx4
    isplitl [Hx3]; · iexact Hx3
    isplitl [Hx2]; · iexact Hx2
    isplitl [Hx1]; · iexact Hx1
    isplitl [Hx0]; · iexact Hx0
    iempintro
  ihave Hx := (Transfers.pointsTo_toks_range (q := q) 8).2 $$ [Hxd Hxt]
  · isplitl [Hxd] <;> iassumption
  ihave HB := (slots_join d L g0 g1 g2 g3) $$ [Hb0 Hb1 Hb2 Hb3]
  · isplitl [Hb0]; · iexact Hb0
    isplitl [Hb1]; · iexact Hb1
    isplitl [Hb2]; · iexact Hb2
    iexact Hb3
  icases HB with ⟨%fB', HB⟩
  isplitl [Hx Ht Hm Hv]
  · isplitl [Hx]; · iexact Hx
    isplitl [Ht]; · iexact Ht
    isplitl [Hm]
    · iexists _; isplitl [Hm]; · iexact Hm
      ipureintro; exact hgm acc fm fR hacc
    · iexists _; isplitl [Hv]; · iexact Hv
      ipureintro; exact hgv acc fv fR hacc
  isplitl [H6 HB HR Hbrest]
  · isplitr [Hbrest]
    · isplitl [H6]; · iexists _; iexact H6
      isplitl [HB]; · iexists _; iexact HB
      isplitl [HR]; · iexists _; iexact HR
      iempintro
    · iexact Hbrest
  isplitl [Hs0 Hs1 Hs2 Hs3 Hs4 Hsrest]
  · isplitr [Hsrest]
    · isplitl [Hs0]; · iexact Hs0
      isplitl [Hs1]; · iexact Hs1
      isplitl [Hs2]; · iexact Hs2
      isplitl [Hs3]; · iexact Hs3
      isplitl [Hs4]; · iexact Hs4
      iempintro
    · iexact Hsrest
  iexists W'; isplitr
  · ipureintro; exact hW'
  · iexact HO

end OblVal

section WrapVal

variable (m : (ℓ : Loc nD τ sig) → Buf (Elt F) ℓ) (X : (d : Dev nD) → Buf (Elt F) (xLoc d))

/-- The body obligation of the SparseCore call with values: for two properties of the result pieces that follow from
    "5000 rows done" of the written values. -/
theorem tileObl_val (GM : (d : Dev nD) → grid1.Coords → Buf (Elt F) (mLoc d) → Prop) (GV : (d : Dev nD) → grid1.Coords → Buf (Elt F) (vLoc d) → Prop)
    (SH : (d : Dev nD) → (L : grid1.Coords) → ℕ → ℕ → Buf (Elt F) ((sB).view.loc (V d (cV L) (jV L))) → Prop)
    (Inv : Dev nD → grid1.Coords → ℕ → T16 F → Prop)
    (H : ∀ d L f6, RunHyps d L (X d) (m (tLoc d)) f6 (SH d L) (Inv d L))
    (hgm : ∀ d L acc fm fR, Inv d L 5000 acc → GM d L (outM d L fm fR acc))
    (hgv : ∀ d L acc fv fR, Inv d L 5000 acc → GV d L (outV d L fv fR acc)) :
    (K (F := F)).TileObl (D (F := F)) 𝒱 (P m X GM GV) v₀ 0 := by
  intro d c i O W hO _ _
  simp only [show (P m X GM GV).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body_val m X d (coordsV ⟨_, hc.1⟩ ⟨_, hc.2⟩) facts (tileQ (Fin.cast nCore_zero c) (Fin.cast nSub_zero i)) GM GV (SH d _) (Inv d _) (H d _)
      (hgm d _) (hgv d _) O W hO).trans (wp_mono frame _ _ fun _ => obl_post)

end WrapVal

end Cert.Proof.KernelIdealP

end
-- ==== Proof.TileValueI.lean ====
/-
  The tile's sixteen running values, row by row, at the extended reals.

  A tile walks table rows `lo, lo + 1, …` over 128 columns from `cb`, eight groups of 16 lanes. After `n` rows, lane
  `l` of group `j` holds, for column `cb + 16 j + l`, the specification's two masked maxima over the rows `lo ≤ v < lo + n`:
  the maximum that leaves the target's row out, and the entry at the target's row (`⊥` while that row has not been
  met). One more row keeps this: the maximum takes `max` with the new entry, or with `⊥` at the lane whose target is the
  new row — which is the range's supremum extended by one index —; the target value is REPLACED by the new entry at
  that lane and kept elsewhere, and that too is the extended supremum, because a target equal to the new row was met in
  none of the earlier rows (the kept value is `⊥`, and `max ⊥ e = e`), while any other target contributes `⊥` now
  (`max a ⊥ = a`).
-/
import proofs.«203171_g79482664779815_cont_9to1_m_1298_18_alg».proof.Proof.TileSpecI
import proofs.«203171_g79482664779815_cont_9to1_m_1298_18_alg».proof.Proof.SpecParts
import Idealize.ShloMosaic.Lib.ValueIdx
import Idealize.ShloMosaic.Lib.Pipeline.Value
import Idealize.ShloMosaic.PureOps.Ideal.Laws

noncomputable section

/-! ## A range's supremum of entries that are all `⊥`, any number of indices -/

namespace Cert.Spec

/-- A supremum over a range on which every entry is `⊥` is `⊥`. -/
theorem supOn_eq_bot {n : ℕ} (lo hi : ℕ) (f : Fin n → EReal) (h : ∀ v : Fin n, lo ≤ v.val → v.val < hi → f v = ⊥) :
    supOn lo hi f = ⊥ := by
  unfold supOn
  rw [Finset.sup_eq_bot_iff]
  intro v hv
  have := (Finset.mem_filter.mp hv).2
  exact h v this.1 this.2

/-- The masked maximum at the target is `⊥` over a range of rows none of which is the target. -/
theorem atTargetOn_eq_bot (lo hi : ℕ) (x : Fin 1024 → Fin 100000 → EReal) (t : Fin 1024 → BitVec 32) (b : Fin 1024)
    (h : ∀ v : Fin 100000, lo ≤ v.val → v.val < hi → t b ≠ BitVec.ofNat 32 v.val) : atTargetOn lo hi x t b = ⊥ :=
  supOn_eq_bot lo hi _ fun v h1 h2 => if_neg (h v h1 h2)

end Cert.Spec

namespace Cert.Proof.KernelIdealP

open Cert.KernelIdeal Cert.KernelIdeal.Gen
open Idealize.ShloMosaic

/-! ## Words and lanes -/

/-- Two numbers below 2³² with the same 32-bit word are equal. -/
theorem ofNat32_inj {a b : ℕ} (ha : a < 2 ^ 32) (hb : b < 2 ^ 32) (h : BitVec.ofNat 32 a = BitVec.ofNat 32 b) : a = b := by
  have := congrArg BitVec.toNat h
  rwa [BitVec.toNat_ofNat, BitVec.toNat_ofNat, Nat.mod_eq_of_lt ha, Nat.mod_eq_of_lt hb] at this

/-- The vector of −∞ the tile starts its running values from is `⊥` in every lane. -/
theorem neg_apply (i : S16.Idx) : k1_pay134 (F := Ideal) i = (⊥ : EReal) := by
  show Ideal.ofBits .f32 0xFF800000#32 = ⊥
  simp [Ideal.ofBits, Ideal.ieee]

/-- A [1, 16] row read as a vector of 16 lanes. -/
theorem row16_apply (ld : Vec Ideal S1x16 .f32) (l : Fin 16) :
    shapeCast S16 ld shapeCasts_S1x16_S16 (ValueIdx.ix1 l) = ld (ValueIdx.ix2 (0 : Fin 1) l) := by
  rw [shapeCast_dropUnit_apply]
  refine congrArg ld ?_
  funext a
  match a with
  | ⟨0, _⟩ => rfl
  | ⟨1, _⟩ => rfl

/-- One group's new running maximum at a lane. -/
theorem stepM_apply (tg : Vec Ideal S16 .i32) (neg : FVec Ideal S16 .f32) (vid : BitVec 32) (ld : Vec Ideal S1x16 .f32)
    (a : FVec Ideal S16 .f32) (l : Fin 16) :
    stepM tg neg vid ld a (ValueIdx.ix1 l)
      = max (a (ValueIdx.ix1 l)) (if tg (ValueIdx.ix1 l) = vid then neg (ValueIdx.ix1 l) else ld (ValueIdx.ix2 (0 : Fin 1) l)) := by
  unfold stepM
  rw [ValueIdx.maximumf_apply, ValueIdx.select_apply, row16_apply]
  show max _ (Scalar.select (IntOp.cmpi .eq (tg (ValueIdx.ix1 l)) vid) _ _) = _
  by_cases hc : tg (ValueIdx.ix1 l) = vid
  · rw [if_pos hc, IntOp.cmpi_eq.2 hc]; rfl
  · rw [if_neg hc]
    have : IntOp.cmpi .eq (tg (ValueIdx.ix1 l)) vid ≠ 1#1 := fun e => hc (IntOp.cmpi_eq.1 e)
    unfold Scalar.select
    rw [show (if IntOp.cmpi .eq (tg (ValueIdx.ix1 l)) vid = 1 then neg (ValueIdx.ix1 l) else ld (ValueIdx.ix2 (0 : Fin 1) l))
      = ld (ValueIdx.ix2 (0 : Fin 1) l) from if_neg this]

/-- One group's new target value at a lane. -/
theorem stepV_apply (tg : Vec Ideal S16 .i32) (vid : BitVec 32) (ld : Vec Ideal S1x16 .f32)
    (a : FVec Ideal S16 .f32) (l : Fin 16) :
    stepV tg vid ld a (ValueIdx.ix1 l)
      = if tg (ValueIdx.ix1 l) = vid then ld (ValueIdx.ix2 (0 : Fin 1) l) else a (ValueIdx.ix1 l) := by
  unfold stepV
  rw [ValueIdx.select_apply, row16_apply]
  show Scalar.select (IntOp.cmpi .eq (tg (ValueIdx.ix1 l)) vid) _ _ = _
  by_cases hc : tg (ValueIdx.ix1 l) = vid
  · rw [if_pos hc, IntOp.cmpi_eq.2 hc]; rfl
  · rw [if_neg hc]
    have : IntOp.cmpi .eq (tg (ValueIdx.ix1 l)) vid ≠ 1#1 := fun e => hc (IntOp.cmpi_eq.1 e)
    unfold Scalar.select
    exact if_neg this

/-! ## The invariant -/

/-- After `n` rows from `lo`, every lane holds the two masked maxima of its column over those rows. -/
def InvI (x : Fin 1024 → Fin 100000 → EReal) (t : Fin 1024 → BitVec 32) (lo cb : ℕ) (hcb : cb + 128 ≤ 1024) (n : ℕ) (a : T16 Ideal) : Prop :=
  ∀ (j : Fin 8) (l : Fin 16),
      a.m j (ValueIdx.ix1 l) = Cert.Spec.maxOffOn lo (lo + n) x t ⟨cb + 16 * j.val + l.val, by omega⟩
    ∧ a.tv j (ValueIdx.ix1 l) = Cert.Spec.atTargetOn lo (lo + n) x t ⟨cb + 16 * j.val + l.val, by omega⟩

/-- Before any row every lane holds `⊥`, the two maxima over no rows. -/
theorem invI_zero (x : Fin 1024 → Fin 100000 → EReal) (t : Fin 1024 → BitVec 32) (lo cb : ℕ) (hcb : cb + 128 ≤ 1024) :
    InvI x t lo cb hcb 0 (start16 (F := Ideal)) := by
  intro j l
  have hm : (start16 (F := Ideal)).m j = k1_pay134 (F := Ideal) := by fin_cases j <;> rfl
  have hv : (start16 (F := Ideal)).tv j = k1_pay134 (F := Ideal) := by fin_cases j <;> rfl
  rw [hm, hv, neg_apply, Nat.add_zero, Cert.Spec.maxOffOn_empty, Cert.Spec.atTargetOn_empty]
  exact ⟨rfl, rfl⟩

/-- One more row keeps the invariant. -/
theorem invI_step (x : Fin 1024 → Fin 100000 → EReal) (t : Fin 1024 → BitVec 32) (lo cb : ℕ) (hcb : cb + 128 ≤ 1024)
    (n : ℕ) (hn : lo + n < 100000) (tg : Fin 8 → Vec Ideal S16 .i32) (ld : Fin 8 → Vec Ideal S1x16 .f32) (a : T16 Ideal)
    (htg : ∀ (j : Fin 8) (l : Fin 16), tg j (ValueIdx.ix1 l) = t ⟨cb + 16 * j.val + l.val, by omega⟩)
    (hld : ∀ (j : Fin 8) (l : Fin 16), ld j (ValueIdx.ix2 (0 : Fin 1) l) = x ⟨cb + 16 * j.val + l.val, by omega⟩ ⟨lo + n, hn⟩)
    (ha : InvI x t lo cb hcb n a) :
    InvI x t lo cb hcb (n + 1) (rowStep tg (k1_pay134 (F := Ideal)) (BitVec.ofNat 32 (lo + n)) ld a) := by
  intro j l
  obtain ⟨hm, hv⟩ := ha j l
  rw [rowStep_m, rowStep_tv, stepM_apply, stepV_apply, htg, hld, hm, hv, neg_apply,
    show lo + (n + 1) = (lo + n) + 1 from (Nat.add_assoc lo n 1).symm,
    Cert.Spec.maxOffOn_succ x t _ lo (lo + n) (Nat.le_add_right lo n) hn,
    Cert.Spec.atTargetOn_succ x t _ lo (lo + n) (Nat.le_add_right lo n) hn]
  refine ⟨rfl, ?_⟩
  by_cases hc : t ⟨cb + 16 * j.val + l.val, by omega⟩ = BitVec.ofNat 32 (lo + n)
  · rw [if_pos hc, if_pos hc, Cert.Spec.atTargetOn_eq_bot lo (lo + n) x t _ (fun v _ h2 e => by
      have hv32 : v.val < 2 ^ 32 := lt_of_lt_of_le v.isLt (by norm_num)
      have hr32 : lo + n < 2 ^ 32 := lt_of_lt_of_le hn (by norm_num)
      have := ofNat32_inj hr32 hv32 (hc.symm.trans e)
      omega)]
    exact (max_eq_right bot_le).symm
  · rw [if_neg hc, if_neg hc]
    exact (max_eq_left bot_le).symm

end Cert.Proof.KernelIdealP

end
-- ==== Proof.TileViewI.lean ====
/-
  Three reads of the tile's buffers at an index.

  The tile's body loads a [1, 16] window of a ring slot, and does so after a copy has landed a 200 × 128 block of the
  table in the slot; it loads 16 of the 128 target words it fetched into its first scratch buffer. Each load reads, at
  a lane, one element of the buffer under the view's embedding; a landed block's element under the slot's embedding is
  the table's element at the block's offset plus the slot coordinates; a fetched word is the target array's at the
  fetch's offset plus the lane's position. The offsets are arbitrary vectors (with their in-bounds evidence), the
  coordinates they determine given by equations, so that a use rewrites nothing dependent.
-/
import proofs.«203171_g79482664779815_cont_9to1_m_1298_18_alg».proof.Proof.TileI
import Idealize.ShloMosaic.Lib.Writes
import Idealize.ShloMosaic.Lib.Exec.Geometry
import Idealize.ShloMosaic.Lib.ValueIdx

noncomputable section

namespace Cert.Proof.KernelIdealP

open Cert.KernelIdeal Cert.KernelIdeal.Gen
open Idealize.ShloMosaic

variable {F : FTy → Type}

/-- A load of a [1, 16] window of ring slot `k` at offset `off`, read at lane `l`: the buffer's element under the slot's
    embedding of (row `off 0`, column `off 1 + l`). -/
theorem read_row (k : Nat) (h : ∀ a, (![k, 0, 0] : Fin 3 → Nat) a + S1x200x128.size a ≤ S4x200x128.size a)
    (off : Fin 2 → Nat) (inb : ∀ a, off a + S1x16.size a ≤ S200x128.size a)
    (g : (slotK k h).view.ty.Contents (Elt F)) (l : Fin 16) (v : Fin 200) (c : Fin 128)
    (hv : off 0 = v.val) (hc : off 1 + l.val = c.val) :
    View.readAt (Elt F) (slotK k h).view (Rect.unit (s := S200x128) off S1x16.size inb).toLoadRect g (ValueIdx.ix2 (0 : Fin 1) l)
      = g ((slotK k h).view.emb (ValueIdx.ix2 v c)) := by
  rw [View.readAt_apply, View.read_apply]
  have hi : (Rect.unit (s := S200x128) off S1x16.size inb).toLoadRect.idx (ValueIdx.ix2 (0 : Fin 1) l) = ValueIdx.ix2 v c := by
    funext a
    refine Fin.ext ?_
    match a with
    | ⟨0, _⟩ => show off 0 + 1 * 0 = v.val; omega
    | ⟨1, _⟩ => show off 1 + 1 * l.val = c.val; omega
  rw [hi]
  exact cast_eq _ _

/-- A landed block: after a copy of the 200 × 128 block of the table at offset `off` has been written over the whole of
    ring slot `k`, the buffer's element under the slot's embedding of `(r, c)` is the table's at
    `(off 0 + r, off 1 + c)`. -/
theorem landed_at (k : Nat) (h : ∀ a, (![k, 0, 0] : Fin 3 → Nat) a + S1x200x128.size a ≤ S4x200x128.size a)
    (off : Fin 2 → Nat) (inb : ∀ a, off a + S200x128.size a ≤ S100000x1024.size a)
    (g : (slotK k h).view.ty.Contents (Elt F))
    (fx : ((Memref.whole Cert.KernelIdeal.main_v0_scv : Memref Cert.KernelIdeal.sig Kind.scVector Space.hbm Cert.KernelIdeal.S100000x1024 EltTy.f32).slice
      (Rect.unit (s := S100000x1024) off S200x128.size inb) (fun _ => rfl)).view.ty.Contents (Elt F))
    (r : Fin 200) (c : Fin 128) (R : Fin 100000) (C : Fin 1024) (hR : off 0 + r.val = R.val) (hC : off 1 + c.val = C.val) :
    ((slotK k h).view.writes (Elt F) g [⟨Rect.whole S200x128, ReadAs.same.apply (View.read (Elt F)
        ((Memref.whole Cert.KernelIdeal.main_v0_scv : Memref Cert.KernelIdeal.sig Kind.scVector Space.hbm Cert.KernelIdeal.S100000x1024 EltTy.f32).slice
          (Rect.unit (s := S100000x1024) off S200x128.size inb) (fun _ => rfl)).view fx)⟩])
      ((slotK k h).view.emb (ValueIdx.ix2 r c)) = fx (ValueIdx.ix2 R C) := by
  rw [View.writes_singleton]
  have he : (slotK k h).view.emb (ValueIdx.ix2 r c)
      = ((slotK k h).view.slice (Rect.whole S200x128)).emb (ValueIdx.ix2 r c) := by
    rw [View.emb_slice]
    show _ = (slotK k h).view.emb ((Rect.whole S200x128).emb (ValueIdx.ix2 r c))
    rw [Rect.emb_whole_apply]
  rw [he, View.write_emb_of_mem _ _ (Finset.mem_univ _), ReadAs.apply_same, View.read_apply]
  have hs : ((Memref.whole Cert.KernelIdeal.main_v0_scv : Memref Cert.KernelIdeal.sig Kind.scVector Space.hbm Cert.KernelIdeal.S100000x1024 EltTy.f32).slice
      (Rect.unit (s := S100000x1024) off S200x128.size inb) (fun _ => rfl)).view.emb (ValueIdx.ix2 r c) = ValueIdx.ix2 R C := by
    funext a
    refine Fin.ext ?_
    match a with
    | ⟨0, _⟩ => show off 0 + 1 * r.val = R.val; omega
    | ⟨1, _⟩ => show off 1 + 1 * c.val = C.val; omega
  rw [hs, cast_cast]
  exact cast_eq _ _

/-- The fetched target words: after the 128 words of the target array at offset `off` have been written over the whole of
    the first scratch buffer, a load of 16 of them at offset `off'`, read at lane `l`, is the target array's word at
    `off 0 + off' 0 + l`. -/
theorem tgt_read (off : Fin 1 → Nat) (inb : ∀ a, off a + S128.size a ≤ S1024.size a)
    (f6 : (Memref.whole Cert.KernelIdeal.cc1_scratch0 : Memref Cert.KernelIdeal.sig Kind.scVector Space.vmem Cert.KernelIdeal.S128 EltTy.i32).view.ty.Contents (Elt F))
    (ft : ((Memref.whole Cert.KernelIdeal.main_arg1_scv : Memref Cert.KernelIdeal.sig Kind.scVector Space.hbm Cert.KernelIdeal.S1024 EltTy.i32).slice
      (Rect.unit (s := S1024) off S128.size inb) (fun _ => rfl)).view.ty.Contents (Elt F))
    (off' : Fin 1 → Nat) (inb' : ∀ a, off' a + S16.size a ≤ S128.size a) (l : Fin 16) (B : Fin 1024)
    (hB : off 0 + off' 0 + l.val = B.val) :
    View.readAt (Elt F) (Memref.whole Cert.KernelIdeal.cc1_scratch0 : Memref Cert.KernelIdeal.sig Kind.scVector Space.vmem Cert.KernelIdeal.S128 EltTy.i32).view
        (Rect.unit (s := S128) off' S16.size inb').toLoadRect
        (View.write (Elt F) (Memref.whole Cert.KernelIdeal.cc1_scratch0 : Memref Cert.KernelIdeal.sig Kind.scVector Space.vmem Cert.KernelIdeal.S128 EltTy.i32).view f6
          (ReadAs.same.apply (View.read (Elt F)
            ((Memref.whole Cert.KernelIdeal.main_arg1_scv : Memref Cert.KernelIdeal.sig Kind.scVector Space.hbm Cert.KernelIdeal.S1024 EltTy.i32).slice
              (Rect.unit (s := S1024) off S128.size inb) (fun _ => rfl)).view ft)) Finset.univ)
        (ValueIdx.ix1 l)
      = ft (ValueIdx.ix1 B) := by
  rw [View.readAt_apply, View.read_write_of_mem _ _ (Finset.mem_univ _), ReadAs.apply_same, View.read_apply]
  have hs : ((Memref.whole Cert.KernelIdeal.main_arg1_scv : Memref Cert.KernelIdeal.sig Kind.scVector Space.hbm Cert.KernelIdeal.S1024 EltTy.i32).slice
      (Rect.unit (s := S1024) off S128.size inb) (fun _ => rfl)).view.emb
        ((Rect.unit (s := S128) off' S16.size inb').toLoadRect.idx (ValueIdx.ix1 l)) = ValueIdx.ix1 B := by
    funext a
    refine Fin.ext ?_
    match a with
    | ⟨0, _⟩ => show off 0 + 1 * (off' 0 + 1 * l.val) = B.val; omega
  rw [hs]
  exact cast_eq _ _

end Cert.Proof.KernelIdealP

end
-- ==== Proof.TileOutI.lean ====
/-
  The tile's two result pieces, read at an element.

  A tile ends by storing its sixteen running vectors into a 256-word scratch buffer — running maximum `j` at words
  `16 j …`, target value `j` at words `128 + 16 j …` — and copying the first 128 words into its [1, 128] piece of the first
  result array and the last 128 into its piece of the second. The sixteen stores are at pairwise different 16-aligned
  offsets, so a word reads the one store that covers it, whatever came later; the copy writes the whole piece, so the
  piece's word `p` is the scratch word `p` (resp. `128 + p`); and word `p` of the piece is the array's element at the
  piece's offset plus `(0, p)`. Together: at row `R`, column `C` with `R` the piece's row and `C` its first column plus
  `16 j + l`, the first array holds lane `l` of running maximum `j` and the second lane `l` of target value `j`.
-/
import proofs.«203171_g79482664779815_cont_9to1_m_1298_18_alg».proof.Proof.TileRunValI
import Idealize.ShloMosaic.Lib.Writes
import Idealize.ShloMosaic.Lib.ValueIdx

noncomputable section

namespace Cert.Proof.KernelIdealP

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ

local notation "xW" => (Memref.whole Cert.KernelIdeal.main_v0_scv : Memref Cert.KernelIdeal.sig Kind.scVector Space.hbm Cert.KernelIdeal.S100000x1024 EltTy.f32)
local notation "tW" => (Memref.whole Cert.KernelIdeal.main_arg1_scv : Memref Cert.KernelIdeal.sig Kind.scVector Space.hbm Cert.KernelIdeal.S1024 EltTy.i32)
local notation "mW" => (Memref.whole Cert.KernelIdeal.main_v3_0_scv : Memref Cert.KernelIdeal.sig Kind.scVector Space.hbm Cert.KernelIdeal.S4x1024 EltTy.f32)
local notation "vW" => (Memref.whole Cert.KernelIdeal.main_v3_1_scv : Memref Cert.KernelIdeal.sig Kind.scVector Space.hbm Cert.KernelIdeal.S4x1024 EltTy.f32)
local notation "sT" => (Memref.whole Cert.KernelIdeal.cc1_scratch0 : Memref Cert.KernelIdeal.sig Kind.scVector Space.vmem Cert.KernelIdeal.S128 EltTy.i32)
local notation "sB" => (Memref.whole Cert.KernelIdeal.cc1_scratch1 : Memref Cert.KernelIdeal.sig Kind.scVector Space.vmem Cert.KernelIdeal.S4x200x128 EltTy.f32)
local notation "sR" => (Memref.whole Cert.KernelIdeal.cc1_scratch2 : Memref Cert.KernelIdeal.sig Kind.scVector Space.vmem Cert.KernelIdeal.S256 EltTy.f32)

/-! ## Sixteen-word stores into a 256-word buffer, read one store at a time -/

section Walk
variable {sig' : RefSig} {κ : Kind} {sp : Space} {e : EltTy} {Val : EltTy → Type}

/-- A word outside `o ≤ · < o + 16` is not among the sixteen words stored at `o`. -/
theorem word_not_mem (o : Nat) (inb : ∀ a, (![o] : Fin 1 → Nat) a + S16.size a ≤ S256.size a) (p : Fin 256)
    (h : p.val < o ∨ o + 16 ≤ p.val) : (ValueIdx.ix1 p : S256.Idx) ∉ (Rect.unit (s := S256) ![o] S16.size inb).set := by
  rw [Rect.mem_set_unit]
  intro hm
  have h0 := hm 0
  have h1 : (![o] : Fin 1 → Nat) 0 = o := rfl
  have h2 : S16.size 0 = 16 := rfl
  have h3 : ((ValueIdx.ix1 p : S256.Idx) 0).val = p.val := rfl
  omega

/-- Lane `l` of the sixteen words stored at `o` is word `o + l`. -/
theorem word_emb (o : Nat) (inb : ∀ a, (![o] : Fin 1 → Nat) a + S16.size a ≤ S256.size a) (l : Fin 16) (p : Fin 256)
    (h : o + l.val = p.val) : (Rect.unit (s := S256) ![o] S16.size inb).emb (ValueIdx.ix1 l) = ValueIdx.ix1 p := by
  funext a
  refine Fin.ext ?_
  match a with
  | ⟨0, _⟩ => show o + 1 * l.val = p.val; omega

/-- A store of sixteen words elsewhere does not change what is read at word `p`. -/
theorem word_miss (v : View sig' κ sp S256 e) (f : v.ty.Contents Val) (o : Nat)
    (inb : ∀ a, (![o] : Fin 1 → Nat) a + S16.size a ≤ S256.size a)
    (w : (Rect.unit (s := S256) ![o] S16.size inb).shape.Idx → Val e) (Lp : List (View.Piece Val S256 e)) (p : Fin 256)
    (h : p.val < o ∨ o + 16 ≤ p.val) :
    v.read Val (v.writes Val f (⟨Rect.unit (s := S256) ![o] S16.size inb, w⟩ :: Lp)) (ValueIdx.ix1 p)
      = v.read Val (v.writes Val f Lp) (ValueIdx.ix1 p) := by
  rw [View.writes_cons, View.read_slice_write_of_not_mem _ _ _ _ (by rw [Rect.map_emb_univ]; exact word_not_mem o inb p h)]

/-- The last store, of sixteen words at `o`, is what is read at word `o + l`: its lane `l`. -/
theorem word_hit (v : View sig' κ sp S256 e) (f : v.ty.Contents Val) (o : Nat)
    (inb : ∀ a, (![o] : Fin 1 → Nat) a + S16.size a ≤ S256.size a)
    (w : (Rect.unit (s := S256) ![o] S16.size inb).shape.Idx → Val e) (Lp : List (View.Piece Val S256 e)) (l : Fin 16) (p : Fin 256)
    (h : o + l.val = p.val) :
    v.read Val (v.writes Val f (⟨Rect.unit (s := S256) ![o] S16.size inb, w⟩ :: Lp)) (ValueIdx.ix1 p) = w (ValueIdx.ix1 l) := by
  rw [← word_emb o inb l p h]
  exact View.read_writes_cons_emb v f _ w Lp (ValueIdx.ix1 l)

end Walk

/-- Word `240 + l` of the result scratch is lane `l` of the value stored at words `240 …`: the later stores are elsewhere. -/
theorem resBuf_at_240 (d : Dev nD) (L : grid1.Coords) (fR : Buf (Elt F) ((sR).view.loc (V d (cV L) (jV L)))) (acc : T16 F)
    (l : Fin 16) (p : Fin 256) (hp : 240 + l.val = p.val) :
    (sR).view.read (Elt F) (resBuf d L fR acc) (ValueIdx.ix1 p) = acc.2.2.2.2.2.2.2.2.2.2.2.2.2.2.2 (ValueIdx.ix1 l) := by
  have hl := l.isLt
  unfold resBuf

  exact word_hit _ _ 240 inb_S256_S16_240 _ _ l p hp

/-- Word `112 + l` of the result scratch is lane `l` of the value stored at words `112 …`: the later stores are elsewhere. -/
theorem resBuf_at_112 (d : Dev nD) (L : grid1.Coords) (fR : Buf (Elt F) ((sR).view.loc (V d (cV L) (jV L)))) (acc : T16 F)
    (l : Fin 16) (p : Fin 256) (hp : 112 + l.val = p.val) :
    (sR).view.read (Elt F) (resBuf d L fR acc) (ValueIdx.ix1 p) = acc.2.2.2.2.2.2.2.1 (ValueIdx.ix1 l) := by
  have hl := l.isLt
  unfold resBuf
  rw [word_miss _ _ 240 inb_S256_S16_240 _ _ p (by omega)]
  exact word_hit _ _ 112 inb_S256_S16_112 _ _ l p hp

/-- Word `224 + l` of the result scratch is lane `l` of the value stored at words `224 …`: the later stores are elsewhere. -/
theorem resBuf_at_224 (d : Dev nD) (L : grid1.Coords) (fR : Buf (Elt F) ((sR).view.loc (V d (cV L) (jV L)))) (acc : T16 F)
    (l : Fin 16) (p : Fin 256) (hp : 224 + l.val = p.val) :
    (sR).view.read (Elt F) (resBuf d L fR acc) (ValueIdx.ix1 p) = acc.2.2.2.2.2.2.2.2.2.2.2.2.2.2.1 (ValueIdx.ix1 l) := by
  have hl := l.isLt
  unfold resBuf
  rw [word_miss _ _ 240 inb_S256_S16_240 _ _ p (by omega)]
  rw [word_miss _ _ 112 inb_S256_S16_112 _ _ p (by omega)]
  exact word_hit _ _ 224 inb_S256_S16_224 _ _ l p hp

/-- Word `96 + l` of the result scratch is lane `l` of the value stored at words `96 …`: the later stores are elsewhere. -/
theorem resBuf_at_96 (d : Dev nD) (L : grid1.Coords) (fR : Buf (Elt F) ((sR).view.loc (V d (cV L) (jV L)))) (acc : T16 F)
    (l : Fin 16) (p : Fin 256) (hp : 96 + l.val = p.val) :
    (sR).view.read (Elt F) (resBuf d L fR acc) (ValueIdx.ix1 p) = acc.2.2.2.2.2.2.1 (ValueIdx.ix1 l) := by
  have hl := l.isLt
  unfold resBuf
  rw [word_miss _ _ 240 inb_S256_S16_240 _ _ p (by omega)]
  rw [word_miss _ _ 112 inb_S256_S16_112 _ _ p (by omega)]
  rw [word_miss _ _ 224 inb_S256_S16_224 _ _ p (by omega)]
  exact word_hit _ _ 96 inb_S256_S16_96 _ _ l p hp

/-- Word `208 + l` of the result scratch is lane `l` of the value stored at words `208 …`: the later stores are elsewhere. -/
theorem resBuf_at_208 (d : Dev nD) (L : grid1.Coords) (fR : Buf (Elt F) ((sR).view.loc (V d (cV L) (jV L)))) (acc : T16 F)
    (l : Fin 16) (p : Fin 256) (hp : 208 + l.val = p.val) :
    (sR).view.read (Elt F) (resBuf d L fR acc) (ValueIdx.ix1 p) = acc.2.2.2.2.2.2.2.2.2.2.2.2.2.1 (ValueIdx.ix1 l) := by
  have hl := l.isLt
  unfold resBuf
  rw [word_miss _ _ 240 inb_S256_S16_240 _ _ p (by omega)]
  rw [word_miss _ _ 112 inb_S256_S16_112 _ _ p (by omega)]
  rw [word_miss _ _ 224 inb_S256_S16_224 _ _ p (by omega)]
  rw [word_miss _ _ 96 inb_S256_S16_96 _ _ p (by omega)]
  exact word_hit _ _ 208 inb_S256_S16_208 _ _ l p hp

/-- Word `80 + l` of the result scratch is lane `l` of the value stored at words `80 …`: the later stores are elsewhere. -/
theorem resBuf_at_80 (d : Dev nD) (L : grid1.Coords) (fR : Buf (Elt F) ((sR).view.loc (V d (cV L) (jV L)))) (acc : T16 F)
    (l : Fin 16) (p : Fin 256) (hp : 80 + l.val = p.val) :
    (sR).view.read (Elt F) (resBuf d L fR acc) (ValueIdx.ix1 p) = acc.2.2.2.2.2.1 (ValueIdx.ix1 l) := by
  have hl := l.isLt
  unfold resBuf
  rw [word_miss _ _ 240 inb_S256_S16_240 _ _ p (by omega)]
  rw [word_miss _ _ 112 inb_S256_S16_112 _ _ p (by omega)]
  rw [word_miss _ _ 224 inb_S256_S16_224 _ _ p (by omega)]
  rw [word_miss _ _ 96 inb_S256_S16_96 _ _ p (by omega)]
  rw [word_miss _ _ 208 inb_S256_S16_208 _ _ p (by omega)]
  exact word_hit _ _ 80 inb_S256_S16_80 _ _ l p hp

/-- Word `192 + l` of the result scratch is lane `l` of the value stored at words `192 …`: the later stores are elsewhere. -/
theorem resBuf_at_192 (d : Dev nD) (L : grid1.Coords) (fR : Buf (Elt F) ((sR).view.loc (V d (cV L) (jV L)))) (acc : T16 F)
    (l : Fin 16) (p : Fin 256) (hp : 192 + l.val = p.val) :
    (sR).view.read (Elt F) (resBuf d L fR acc) (ValueIdx.ix1 p) = acc.2.2.2.2.2.2.2.2.2.2.2.2.1 (ValueIdx.ix1 l) := by
  have hl := l.isLt
  unfold resBuf
  rw [word_miss _ _ 240 inb_S256_S16_240 _ _ p (by omega)]
  rw [word_miss _ _ 112 inb_S256_S16_112 _ _ p (by omega)]
  rw [word_miss _ _ 224 inb_S256_S16_224 _ _ p (by omega)]
  rw [word_miss _ _ 96 inb_S256_S16_96 _ _ p (by omega)]
  rw [word_miss _ _ 208 inb_S256_S16_208 _ _ p (by omega)]
  rw [word_miss _ _ 80 inb_S256_S16_80 _ _ p (by omega)]
  exact word_hit _ _ 192 inb_S256_S16_192 _ _ l p hp

/-- Word `64 + l` of the result scratch is lane `l` of the value stored at words `64 …`: the later stores are elsewhere. -/
theorem resBuf_at_64 (d : Dev nD) (L : grid1.Coords) (fR : Buf (Elt F) ((sR).view.loc (V d (cV L) (jV L)))) (acc : T16 F)
    (l : Fin 16) (p : Fin 256) (hp : 64 + l.val = p.val) :
    (sR).view.read (Elt F) (resBuf d L fR acc) (ValueIdx.ix1 p) = acc.2.2.2.2.1 (ValueIdx.ix1 l) := by
  have hl := l.isLt
  unfold resBuf
  rw [word_miss _ _ 240 inb_S256_S16_240 _ _ p (by omega)]
  rw [word_miss _ _ 112 inb_S256_S16_112 _ _ p (by omega)]
  rw [word_miss _ _ 224 inb_S256_S16_224 _ _ p (by omega)]
  rw [word_miss _ _ 96 inb_S256_S16_96 _ _ p (by omega)]
  rw [word_miss _ _ 208 inb_S256_S16_208 _ _ p (by omega)]
  rw [word_miss _ _ 80 inb_S256_S16_80 _ _ p (by omega)]
  rw [word_miss _ _ 192 inb_S256_S16_192 _ _ p (by omega)]
  exact word_hit _ _ 64 inb_S256_S16_64 _ _ l p hp

/-- Word `176 + l` of the result scratch is lane `l` of the value stored at words `176 …`: the later stores are elsewhere. -/
theorem resBuf_at_176 (d : Dev nD) (L : grid1.Coords) (fR : Buf (Elt F) ((sR).view.loc (V d (cV L) (jV L)))) (acc : T16 F)
    (l : Fin 16) (p : Fin 256) (hp : 176 + l.val = p.val) :
    (sR).view.read (Elt F) (resBuf d L fR acc) (ValueIdx.ix1 p) = acc.2.2.2.2.2.2.2.2.2.2.2.1 (ValueIdx.ix1 l) := by
  have hl := l.isLt
  unfold resBuf
  rw [word_miss _ _ 240 inb_S256_S16_240 _ _ p (by omega)]
  rw [word_miss _ _ 112 inb_S256_S16_112 _ _ p (by omega)]
  rw [word_miss _ _ 224 inb_S256_S16_224 _ _ p (by omega)]
  rw [word_miss _ _ 96 inb_S256_S16_96 _ _ p (by omega)]
  rw [word_miss _ _ 208 inb_S256_S16_208 _ _ p (by omega)]
  rw [word_miss _ _ 80 inb_S256_S16_80 _ _ p (by omega)]
  rw [word_miss _ _ 192 inb_S256_S16_192 _ _ p (by omega)]
  rw [word_miss _ _ 64 inb_S256_S16_64 _ _ p (by omega)]
  exact word_hit _ _ 176 inb_S256_S16_176 _ _ l p hp

/-- Word `48 + l` of the result scratch is lane `l` of the value stored at words `48 …`: the later stores are elsewhere. -/
theorem resBuf_at_48 (d : Dev nD) (L : grid1.Coords) (fR : Buf (Elt F) ((sR).view.loc (V d (cV L) (jV L)))) (acc : T16 F)
    (l : Fin 16) (p : Fin 256) (hp : 48 + l.val = p.val) :
    (sR).view.read (Elt F) (resBuf d L fR acc) (ValueIdx.ix1 p) = acc.2.2.2.1 (ValueIdx.ix1 l) := by
  have hl := l.isLt
  unfold resBuf
  rw [word_miss _ _ 240 inb_S256_S16_240 _ _ p (by omega)]
  rw [word_miss _ _ 112 inb_S256_S16_112 _ _ p (by omega)]
  rw [word_miss _ _ 224 inb_S256_S16_224 _ _ p (by omega)]
  rw [word_miss _ _ 96 inb_S256_S16_96 _ _ p (by omega)]
  rw [word_miss _ _ 208 inb_S256_S16_208 _ _ p (by omega)]
  rw [word_miss _ _ 80 inb_S256_S16_80 _ _ p (by omega)]
  rw [word_miss _ _ 192 inb_S256_S16_192 _ _ p (by omega)]
  rw [word_miss _ _ 64 inb_S256_S16_64 _ _ p (by omega)]
  rw [word_miss _ _ 176 inb_S256_S16_176 _ _ p (by omega)]
  exact word_hit _ _ 48 inb_S256_S16_48 _ _ l p hp

/-- Word `160 + l` of the result scratch is lane `l` of the value stored at words `160 …`: the later stores are elsewhere. -/
theorem resBuf_at_160 (d : Dev nD) (L : grid1.Coords) (fR : Buf (Elt F) ((sR).view.loc (V d (cV L) (jV L)))) (acc : T16 F)
    (l : Fin 16) (p : Fin 256) (hp : 160 + l.val = p.val) :
    (sR).view.read (Elt F) (resBuf d L fR acc) (ValueIdx.ix1 p) = acc.2.2.2.2.2.2.2.2.2.2.1 (ValueIdx.ix1 l) := by
  have hl := l.isLt
  unfold resBuf
  rw [word_miss _ _ 240 inb_S256_S16_240 _ _ p (by omega)]
  rw [word_miss _ _ 112 inb_S256_S16_112 _ _ p (by omega)]
  rw [word_miss _ _ 224 inb_S256_S16_224 _ _ p (by omega)]
  rw [word_miss _ _ 96 inb_S256_S16_96 _ _ p (by omega)]
  rw [word_miss _ _ 208 inb_S256_S16_208 _ _ p (by omega)]
  rw [word_miss _ _ 80 inb_S256_S16_80 _ _ p (by omega)]
  rw [word_miss _ _ 192 inb_S256_S16_192 _ _ p (by omega)]
  rw [word_miss _ _ 64 inb_S256_S16_64 _ _ p (by omega)]
  rw [word_miss _ _ 176 inb_S256_S16_176 _ _ p (by omega)]
  rw [word_miss _ _ 48 inb_S256_S16_48 _ _ p (by omega)]
  exact word_hit _ _ 160 inb_S256_S16_160 _ _ l p hp

/-- Word `32 + l` of the result scratch is lane `l` of the value stored at words `32 …`: the later stores are elsewhere. -/
theorem resBuf_at_32 (d : Dev nD) (L : grid1.Coords) (fR : Buf (Elt F) ((sR).view.loc (V d (cV L) (jV L)))) (acc : T16 F)
    (l : Fin 16) (p : Fin 256) (hp : 32 + l.val = p.val) :
    (sR).view.read (Elt F) (resBuf d L fR acc) (ValueIdx.ix1 p) = acc.2.2.1 (ValueIdx.ix1 l) := by
  have hl := l.isLt
  unfold resBuf
  rw [word_miss _ _ 240 inb_S256_S16_240 _ _ p (by omega)]
  rw [word_miss _ _ 112 inb_S256_S16_112 _ _ p (by omega)]
  rw [word_miss _ _ 224 inb_S256_S16_224 _ _ p (by omega)]
  rw [word_miss _ _ 96 inb_S256_S16_96 _ _ p (by omega)]
  rw [word_miss _ _ 208 inb_S256_S16_208 _ _ p (by omega)]
  rw [word_miss _ _ 80 inb_S256_S16_80 _ _ p (by omega)]
  rw [word_miss _ _ 192 inb_S256_S16_192 _ _ p (by omega)]
  rw [word_miss _ _ 64 inb_S256_S16_64 _ _ p (by omega)]
  rw [word_miss _ _ 176 inb_S256_S16_176 _ _ p (by omega)]
  rw [word_miss _ _ 48 inb_S256_S16_48 _ _ p (by omega)]
  rw [word_miss _ _ 160 inb_S256_S16_160 _ _ p (by omega)]
  exact word_hit _ _ 32 inb_S256_S16_32 _ _ l p hp

/-- Word `144 + l` of the result scratch is lane `l` of the value stored at words `144 …`: the later stores are elsewhere. -/
theorem resBuf_at_144 (d : Dev nD) (L : grid1.Coords) (fR : Buf (Elt F) ((sR).view.loc (V d (cV L) (jV L)))) (acc : T16 F)
    (l : Fin 16) (p : Fin 256) (hp : 144 + l.val = p.val) :
    (sR).view.read (Elt F) (resBuf d L fR acc) (ValueIdx.ix1 p) = acc.2.2.2.2.2.2.2.2.2.1 (ValueIdx.ix1 l) := by
  have hl := l.isLt
  unfold resBuf
  rw [word_miss _ _ 240 inb_S256_S16_240 _ _ p (by omega)]
  rw [word_miss _ _ 112 inb_S256_S16_112 _ _ p (by omega)]
  rw [word_miss _ _ 224 inb_S256_S16_224 _ _ p (by omega)]
  rw [word_miss _ _ 96 inb_S256_S16_96 _ _ p (by omega)]
  rw [word_miss _ _ 208 inb_S256_S16_208 _ _ p (by omega)]
  rw [word_miss _ _ 80 inb_S256_S16_80 _ _ p (by omega)]
  rw [word_miss _ _ 192 inb_S256_S16_192 _ _ p (by omega)]
  rw [word_miss _ _ 64 inb_S256_S16_64 _ _ p (by omega)]
  rw [word_miss _ _ 176 inb_S256_S16_176 _ _ p (by omega)]
  rw [word_miss _ _ 48 inb_S256_S16_48 _ _ p (by omega)]
  rw [word_miss _ _ 160 inb_S256_S16_160 _ _ p (by omega)]
  rw [word_miss _ _ 32 inb_S256_S16_32 _ _ p (by omega)]
  exact word_hit _ _ 144 inb_S256_S16_144 _ _ l p hp

/-- Word `16 + l` of the result scratch is lane `l` of the value stored at words `16 …`: the later stores are elsewhere. -/
theorem resBuf_at_16 (d : Dev nD) (L : grid1.Coords) (fR : Buf (Elt F) ((sR).view.loc (V d (cV L) (jV L)))) (acc : T16 F)
    (l : Fin 16) (p : Fin 256) (hp : 16 + l.val = p.val) :
    (sR).view.read (Elt F) (resBuf d L fR acc) (ValueIdx.ix1 p) = acc.2.1 (ValueIdx.ix1 l) := by
  have hl := l.isLt
  unfold resBuf
  rw [word_miss _ _ 240 inb_S256_S16_240 _ _ p (by omega)]
  rw [word_miss _ _ 112 inb_S256_S16_112 _ _ p (by omega)]
  rw [word_miss _ _ 224 inb_S256_S16_224 _ _ p (by omega)]
  rw [word_miss _ _ 96 inb_S256_S16_96 _ _ p (by omega)]
  rw [word_miss _ _ 208 inb_S256_S16_208 _ _ p (by omega)]
  rw [word_miss _ _ 80 inb_S256_S16_80 _ _ p (by omega)]
  rw [word_miss _ _ 192 inb_S256_S16_192 _ _ p (by omega)]
  rw [word_miss _ _ 64 inb_S256_S16_64 _ _ p (by omega)]
  rw [word_miss _ _ 176 inb_S256_S16_176 _ _ p (by omega)]
  rw [word_miss _ _ 48 inb_S256_S16_48 _ _ p (by omega)]
  rw [word_miss _ _ 160 inb_S256_S16_160 _ _ p (by omega)]
  rw [word_miss _ _ 32 inb_S256_S16_32 _ _ p (by omega)]
  rw [word_miss _ _ 144 inb_S256_S16_144 _ _ p (by omega)]
  exact word_hit _ _ 16 inb_S256_S16_16 _ _ l p hp

/-- Word `128 + l` of the result scratch is lane `l` of the value stored at words `128 …`: the later stores are elsewhere. -/
theorem resBuf_at_128 (d : Dev nD) (L : grid1.Coords) (fR : Buf (Elt F) ((sR).view.loc (V d (cV L) (jV L)))) (acc : T16 F)
    (l : Fin 16) (p : Fin 256) (hp : 128 + l.val = p.val) :
    (sR).view.read (Elt F) (resBuf d L fR acc) (ValueIdx.ix1 p) = acc.2.2.2.2.2.2.2.2.1 (ValueIdx.ix1 l) := by
  have hl := l.isLt
  unfold resBuf
  rw [word_miss _ _ 240 inb_S256_S16_240 _ _ p (by omega)]
  rw [word_miss _ _ 112 inb_S256_S16_112 _ _ p (by omega)]
  rw [word_miss _ _ 224 inb_S256_S16_224 _ _ p (by omega)]
  rw [word_miss _ _ 96 inb_S256_S16_96 _ _ p (by omega)]
  rw [word_miss _ _ 208 inb_S256_S16_208 _ _ p (by omega)]
  rw [word_miss _ _ 80 inb_S256_S16_80 _ _ p (by omega)]
  rw [word_miss _ _ 192 inb_S256_S16_192 _ _ p (by omega)]
  rw [word_miss _ _ 64 inb_S256_S16_64 _ _ p (by omega)]
  rw [word_miss _ _ 176 inb_S256_S16_176 _ _ p (by omega)]
  rw [word_miss _ _ 48 inb_S256_S16_48 _ _ p (by omega)]
  rw [word_miss _ _ 160 inb_S256_S16_160 _ _ p (by omega)]
  rw [word_miss _ _ 32 inb_S256_S16_32 _ _ p (by omega)]
  rw [word_miss _ _ 144 inb_S256_S16_144 _ _ p (by omega)]
  rw [word_miss _ _ 16 inb_S256_S16_16 _ _ p (by omega)]
  exact word_hit _ _ 128 inb_S256_S16_128 _ _ l p hp

/-- Word `0 + l` of the result scratch is lane `l` of the value stored at words `0 …`: the later stores are elsewhere. -/
theorem resBuf_at_0 (d : Dev nD) (L : grid1.Coords) (fR : Buf (Elt F) ((sR).view.loc (V d (cV L) (jV L)))) (acc : T16 F)
    (l : Fin 16) (p : Fin 256) (hp : 0 + l.val = p.val) :
    (sR).view.read (Elt F) (resBuf d L fR acc) (ValueIdx.ix1 p) = acc.1 (ValueIdx.ix1 l) := by
  have hl := l.isLt
  unfold resBuf
  rw [word_miss _ _ 240 inb_S256_S16_240 _ _ p (by omega)]
  rw [word_miss _ _ 112 inb_S256_S16_112 _ _ p (by omega)]
  rw [word_miss _ _ 224 inb_S256_S16_224 _ _ p (by omega)]
  rw [word_miss _ _ 96 inb_S256_S16_96 _ _ p (by omega)]
  rw [word_miss _ _ 208 inb_S256_S16_208 _ _ p (by omega)]
  rw [word_miss _ _ 80 inb_S256_S16_80 _ _ p (by omega)]
  rw [word_miss _ _ 192 inb_S256_S16_192 _ _ p (by omega)]
  rw [word_miss _ _ 64 inb_S256_S16_64 _ _ p (by omega)]
  rw [word_miss _ _ 176 inb_S256_S16_176 _ _ p (by omega)]
  rw [word_miss _ _ 48 inb_S256_S16_48 _ _ p (by omega)]
  rw [word_miss _ _ 160 inb_S256_S16_160 _ _ p (by omega)]
  rw [word_miss _ _ 32 inb_S256_S16_32 _ _ p (by omega)]
  rw [word_miss _ _ 144 inb_S256_S16_144 _ _ p (by omega)]
  rw [word_miss _ _ 16 inb_S256_S16_16 _ _ p (by omega)]
  rw [word_miss _ _ 128 inb_S256_S16_128 _ _ p (by omega)]
  exact word_hit _ _ 0 inb_S256_S16_0 _ _ l p hp

/-- Word `16 j + l` of the result scratch is lane `l` of running maximum `j`; -/
theorem resBuf_m (d : Dev nD) (L : grid1.Coords) (fR : Buf (Elt F) ((sR).view.loc (V d (cV L) (jV L)))) (acc : T16 F)
    (j : Fin 8) (l : Fin 16) (p : Fin 256) (hp : 16 * j.val + l.val = p.val) :
    (sR).view.read (Elt F) (resBuf d L fR acc) (ValueIdx.ix1 p) = acc.m j (ValueIdx.ix1 l) := by
  match j, hp with
  | ⟨0, _⟩, hp => exact resBuf_at_0 d L fR acc l p hp
  | ⟨1, _⟩, hp => exact resBuf_at_16 d L fR acc l p hp
  | ⟨2, _⟩, hp => exact resBuf_at_32 d L fR acc l p hp
  | ⟨3, _⟩, hp => exact resBuf_at_48 d L fR acc l p hp
  | ⟨4, _⟩, hp => exact resBuf_at_64 d L fR acc l p hp
  | ⟨5, _⟩, hp => exact resBuf_at_80 d L fR acc l p hp
  | ⟨6, _⟩, hp => exact resBuf_at_96 d L fR acc l p hp
  | ⟨7, _⟩, hp => exact resBuf_at_112 d L fR acc l p hp

/-- and word `128 + 16 j + l` is lane `l` of target value `j`. -/
theorem resBuf_tv (d : Dev nD) (L : grid1.Coords) (fR : Buf (Elt F) ((sR).view.loc (V d (cV L) (jV L)))) (acc : T16 F)
    (j : Fin 8) (l : Fin 16) (p : Fin 256) (hp : 128 + (16 * j.val + l.val) = p.val) :
    (sR).view.read (Elt F) (resBuf d L fR acc) (ValueIdx.ix1 p) = acc.tv j (ValueIdx.ix1 l) := by
  match j, hp with
  | ⟨0, _⟩, hp => exact resBuf_at_128 d L fR acc l p (by have h' : 128 + (16 * 0 + l.val) = p.val := hp; omega)
  | ⟨1, _⟩, hp => exact resBuf_at_144 d L fR acc l p (by have h' : 128 + (16 * 1 + l.val) = p.val := hp; omega)
  | ⟨2, _⟩, hp => exact resBuf_at_160 d L fR acc l p (by have h' : 128 + (16 * 2 + l.val) = p.val := hp; omega)
  | ⟨3, _⟩, hp => exact resBuf_at_176 d L fR acc l p (by have h' : 128 + (16 * 3 + l.val) = p.val := hp; omega)
  | ⟨4, _⟩, hp => exact resBuf_at_192 d L fR acc l p (by have h' : 128 + (16 * 4 + l.val) = p.val := hp; omega)
  | ⟨5, _⟩, hp => exact resBuf_at_208 d L fR acc l p (by have h' : 128 + (16 * 5 + l.val) = p.val := hp; omega)
  | ⟨6, _⟩, hp => exact resBuf_at_224 d L fR acc l p (by have h' : 128 + (16 * 6 + l.val) = p.val := hp; omega)
  | ⟨7, _⟩, hp => exact resBuf_at_240 d L fR acc l p (by have h' : 128 + (16 * 7 + l.val) = p.val := hp; omega)

/-! ## The pieces of the result arrays -/

/-- A [128] vector's index as the [1, 128] block's. -/
theorem reshape_row (h : S128.numel = S1x128.numel) (p : Fin 128) :
    Shape.reshapeEquiv h (ValueIdx.ix1 p : S128.Idx) = (ValueIdx.ix2 (0 : Fin 1) p : S1x128.Idx) :=
  Shape.reshapeEquiv_eq_of_rowMajor h (by
    rw [Shape.rowMajor_val_two, Shape.rowMajor_val_one]
    show 0 * 128 + p.val = p.val
    omega)

/-- Word `p` of the tile's piece of the first result array is the array's element at the piece's offset plus `(0, p)`. -/
theorem mPiece_emb (L : grid1.Coords) (p : Fin 128) (R : Fin 4) (C : Fin 1024)
    (hR : (k1_off48 L) 0 = R.val) (hC : (k1_off48 L) 1 + p.val = C.val) :
    (mPiece L).view.emb (ValueIdx.ix1 p) = ValueIdx.ix2 R C := by
  show (pieceRect L).emb (Shape.reshapeEquiv squeezes_S1x128_S128.numel_eq (ValueIdx.ix1 p : S128.Idx)) = ValueIdx.ix2 R C
  rw [reshape_row]
  funext a
  refine Fin.ext ?_
  match a with
  | ⟨0, _⟩ => show (k1_off48 L) 0 + 1 * 0 = R.val; omega
  | ⟨1, _⟩ => show (k1_off48 L) 1 + 1 * p.val = C.val; omega

/-- Likewise in the second result array. -/
theorem vPiece_emb (L : grid1.Coords) (p : Fin 128) (R : Fin 4) (C : Fin 1024)
    (hR : (k1_off48 L) 0 = R.val) (hC : (k1_off48 L) 1 + p.val = C.val) :
    (vPiece L).view.emb (ValueIdx.ix1 p) = ValueIdx.ix2 R C := by
  show (pieceRect L).emb (Shape.reshapeEquiv squeezes_S1x128_S128.numel_eq (ValueIdx.ix1 p : S128.Idx)) = ValueIdx.ix2 R C
  rw [reshape_row]
  funext a
  refine Fin.ext ?_
  match a with
  | ⟨0, _⟩ => show (k1_off48 L) 0 + 1 * 0 = R.val; omega
  | ⟨1, _⟩ => show (k1_off48 L) 1 + 1 * p.val = C.val; omega

/-- The first result piece after the copy out, at its word `16 j + l` (spelt through the piece's embedding). -/
theorem outM_emb (d : Dev nD) (L : grid1.Coords) (fm : Buf (Elt F) ((mPiece L).view.loc (V d (cV L) (jV L))))
    (fR : Buf (Elt F) ((sR).view.loc (V d (cV L) (jV L)))) (acc : T16 F) (j : Fin 8) (l : Fin 16) :
    outM d L fm fR acc ((mPiece L).view.emb (ValueIdx.ix1 (⟨16 * j.val + l.val, by omega⟩ : Fin 128))) = acc.m j (ValueIdx.ix1 l) := by
  unfold outM
  rw [View.writes_singleton]
  have he : (mPiece L).view.emb (ValueIdx.ix1 (⟨16 * j.val + l.val, by omega⟩ : Fin 128))
      = ((mPiece L).view.slice (Rect.whole S128)).emb (ValueIdx.ix1 (⟨16 * j.val + l.val, by omega⟩ : Fin 128)) := by
    rw [View.emb_slice]
    show _ = (mPiece L).view.emb ((Rect.whole S128).emb (ValueIdx.ix1 (⟨16 * j.val + l.val, by omega⟩ : Fin 128)))
    rw [Rect.emb_whole_apply]
  rw [he, View.write_emb_of_mem _ _ (Finset.mem_univ _), ReadAs.apply_same]
  have hr : View.read (Elt F) ((sR).slice (Rect.unit (s := S256) ![0] S128.size inb_S256_S128_0) (fun _ => rfl)).view (resBuf d L fR acc)
      (ValueIdx.ix1 (⟨16 * j.val + l.val, by omega⟩ : Fin 128)) = acc.m j (ValueIdx.ix1 l) := by
    show (sR).view.read (Elt F) (resBuf d L fR acc)
      ((Rect.unit (s := S256) ![0] S128.size inb_S256_S128_0).emb (ValueIdx.ix1 (⟨16 * j.val + l.val, by omega⟩ : Fin 128))) = _
    have hi : (Rect.unit (s := S256) ![0] S128.size inb_S256_S128_0).emb (ValueIdx.ix1 (⟨16 * j.val + l.val, by omega⟩ : Fin 128))
        = ValueIdx.ix1 (⟨16 * j.val + l.val, by omega⟩ : Fin 256) := by
      funext a
      refine Fin.ext ?_
      match a with
      | ⟨0, _⟩ => show 0 + 1 * (16 * j.val + l.val) = 16 * j.val + l.val; omega
    rw [hi]
    exact resBuf_m d L fR acc j l _ rfl
  rw [hr]
  exact cast_eq _ _

/-- The second result piece after the copy out, at its word `16 j + l`. -/
theorem outV_emb (d : Dev nD) (L : grid1.Coords) (fv : Buf (Elt F) ((vPiece L).view.loc (V d (cV L) (jV L))))
    (fR : Buf (Elt F) ((sR).view.loc (V d (cV L) (jV L)))) (acc : T16 F) (j : Fin 8) (l : Fin 16) :
    outV d L fv fR acc ((vPiece L).view.emb (ValueIdx.ix1 (⟨16 * j.val + l.val, by omega⟩ : Fin 128))) = acc.tv j (ValueIdx.ix1 l) := by
  unfold outV
  rw [View.writes_singleton]
  have he : (vPiece L).view.emb (ValueIdx.ix1 (⟨16 * j.val + l.val, by omega⟩ : Fin 128))
      = ((vPiece L).view.slice (Rect.whole S128)).emb (ValueIdx.ix1 (⟨16 * j.val + l.val, by omega⟩ : Fin 128)) := by
    rw [View.emb_slice]
    show _ = (vPiece L).view.emb ((Rect.whole S128).emb (ValueIdx.ix1 (⟨16 * j.val + l.val, by omega⟩ : Fin 128)))
    rw [Rect.emb_whole_apply]
  rw [he, View.write_emb_of_mem _ _ (Finset.mem_univ _), ReadAs.apply_same]
  have hr : View.read (Elt F) ((sR).slice (Rect.unit (s := S256) ![128] S128.size inb_S256_S128_128) (fun _ => rfl)).view (resBuf d L fR acc)
      (ValueIdx.ix1 (⟨16 * j.val + l.val, by omega⟩ : Fin 128)) = acc.tv j (ValueIdx.ix1 l) := by
    show (sR).view.read (Elt F) (resBuf d L fR acc)
      ((Rect.unit (s := S256) ![128] S128.size inb_S256_S128_128).emb (ValueIdx.ix1 (⟨16 * j.val + l.val, by omega⟩ : Fin 128))) = _
    have hi : (Rect.unit (s := S256) ![128] S128.size inb_S256_S128_128).emb (ValueIdx.ix1 (⟨16 * j.val + l.val, by omega⟩ : Fin 128))
        = ValueIdx.ix1 (⟨128 + (16 * j.val + l.val), by omega⟩ : Fin 256) := by
      funext a
      refine Fin.ext ?_
      match a with
      | ⟨0, _⟩ => show 128 + 1 * (16 * j.val + l.val) = 128 + (16 * j.val + l.val); omega
    rw [hi]
    exact resBuf_tv d L fR acc j l _ rfl
  rw [hr]
  exact cast_eq _ _

/-- THE FIRST RESULT PIECE AT AN ELEMENT OF THE ARRAY: lane `l` of running maximum `j` at row `R`, column `C`. -/
theorem outM_at (d : Dev nD) (L : grid1.Coords) (fm : Buf (Elt F) ((mPiece L).view.loc (V d (cV L) (jV L))))
    (fR : Buf (Elt F) ((sR).view.loc (V d (cV L) (jV L)))) (acc : T16 F) (j : Fin 8) (l : Fin 16) (R : Fin 4) (C : Fin 1024)
    (hR : (k1_off48 L) 0 = R.val) (hC : (k1_off48 L) 1 + 16 * j.val + l.val = C.val) :
    outM d L fm fR acc (ValueIdx.ix2 R C) = acc.m j (ValueIdx.ix1 l) := by
  rw [← mPiece_emb L (⟨16 * j.val + l.val, by omega⟩ : Fin 128) R C hR (by show (k1_off48 L) 1 + (16 * j.val + l.val) = C.val; omega)]
  exact outM_emb d L fm fR acc j l

/-- THE SECOND RESULT PIECE AT AN ELEMENT OF THE ARRAY: lane `l` of target value `j` at row `R`, column `C`. -/
theorem outV_at (d : Dev nD) (L : grid1.Coords) (fv : Buf (Elt F) ((vPiece L).view.loc (V d (cV L) (jV L))))
    (fR : Buf (Elt F) ((sR).view.loc (V d (cV L) (jV L)))) (acc : T16 F) (j : Fin 8) (l : Fin 16) (R : Fin 4) (C : Fin 1024)
    (hR : (k1_off48 L) 0 = R.val) (hC : (k1_off48 L) 1 + 16 * j.val + l.val = C.val) :
    outV d L fv fR acc (ValueIdx.ix2 R C) = acc.tv j (ValueIdx.ix1 l) := by
  rw [← vPiece_emb L (⟨16 * j.val + l.val, by omega⟩ : Fin 128) R C hR (by show (k1_off48 L) 1 + (16 * j.val + l.val) = C.val; omega)]
  exact outV_emb d L fv fR acc j l

end Cert.Proof.KernelIdealP

end
-- ==== Proof.TileIdealI.lean ====
/-
  The two properties of the value-carrying run, at the extended reals.

  "Slot holds chunk c": the slot's element at row `r`, column `col` is the table's at row `lo + 200·c + r`, column
  `cb + col` (`lo`, `cb`: the tile's first table row and first column). "n rows done": lane `l` of running maximum
  `j` is the maximum over the tile's rows `lo … lo + n` of column `cb + 16 j + l` leaving the target out, and lane `l`
  of target value `j` is the entry at the target if it lies in those rows, else −∞.
  The landings hold because a copy delivers the source rectangle's elements and every issue's rectangle sits at row
  `lo + 200·c`, column `cb` (decided over the 32 tiles and six trips); the row steps hold by the range suprema's
  one-more-row law, the row's number being the word `lo + n` (no 32-bit sum wraps) and the loads being the slot's
  row `v`, sixteen columns at a time.
-/
import proofs.«203171_g79482664779815_cont_9to1_m_1298_18_alg».proof.Proof.TileOblValI
import proofs.«203171_g79482664779815_cont_9to1_m_1298_18_alg».proof.Proof.TileValueI
import proofs.«203171_g79482664779815_cont_9to1_m_1298_18_alg».proof.Proof.TileViewI
import proofs.«203171_g79482664779815_cont_9to1_m_1298_18_alg».proof.Proof.TileOutI
import proofs.«203171_g79482664779815_cont_9to1_m_1298_18_alg».proof.Proof.VecSplitI

noncomputable section

namespace Cert.Proof.KernelIdealP

open Cert.KernelIdeal Cert.KernelIdeal.Gen
open Idealize.ShloMosaic
open Idealize.ShloMosaic.SparseCore (S V T)
open Idealize.SL Idealize.SL.Sem

local notation "xW" => (Memref.whole Cert.KernelIdeal.main_v0_scv : Memref Cert.KernelIdeal.sig Kind.scVector Space.hbm Cert.KernelIdeal.S100000x1024 EltTy.f32)
local notation "tW" => (Memref.whole Cert.KernelIdeal.main_arg1_scv : Memref Cert.KernelIdeal.sig Kind.scVector Space.hbm Cert.KernelIdeal.S1024 EltTy.i32)
local notation "sT" => (Memref.whole Cert.KernelIdeal.cc1_scratch0 : Memref Cert.KernelIdeal.sig Kind.scVector Space.vmem Cert.KernelIdeal.S128 EltTy.i32)

/-! ## The tile's rows and columns, and its words -/

/-- The tile's first table row and first column. -/
def lo (L : grid1.Coords) : ℕ := (k1_off2 L 0#32) 0
def cb (L : grid1.Coords) : ℕ := (k1_off2 L 0#32) 1

theorem lo_cb_bounds : ∀ L : grid1.Coords, (k1_off2 L 0#32) 0 + 5000 ≤ 100000 ∧ (k1_off2 L 0#32) 1 + 128 ≤ 1024 ∧ 80000 ≤ (k1_off2 L 0#32) 0 := by decide +kernel
theorem cb_le (L : grid1.Coords) : cb L + 128 ≤ 1024 := (lo_cb_bounds L).2.1
theorem lo_le (L : grid1.Coords) : lo L + 5000 ≤ 100000 := (lo_cb_bounds L).1
theorem off2_0 (L : grid1.Coords) : (k1_off2 L 0#32) 0 = lo L + 200 * (4 * 0 + 0) ∧ (k1_off2 L 0#32) 1 = cb L := ⟨rfl, rfl⟩
theorem off2_200 : ∀ L : grid1.Coords, (k1_off2 L 200#32) 0 = (k1_off2 L 0#32) 0 + 200 * (4 * 0 + 1) ∧ (k1_off2 L 200#32) 1 = (k1_off2 L 0#32) 1 := by decide +kernel
theorem off2_400 : ∀ L : grid1.Coords, (k1_off2 L 400#32) 0 = (k1_off2 L 0#32) 0 + 200 * (4 * 0 + 2) ∧ (k1_off2 L 400#32) 1 = (k1_off2 L 0#32) 1 := by decide +kernel
theorem off4_eq : ∀ (L : grid1.Coords) (k : Fin k1_t1_loop.trips), (k1_off4 L k) 0 = (k1_off2 L 0#32) 0 + 200 * (4 * k.val + 3) ∧ (k1_off4 L k) 1 = (k1_off2 L 0#32) 1 := by decide +kernel
theorem off13_eq : ∀ (L : grid1.Coords) (k : Fin k1_t1_loop.trips), (k1_off13 L k) 0 = (k1_off2 L 0#32) 0 + 200 * (4 * (k.val + 1) + 0) ∧ (k1_off13 L k) 1 = (k1_off2 L 0#32) 1 := by decide +kernel
theorem off22_eq : ∀ (L : grid1.Coords) (k : Fin k1_t1_loop.trips), k1_cond3 k = 1#1 → (k1_off22 L k) 0 = (k1_off2 L 0#32) 0 + 200 * (4 * (k.val + 1) + 1) ∧ (k1_off22 L k) 1 = (k1_off2 L 0#32) 1 := by decide +kernel
theorem off31_eq : ∀ (L : grid1.Coords) (k : Fin k1_t1_loop.trips), k1_cond4 k = 1#1 → (k1_off31 L k) 0 = (k1_off2 L 0#32) 0 + 200 * (4 * (k.val + 1) + 2) ∧ (k1_off31 L k) 1 = (k1_off2 L 0#32) 1 := by decide +kernel
theorem off1_eq : ∀ L : grid1.Coords, (k1_off1 L) 0 = (k1_off2 L 0#32) 1 := by decide +kernel
theorem off48_eq : ∀ L : grid1.Coords, (k1_off48 L) 1 = (k1_off2 L 0#32) 1 ∧ (k1_off2 L 0#32) 0 = 80000 + 5000 * (k1_off48 L) 0 ∧ (k1_off48 L) 0 < 4 := by decide +kernel

theorem v22w_eq : ∀ L : grid1.Coords, v22w L = BitVec.ofNat 32 ((k1_off2 L 0#32) 0) := by decide +kernel
theorem cwm0 : ∀ k : Fin k1_t1_loop.trips, Scalar.muli (cw k 0#32) 200#32 = BitVec.ofNat 32 (800 * k.val) := by decide
theorem cwm1 : ∀ k : Fin k1_t1_loop.trips, Scalar.muli (cw k 1#32) 200#32 = BitVec.ofNat 32 (800 * k.val + 200) := by decide
theorem cwm2 : ∀ k : Fin k1_t1_loop.trips, Scalar.muli (cw k 2#32) 200#32 = BitVec.ofNat 32 (800 * k.val + 400) := by decide
theorem cwm3 : ∀ k : Fin k1_t1_loop.trips, Scalar.muli (cw k 3#32) 200#32 = BitVec.ofNat 32 (800 * k.val + 600) := by decide
theorem iv_ofNat (n : ℕ) : Scf.iv (0#32) (1#32) n = BitVec.ofNat 32 n := by simp [Scf.iv]

/-- The row's number as the body computes it, inside the chunk loop: no sum wraps. -/
theorem vid_eq (L : grid1.Coords) (w : BitVec 32) (e n : ℕ) (hw : w = BitVec.ofNat 32 e) :
    Scalar.addi (Scalar.addi (v22w L) w) (Scf.iv 0#32 1#32 n) = BitVec.ofNat 32 (lo L + (e + n)) := by
  show v22w L + w + Scf.iv 0#32 1#32 n = _
  rw [v22w_eq, hw, iv_ofNat, ← BitVec.ofNat_add, ← BitVec.ofNat_add]
  congr 1
  unfold lo; omega

/-! ## The two properties -/

section Props

variable (m : (ℓ : Loc nD τ sig) → Buf (Elt Ideal) ℓ) (X : (d : Dev nD) → Buf (Elt Ideal) (xLoc d))
variable (d : Dev nD) (L : grid1.Coords)

/-- The scores as the specification reads them: row `b` of the score table is column `b` of the transposed one. -/
def xOf : Fin 1024 → Fin 100000 → EReal := fun b v => X d (ValueIdx.ix2 v b)
/-- The targets. -/
def tOf : Fin 1024 → BitVec 32 := fun b => m (tLoc d) (ValueIdx.ix1 b)

local notation "sB" => (Memref.whole Cert.KernelIdeal.cc1_scratch1 : Memref Cert.KernelIdeal.sig Kind.scVector Space.vmem Cert.KernelIdeal.S4x200x128 EltTy.f32)

/-- Slot number `k` holds chunk `c`. -/
def SHI (c : ℕ) (k : ℕ) (g : Buf (Elt Ideal) ((sB).view.loc (V d (cV L) (jV L)))) : Prop :=
  ∀ (h : ∀ a, (![k, 0, 0] : Fin 3 → Nat) a + S1x200x128.size a ≤ S4x200x128.size a)
    (r : Fin 200) (col : Fin 128) (R : Fin 100000) (C : Fin 1024), lo L + 200 * c + r.val = R.val → cb L + col.val = C.val →
    g ((slotK k h).view.emb (ValueIdx.ix2 r col)) = X d (ValueIdx.ix2 R C)

/-- `n` rows done. -/
def InvT (n : ℕ) (a : T16 Ideal) : Prop := InvI (xOf X d) (tOf m d) (lo L) (cb L) (cb_le L) n a

/-- A landed copy of the rectangle at row `lo + 200 c`, column `cb` is chunk `c`. -/
theorem landed_SH (k : Nat) (h : ∀ a, (![k, 0, 0] : Fin 3 → Nat) a + S1x200x128.size a ≤ S4x200x128.size a) (c : ℕ)
    (off : Fin 2 → Nat) (inb : ∀ a, off a + S200x128.size a ≤ S100000x1024.size a) (h0 : off 0 = lo L + 200 * c) (h1 : off 1 = cb L)
    (g : Buf (Elt Ideal) ((slotK k h).view.loc (V d (cV L) (jV L)))) :
    SHI X d L c k (landed d L (slotK k h) (X d) off inb g) := by
  intro h' r col R C hR hC
  exact landed_at k h off inb g (X d) r col R C (by omega) (by omega)

end Props

section Hyps

variable (m : (ℓ : Loc nD τ sig) → Buf (Elt Ideal) ℓ) (X : (d : Dev nD) → Buf (Elt Ideal) (xLoc d))
variable (d : Dev nD) (L : grid1.Coords)

/-- The eight target vectors are the tile's 128 target words, sixteen each. -/
theorem tg_ok (f6 : Buf (Elt Ideal) ((sT).view.loc (V d (cV L) (jV L)))) (j : Fin 8) (l : Fin 16) :
    tgv d L (m (tLoc d)) f6 j (ValueIdx.ix1 l) = tOf m d ⟨cb L + 16 * j.val + l.val, by have := cb_le L; have := j.isLt; have := l.isLt; omega⟩ := by
  have h1 := off1_eq L
  have hcb := cb_le L
  fin_cases j
  · exact tgt_read (k1_off1 L) (k1_off1_inb L) f6 (m (tLoc d)) ![0] inb_S128_S16_0 l ⟨cb L + 16 * 0 + l.val, by have := l.isLt; omega⟩ (by show (k1_off1 L) 0 + 0 + l.val = cb L + 16 * 0 + l.val; rw [h1]; unfold cb; omega)
  · exact tgt_read (k1_off1 L) (k1_off1_inb L) f6 (m (tLoc d)) ![16] inb_S128_S16_16 l ⟨cb L + 16 * 1 + l.val, by have := l.isLt; omega⟩ (by show (k1_off1 L) 0 + 16 + l.val = cb L + 16 * 1 + l.val; rw [h1]; unfold cb; omega)
  · exact tgt_read (k1_off1 L) (k1_off1_inb L) f6 (m (tLoc d)) ![32] inb_S128_S16_32 l ⟨cb L + 16 * 2 + l.val, by have := l.isLt; omega⟩ (by show (k1_off1 L) 0 + 32 + l.val = cb L + 16 * 2 + l.val; rw [h1]; unfold cb; omega)
  · exact tgt_read (k1_off1 L) (k1_off1_inb L) f6 (m (tLoc d)) ![48] inb_S128_S16_48 l ⟨cb L + 16 * 3 + l.val, by have := l.isLt; omega⟩ (by show (k1_off1 L) 0 + 48 + l.val = cb L + 16 * 3 + l.val; rw [h1]; unfold cb; omega)
  · exact tgt_read (k1_off1 L) (k1_off1_inb L) f6 (m (tLoc d)) ![64] inb_S128_S16_64 l ⟨cb L + 16 * 4 + l.val, by have := l.isLt; omega⟩ (by show (k1_off1 L) 0 + 64 + l.val = cb L + 16 * 4 + l.val; rw [h1]; unfold cb; omega)
  · exact tgt_read (k1_off1 L) (k1_off1_inb L) f6 (m (tLoc d)) ![80] inb_S128_S16_80 l ⟨cb L + 16 * 5 + l.val, by have := l.isLt; omega⟩ (by show (k1_off1 L) 0 + 80 + l.val = cb L + 16 * 5 + l.val; rw [h1]; unfold cb; omega)
  · exact tgt_read (k1_off1 L) (k1_off1_inb L) f6 (m (tLoc d)) ![96] inb_S128_S16_96 l ⟨cb L + 16 * 6 + l.val, by have := l.isLt; omega⟩ (by show (k1_off1 L) 0 + 96 + l.val = cb L + 16 * 6 + l.val; rw [h1]; unfold cb; omega)
  · exact tgt_read (k1_off1 L) (k1_off1_inb L) f6 (m (tLoc d)) ![112] inb_S128_S16_112 l ⟨cb L + 16 * 7 + l.val, by have := l.isLt; omega⟩ (by show (k1_off1 L) 0 + 112 + l.val = cb L + 16 * 7 + l.val; rw [h1]; unfold cb; omega)

/-- A load of sixteen columns of row `v` of a slot holding chunk `c` is the table's. -/
theorem ld_ok (k : ℕ) (h : ∀ a, (![k, 0, 0] : Fin 3 → Nat) a + S1x200x128.size a ≤ S4x200x128.size a) (c : ℕ)
    (g : Buf (Elt Ideal) ((slotK k h).view.loc (V d (cV L) (jV L)))) (hS : SHI X d L c k g)
    (off : Fin 2 → Nat) (inb : ∀ a, off a + S1x16.size a ≤ S200x128.size a) (v : Fin 200) (j : Fin 8) (l : Fin 16)
    (hv : off 0 = v.val) (hc : off 1 = 16 * j.val) (R : Fin 100000) (C : Fin 1024)
    (hR : lo L + (200 * c + v.val) = R.val) (hC : cb L + 16 * j.val + l.val = C.val) :
    View.readAt (Elt Ideal) (slotK k h).view (Rect.unit (s := S200x128) off S1x16.size inb).toLoadRect g (ValueIdx.ix2 (0 : Fin 1) l)
      = X d (ValueIdx.ix2 R C) := by
  rw [read_row k h off inb g l v ⟨16 * j.val + l.val, by have := j.isLt; have := l.isLt; omega⟩ hv (by simp only []; omega)]
  exact hS h v _ R C (by omega) (by simp only []; omega)

/-- The eight loads of inner loop 2 at trip `v` are the table's row `lo + 200 c + v`, sixteen columns each. -/
theorem ld2_ok (c : ℕ) (v : Fin k1_t2_loop.trips) (gg : Buf (Elt Ideal) (slot0.view.loc (V d (cV L) (jV L)))) (hS : SHI X d L c 0 gg)
    (hn : lo L + (200 * c + v.val) < 100000) (j : Fin 8) (l : Fin 16) :
    ld2 d L v gg j (ValueIdx.ix2 (0 : Fin 1) l)
      = xOf X d ⟨cb L + 16 * j.val + l.val, by have := cb_le L; have := j.isLt; have := l.isLt; omega⟩ ⟨lo L + (200 * c + v.val), hn⟩ := by
  have hv : v.val < 200 := lt_of_lt_of_eq v.isLt trips2
  have hcb := cb_le L
  fin_cases j
  · exact ld_ok X d L 0 _ c gg hS (k1_off5 v) (k1_off5_inb v) ⟨v.val, hv⟩ 0 l (by rw [k1_off5_eq]; rfl) (by rw [k1_off5_eq]; rfl) _ _ rfl rfl
  · exact ld_ok X d L 0 _ c gg hS (k1_off6 v) (k1_off6_inb v) ⟨v.val, hv⟩ 1 l (by rw [k1_off6_eq]; rfl) (by rw [k1_off6_eq]; rfl) _ _ rfl rfl
  · exact ld_ok X d L 0 _ c gg hS (k1_off7 v) (k1_off7_inb v) ⟨v.val, hv⟩ 2 l (by rw [k1_off7_eq]; rfl) (by rw [k1_off7_eq]; rfl) _ _ rfl rfl
  · exact ld_ok X d L 0 _ c gg hS (k1_off8 v) (k1_off8_inb v) ⟨v.val, hv⟩ 3 l (by rw [k1_off8_eq]; rfl) (by rw [k1_off8_eq]; rfl) _ _ rfl rfl
  · exact ld_ok X d L 0 _ c gg hS (k1_off9 v) (k1_off9_inb v) ⟨v.val, hv⟩ 4 l (by rw [k1_off9_eq]; rfl) (by rw [k1_off9_eq]; rfl) _ _ rfl rfl
  · exact ld_ok X d L 0 _ c gg hS (k1_off10 v) (k1_off10_inb v) ⟨v.val, hv⟩ 5 l (by rw [k1_off10_eq]; rfl) (by rw [k1_off10_eq]; rfl) _ _ rfl rfl
  · exact ld_ok X d L 0 _ c gg hS (k1_off11 v) (k1_off11_inb v) ⟨v.val, hv⟩ 6 l (by rw [k1_off11_eq]; rfl) (by rw [k1_off11_eq]; rfl) _ _ rfl rfl
  · exact ld_ok X d L 0 _ c gg hS (k1_off12 v) (k1_off12_inb v) ⟨v.val, hv⟩ 7 l (by rw [k1_off12_eq]; rfl) (by rw [k1_off12_eq]; rfl) _ _ rfl rfl

/-- The eight loads of inner loop 3 at trip `v` are the table's row `lo + 200 c + v`, sixteen columns each. -/
theorem ld3_ok (c : ℕ) (v : Fin k1_t3_loop.trips) (gg : Buf (Elt Ideal) (slot1.view.loc (V d (cV L) (jV L)))) (hS : SHI X d L c 1 gg)
    (hn : lo L + (200 * c + v.val) < 100000) (j : Fin 8) (l : Fin 16) :
    ld3 d L v gg j (ValueIdx.ix2 (0 : Fin 1) l)
      = xOf X d ⟨cb L + 16 * j.val + l.val, by have := cb_le L; have := j.isLt; have := l.isLt; omega⟩ ⟨lo L + (200 * c + v.val), hn⟩ := by
  have hv : v.val < 200 := lt_of_lt_of_eq v.isLt trips3
  have hcb := cb_le L
  fin_cases j
  · exact ld_ok X d L 1 _ c gg hS (k1_off14 v) (k1_off14_inb v) ⟨v.val, hv⟩ 0 l (by rw [k1_off14_eq]; rfl) (by rw [k1_off14_eq]; rfl) _ _ rfl rfl
  · exact ld_ok X d L 1 _ c gg hS (k1_off15 v) (k1_off15_inb v) ⟨v.val, hv⟩ 1 l (by rw [k1_off15_eq]; rfl) (by rw [k1_off15_eq]; rfl) _ _ rfl rfl
  · exact ld_ok X d L 1 _ c gg hS (k1_off16 v) (k1_off16_inb v) ⟨v.val, hv⟩ 2 l (by rw [k1_off16_eq]; rfl) (by rw [k1_off16_eq]; rfl) _ _ rfl rfl
  · exact ld_ok X d L 1 _ c gg hS (k1_off17 v) (k1_off17_inb v) ⟨v.val, hv⟩ 3 l (by rw [k1_off17_eq]; rfl) (by rw [k1_off17_eq]; rfl) _ _ rfl rfl
  · exact ld_ok X d L 1 _ c gg hS (k1_off18 v) (k1_off18_inb v) ⟨v.val, hv⟩ 4 l (by rw [k1_off18_eq]; rfl) (by rw [k1_off18_eq]; rfl) _ _ rfl rfl
  · exact ld_ok X d L 1 _ c gg hS (k1_off19 v) (k1_off19_inb v) ⟨v.val, hv⟩ 5 l (by rw [k1_off19_eq]; rfl) (by rw [k1_off19_eq]; rfl) _ _ rfl rfl
  · exact ld_ok X d L 1 _ c gg hS (k1_off20 v) (k1_off20_inb v) ⟨v.val, hv⟩ 6 l (by rw [k1_off20_eq]; rfl) (by rw [k1_off20_eq]; rfl) _ _ rfl rfl
  · exact ld_ok X d L 1 _ c gg hS (k1_off21 v) (k1_off21_inb v) ⟨v.val, hv⟩ 7 l (by rw [k1_off21_eq]; rfl) (by rw [k1_off21_eq]; rfl) _ _ rfl rfl

/-- The eight loads of inner loop 4 at trip `v` are the table's row `lo + 200 c + v`, sixteen columns each. -/
theorem ld4_ok (c : ℕ) (v : Fin k1_t4_loop.trips) (gg : Buf (Elt Ideal) (slot2.view.loc (V d (cV L) (jV L)))) (hS : SHI X d L c 2 gg)
    (hn : lo L + (200 * c + v.val) < 100000) (j : Fin 8) (l : Fin 16) :
    ld4 d L v gg j (ValueIdx.ix2 (0 : Fin 1) l)
      = xOf X d ⟨cb L + 16 * j.val + l.val, by have := cb_le L; have := j.isLt; have := l.isLt; omega⟩ ⟨lo L + (200 * c + v.val), hn⟩ := by
  have hv : v.val < 200 := lt_of_lt_of_eq v.isLt trips4
  have hcb := cb_le L
  fin_cases j
  · exact ld_ok X d L 2 _ c gg hS (k1_off23 v) (k1_off23_inb v) ⟨v.val, hv⟩ 0 l (by rw [k1_off23_eq]; rfl) (by rw [k1_off23_eq]; rfl) _ _ rfl rfl
  · exact ld_ok X d L 2 _ c gg hS (k1_off24 v) (k1_off24_inb v) ⟨v.val, hv⟩ 1 l (by rw [k1_off24_eq]; rfl) (by rw [k1_off24_eq]; rfl) _ _ rfl rfl
  · exact ld_ok X d L 2 _ c gg hS (k1_off25 v) (k1_off25_inb v) ⟨v.val, hv⟩ 2 l (by rw [k1_off25_eq]; rfl) (by rw [k1_off25_eq]; rfl) _ _ rfl rfl
  · exact ld_ok X d L 2 _ c gg hS (k1_off26 v) (k1_off26_inb v) ⟨v.val, hv⟩ 3 l (by rw [k1_off26_eq]; rfl) (by rw [k1_off26_eq]; rfl) _ _ rfl rfl
  · exact ld_ok X d L 2 _ c gg hS (k1_off27 v) (k1_off27_inb v) ⟨v.val, hv⟩ 4 l (by rw [k1_off27_eq]; rfl) (by rw [k1_off27_eq]; rfl) _ _ rfl rfl
  · exact ld_ok X d L 2 _ c gg hS (k1_off28 v) (k1_off28_inb v) ⟨v.val, hv⟩ 5 l (by rw [k1_off28_eq]; rfl) (by rw [k1_off28_eq]; rfl) _ _ rfl rfl
  · exact ld_ok X d L 2 _ c gg hS (k1_off29 v) (k1_off29_inb v) ⟨v.val, hv⟩ 6 l (by rw [k1_off29_eq]; rfl) (by rw [k1_off29_eq]; rfl) _ _ rfl rfl
  · exact ld_ok X d L 2 _ c gg hS (k1_off30 v) (k1_off30_inb v) ⟨v.val, hv⟩ 7 l (by rw [k1_off30_eq]; rfl) (by rw [k1_off30_eq]; rfl) _ _ rfl rfl

/-- The eight loads of inner loop 5 at trip `v` are the table's row `lo + 200 c + v`, sixteen columns each. -/
theorem ld5_ok (c : ℕ) (v : Fin k1_t5_loop.trips) (gg : Buf (Elt Ideal) (slot3.view.loc (V d (cV L) (jV L)))) (hS : SHI X d L c 3 gg)
    (hn : lo L + (200 * c + v.val) < 100000) (j : Fin 8) (l : Fin 16) :
    ld5 d L v gg j (ValueIdx.ix2 (0 : Fin 1) l)
      = xOf X d ⟨cb L + 16 * j.val + l.val, by have := cb_le L; have := j.isLt; have := l.isLt; omega⟩ ⟨lo L + (200 * c + v.val), hn⟩ := by
  have hv : v.val < 200 := lt_of_lt_of_eq v.isLt trips5
  have hcb := cb_le L
  fin_cases j
  · exact ld_ok X d L 3 _ c gg hS (k1_off32 v) (k1_off32_inb v) ⟨v.val, hv⟩ 0 l (by rw [k1_off32_eq]; rfl) (by rw [k1_off32_eq]; rfl) _ _ rfl rfl
  · exact ld_ok X d L 3 _ c gg hS (k1_off33 v) (k1_off33_inb v) ⟨v.val, hv⟩ 1 l (by rw [k1_off33_eq]; rfl) (by rw [k1_off33_eq]; rfl) _ _ rfl rfl
  · exact ld_ok X d L 3 _ c gg hS (k1_off34 v) (k1_off34_inb v) ⟨v.val, hv⟩ 2 l (by rw [k1_off34_eq]; rfl) (by rw [k1_off34_eq]; rfl) _ _ rfl rfl
  · exact ld_ok X d L 3 _ c gg hS (k1_off35 v) (k1_off35_inb v) ⟨v.val, hv⟩ 3 l (by rw [k1_off35_eq]; rfl) (by rw [k1_off35_eq]; rfl) _ _ rfl rfl
  · exact ld_ok X d L 3 _ c gg hS (k1_off36 v) (k1_off36_inb v) ⟨v.val, hv⟩ 4 l (by rw [k1_off36_eq]; rfl) (by rw [k1_off36_eq]; rfl) _ _ rfl rfl
  · exact ld_ok X d L 3 _ c gg hS (k1_off37 v) (k1_off37_inb v) ⟨v.val, hv⟩ 5 l (by rw [k1_off37_eq]; rfl) (by rw [k1_off37_eq]; rfl) _ _ rfl rfl
  · exact ld_ok X d L 3 _ c gg hS (k1_off38 v) (k1_off38_inb v) ⟨v.val, hv⟩ 6 l (by rw [k1_off38_eq]; rfl) (by rw [k1_off38_eq]; rfl) _ _ rfl rfl
  · exact ld_ok X d L 3 _ c gg hS (k1_off39 v) (k1_off39_inb v) ⟨v.val, hv⟩ 7 l (by rw [k1_off39_eq]; rfl) (by rw [k1_off39_eq]; rfl) _ _ rfl rfl

/-- The eight loads of inner loop 6 at trip `v` are the table's row `lo + 200 c + v`, sixteen columns each. -/
theorem ld6_ok (c : ℕ) (v : Fin k1_t6_loop.trips) (gg : Buf (Elt Ideal) (slot0.view.loc (V d (cV L) (jV L)))) (hS : SHI X d L c 0 gg)
    (hn : lo L + (200 * c + v.val) < 100000) (j : Fin 8) (l : Fin 16) :
    ld6 d L v gg j (ValueIdx.ix2 (0 : Fin 1) l)
      = xOf X d ⟨cb L + 16 * j.val + l.val, by have := cb_le L; have := j.isLt; have := l.isLt; omega⟩ ⟨lo L + (200 * c + v.val), hn⟩ := by
  have hv : v.val < 200 := lt_of_lt_of_eq v.isLt trips6
  have hcb := cb_le L
  fin_cases j
  · exact ld_ok X d L 0 _ c gg hS (k1_off40 v) (k1_off40_inb v) ⟨v.val, hv⟩ 0 l (by rw [k1_off40_eq]; rfl) (by rw [k1_off40_eq]; rfl) _ _ rfl rfl
  · exact ld_ok X d L 0 _ c gg hS (k1_off41 v) (k1_off41_inb v) ⟨v.val, hv⟩ 1 l (by rw [k1_off41_eq]; rfl) (by rw [k1_off41_eq]; rfl) _ _ rfl rfl
  · exact ld_ok X d L 0 _ c gg hS (k1_off42 v) (k1_off42_inb v) ⟨v.val, hv⟩ 2 l (by rw [k1_off42_eq]; rfl) (by rw [k1_off42_eq]; rfl) _ _ rfl rfl
  · exact ld_ok X d L 0 _ c gg hS (k1_off43 v) (k1_off43_inb v) ⟨v.val, hv⟩ 3 l (by rw [k1_off43_eq]; rfl) (by rw [k1_off43_eq]; rfl) _ _ rfl rfl
  · exact ld_ok X d L 0 _ c gg hS (k1_off44 v) (k1_off44_inb v) ⟨v.val, hv⟩ 4 l (by rw [k1_off44_eq]; rfl) (by rw [k1_off44_eq]; rfl) _ _ rfl rfl
  · exact ld_ok X d L 0 _ c gg hS (k1_off45 v) (k1_off45_inb v) ⟨v.val, hv⟩ 5 l (by rw [k1_off45_eq]; rfl) (by rw [k1_off45_eq]; rfl) _ _ rfl rfl
  · exact ld_ok X d L 0 _ c gg hS (k1_off46 v) (k1_off46_inb v) ⟨v.val, hv⟩ 6 l (by rw [k1_off46_eq]; rfl) (by rw [k1_off46_eq]; rfl) _ _ rfl rfl
  · exact ld_ok X d L 0 _ c gg hS (k1_off47 v) (k1_off47_inb v) ⟨v.val, hv⟩ 7 l (by rw [k1_off47_eq]; rfl) (by rw [k1_off47_eq]; rfl) _ _ rfl rfl

theorem tailw_eq : ∀ L : grid1.Coords, Scalar.addi (v22w L) 4800#32 = BitVec.ofNat 32 ((k1_off2 L 0#32) 0 + 4800) := by decide +kernel

/-- The row's number in the 25th chunk. -/
theorem vid_tail (n : ℕ) : Scalar.addi (Scalar.addi (v22w L) 4800#32) (Scf.iv 0#32 1#32 n) = BitVec.ofNat 32 (lo L + (4800 + n)) := by
  show Scalar.addi (v22w L) 4800#32 + Scf.iv 0#32 1#32 n = _
  rw [tailw_eq, iv_ofNat, ← BitVec.ofNat_add]
  congr 1
  unfold lo; omega

/-- The value-carrying run's hypotheses hold of the two properties. -/
theorem runHyps (f6 : Buf (Elt Ideal) ((sT).view.loc (V d (cV L) (jV L)))) :
    RunHyps d L (X d) (m (tLoc d)) f6 (SHI X d L) (InvT m X d L) where
  h0 := invI_zero _ _ _ _ _
  hl_p0 := fun g => landed_SH X d L 0 _ (4 * 0 + 0) _ _ (off2_0 L).1 (off2_0 L).2 g
  hl_p1 := fun g => landed_SH X d L 1 _ (4 * 0 + 1) _ _ (off2_200 L).1 (off2_200 L).2 g
  hl_p2 := fun g => landed_SH X d L 2 _ (4 * 0 + 2) _ _ (off2_400 L).1 (off2_400 L).2 g
  hl_3 := fun k h g => landed_SH X d L 3 _ (4 * k.val + 3) _ _ (off4_eq L k).1 (off4_eq L k).2 g
  hl_0 := fun k h g => landed_SH X d L 0 _ (4 * (k.val + 1) + 0) _ _ (off13_eq L k).1 (off13_eq L k).2 g
  hl_1 := fun k h g => landed_SH X d L 1 _ (4 * (k.val + 1) + 1) _ _ (off22_eq L k h).1 (off22_eq L k h).2 g
  hl_2 := fun k h g => landed_SH X d L 2 _ (4 * (k.val + 1) + 2) _ _ (off31_eq L k h).1 (off31_eq L k h).2 g
  hrow2 := fun k v gg a hS hI => by
    have hk : k.val < 6 := lt_of_lt_of_eq k.isLt trips1
    have hv : v.val < 200 := lt_of_lt_of_eq v.isLt trips2
    have hlo := lo_le L
    have hn : lo L + (800 * k.val + v.val) < 100000 := by omega
    have key := invI_step (xOf X d) (tOf m d) (lo L) (cb L) (cb_le L) (800 * k.val + v.val) hn (tgv d L (m (tLoc d)) f6) (ld2 d L v gg) a
      (tg_ok m d L f6) (fun j l => by
        have := ld2_ok X d L (4 * k.val + 0) v gg hS (by omega) j l
        rw [this]; try (congr 2; omega)) hI
    rw [vid_eq L _ (800 * k.val) v.val (cwm0 k)]
    exact key
  hrow3 := fun k v gg a hS hI => by
    have hk : k.val < 6 := lt_of_lt_of_eq k.isLt trips1
    have hv : v.val < 200 := lt_of_lt_of_eq v.isLt trips3
    have hlo := lo_le L
    have hn : lo L + (800 * k.val + 200 + v.val) < 100000 := by omega
    have key := invI_step (xOf X d) (tOf m d) (lo L) (cb L) (cb_le L) (800 * k.val + 200 + v.val) hn (tgv d L (m (tLoc d)) f6) (ld3 d L v gg) a
      (tg_ok m d L f6) (fun j l => by
        have := ld3_ok X d L (4 * k.val + 1) v gg hS (by omega) j l
        rw [this]; try (congr 2; omega)) hI
    rw [vid_eq L _ (800 * k.val + 200) v.val (cwm1 k)]
    exact key
  hrow4 := fun k v gg a hS hI => by
    have hk : k.val < 6 := lt_of_lt_of_eq k.isLt trips1
    have hv : v.val < 200 := lt_of_lt_of_eq v.isLt trips4
    have hlo := lo_le L
    have hn : lo L + (800 * k.val + 400 + v.val) < 100000 := by omega
    have key := invI_step (xOf X d) (tOf m d) (lo L) (cb L) (cb_le L) (800 * k.val + 400 + v.val) hn (tgv d L (m (tLoc d)) f6) (ld4 d L v gg) a
      (tg_ok m d L f6) (fun j l => by
        have := ld4_ok X d L (4 * k.val + 2) v gg hS (by omega) j l
        rw [this]; try (congr 2; omega)) hI
    rw [vid_eq L _ (800 * k.val + 400) v.val (cwm2 k)]
    exact key
  hrow5 := fun k v gg a hS hI => by
    have hk : k.val < 6 := lt_of_lt_of_eq k.isLt trips1
    have hv : v.val < 200 := lt_of_lt_of_eq v.isLt trips5
    have hlo := lo_le L
    have hn : lo L + (800 * k.val + 600 + v.val) < 100000 := by omega
    have key := invI_step (xOf X d) (tOf m d) (lo L) (cb L) (cb_le L) (800 * k.val + 600 + v.val) hn (tgv d L (m (tLoc d)) f6) (ld5 d L v gg) a
      (tg_ok m d L f6) (fun j l => by
        have := ld5_ok X d L (4 * k.val + 3) v gg hS (by omega) j l
        rw [this]; try (congr 2; omega)) hI
    rw [vid_eq L _ (800 * k.val + 600) v.val (cwm3 k)]
    exact key
  hrow6 := fun v gg a hS hI => by
    have hv : v.val < 200 := lt_of_lt_of_eq v.isLt trips6
    have hlo := lo_le L
    have hn : lo L + (4800 + v.val) < 100000 := by omega
    have key := invI_step (xOf X d) (tOf m d) (lo L) (cb L) (cb_le L) (4800 + v.val) hn (tgv d L (m (tLoc d)) f6) (ld6 d L v gg) a
      (tg_ok m d L f6) (fun j l => by
        have := ld6_ok X d L (24) v gg hS (by omega) j l
        rw [this]; try (congr 2; omega)) hI
    rw [vid_tail L v.val]
    exact key

end Hyps

section Out

variable (m : (ℓ : Loc nD τ sig) → Buf (Elt Ideal) ℓ) (X : (d : Dev nD) → Buf (Elt Ideal) (xLoc d))

/-- What a tile's piece of the first result array holds: lane by lane, the maximum over the tile's 5000 rows leaving the
    target out. -/
def GMI (d : Dev nD) (L : grid1.Coords) (f : Buf (Elt Ideal) (mLoc d)) : Prop :=
  ∀ (j : Fin 8) (l : Fin 16) (R : Fin 4) (C : Fin 1024), (k1_off48 L) 0 = R.val → (k1_off48 L) 1 + 16 * j.val + l.val = C.val →
    f (ValueIdx.ix2 R C) = Cert.Spec.maxOffOn (lo L) (lo L + 5000) (xOf X d) (tOf m d) C
/-- And of the second: the entry at the target if it lies in the tile's rows, else −∞. -/
def GVI (d : Dev nD) (L : grid1.Coords) (f : Buf (Elt Ideal) (vLoc d)) : Prop :=
  ∀ (j : Fin 8) (l : Fin 16) (R : Fin 4) (C : Fin 1024), (k1_off48 L) 0 = R.val → (k1_off48 L) 1 + 16 * j.val + l.val = C.val →
    f (ValueIdx.ix2 R C) = Cert.Spec.atTargetOn (lo L) (lo L + 5000) (xOf X d) (tOf m d) C

theorem mem_piece (L : grid1.Coords) (j : Fin 8) (l : Fin 16) (R : Fin 4) (C : Fin 1024)
    (hR : (k1_off48 L) 0 = R.val) (hC : (k1_off48 L) 1 + 16 * j.val + l.val = C.val) : ValueIdx.ix2 R C ∈ (pieceRect L).set := by
  rw [Rect.mem_set_unit]
  have := j.isLt; have := l.isLt
  intro a
  fin_cases a
  · show (k1_off48 L) 0 ≤ R.val ∧ R.val < (k1_off48 L) 0 + 1; omega
  · show (k1_off48 L) 1 ≤ C.val ∧ C.val < (k1_off48 L) 1 + 128; omega

/-- Both properties read only the tile's own piece. -/
theorem GMI_congr : ∀ d L (f f' : Buf (Elt Ideal) (mLoc d)), (∀ i ∈ mSet L, f i = f' i) → GMI m X d L f → GMI m X d L f' := by
  intro d L f f' hff h j l R C hR hC
  rw [← hff (ValueIdx.ix2 R C) (by rw [mSet_eq]; exact mem_piece L j l R C hR hC)]
  exact h j l R C hR hC
theorem GVI_congr : ∀ d L (f f' : Buf (Elt Ideal) (vLoc d)), (∀ i ∈ vSet L, f i = f' i) → GVI m X d L f → GVI m X d L f' := by
  intro d L f f' hff h j l R C hR hC
  rw [← hff (ValueIdx.ix2 R C) (by rw [vSet_eq]; exact mem_piece L j l R C hR hC)]
  exact h j l R C hR hC

/-- The tile's body obligation at the extended reals, its two pieces holding the range suprema. -/
theorem tileObl_ideal : (K (F := Ideal)).TileObl (D (F := Ideal)) 𝒱 (P m X (GMI m X) (GVI m X)) v₀ 0 :=
  tileObl_val m X (GMI m X) (GVI m X) (SHI X) (InvT m X) (fun d L f6 => runHyps m X d L f6)
    (fun d L acc fm fR hacc j l R C hR hC => by
      rw [outM_at d L fm fR acc j l R C hR hC, (hacc j l).1]
      congr 1
      exact Fin.ext (by have := (off48_eq L).1; simp only []; unfold cb; omega))
    (fun d L acc fv fR hacc j l R C hR hC => by
      rw [outV_at d L fv fR acc j l R C hR hC, (hacc j l).2]
      congr 1
      exact Fin.ext (by have := (off48_eq L).1; simp only []; unfold cb; omega))

end Out

end Cert.Proof.KernelIdealP

end
-- ==== Proof.AlgebraicFinalI.lean ====
/-
  The algebraic claim: the kernel's run with the tiles' value properties, read through the range algebra.
-/
import proofs.«203171_g79482664779815_cont_9to1_m_1298_18_alg».proof.Proof.AlgebraicI
import proofs.«203171_g79482664779815_cont_9to1_m_1298_18_alg».proof.Proof.TileIdealI
import proofs.«203171_g79482664779815_cont_9to1_m_1298_18_alg».proof.Proof.VecSplitI

noncomputable section

namespace Cert.Proof.KernelIdealP

open Cert.KernelIdeal Cert.KernelIdeal.Gen
open Idealize.ShloMosaic Idealize.ShloMosaic.TcCoe
open Idealize.SL Idealize.SL.Sem

theorem algebraic : Cert.algebraic_KernelIdeal_ReferenceIdeal :=
  algebraic_of (fun m d => GMI m (X m) d) (fun m d => GVI m (X m) d) lo (fun L => (off48_eq L).2.1)
    (fun m d => xOf (X m) d) (fun m d => tOf m d)
    (fun m d => funext fun b => funext fun v => X_apply m d v b) (fun _ _ => rfl)
    (fun _ _ _ _ h => h) (fun _ _ _ _ h => h)
    (fun m ρ => run_main (F := Ideal) m ρ (GMI m (X m)) (GVI m (X m)) (GMI_congr m (X m)) (GVI_congr m (X m))
      (tileObl_ideal m (X m)) (vecSplit m (X m) _ _ (GMI_congr m (X m)) (GVI_congr m (X m))))

end Cert.Proof.KernelIdealP

end
-- ==== Proof.lean ====
/-
  The certificate: a margin kernel split between the TensorCore and the SparseCores, against its one-line reference.

  For scores `x` (1024 rows of 100000 columns) and a target column `t b` per row, both programs return, per row `b`,

      max over the columns v ≠ t b of x b v   −   x b (t b).

  The reference overwrites the target entry with −∞, takes the row maximum, gathers the target entry, subtracts and
  negates. The kernel walks the TRANSPOSED table: the TensorCore takes the first 80000 vocabulary rows in forty blocks
  of 2000, keeping per column a running maximum that leaves the target's row out and a running maximum of the target's
  row alone; thirty-two SparseCore tiles take the last 20000 rows, a quarter of the rows and a block of 128 columns
  each, 200 rows at a time through a ring of four buffers; the host joins the two partial results by `max` and
  subtracts. On the extended reals `max` over a union of row ranges is the `max` of the ranges' maxima, an excluded
  entry contributes ⊥, and the masked maximum of the target's row is the entry there — so the two sides are the same
  expression, and the reference's `−(a − M)` is `M − a` because the target entry `a` is finite.

  The three frames: every program runs to the end and leaves its arguments as they were (the kernel's as the launch of
  its TensorCore and SparseCore threads; the reference's as its run with the result dropped). The idealization claim is
  trivial (nothing was rewritten). The algebraic claim is assembled from: the reference read at an index (RefValue over
  LibPointScatter); the TensorCore region's two accumulator rows as range maxima (RegionValueI); each tile's two pieces
  as range maxima (TileIdealI over the value-carrying run, TileRunValI); and the host tail of the partial maxima
  (TailValueI over SpecParts).
-/
import proofs.«203171_g79482664779815_cont_9to1_m_1298_18_alg».proof.Defs
import proofs.«203171_g79482664779815_cont_9to1_m_1298_18_alg».proof.Proof.Gen.Kernel
import proofs.«203171_g79482664779815_cont_9to1_m_1298_18_alg».proof.Proof.Gen.KernelIdeal
import proofs.«203171_g79482664779815_cont_9to1_m_1298_18_alg».proof.Proof.Gen.ReferenceIdeal
import proofs.«203171_g79482664779815_cont_9to1_m_1298_18_alg».proof.Proof.Gen.Pre_input_domain
import proofs.«203171_g79482664779815_cont_9to1_m_1298_18_alg».proof.Proof.FramesAll
import proofs.«203171_g79482664779815_cont_9to1_m_1298_18_alg».proof.Proof.AlgebraicFinalI

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_input_domain.Gen.facts,
  Cert.Proof.Frames.frame_k, Cert.Proof.Frames.frame_ki, Cert.Proof.Frames.frame_ri, trivial, Cert.Proof.KernelIdealP.algebraic⟩

end Cert.Proof

end
